-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x256 .f32) (main_arg3 : FVec F S256 .f32) (main_arg4 : FVec F S256x47 .f32) (main_arg5 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg4
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x47 : Shape := ⟨2, ![256, 47]⟩
abbrev S47 : Shape := ⟨1, ![47]⟩
abbrev S1x256 : Shape := ⟨2, ![1, 256]⟩
abbrev S1x47 : Shape := ⟨2, ![1, 47]⟩
abbrev S100000x47 : Shape := ⟨2, ![100000, 47]⟩
abbrev S5000x128 : Shape := ⟨2, ![5000, 128]⟩
abbrev S5000x47 : Shape := ⟨2, ![5000, 47]⟩
abbrev S5000x256 : Shape := ⟨2, ![5000, 256]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x47 : Shape := ⟨2, ![1600000, 47]⟩
abbrev S5000x1 : Shape := ⟨2, ![5000, 1]⟩
abbrev S5000 : Shape := ⟨1, ![5000]⟩

abbrev nBuf : Space → Nat
  | .hbm => 215
  | .vmem => 112
  | .smem => 0
  | _ => 0

abbrev hbmTy0_0 (i : Nat) : BufTy := match i % 128 with
  | 0 => ⟨S100000x128, .f32⟩
  | 1 => ⟨S2x1600000, .i32⟩
  | 2 => ⟨S128x256, .f32⟩
  | 3 => ⟨S256, .f32⟩
  | 4 => ⟨S256x47, .f32⟩
  | 5 => ⟨S47, .f32⟩
  | 6 => ⟨S1x256, .f32⟩
  | 7 => ⟨S1x47, .f32⟩
  | 8 => ⟨S100000x47, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S100000, .f32⟩
  | 43 => ⟨S100000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x47, .f32⟩
  | 53 => ⟨S1600000x1, .f32⟩
  | 54 => ⟨S1600000x47, .f32⟩
  | 55 => ⟨S1600000x47, .f32⟩
  | 56 => ⟨S_, .f32⟩
  | 57 => ⟨S100000x47, .f32⟩
  | 58 => ⟨S1600000x1, .i32⟩
  | 59 => ⟨S100000x47, .f32⟩
  | 60 => ⟨S100000x47, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x47, .f32⟩
  | 70 => ⟨S1600000x1, .f32⟩
  | 71 => ⟨S1600000x47, .f32⟩
  | 72 => ⟨S1600000x47, .f32⟩
  | 73 => ⟨S_, .f32⟩
  | 74 => ⟨S100000x47, .f32⟩
  | 75 => ⟨S1600000x1, .i32⟩
  | 76 => ⟨S100000x47, .f32⟩
  | 77 => ⟨S100000x47, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x47, .f32⟩
  | 87 => ⟨S1600000x1, .f32⟩
  | 88 => ⟨S1600000x47, .f32⟩
  | 89 => ⟨S1600000x47, .f32⟩
  | 90 => ⟨S_, .f32⟩
  | 91 => ⟨S100000x47, .f32⟩
  | 92 => ⟨S1600000x1, .i32⟩
  | 93 => ⟨S100000x47, .f32⟩
  | 94 => ⟨S100000x47, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x47, .f32⟩
  | 104 => ⟨S1600000x1, .f32⟩
  | 105 => ⟨S1600000x47, .f32⟩
  | 106 => ⟨S1600000x47, .f32⟩
  | 107 => ⟨S_, .f32⟩
  | 108 => ⟨S100000x47, .f32⟩
  | 109 => ⟨S1600000x1, .i32⟩
  | 110 => ⟨S100000x47, .f32⟩
  | 111 => ⟨S100000x47, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x47, .f32⟩
  | 121 => ⟨S1600000x1, .f32⟩
  | 122 => ⟨S1600000x47, .f32⟩
  | 123 => ⟨S1600000x47, .f32⟩
  | 124 => ⟨S_, .f32⟩
  | 125 => ⟨S100000x47, .f32⟩
  | 126 => ⟨S1600000x1, .i32⟩
  | 127 => ⟨S100000x47, .f32⟩
  | _ => ⟨S100000x128, .f32⟩

abbrev hbmTy0_1 (i : Nat) : BufTy := match i % 128 with
  | 0 => ⟨S100000x47, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x47, .f32⟩
  | 10 => ⟨S1600000x1, .f32⟩
  | 11 => ⟨S1600000x47, .f32⟩
  | 12 => ⟨S1600000x47, .f32⟩
  | 13 => ⟨S_, .f32⟩
  | 14 => ⟨S100000x47, .f32⟩
  | 15 => ⟨S1600000x1, .i32⟩
  | 16 => ⟨S100000x47, .f32⟩
  | 17 => ⟨S100000x47, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x47, .f32⟩
  | 27 => ⟨S1600000x1, .f32⟩
  | 28 => ⟨S1600000x47, .f32⟩
  | 29 => ⟨S1600000x47, .f32⟩
  | 30 => ⟨S_, .f32⟩
  | 31 => ⟨S100000x47, .f32⟩
  | 32 => ⟨S1600000x1, .i32⟩
  | 33 => ⟨S100000x47, .f32⟩
  | 34 => ⟨S100000x47, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x47, .f32⟩
  | 44 => ⟨S1600000x1, .f32⟩
  | 45 => ⟨S1600000x47, .f32⟩
  | 46 => ⟨S1600000x47, .f32⟩
  | 47 => ⟨S_, .f32⟩
  | 48 => ⟨S100000x47, .f32⟩
  | 49 => ⟨S1600000x1, .i32⟩
  | 50 => ⟨S100000x47, .f32⟩
  | 51 => ⟨S100000x47, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x47, .f32⟩
  | 61 => ⟨S1600000x1, .f32⟩
  | 62 => ⟨S1600000x47, .f32⟩
  | 63 => ⟨S1600000x47, .f32⟩
  | 64 => ⟨S_, .f32⟩
  | 65 => ⟨S100000x47, .f32⟩
  | 66 => ⟨S1600000x1, .i32⟩
  | 67 => ⟨S100000x47, .f32⟩
  | 68 => ⟨S100000x47, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x47, .f32⟩
  | 78 => ⟨S1600000x1, .f32⟩
  | 79 => ⟨S1600000x47, .f32⟩
  | 80 => ⟨S1600000x47, .f32⟩
  | 81 => ⟨S_, .f32⟩
  | 82 => ⟨S100000x47, .f32⟩
  | 83 => ⟨S1600000x1, .i32⟩
  | 84 => ⟨S100000x47, .f32⟩
  | 85 => ⟨S100000x47, .f32⟩
  | 86 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x47, .f32⟩
  | .local _ .vmem, ⟨5, _⟩ => ⟨S1x47, .f32⟩
  | .local _ .vmem, ⟨6, _⟩ => ⟨S5000x47, .f32⟩
  | .local _ .vmem, ⟨7, _⟩ => ⟨S5000x47, .f32⟩
  | .local _ .vmem, ⟨8, _⟩ => ⟨S5000x47, .f32⟩
  | .local _ .vmem, ⟨9, _⟩ => ⟨S5000x47, .f32⟩
  | .local _ .vmem, ⟨10, _⟩ => ⟨S5000x1, .f32⟩
  | .local _ .vmem, ⟨11, _⟩ => ⟨S5000x1, .f32⟩
  | .local _ .vmem, ⟨12, _⟩ => ⟨S5000x47, .f32⟩
  | .local _ .vmem, ⟨13, _⟩ => ⟨S5000x47, .f32⟩
  | .local _ .vmem, ⟨14, _⟩ => ⟨S5000x47, .f32⟩
  | .local _ .vmem, ⟨15, _⟩ => ⟨S5000x47, .f32⟩
  | .local _ .vmem, ⟨16, _⟩ => ⟨S5000x47, .f32⟩
  | .local _ .vmem, ⟨17, _⟩ => ⟨S5000x47, .f32⟩
  | .local _ .vmem, ⟨18, _⟩ => ⟨S5000x47, .f32⟩
  | .local _ .vmem, ⟨19, _⟩ => ⟨S5000x47, .f32⟩
  | .local _ .vmem, ⟨20, _⟩ => ⟨S5000x1, .f32⟩
  | .local _ .vmem, ⟨21, _⟩ => ⟨S5000x1, .f32⟩
  | .local _ .vmem, ⟨22, _⟩ => ⟨S5000x47, .f32⟩
  | .local _ .vmem, ⟨23, _⟩ => ⟨S5000x47, .f32⟩
  | .local _ .vmem, ⟨24, _⟩ => ⟨S5000x47, .f32⟩
  | .local _ .vmem, ⟨25, _⟩ => ⟨S5000x47, .f32⟩
  | .local _ .vmem, ⟨26, _⟩ => ⟨S5000x47, .f32⟩
  | .local _ .vmem, ⟨27, _⟩ => ⟨S5000x47, .f32⟩
  | .local _ .vmem, ⟨28, _⟩ => ⟨S5000x47, .f32⟩
  | .local _ .vmem, ⟨29, _⟩ => ⟨S5000x47, .f32⟩
  | .local _ .vmem, ⟨30, _⟩ => ⟨S5000x1, .f32⟩
  | .local _ .vmem, ⟨31, _⟩ => ⟨S5000x1, .f32⟩
  | .local _ .vmem, ⟨32, _⟩ => ⟨S5000x47, .f32⟩
  | .local _ .vmem, ⟨33, _⟩ => ⟨S5000x47, .f32⟩
  | .local _ .vmem, ⟨34, _⟩ => ⟨S5000x47, .f32⟩
  | .local _ .vmem, ⟨35, _⟩ => ⟨S5000x47, .f32⟩
  | .local _ .vmem, ⟨36, _⟩ => ⟨S5000x47, .f32⟩
  | .local _ .vmem, ⟨37, _⟩ => ⟨S5000x47, .f32⟩
  | .local _ .vmem, ⟨38, _⟩ => ⟨S5000x47, .f32⟩
  | .local _ .vmem, ⟨39, _⟩ => ⟨S5000x47, .f32⟩
  | .local _ .vmem, ⟨40, _⟩ => ⟨S5000x1, .f32⟩
  | .local _ .vmem, ⟨41, _⟩ => ⟨S5000x1, .f32⟩
  | .local _ .vmem, ⟨42, _⟩ => ⟨S5000x47, .f32⟩
  | .local _ .vmem, ⟨43, _⟩ => ⟨S5000x47, .f32⟩
  | .local _ .vmem, ⟨44, _⟩ => ⟨S5000x47, .f32⟩
  | .local _ .vmem, ⟨45, _⟩ => ⟨S5000x47, .f32⟩
  | .local _ .vmem, ⟨46, _⟩ => ⟨S5000x47, .f32⟩
  | .local _ .vmem, ⟨47, _⟩ => ⟨S5000x47, .f32⟩
  | .local _ .vmem, ⟨48, _⟩ => ⟨S5000x47, .f32⟩
  | .local _ .vmem, ⟨49, _⟩ => ⟨S5000x47, .f32⟩
  | .local _ .vmem, ⟨50, _⟩ => ⟨S5000x1, .f32⟩
  | .local _ .vmem, ⟨51, _⟩ => ⟨S5000x1, .f32⟩
  | .local _ .vmem, ⟨52, _⟩ => ⟨S5000x47, .f32⟩
  | .local _ .vmem, ⟨53, _⟩ => ⟨S5000x47, .f32⟩
  | .local _ .vmem, ⟨54, _⟩ => ⟨S5000x47, .f32⟩
  | .local _ .vmem, ⟨55, _⟩ => ⟨S5000x47, .f32⟩
  | .local _ .vmem, ⟨56, _⟩ => ⟨S5000x47, .f32⟩
  | .local _ .vmem, ⟨57, _⟩ => ⟨S5000x47, .f32⟩
  | .local _ .vmem, ⟨58, _⟩ => ⟨S5000x47, .f32⟩
  | .local _ .vmem, ⟨59, _⟩ => ⟨S5000x47, .f32⟩
  | .local _ .vmem, ⟨60, _⟩ => ⟨S5000x1, .f32⟩
  | .local _ .vmem, ⟨61, _⟩ => ⟨S5000x1, .f32⟩
  | .local _ .vmem, ⟨62, _⟩ => ⟨S5000x47, .f32⟩
  | .local _ .vmem, ⟨63, _⟩ => ⟨S5000x47, .f32⟩
  | .local _ .vmem, ⟨64, _⟩ => ⟨S5000x47, .f32⟩
  | .local _ .vmem, ⟨65, _⟩ => ⟨S5000x47, .f32⟩
  | .local _ .vmem, ⟨66, _⟩ => ⟨S5000x47, .f32⟩
  | .local _ .vmem, ⟨67, _⟩ => ⟨S5000x47, .f32⟩
  | .local _ .vmem, ⟨68, _⟩ => ⟨S5000x47, .f32⟩
  | .local _ .vmem, ⟨69, _⟩ => ⟨S5000x47, .f32⟩
  | .local _ .vmem, ⟨70, _⟩ => ⟨S5000x1, .f32⟩
  | .local _ .vmem, ⟨71, _⟩ => ⟨S5000x1, .f32⟩
  | .local _ .vmem, ⟨72, _⟩ => ⟨S5000x47, .f32⟩
  | .local _ .vmem, ⟨73, _⟩ => ⟨S5000x47, .f32⟩
  | .local _ .vmem, ⟨74, _⟩ => ⟨S5000x47, .f32⟩
  | .local _ .vmem, ⟨75, _⟩ => ⟨S5000x47, .f32⟩
  | .local _ .vmem, ⟨76, _⟩ => ⟨S5000x47, .f32⟩
  | .local _ .vmem, ⟨77, _⟩ => ⟨S5000x47, .f32⟩
  | .local _ .vmem, ⟨78, _⟩ => ⟨S5000x47, .f32⟩
  | .local _ .vmem, ⟨79, _⟩ => ⟨S5000x47, .f32⟩
  | .local _ .vmem, ⟨80, _⟩ => ⟨S5000x1, .f32⟩
  | .local _ .vmem, ⟨81, _⟩ => ⟨S5000x1, .f32⟩
  | .local _ .vmem, ⟨82, _⟩ => ⟨S5000x47, .f32⟩
  | .local _ .vmem, ⟨83, _⟩ => ⟨S5000x47, .f32⟩
  | .local _ .vmem, ⟨84, _⟩ => ⟨S5000x47, .f32⟩
  | .local _ .vmem, ⟨85, _⟩ => ⟨S5000x47, .f32⟩
  | .local _ .vmem, ⟨86, _⟩ => ⟨S5000x47, .f32⟩
  | .local _ .vmem, ⟨87, _⟩ => ⟨S5000x47, .f32⟩
  | .local _ .vmem, ⟨88, _⟩ => ⟨S5000x47, .f32⟩
  | .local _ .vmem, ⟨89, _⟩ => ⟨S5000x47, .f32⟩
  | .local _ .vmem, ⟨90, _⟩ => ⟨S5000x1, .f32⟩
  | .local _ .vmem, ⟨91, _⟩ => ⟨S5000x1, .f32⟩
  | .local _ .vmem, ⟨92, _⟩ => ⟨S5000x47, .f32⟩
  | .local _ .vmem, ⟨93, _⟩ => ⟨S5000x47, .f32⟩
  | .local _ .vmem, ⟨94, _⟩ => ⟨S5000x47, .f32⟩
  | .local _ .vmem, ⟨95, _⟩ => ⟨S5000x47, .f32⟩
  | .local _ .vmem, ⟨96, _⟩ => ⟨S5000x47, .f32⟩
  | .local _ .vmem, ⟨97, _⟩ => ⟨S5000x47, .f32⟩
  | .local _ .vmem, ⟨98, _⟩ => ⟨S5000x47, .f32⟩
  | .local _ .vmem, ⟨99, _⟩ => ⟨S5000x47, .f32⟩
  | .local _ .vmem, ⟨100, _⟩ => ⟨S5000x1, .f32⟩
  | .local _ .vmem, ⟨101, _⟩ => ⟨S5000x1, .f32⟩
  | .local _ .vmem, ⟨102, _⟩ => ⟨S5000x47, .f32⟩
  | .local _ .vmem, ⟨103, _⟩ => ⟨S5000x47, .f32⟩
  | .local _ .vmem, ⟨104, _⟩ => ⟨S5000x47, .f32⟩
  | .local _ .vmem, ⟨105, _⟩ => ⟨S5000x47, .f32⟩
  | .local _ .vmem, ⟨106, _⟩ => ⟨S5000x47, .f32⟩
  | .local _ .vmem, ⟨107, _⟩ => ⟨S5000x47, .f32⟩
  | .local _ .vmem, ⟨108, _⟩ => ⟨S5000x47, .f32⟩
  | .local _ .vmem, ⟨109, _⟩ => ⟨S5000x47, .f32⟩
  | .local _ .vmem, ⟨110, _⟩ => ⟨S5000x47, .f32⟩
  | .local _ .vmem, ⟨111, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_v73 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_17 : Ref sig .tc := ⟨.hbm, 112, rfl⟩
abbrev main_v87 : Ref sig .tc := ⟨.hbm, 113, rfl⟩
abbrev main_v88 : Ref sig .tc := ⟨.hbm, 114, rfl⟩
abbrev main_c_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_19 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_20 : Ref sig .tc := ⟨.hbm, 129, rfl⟩
abbrev main_v101 : Ref sig .tc := ⟨.hbm, 130, rfl⟩
abbrev main_v102 : Ref sig .tc := ⟨.hbm, 131, rfl⟩
abbrev main_c_21 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_22 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_23 : Ref sig .tc := ⟨.hbm, 146, rfl⟩
abbrev main_v115 : Ref sig .tc := ⟨.hbm, 147, rfl⟩
abbrev main_v116 : Ref sig .tc := ⟨.hbm, 148, rfl⟩
abbrev main_c_24 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_25 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_26 : Ref sig .tc := ⟨.hbm, 163, rfl⟩
abbrev main_v129 : Ref sig .tc := ⟨.hbm, 164, rfl⟩
abbrev main_v130 : Ref sig .tc := ⟨.hbm, 165, rfl⟩
abbrev main_c_27 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_28 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_c_29 : Ref sig .tc := ⟨.hbm, 180, rfl⟩
abbrev main_v143 : Ref sig .tc := ⟨.hbm, 181, rfl⟩
abbrev main_v144 : Ref sig .tc := ⟨.hbm, 182, rfl⟩
abbrev main_c_30 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_31 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_c_32 : Ref sig .tc := ⟨.hbm, 197, rfl⟩
abbrev main_v157 : Ref sig .tc := ⟨.hbm, 198, rfl⟩
abbrev main_v158 : Ref sig .tc := ⟨.hbm, 199, rfl⟩
abbrev main_c_33 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_34 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg4_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg2_1 : Ref sig .tc := ⟨.vmem, 73, rfl⟩
abbrev cc7_stg3_0 : Ref sig .tc := ⟨.vmem, 74, rfl⟩
abbrev cc7_stg3_1 : Ref sig .tc := ⟨.vmem, 75, rfl⟩
abbrev cc7_stg4_0 : Ref sig .tc := ⟨.vmem, 76, rfl⟩
abbrev cc7_stg4_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg3_1 : Ref sig .tc := ⟨.vmem, 85, rfl⟩
abbrev cc8_stg4_0 : Ref sig .tc := ⟨.vmem, 86, rfl⟩
abbrev cc8_stg4_1 : Ref sig .tc := ⟨.vmem, 87, rfl⟩
abbrev cc9_stg0_0 : Ref sig .tc := ⟨.vmem, 88, rfl⟩
abbrev cc9_stg0_1 : Ref sig .tc := ⟨.vmem, 89, rfl⟩
abbrev cc9_stg1_0 : Ref sig .tc := ⟨.vmem, 90, rfl⟩
abbrev cc9_stg1_1 : Ref sig .tc := ⟨.vmem, 91, rfl⟩
abbrev cc9_stg2_0 : Ref sig .tc := ⟨.vmem, 92, rfl⟩
abbrev cc9_stg2_1 : Ref sig .tc := ⟨.vmem, 93, rfl⟩
abbrev cc9_stg3_0 : Ref sig .tc := ⟨.vmem, 94, rfl⟩
abbrev cc9_stg3_1 : Ref sig .tc := ⟨.vmem, 95, rfl⟩
abbrev cc9_stg4_0 : Ref sig .tc := ⟨.vmem, 96, rfl⟩
abbrev cc9_stg4_1 : Ref sig .tc := ⟨.vmem, 97, rfl⟩
abbrev cc10_stg0_0 : Ref sig .tc := ⟨.vmem, 98, rfl⟩
abbrev cc10_stg0_1 : Ref sig .tc := ⟨.vmem, 99, rfl⟩
abbrev cc10_stg1_0 : Ref sig .tc := ⟨.vmem, 100, rfl⟩
abbrev cc10_stg1_1 : Ref sig .tc := ⟨.vmem, 101, rfl⟩
abbrev cc10_stg2_0 : Ref sig .tc := ⟨.vmem, 102, rfl⟩
abbrev cc10_stg2_1 : Ref sig .tc := ⟨.vmem, 103, rfl⟩
abbrev cc10_stg3_0 : Ref sig .tc := ⟨.vmem, 104, rfl⟩
abbrev cc10_stg3_1 : Ref sig .tc := ⟨.vmem, 105, rfl⟩
abbrev cc10_stg4_0 : Ref sig .tc := ⟨.vmem, 106, rfl⟩
abbrev cc10_stg4_1 : Ref sig .tc := ⟨.vmem, 107, rfl⟩
abbrev cc11_stg0_0 : Ref sig .tc := ⟨.vmem, 108, rfl⟩
abbrev cc11_stg0_1 : Ref sig .tc := ⟨.vmem, 109, rfl⟩
abbrev cc11_stg1_0 : Ref sig .tc := ⟨.vmem, 110, rfl⟩
abbrev cc11_stg1_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc6_sem3_0 : DmaSem sig := 64
abbrev cc6_sem3_1 : DmaSem sig := 65
abbrev cc6_sem4_0 : DmaSem sig := 66
abbrev cc6_sem4_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem2_1 : DmaSem sig := 73
abbrev cc7_sem3_0 : DmaSem sig := 74
abbrev cc7_sem3_1 : DmaSem sig := 75
abbrev cc7_sem4_0 : DmaSem sig := 76
abbrev cc7_sem4_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem3_1 : DmaSem sig := 85
abbrev cc8_sem4_0 : DmaSem sig := 86
abbrev cc8_sem4_1 : DmaSem sig := 87
abbrev cc9_sem0_0 : DmaSem sig := 88
abbrev cc9_sem0_1 : DmaSem sig := 89
abbrev cc9_sem1_0 : DmaSem sig := 90
abbrev cc9_sem1_1 : DmaSem sig := 91
abbrev cc9_sem2_0 : DmaSem sig := 92
abbrev cc9_sem2_1 : DmaSem sig := 93
abbrev cc9_sem3_0 : DmaSem sig := 94
abbrev cc9_sem3_1 : DmaSem sig := 95
abbrev cc9_sem4_0 : DmaSem sig := 96
abbrev cc9_sem4_1 : DmaSem sig := 97
abbrev cc10_sem0_0 : DmaSem sig := 98
abbrev cc10_sem0_1 : DmaSem sig := 99
abbrev cc10_sem1_0 : DmaSem sig := 100
abbrev cc10_sem1_1 : DmaSem sig := 101
abbrev cc10_sem2_0 : DmaSem sig := 102
abbrev cc10_sem2_1 : DmaSem sig := 103
abbrev cc10_sem3_0 : DmaSem sig := 104
abbrev cc10_sem3_1 : DmaSem sig := 105
abbrev cc10_sem4_0 : DmaSem sig := 106
abbrev cc10_sem4_1 : DmaSem sig := 107
abbrev cc11_sem0_0 : DmaSem sig := 108
abbrev cc11_sem0_1 : DmaSem sig := 109
abbrev cc11_sem1_0 : DmaSem sig := 110
abbrev cc11_sem1_1 : DmaSem sig := 111

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x47 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x47 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x47 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x47 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x47 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x47 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x47 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x47 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x47 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x47 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x47 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x47 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x47 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x47 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x47 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x47 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x47 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x47 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x47 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x47 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x47 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x47 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x47 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x47 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x47 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x47 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x47 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x47 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x47 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x47 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x47 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x47 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x47 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x47 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x47 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x47 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S5000x47 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S5000x47 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x47 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x47 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

class Facts₀ : Prop where
  shapeCasts_S256_S1x256 : S256.ShapeCasts S1x256
  shapeCasts_S47_S1x47 : S47.ShapeCasts S1x47
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  shapeCasts_S5000x47_S5000x47 : S5000x47.ShapeCasts S5000x47
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x47 : S5000x1.Broadcasts S5000x47
  reduces_S5000x47_S5000 : S5000x47.Reduces [1] S5000
  shapeCasts_S5000_S5000x1 : S5000.ShapeCasts S5000x1
  dot_S5000x128_S128x256_S5000x256_1_0_0_1_n_n_wf : DotDims.WF S5000x128 S128x256 S5000x256 [1] [0] [0] [1] [] []
  dot_S5000x256_S256x47_S5000x47_1_0_0_1_n_n_wf : DotDims.WF S5000x256 S256x47 S5000x47 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x47.size a ≤ S256x47.size a
  hwx0_3 : ∀ i : grid0.Coords, EltTy.bits .f32 = 32 ∨ (Rect.block (s := S256x47) S256x47.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x47.size a ≤ S1x47.size a
  hwx0_4 : ∀ i : grid0.Coords, EltTy.bits .f32 = 32 ∨ (Rect.block (s := S1x47) S1x47.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x47.size a ≤ S100000x47.size a
  hwx0_5 : ∀ i : grid0.Coords, EltTy.bits .f32 = 32 ∨ (Rect.block (s := S100000x47) S5000x47.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x47.size a ≤ S100000x47.size a
  hwx1_0 : ∀ i : grid1.Coords, EltTy.bits .f32 = 32 ∨ (Rect.block (s := S100000x47) S5000x47.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x47.size a ≤ S100000x47.size a
  hwx1_2 : ∀ i : grid1.Coords, EltTy.bits .f32 = 32 ∨ (Rect.block (s := S100000x47) S5000x47.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x47.size a ≤ S100000x47.size a
  hwx1_3 : ∀ i : grid1.Coords, EltTy.bits .f32 = 32 ∨ (Rect.block (s := S100000x47) S5000x47.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x47.size a ≤ S100000x47.size a
  hwx1_4 : ∀ i : grid1.Coords, EltTy.bits .f32 = 32 ∨ (Rect.block (s := S100000x47) S5000x47.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x47.size a ≤ S100000x47.size a
  hwx2_0 : ∀ i : grid2.Coords, EltTy.bits .f32 = 32 ∨ (Rect.block (s := S100000x47) S5000x47.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S100000x47.size a
  hwx2_2 : ∀ i : grid2.Coords, EltTy.bits .f32 = 32 ∨ (Rect.block (s := S100000x47) S5000x47.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x47.size a ≤ S100000x47.size a
  hwx2_3 : ∀ i : grid2.Coords, EltTy.bits .f32 = 32 ∨ (Rect.block (s := S100000x47) S5000x47.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x47.size a ≤ S100000x47.size a
  hwx2_4 : ∀ i : grid2.Coords, EltTy.bits .f32 = 32 ∨ (Rect.block (s := S100000x47) S5000x47.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x47.size a ≤ S100000x47.size a
  hwx3_0 : ∀ i : grid3.Coords, EltTy.bits .f32 = 32 ∨ (Rect.block (s := S100000x47) S5000x47.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x47.size a ≤ S100000x47.size a
  hwx3_2 : ∀ i : grid3.Coords, EltTy.bits .f32 = 32 ∨ (Rect.block (s := S100000x47) S5000x47.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x47.size a ≤ S100000x47.size a
  hwx3_3 : ∀ i : grid3.Coords, EltTy.bits .f32 = 32 ∨ (Rect.block (s := S100000x47) S5000x47.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x47.size a ≤ S100000x47.size a
  hwx3_4 : ∀ i : grid3.Coords, EltTy.bits .f32 = 32 ∨ (Rect.block (s := S100000x47) S5000x47.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x47.size a ≤ S100000x47.size a
  hwx4_0 : ∀ i : grid4.Coords, EltTy.bits .f32 = 32 ∨ (Rect.block (s := S100000x47) S5000x47.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x47.size a ≤ S100000x47.size a
  hwx4_2 : ∀ i : grid4.Coords, EltTy.bits .f32 = 32 ∨ (Rect.block (s := S100000x47) S5000x47.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x47.size a ≤ S100000x47.size a
  hwx4_3 : ∀ i : grid4.Coords, EltTy.bits .f32 = 32 ∨ (Rect.block (s := S100000x47) S5000x47.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x47.size a ≤ S100000x47.size a
  hwx4_4 : ∀ i : grid4.Coords, EltTy.bits .f32 = 32 ∨ (Rect.block (s := S100000x47) S5000x47.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x47.size a ≤ S100000x47.size a
  hwx5_0 : ∀ i : grid5.Coords, EltTy.bits .f32 = 32 ∨ (Rect.block (s := S100000x47) S5000x47.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x47.size a ≤ S100000x47.size a
  hwx5_2 : ∀ i : grid5.Coords, EltTy.bits .f32 = 32 ∨ (Rect.block (s := S100000x47) S5000x47.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x47.size a ≤ S100000x47.size a
  hwx5_3 : ∀ i : grid5.Coords, EltTy.bits .f32 = 32 ∨ (Rect.block (s := S100000x47) S5000x47.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x47.size a ≤ S100000x47.size a
  hwx5_4 : ∀ i : grid5.Coords, EltTy.bits .f32 = 32 ∨ (Rect.block (s := S100000x47) S5000x47.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x47.size a ≤ S100000x47.size a
  hwx6_0 : ∀ i : grid6.Coords, EltTy.bits .f32 = 32 ∨ (Rect.block (s := S100000x47) S5000x47.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x47.size a ≤ S100000x47.size a
  hwx6_2 : ∀ i : grid6.Coords, EltTy.bits .f32 = 32 ∨ (Rect.block (s := S100000x47) S5000x47.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x47.size a ≤ S100000x47.size a
  hwx6_3 : ∀ i : grid6.Coords, EltTy.bits .f32 = 32 ∨ (Rect.block (s := S100000x47) S5000x47.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x47.size a ≤ S100000x47.size a
  hwx6_4 : ∀ i : grid6.Coords, EltTy.bits .f32 = 32 ∨ (Rect.block (s := S100000x47) S5000x47.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x47.size a ≤ S100000x47.size a
  hwx7_0 : ∀ i : grid7.Coords, EltTy.bits .f32 = 32 ∨ (Rect.block (s := S100000x47) S5000x47.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x47.size a ≤ S100000x47.size a
  hwx7_2 : ∀ i : grid7.Coords, EltTy.bits .f32 = 32 ∨ (Rect.block (s := S100000x47) S5000x47.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x47.size a ≤ S100000x47.size a
  hwx7_3 : ∀ i : grid7.Coords, EltTy.bits .f32 = 32 ∨ (Rect.block (s := S100000x47) S5000x47.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x47.size a ≤ S100000x47.size a
  hwx7_4 : ∀ i : grid7.Coords, EltTy.bits .f32 = 32 ∨ (Rect.block (s := S100000x47) S5000x47.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x47.size a ≤ S100000x47.size a
  hwx8_0 : ∀ i : grid8.Coords, EltTy.bits .f32 = 32 ∨ (Rect.block (s := S100000x47) S5000x47.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x47.size a ≤ S100000x47.size a
  hwx8_2 : ∀ i : grid8.Coords, EltTy.bits .f32 = 32 ∨ (Rect.block (s := S100000x47) S5000x47.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x47.size a ≤ S100000x47.size a
  hwx8_3 : ∀ i : grid8.Coords, EltTy.bits .f32 = 32 ∨ (Rect.block (s := S100000x47) S5000x47.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x47.size a ≤ S100000x47.size a
  hwx8_4 : ∀ i : grid8.Coords, EltTy.bits .f32 = 32 ∨ (Rect.block (s := S100000x47) S5000x47.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x47.size a ≤ S100000x47.size a
  hwx9_0 : ∀ i : grid9.Coords, EltTy.bits .f32 = 32 ∨ (Rect.block (s := S100000x47) S5000x47.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x47.size a ≤ S100000x47.size a
  hwx9_2 : ∀ i : grid9.Coords, EltTy.bits .f32 = 32 ∨ (Rect.block (s := S100000x47) S5000x47.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x47.size a ≤ S100000x47.size a
  hwx9_3 : ∀ i : grid9.Coords, EltTy.bits .f32 = 32 ∨ (Rect.block (s := S100000x47) S5000x47.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x47.size a ≤ S100000x47.size a
  hwx9_4 : ∀ i : grid9.Coords, EltTy.bits .f32 = 32 ∨ (Rect.block (s := S100000x47) S5000x47.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x47.size a ≤ S100000x47.size a
  hwx10_0 : ∀ i : grid10.Coords, EltTy.bits .f32 = 32 ∨ (Rect.block (s := S100000x47) S5000x47.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x47.size a ≤ S100000x47.size a
  hwx10_2 : ∀ i : grid10.Coords, EltTy.bits .f32 = 32 ∨ (Rect.block (s := S100000x47) S5000x47.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x47.size a ≤ S100000x47.size a
  hwx10_3 : ∀ i : grid10.Coords, EltTy.bits .f32 = 32 ∨ (Rect.block (s := S100000x47) S5000x47.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x47.size a ≤ S100000x47.size a
  hwx10_4 : ∀ i : grid10.Coords, EltTy.bits .f32 = 32 ∨ (Rect.block (s := S100000x47) S5000x47.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x47.size a ≤ S100000x47.size a
  hwx11_0 : ∀ i : grid11.Coords, EltTy.bits .f32 = 32 ∨ (Rect.block (s := S100000x47) S5000x47.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x47.size a ≤ S100000x47.size a
  hwx11_1 : ∀ i : grid11.Coords, EltTy.bits .f32 = 32 ∨ (Rect.block (s := S100000x47) S5000x47.size (cc11_transform_1 i) (hinb11_1 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x47_S5000x47_1_0_0_1_n_n : DotDims S5000x256 S256x47 S5000x47 where
  lhsContracting := [1]
  rhsContracting := [0]
  lhsNonContracting := [0]
  rhsNonContracting := [1]
  lhsBatch := []
  rhsBatch := []
  wf := dot_S5000x256_S256x47_S5000x47_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x47.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x47.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x47.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x47.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x47.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S5000x47.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x47.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x47.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S5000x47.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x47.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S5000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x47.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2) S5000x47.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x47.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S5000x47.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x47.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v2) S5000x47.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v86) S5000x47.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v99) S5000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v86) S5000x47.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v2) S5000x47.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v100) S5000x47.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v113) S5000x47.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v30) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v100) S5000x47.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v2) S5000x47.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v114) S5000x47.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v127) S5000x47.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v114) S5000x47.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v2) S5000x47.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v128) S5000x47.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v141) S5000x47.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v30) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v128) S5000x47.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v2) S5000x47.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v142) S5000x47.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v155) S5000x47.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v30) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v142) S5000x47.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v2) S5000x47.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v156) S5000x47.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v169) S5000x47.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v30) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v156) S5000x47.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v2) S5000x47.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v170) S5000x47.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v170) S5000x47.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v171) S5000x47.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x47 : Shape := ⟨2, ![256, 47]⟩
abbrev S47 : Shape := ⟨1, ![47]⟩
abbrev S100000x256 : Shape := ⟨2, ![100000, 256]⟩
abbrev S1x256 : Shape := ⟨2, ![1, 256]⟩
abbrev S_ : Shape := ⟨0, ![]⟩
abbrev S100000x47 : Shape := ⟨2, ![100000, 47]⟩
abbrev S1x47 : Shape := ⟨2, ![1, 47]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S100000x1 : Shape := ⟨2, ![100000, 1]⟩
abbrev S1600000x47 : Shape := ⟨2, ![1600000, 47]⟩

abbrev nBuf : Space → Nat
  | .hbm => 327
  | .vmem => 0
  | .smem => 0
  | _ => 0

abbrev hbmTy0_0 (i : Nat) : BufTy := match i % 128 with
  | 0 => ⟨S100000x128, .f32⟩
  | 1 => ⟨S2x1600000, .i32⟩
  | 2 => ⟨S128x256, .f32⟩
  | 3 => ⟨S256, .f32⟩
  | 4 => ⟨S256x47, .f32⟩
  | 5 => ⟨S47, .f32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x47, .f32⟩
  | 14 => ⟨S1x47, .f32⟩
  | 15 => ⟨S100000x47, .f32⟩
  | 16 => ⟨S100000x47, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S100000, .f32⟩
  | 51 => ⟨S100000x1, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x47, .f32⟩
  | 62 => ⟨S1600000x47, .f32⟩
  | 63 => ⟨S1600000x47, .f32⟩
  | 64 => ⟨S_, .f32⟩
  | 65 => ⟨S100000x47, .f32⟩
  | 66 => ⟨S1600000x1, .i32⟩
  | 67 => ⟨S100000x47, .f32⟩
  | 68 => ⟨S100000x47, .f32⟩
  | 69 => ⟨S100000x47, .f32⟩
  | 70 => ⟨S100000x47, .f32⟩
  | 71 => ⟨S_, .f32⟩
  | 72 => ⟨S100000x47, .f32⟩
  | 73 => ⟨S100000x47, .f32⟩
  | 74 => ⟨S_, .f32⟩
  | 75 => ⟨S100000x47, .f32⟩
  | 76 => ⟨S100000x47, .f32⟩
  | 77 => ⟨S100000x47, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x47, .f32⟩
  | 88 => ⟨S1600000x47, .f32⟩
  | 89 => ⟨S1600000x47, .f32⟩
  | 90 => ⟨S_, .f32⟩
  | 91 => ⟨S100000x47, .f32⟩
  | 92 => ⟨S1600000x1, .i32⟩
  | 93 => ⟨S100000x47, .f32⟩
  | 94 => ⟨S100000x47, .f32⟩
  | 95 => ⟨S100000x47, .f32⟩
  | 96 => ⟨S100000x47, .f32⟩
  | 97 => ⟨S_, .f32⟩
  | 98 => ⟨S100000x47, .f32⟩
  | 99 => ⟨S100000x47, .f32⟩
  | 100 => ⟨S_, .f32⟩
  | 101 => ⟨S100000x47, .f32⟩
  | 102 => ⟨S100000x47, .f32⟩
  | 103 => ⟨S100000x47, .f32⟩
  | 104 => ⟨S1600000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x47, .f32⟩
  | 114 => ⟨S1600000x47, .f32⟩
  | 115 => ⟨S1600000x47, .f32⟩
  | 116 => ⟨S_, .f32⟩
  | 117 => ⟨S100000x47, .f32⟩
  | 118 => ⟨S1600000x1, .i32⟩
  | 119 => ⟨S100000x47, .f32⟩
  | 120 => ⟨S100000x47, .f32⟩
  | 121 => ⟨S100000x47, .f32⟩
  | 122 => ⟨S100000x47, .f32⟩
  | 123 => ⟨S_, .f32⟩
  | 124 => ⟨S100000x47, .f32⟩
  | 125 => ⟨S100000x47, .f32⟩
  | 126 => ⟨S_, .f32⟩
  | 127 => ⟨S100000x47, .f32⟩
  | _ => ⟨S100000x128, .f32⟩

abbrev hbmTy0_1 (i : Nat) : BufTy := match i % 128 with
  | 0 => ⟨S100000x47, .f32⟩
  | 1 => ⟨S100000x47, .f32⟩
  | 2 => ⟨S1600000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x47, .f32⟩
  | 12 => ⟨S1600000x47, .f32⟩
  | 13 => ⟨S1600000x47, .f32⟩
  | 14 => ⟨S_, .f32⟩
  | 15 => ⟨S100000x47, .f32⟩
  | 16 => ⟨S1600000x1, .i32⟩
  | 17 => ⟨S100000x47, .f32⟩
  | 18 => ⟨S100000x47, .f32⟩
  | 19 => ⟨S100000x47, .f32⟩
  | 20 => ⟨S100000x47, .f32⟩
  | 21 => ⟨S_, .f32⟩
  | 22 => ⟨S100000x47, .f32⟩
  | 23 => ⟨S100000x47, .f32⟩
  | 24 => ⟨S_, .f32⟩
  | 25 => ⟨S100000x47, .f32⟩
  | 26 => ⟨S100000x47, .f32⟩
  | 27 => ⟨S100000x47, .f32⟩
  | 28 => ⟨S1600000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x47, .f32⟩
  | 38 => ⟨S1600000x47, .f32⟩
  | 39 => ⟨S1600000x47, .f32⟩
  | 40 => ⟨S_, .f32⟩
  | 41 => ⟨S100000x47, .f32⟩
  | 42 => ⟨S1600000x1, .i32⟩
  | 43 => ⟨S100000x47, .f32⟩
  | 44 => ⟨S100000x47, .f32⟩
  | 45 => ⟨S100000x47, .f32⟩
  | 46 => ⟨S100000x47, .f32⟩
  | 47 => ⟨S_, .f32⟩
  | 48 => ⟨S100000x47, .f32⟩
  | 49 => ⟨S100000x47, .f32⟩
  | 50 => ⟨S_, .f32⟩
  | 51 => ⟨S100000x47, .f32⟩
  | 52 => ⟨S100000x47, .f32⟩
  | 53 => ⟨S100000x47, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x47, .f32⟩
  | 64 => ⟨S1600000x47, .f32⟩
  | 65 => ⟨S1600000x47, .f32⟩
  | 66 => ⟨S_, .f32⟩
  | 67 => ⟨S100000x47, .f32⟩
  | 68 => ⟨S1600000x1, .i32⟩
  | 69 => ⟨S100000x47, .f32⟩
  | 70 => ⟨S100000x47, .f32⟩
  | 71 => ⟨S100000x47, .f32⟩
  | 72 => ⟨S100000x47, .f32⟩
  | 73 => ⟨S_, .f32⟩
  | 74 => ⟨S100000x47, .f32⟩
  | 75 => ⟨S100000x47, .f32⟩
  | 76 => ⟨S_, .f32⟩
  | 77 => ⟨S100000x47, .f32⟩
  | 78 => ⟨S100000x47, .f32⟩
  | 79 => ⟨S100000x47, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x47, .f32⟩
  | 90 => ⟨S1600000x47, .f32⟩
  | 91 => ⟨S1600000x47, .f32⟩
  | 92 => ⟨S_, .f32⟩
  | 93 => ⟨S100000x47, .f32⟩
  | 94 => ⟨S1600000x1, .i32⟩
  | 95 => ⟨S100000x47, .f32⟩
  | 96 => ⟨S100000x47, .f32⟩
  | 97 => ⟨S100000x47, .f32⟩
  | 98 => ⟨S100000x47, .f32⟩
  | 99 => ⟨S_, .f32⟩
  | 100 => ⟨S100000x47, .f32⟩
  | 101 => ⟨S100000x47, .f32⟩
  | 102 => ⟨S_, .f32⟩
  | 103 => ⟨S100000x47, .f32⟩
  | 104 => ⟨S100000x47, .f32⟩
  | 105 => ⟨S100000x47, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x47, .f32⟩
  | 116 => ⟨S1600000x47, .f32⟩
  | 117 => ⟨S1600000x47, .f32⟩
  | 118 => ⟨S_, .f32⟩
  | 119 => ⟨S100000x47, .f32⟩
  | 120 => ⟨S1600000x1, .i32⟩
  | 121 => ⟨S100000x47, .f32⟩
  | 122 => ⟨S100000x47, .f32⟩
  | 123 => ⟨S100000x47, .f32⟩
  | 124 => ⟨S100000x47, .f32⟩
  | 125 => ⟨S_, .f32⟩
  | 126 => ⟨S100000x47, .f32⟩
  | 127 => ⟨S100000x47, .f32⟩
  | _ => ⟨S100000x128, .f32⟩

abbrev hbmTy0_2 (i : Nat) : BufTy := match i % 128 with
  | 0 => ⟨S_, .f32⟩
  | 1 => ⟨S100000x47, .f32⟩
  | 2 => ⟨S100000x47, .f32⟩
  | 3 => ⟨S100000x47, .f32⟩
  | 4 => ⟨S1600000x1, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x47, .f32⟩
  | 14 => ⟨S1600000x47, .f32⟩
  | 15 => ⟨S1600000x47, .f32⟩
  | 16 => ⟨S_, .f32⟩
  | 17 => ⟨S100000x47, .f32⟩
  | 18 => ⟨S1600000x1, .i32⟩
  | 19 => ⟨S100000x47, .f32⟩
  | 20 => ⟨S100000x47, .f32⟩
  | 21 => ⟨S100000x47, .f32⟩
  | 22 => ⟨S100000x47, .f32⟩
  | 23 => ⟨S_, .f32⟩
  | 24 => ⟨S100000x47, .f32⟩
  | 25 => ⟨S100000x47, .f32⟩
  | 26 => ⟨S_, .f32⟩
  | 27 => ⟨S100000x47, .f32⟩
  | 28 => ⟨S100000x47, .f32⟩
  | 29 => ⟨S100000x47, .f32⟩
  | 30 => ⟨S1600000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x47, .f32⟩
  | 40 => ⟨S1600000x47, .f32⟩
  | 41 => ⟨S1600000x47, .f32⟩
  | 42 => ⟨S_, .f32⟩
  | 43 => ⟨S100000x47, .f32⟩
  | 44 => ⟨S1600000x1, .i32⟩
  | 45 => ⟨S100000x47, .f32⟩
  | 46 => ⟨S100000x47, .f32⟩
  | 47 => ⟨S100000x47, .f32⟩
  | 48 => ⟨S100000x47, .f32⟩
  | 49 => ⟨S_, .f32⟩
  | 50 => ⟨S100000x47, .f32⟩
  | 51 => ⟨S100000x47, .f32⟩
  | 52 => ⟨S_, .f32⟩
  | 53 => ⟨S100000x47, .f32⟩
  | 54 => ⟨S100000x47, .f32⟩
  | 55 => ⟨S100000x47, .f32⟩
  | 56 => ⟨S_, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x47, .f32⟩
  | 63 => ⟨S100000x47, .f32⟩
  | 64 => ⟨S100000x47, .f32⟩
  | 65 => ⟨S_, .f32⟩
  | 66 => ⟨S100000, .f32⟩
  | 67 => ⟨S100000x1, .f32⟩
  | 68 => ⟨S100000x1, .f32⟩
  | 69 => ⟨S100000x47, .f32⟩
  | 70 => ⟨S100000x47, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_15 : Ref sig .tc := ⟨.hbm, 105, rfl⟩
abbrev main_v80 : Ref sig .tc := ⟨.hbm, 106, rfl⟩
abbrev main_v81 : Ref sig .tc := ⟨.hbm, 107, rfl⟩
abbrev main_c_16 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_20 : Ref sig .tc := ⟨.hbm, 131, rfl⟩
abbrev main_v101 : Ref sig .tc := ⟨.hbm, 132, rfl⟩
abbrev main_v102 : Ref sig .tc := ⟨.hbm, 133, rfl⟩
abbrev main_c_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_22 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_23 : Ref sig .tc := ⟨.hbm, 149, rfl⟩
abbrev main_v116 : Ref sig .tc := ⟨.hbm, 150, rfl⟩
abbrev main_v117 : Ref sig .tc := ⟨.hbm, 151, rfl⟩
abbrev main_cst_24 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_c_25 : Ref sig .tc := ⟨.hbm, 157, rfl⟩
abbrev main_v122 : Ref sig .tc := ⟨.hbm, 158, rfl⟩
abbrev main_v123 : Ref sig .tc := ⟨.hbm, 159, rfl⟩
abbrev main_c_26 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_27 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_28 : Ref sig .tc := ⟨.hbm, 175, rfl⟩
abbrev main_v137 : Ref sig .tc := ⟨.hbm, 176, rfl⟩
abbrev main_v138 : Ref sig .tc := ⟨.hbm, 177, rfl⟩
abbrev main_cst_29 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_c_30 : Ref sig .tc := ⟨.hbm, 183, rfl⟩
abbrev main_v143 : Ref sig .tc := ⟨.hbm, 184, rfl⟩
abbrev main_v144 : Ref sig .tc := ⟨.hbm, 185, rfl⟩
abbrev main_c_31 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_32 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_33 : Ref sig .tc := ⟨.hbm, 201, rfl⟩
abbrev main_v158 : Ref sig .tc := ⟨.hbm, 202, rfl⟩
abbrev main_v159 : Ref sig .tc := ⟨.hbm, 203, rfl⟩
abbrev main_cst_34 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_c_35 : Ref sig .tc := ⟨.hbm, 209, rfl⟩
abbrev main_v164 : Ref sig .tc := ⟨.hbm, 210, rfl⟩
abbrev main_v165 : Ref sig .tc := ⟨.hbm, 211, rfl⟩
abbrev main_c_36 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_37 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_38 : Ref sig .tc := ⟨.hbm, 227, rfl⟩
abbrev main_v179 : Ref sig .tc := ⟨.hbm, 228, rfl⟩
abbrev main_v180 : Ref sig .tc := ⟨.hbm, 229, rfl⟩
abbrev main_cst_39 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_40 : Ref sig .tc := ⟨.hbm, 235, rfl⟩
abbrev main_v185 : Ref sig .tc := ⟨.hbm, 236, rfl⟩
abbrev main_v186 : Ref sig .tc := ⟨.hbm, 237, rfl⟩
abbrev main_c_41 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_42 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_43 : Ref sig .tc := ⟨.hbm, 253, rfl⟩
abbrev main_v200 : Ref sig .tc := ⟨.hbm, 254, rfl⟩
abbrev main_v201 : Ref sig .tc := ⟨.hbm, 255, rfl⟩
abbrev main_cst_44 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_c_45 : Ref sig .tc := ⟨.hbm, 261, rfl⟩
abbrev main_v206 : Ref sig .tc := ⟨.hbm, 262, rfl⟩
abbrev main_v207 : Ref sig .tc := ⟨.hbm, 263, rfl⟩
abbrev main_c_46 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_47 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_48 : Ref sig .tc := ⟨.hbm, 279, rfl⟩
abbrev main_v221 : Ref sig .tc := ⟨.hbm, 280, rfl⟩
abbrev main_v222 : Ref sig .tc := ⟨.hbm, 281, rfl⟩
abbrev main_cst_49 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_c_50 : Ref sig .tc := ⟨.hbm, 287, rfl⟩
abbrev main_v227 : Ref sig .tc := ⟨.hbm, 288, rfl⟩
abbrev main_v228 : Ref sig .tc := ⟨.hbm, 289, rfl⟩
abbrev main_c_51 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_cst_52 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_cst_53 : Ref sig .tc := ⟨.hbm, 305, rfl⟩
abbrev main_v242 : Ref sig .tc := ⟨.hbm, 306, rfl⟩
abbrev main_v243 : Ref sig .tc := ⟨.hbm, 307, rfl⟩
abbrev main_cst_54 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_call1_cst : Ref sig .tc := ⟨.hbm, 312, rfl⟩
abbrev main_call1_v0 : Ref sig .tc := ⟨.hbm, 313, rfl⟩
abbrev main_call1_cst_0 : Ref sig .tc := ⟨.hbm, 314, rfl⟩
abbrev main_call1_v1 : Ref sig .tc := ⟨.hbm, 315, rfl⟩
abbrev main_call1_v2 : Ref sig .tc := ⟨.hbm, 316, rfl⟩
abbrev main_call1_v3 : Ref sig .tc := ⟨.hbm, 317, rfl⟩
abbrev main_call1_v4 : Ref sig .tc := ⟨.hbm, 318, rfl⟩
abbrev main_call1_v5 : Ref sig .tc := ⟨.hbm, 319, rfl⟩
abbrev main_call1_v6 : Ref sig .tc := ⟨.hbm, 320, rfl⟩
abbrev main_call1_cst_1 : Ref sig .tc := ⟨.hbm, 321, rfl⟩
abbrev main_call1_v7 : Ref sig .tc := ⟨.hbm, 322, rfl⟩
abbrev main_call1_v8 : Ref sig .tc := ⟨.hbm, 323, rfl⟩
abbrev main_call1_v9 : Ref sig .tc := ⟨.hbm, 324, rfl⟩
abbrev main_call1_v10 : Ref sig .tc := ⟨.hbm, 325, rfl⟩
abbrev main_v247 : Ref sig .tc := ⟨.hbm, 326, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  bcast_S100000x1_S100000x47_0_1 : S100000x1.BroadcastsInDim S100000x47 (![0, 1] : Fin 2 → Fin S100000x47.rank)
  reducesTo_S100000x47_S100000_d1 : S100000x47.ReducesTo [1] S100000
  h_S_ : 0 < S_.numel
  dot_S100000x128_S128x256_S100000x256_1_0_0_1_n_n_wf : DotDims.WF S100000x128 S128x256 S100000x256 [1] [0] [0] [1] [] []
  dot_S100000x256_S256x47_S100000x47_1_0_0_1_n_n_wf : DotDims.WF S100000x256 S256x47 S100000x47 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x47_S100000x47_1_0_0_1_n_n : DotDims S100000x256 S256x47 S100000x47 where
  lhsContracting := [1]
  rhsContracting := [0]
  lhsNonContracting := [0]
  rhsNonContracting := [1]
  lhsBatch := []
  rhsBatch := []
  wf := dot_S100000x256_S256x47_S100000x47_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

class Facts : Prop extends Facts₀ where

variable [Facts]
-- ==== Proof.K.Rects.lean ====
/-
  The whole-block rectangles the twelve kernel bodies load and store through: every body reads each of its
  blocks whole and writes its output block whole, once.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rBlk47 : Rect S5000x47 := Rect.unit (s := S5000x47) ![0, 0] S5000x47.size inb_S5000x47_S5000x47_0_0
abbrev rBlk1 : Rect S5000x1 := Rect.unit (s := S5000x1) ![0, 0] S5000x1.size inb_S5000x1_S5000x1_0_0
abbrev rBlk128 : Rect S5000x128 := Rect.unit (s := S5000x128) ![0, 0] S5000x128.size inb_S5000x128_S5000x128_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rW2 : Rect S256x47 := Rect.unit (s := S256x47) ![0, 0] S256x47.size inb_S256x47_S256x47_0_0
abbrev rB2 : Rect S1x47 := Rect.unit (s := S1x47) ![0, 0] S1x47.size inb_S1x47_S1x47_0_0

end Cert.Kernel.Fr

end
-- ==== Proof.K.Dat0.lean ====
/-
  Region 0's proof data at a parameter `V` (the buffers' contents when the region is entered): the two dense
  layers on a block of 5000 rows.  At point `t` the first window holds rows `5000 t … 5000 t + 4999` of `x`, the
  next four the whole of `W1`, `b1`, `W2`, `b2`; the body stores the output block whole, once:
  `relu (x · W1 + b1) · W2 + b2` of the loaded blocks.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its one whole-block store. -/
def out0 (x0 : Vec F S5000x128 .f32) (x1 : Vec F S128x256 .f32) (x2 : Vec F S1x256 .f32) (x3 : Vec F S256x47 .f32) (x4 : Vec F S1x47 .f32) : Vec F S5000x47 .f32 :=
  View.canon [⟨rBlk47, k0_pay1 (View.ld x0 rBlk128) (View.ld x1 rW1) (View.ld x2 rB1) (View.ld x3 rW2) (View.ld x4 rB2)⟩]

/-- After the body every input block is what was fetched and the output block is the dense layers' value;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0 (iblk0 V c 0 t) (iblk0 V c 1 t) (iblk0 V c 2 t) (iblk0 V c 3 t) (iblk0 V c 4 t) := by dsimp only [dat0]

end Cert.Kernel.Fr

end
-- ==== Proof.K.Dat1.lean ====
/-
  Region 1's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its one whole-block store. -/
def out1 (x0 : Vec F S5000x47 .f32) (x1 : Vec F S5000x1 .f32) (x2 x3 : Vec F S5000x47 .f32) : Vec F S5000x47 .f32 :=
  View.canon [⟨rBlk47, k1_pay1 (View.ld x0 rBlk47) (View.ld x1 rBlk1) (View.ld x2 rBlk47) (View.ld x3 rBlk47)⟩]

/-- After the body every input block is what was fetched and the output block is the blend; nothing owed;
    full shares, except that the previous iterate and the dense layers' output are ONE array on this first step, held half and half by the two windows that stage it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

end Cert.Kernel.Fr

end
-- ==== Proof.K.Dat2.lean ====
/-
  Region 2's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its one whole-block store. -/
def out2 (x0 : Vec F S5000x47 .f32) (x1 : Vec F S5000x1 .f32) (x2 x3 : Vec F S5000x47 .f32) : Vec F S5000x47 .f32 :=
  View.canon [⟨rBlk47, k2_pay1 (View.ld x0 rBlk47) (View.ld x1 rBlk1) (View.ld x2 rBlk47) (View.ld x3 rBlk47)⟩]

/-- After the body every input block is what was fetched and the output block is the blend; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

end Cert.Kernel.Fr

end
-- ==== Proof.K.Dat3.lean ====
/-
  Region 3's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its one whole-block store. -/
def out3 (x0 : Vec F S5000x47 .f32) (x1 : Vec F S5000x1 .f32) (x2 x3 : Vec F S5000x47 .f32) : Vec F S5000x47 .f32 :=
  View.canon [⟨rBlk47, k3_pay1 (View.ld x0 rBlk47) (View.ld x1 rBlk1) (View.ld x2 rBlk47) (View.ld x3 rBlk47)⟩]

/-- After the body every input block is what was fetched and the output block is the blend; nothing owed,
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

end Cert.Kernel.Fr

end
-- ==== Proof.K.Dat4.lean ====
/-
  Region 4's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its one whole-block store. -/
def out4 (x0 : Vec F S5000x47 .f32) (x1 : Vec F S5000x1 .f32) (x2 x3 : Vec F S5000x47 .f32) : Vec F S5000x47 .f32 :=
  View.canon [⟨rBlk47, k4_pay1 (View.ld x0 rBlk47) (View.ld x1 rBlk1) (View.ld x2 rBlk47) (View.ld x3 rBlk47)⟩]

/-- After the body every input block is what was fetched and the output block is the blend; nothing owed,
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4 (iblk4 V c 0 t) (iblk4 V c 1 t) (iblk4 V c 2 t) (iblk4 V c 3 t) := by dsimp only [dat4]

end Cert.Kernel.Fr

end
-- ==== Proof.K.Dat5.lean ====
/-
  Region 5's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its one whole-block store. -/
def out5 (x0 : Vec F S5000x47 .f32) (x1 : Vec F S5000x1 .f32) (x2 x3 : Vec F S5000x47 .f32) : Vec F S5000x47 .f32 :=
  View.canon [⟨rBlk47, k5_pay1 (View.ld x0 rBlk47) (View.ld x1 rBlk1) (View.ld x2 rBlk47) (View.ld x3 rBlk47)⟩]

/-- After the body every input block is what was fetched and the output block is the blend; nothing owed,
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5 (iblk5 V c 0 t) (iblk5 V c 1 t) (iblk5 V c 2 t) (iblk5 V c 3 t) := by dsimp only [dat5]

end Cert.Kernel.Fr

end
-- ==== Proof.K.Dat6.lean ====
/-
  Region 6's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body leaves in the output block: its one whole-block store. -/
def out6 (x0 : Vec F S5000x47 .f32) (x1 : Vec F S5000x1 .f32) (x2 x3 : Vec F S5000x47 .f32) : Vec F S5000x47 .f32 :=
  View.canon [⟨rBlk47, k6_pay1 (View.ld x0 rBlk47) (View.ld x1 rBlk1) (View.ld x2 rBlk47) (View.ld x3 rBlk47)⟩]

/-- After the body every input block is what was fetched and the output block is the blend; nothing owed,
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6 (iblk6 V c 0 t) (iblk6 V c 1 t) (iblk6 V c 2 t) (iblk6 V c 3 t) := by dsimp only [dat6]

end Cert.Kernel.Fr

end
-- ==== Proof.K.Dat7.lean ====
/-
  Region 7's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the body leaves in the output block: its one whole-block store. -/
def out7 (x0 : Vec F S5000x47 .f32) (x1 : Vec F S5000x1 .f32) (x2 x3 : Vec F S5000x47 .f32) : Vec F S5000x47 .f32 :=
  View.canon [⟨rBlk47, k7_pay1 (View.ld x0 rBlk47) (View.ld x1 rBlk1) (View.ld x2 rBlk47) (View.ld x3 rBlk47)⟩]

/-- After the body every input block is what was fetched and the output block is the blend; nothing owed,
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7 (iblk7 V c 0 t) (iblk7 V c 1 t) (iblk7 V c 2 t) (iblk7 V c 3 t) := by dsimp only [dat7]

end Cert.Kernel.Fr

end
-- ==== Proof.K.Dat8.lean ====
/-
  Region 8's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the body leaves in the output block: its one whole-block store. -/
def out8 (x0 : Vec F S5000x47 .f32) (x1 : Vec F S5000x1 .f32) (x2 x3 : Vec F S5000x47 .f32) : Vec F S5000x47 .f32 :=
  View.canon [⟨rBlk47, k8_pay1 (View.ld x0 rBlk47) (View.ld x1 rBlk1) (View.ld x2 rBlk47) (View.ld x3 rBlk47)⟩]

/-- After the body every input block is what was fetched and the output block is the blend; nothing owed,
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8 (iblk8 V c 0 t) (iblk8 V c 1 t) (iblk8 V c 2 t) (iblk8 V c 3 t) := by dsimp only [dat8]

end Cert.Kernel.Fr

end
-- ==== Proof.K.Dat9.lean ====
/-
  Region 9's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- What the body leaves in the output block: its one whole-block store. -/
def out9 (x0 : Vec F S5000x47 .f32) (x1 : Vec F S5000x1 .f32) (x2 x3 : Vec F S5000x47 .f32) : Vec F S5000x47 .f32 :=
  View.canon [⟨rBlk47, k9_pay1 (View.ld x0 rBlk47) (View.ld x1 rBlk1) (View.ld x2 rBlk47) (View.ld x3 rBlk47)⟩]

/-- After the body every input block is what was fetched and the output block is the blend; nothing owed,
    full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9 (iblk9 V c 0 t) (iblk9 V c 1 t) (iblk9 V c 2 t) (iblk9 V c 3 t) := by dsimp only [dat9]

end Cert.Kernel.Fr

end
-- ==== Proof.K.Dat10.lean ====
/-
  Region 10's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the body leaves in the output block: its one whole-block store. -/
def out10 (x0 : Vec F S5000x47 .f32) (x1 : Vec F S5000x1 .f32) (x2 x3 : Vec F S5000x47 .f32) : Vec F S5000x47 .f32 :=
  View.canon [⟨rBlk47, k10_pay1 (View.ld x0 rBlk47) (View.ld x1 rBlk1) (View.ld x2 rBlk47) (View.ld x3 rBlk47)⟩]

/-- After the body every input block is what was fetched and the output block is the blend; nothing owed,
    full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10 (iblk10 V c 0 t) (iblk10 V c 1 t) (iblk10 V c 2 t) (iblk10 V c 3 t) := by dsimp only [dat10]

end Cert.Kernel.Fr

end
-- ==== Proof.K.Dat11.lean ====
/-
  Region 11's proof data at a parameter `V` (the buffers' contents when the region is entered): the row-wise
  log-softmax on a block of 5000 rows.  At point `t` the input window holds rows `5000 t … 5000 t + 4999` of
  the last iterate `z`; the body stores the output block whole, once: `(z − max) − log Σ exp (z − max)`, the
  maximum and the sum taken along each row.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.K.Rects

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the body leaves in the output block: its one whole-block store. -/
def out11 (x0 : Vec F S5000x47 .f32) : Vec F S5000x47 .f32 :=
  View.canon [⟨rBlk47, k11_pay1 (View.ld x0 rBlk47)⟩]

/-- After the body the input block is what was fetched and the output block is the log-softmax; nothing owed,
    full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = out11 (iblk11 V c 0 t) := by dsimp only [dat11]

end Cert.Kernel.Fr

end
-- ==== Proof.K.Chain.lean ====
/-
  The buffers' contents between the items of @main, closed into definitions.  An odd-numbered boundary follows a host
  stretch: the contents are the stretch's fold over the previous boundary's.  An even-numbered boundary (and the last)
  follows a region: the contents are the previous boundary's with the region's output array replaced by what the
  region's write-backs leave there, `Dat.arrAt … N` of the region's proof data read at the previous boundary.  Each step
  refers only to earlier ones, so the family is well founded; the unknowns of the conditional frame are then these
  contents, and its valuations agree with them boundary by boundary (one `Function.update_self` per region, one
  congruence per stretch).
-/
import proofs.«114710_j78030965834312_1_alg».proof.Proof.Gen.Kernel.Regions
import proofs.«114710_j78030965834312_1_alg».proof.Proof.K.Dat0
import proofs.«114710_j78030965834312_1_alg».proof.Proof.K.Dat1
import proofs.«114710_j78030965834312_1_alg».proof.Proof.K.Dat2
import proofs.«114710_j78030965834312_1_alg».proof.Proof.K.Dat3
import proofs.«114710_j78030965834312_1_alg».proof.Proof.K.Dat4
import proofs.«114710_j78030965834312_1_alg».proof.Proof.K.Dat5
import proofs.«114710_j78030965834312_1_alg».proof.Proof.K.Dat6
import proofs.«114710_j78030965834312_1_alg».proof.Proof.K.Dat7
import proofs.«114710_j78030965834312_1_alg».proof.Proof.K.Dat8
import proofs.«114710_j78030965834312_1_alg».proof.Proof.K.Dat9
import proofs.«114710_j78030965834312_1_alg».proof.Proof.K.Dat10
import proofs.«114710_j78030965834312_1_alg».proof.Proof.K.Dat11

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- After the first host stretch: region 0's entry. -/
def U1 (c : Dev nD) : Valuation τ sig (Elt F) := Gen.V1 m c
/-- After region 0: `main_v2` holds what the region's write-backs leave, every other buffer what it held. -/
def U2 (c : Dev nD) : Valuation τ sig (Elt F) :=
  Function.update (U1 m c) main_v2 ((dat0 (fun c b => U1 m c b) c).arrAt 5 cfg0.N)
/-- After the host stretch `hostOps1`: region 1's entry. -/
def U3 (c : Dev nD) : Valuation τ sig (Elt F) := StableHlo.after hostOps1 (U2 m c)
/-- After region 1: `main_v44` holds what the region's write-backs leave, every other buffer what it held. -/
def U4 (c : Dev nD) : Valuation τ sig (Elt F) :=
  Function.update (U3 m c) main_v44 ((dat1 (fun c b => U3 m c b) c).arrAt 4 cfg1.N)
/-- After the host stretch `hostOps2`: region 2's entry. -/
def U5 (c : Dev nD) : Valuation τ sig (Elt F) := StableHlo.after hostOps2 (U4 m c)
/-- After region 2: `main_v58` holds what the region's write-backs leave, every other buffer what it held. -/
def U6 (c : Dev nD) : Valuation τ sig (Elt F) :=
  Function.update (U5 m c) main_v58 ((dat2 (fun c b => U5 m c b) c).arrAt 4 cfg2.N)
/-- After the host stretch `hostOps3`: region 3's entry. -/
def U7 (c : Dev nD) : Valuation τ sig (Elt F) := StableHlo.after hostOps3 (U6 m c)
/-- After region 3: `main_v72` holds what the region's write-backs leave, every other buffer what it held. -/
def U8 (c : Dev nD) : Valuation τ sig (Elt F) :=
  Function.update (U7 m c) main_v72 ((dat3 (fun c b => U7 m c b) c).arrAt 4 cfg3.N)
/-- After the host stretch `hostOps4`: region 4's entry. -/
def U9 (c : Dev nD) : Valuation τ sig (Elt F) := StableHlo.after hostOps4 (U8 m c)
/-- After region 4: `main_v86` holds what the region's write-backs leave, every other buffer what it held. -/
def U10 (c : Dev nD) : Valuation τ sig (Elt F) :=
  Function.update (U9 m c) main_v86 ((dat4 (fun c b => U9 m c b) c).arrAt 4 cfg4.N)
/-- After the host stretch `hostOps5`: region 5's entry. -/
def U11 (c : Dev nD) : Valuation τ sig (Elt F) := StableHlo.after hostOps5 (U10 m c)
/-- After region 5: `main_v100` holds what the region's write-backs leave, every other buffer what it held. -/
def U12 (c : Dev nD) : Valuation τ sig (Elt F) :=
  Function.update (U11 m c) main_v100 ((dat5 (fun c b => U11 m c b) c).arrAt 4 cfg5.N)
/-- After the host stretch `hostOps6`: region 6's entry. -/
def U13 (c : Dev nD) : Valuation τ sig (Elt F) := StableHlo.after hostOps6 (U12 m c)
/-- After region 6: `main_v114` holds what the region's write-backs leave, every other buffer what it held. -/
def U14 (c : Dev nD) : Valuation τ sig (Elt F) :=
  Function.update (U13 m c) main_v114 ((dat6 (fun c b => U13 m c b) c).arrAt 4 cfg6.N)
/-- After the host stretch `hostOps7`: region 7's entry. -/
def U15 (c : Dev nD) : Valuation τ sig (Elt F) := StableHlo.after hostOps7 (U14 m c)
/-- After region 7: `main_v128` holds what the region's write-backs leave, every other buffer what it held. -/
def U16 (c : Dev nD) : Valuation τ sig (Elt F) :=
  Function.update (U15 m c) main_v128 ((dat7 (fun c b => U15 m c b) c).arrAt 4 cfg7.N)
/-- After the host stretch `hostOps8`: region 8's entry. -/
def U17 (c : Dev nD) : Valuation τ sig (Elt F) := StableHlo.after hostOps8 (U16 m c)
/-- After region 8: `main_v142` holds what the region's write-backs leave, every other buffer what it held. -/
def U18 (c : Dev nD) : Valuation τ sig (Elt F) :=
  Function.update (U17 m c) main_v142 ((dat8 (fun c b => U17 m c b) c).arrAt 4 cfg8.N)
/-- After the host stretch `hostOps9`: region 9's entry. -/
def U19 (c : Dev nD) : Valuation τ sig (Elt F) := StableHlo.after hostOps9 (U18 m c)
/-- After region 9: `main_v156` holds what the region's write-backs leave, every other buffer what it held. -/
def U20 (c : Dev nD) : Valuation τ sig (Elt F) :=
  Function.update (U19 m c) main_v156 ((dat9 (fun c b => U19 m c b) c).arrAt 4 cfg9.N)
/-- After the host stretch `hostOps10`: region 10's entry. -/
def U21 (c : Dev nD) : Valuation τ sig (Elt F) := StableHlo.after hostOps10 (U20 m c)
/-- After region 10: `main_v170` holds what the region's write-backs leave, every other buffer what it held. -/
def U22 (c : Dev nD) : Valuation τ sig (Elt F) :=
  Function.update (U21 m c) main_v170 ((dat10 (fun c b => U21 m c b) c).arrAt 4 cfg10.N)
/-- After region 11: `main_v171` holds what the region's write-backs leave, every other buffer what it held. -/
def U23 (c : Dev nD) : Valuation τ sig (Elt F) :=
  Function.update (U22 m c) main_v171 ((dat11 (fun c b => U22 m c b) c).arrAt 1 cfg11.N)

/-- What each region leaves in the buffer it may change, read off the boundary after it. -/
def outs : Gen.Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 23 => U23 m c r
  | _ => U1 m c r

/-! ## The conditional frame's valuations are these contents -/

theorem V_eq1 (c : Dev nD) : Gen.V1 m c = U1 m c := rfl
theorem V_eq2 (c : Dev nD) : Gen.V2 m (outs m) c = U2 m c := by
  have h : outs m 2 main_v2 c = U2 m c (Proc.devRef .tc main_v2) := rfl
  show Function.update (Gen.V1 m c) (Proc.devRef .tc main_v2) (outs m 2 main_v2 c) = U2 m c
  rw [h, V_eq1]; unfold U2; rw [Function.update_self]
theorem V_eq3 (c : Dev nD) : Gen.V3 m (outs m) c = U3 m c := by
  show StableHlo.after hostOps1 (Gen.V2 m (outs m) c) = U3 m c
  rw [V_eq2]; rfl
theorem V_eq4 (c : Dev nD) : Gen.V4 m (outs m) c = U4 m c := by
  have h : outs m 4 main_v44 c = U4 m c (Proc.devRef .tc main_v44) := rfl
  show Function.update (Gen.V3 m (outs m) c) (Proc.devRef .tc main_v44) (outs m 4 main_v44 c) = U4 m c
  rw [h, V_eq3]; unfold U4; rw [Function.update_self]
theorem V_eq5 (c : Dev nD) : Gen.V5 m (outs m) c = U5 m c := by
  show StableHlo.after hostOps2 (Gen.V4 m (outs m) c) = U5 m c
  rw [V_eq4]; rfl
theorem V_eq6 (c : Dev nD) : Gen.V6 m (outs m) c = U6 m c := by
  have h : outs m 6 main_v58 c = U6 m c (Proc.devRef .tc main_v58) := rfl
  show Function.update (Gen.V5 m (outs m) c) (Proc.devRef .tc main_v58) (outs m 6 main_v58 c) = U6 m c
  rw [h, V_eq5]; unfold U6; rw [Function.update_self]
theorem V_eq7 (c : Dev nD) : Gen.V7 m (outs m) c = U7 m c := by
  show StableHlo.after hostOps3 (Gen.V6 m (outs m) c) = U7 m c
  rw [V_eq6]; rfl
theorem V_eq8 (c : Dev nD) : Gen.V8 m (outs m) c = U8 m c := by
  have h : outs m 8 main_v72 c = U8 m c (Proc.devRef .tc main_v72) := rfl
  show Function.update (Gen.V7 m (outs m) c) (Proc.devRef .tc main_v72) (outs m 8 main_v72 c) = U8 m c
  rw [h, V_eq7]; unfold U8; rw [Function.update_self]
theorem V_eq9 (c : Dev nD) : Gen.V9 m (outs m) c = U9 m c := by
  show StableHlo.after hostOps4 (Gen.V8 m (outs m) c) = U9 m c
  rw [V_eq8]; rfl
theorem V_eq10 (c : Dev nD) : Gen.V10 m (outs m) c = U10 m c := by
  have h : outs m 10 main_v86 c = U10 m c (Proc.devRef .tc main_v86) := rfl
  show Function.update (Gen.V9 m (outs m) c) (Proc.devRef .tc main_v86) (outs m 10 main_v86 c) = U10 m c
  rw [h, V_eq9]; unfold U10; rw [Function.update_self]
theorem V_eq11 (c : Dev nD) : Gen.V11 m (outs m) c = U11 m c := by
  show StableHlo.after hostOps5 (Gen.V10 m (outs m) c) = U11 m c
  rw [V_eq10]; rfl
theorem V_eq12 (c : Dev nD) : Gen.V12 m (outs m) c = U12 m c := by
  have h : outs m 12 main_v100 c = U12 m c (Proc.devRef .tc main_v100) := rfl
  show Function.update (Gen.V11 m (outs m) c) (Proc.devRef .tc main_v100) (outs m 12 main_v100 c) = U12 m c
  rw [h, V_eq11]; unfold U12; rw [Function.update_self]
theorem V_eq13 (c : Dev nD) : Gen.V13 m (outs m) c = U13 m c := by
  show StableHlo.after hostOps6 (Gen.V12 m (outs m) c) = U13 m c
  rw [V_eq12]; rfl
theorem V_eq14 (c : Dev nD) : Gen.V14 m (outs m) c = U14 m c := by
  have h : outs m 14 main_v114 c = U14 m c (Proc.devRef .tc main_v114) := rfl
  show Function.update (Gen.V13 m (outs m) c) (Proc.devRef .tc main_v114) (outs m 14 main_v114 c) = U14 m c
  rw [h, V_eq13]; unfold U14; rw [Function.update_self]
theorem V_eq15 (c : Dev nD) : Gen.V15 m (outs m) c = U15 m c := by
  show StableHlo.after hostOps7 (Gen.V14 m (outs m) c) = U15 m c
  rw [V_eq14]; rfl
theorem V_eq16 (c : Dev nD) : Gen.V16 m (outs m) c = U16 m c := by
  have h : outs m 16 main_v128 c = U16 m c (Proc.devRef .tc main_v128) := rfl
  show Function.update (Gen.V15 m (outs m) c) (Proc.devRef .tc main_v128) (outs m 16 main_v128 c) = U16 m c
  rw [h, V_eq15]; unfold U16; rw [Function.update_self]
theorem V_eq17 (c : Dev nD) : Gen.V17 m (outs m) c = U17 m c := by
  show StableHlo.after hostOps8 (Gen.V16 m (outs m) c) = U17 m c
  rw [V_eq16]; rfl
theorem V_eq18 (c : Dev nD) : Gen.V18 m (outs m) c = U18 m c := by
  have h : outs m 18 main_v142 c = U18 m c (Proc.devRef .tc main_v142) := rfl
  show Function.update (Gen.V17 m (outs m) c) (Proc.devRef .tc main_v142) (outs m 18 main_v142 c) = U18 m c
  rw [h, V_eq17]; unfold U18; rw [Function.update_self]
theorem V_eq19 (c : Dev nD) : Gen.V19 m (outs m) c = U19 m c := by
  show StableHlo.after hostOps9 (Gen.V18 m (outs m) c) = U19 m c
  rw [V_eq18]; rfl
theorem V_eq20 (c : Dev nD) : Gen.V20 m (outs m) c = U20 m c := by
  have h : outs m 20 main_v156 c = U20 m c (Proc.devRef .tc main_v156) := rfl
  show Function.update (Gen.V19 m (outs m) c) (Proc.devRef .tc main_v156) (outs m 20 main_v156 c) = U20 m c
  rw [h, V_eq19]; unfold U20; rw [Function.update_self]
theorem V_eq21 (c : Dev nD) : Gen.V21 m (outs m) c = U21 m c := by
  show StableHlo.after hostOps10 (Gen.V20 m (outs m) c) = U21 m c
  rw [V_eq20]; rfl
theorem V_eq22 (c : Dev nD) : Gen.V22 m (outs m) c = U22 m c := by
  have h : outs m 22 main_v170 c = U22 m c (Proc.devRef .tc main_v170) := rfl
  show Function.update (Gen.V21 m (outs m) c) (Proc.devRef .tc main_v170) (outs m 22 main_v170 c) = U22 m c
  rw [h, V_eq21]; unfold U22; rw [Function.update_self]
theorem V_eq23 (c : Dev nD) : Gen.V23 m (outs m) c = U23 m c := by
  have h : outs m 23 main_v171 c = U23 m c (Proc.devRef .tc main_v171) := rfl
  show Function.update (Gen.V22 m (outs m) c) (Proc.devRef .tc main_v171) (outs m 23 main_v171 c) = U23 m c
  rw [h, V_eq22]; unfold U23; rw [Function.update_self]

/-! The same, as the functions of a core and a TensorCore reference that the regions' proof data take. -/

theorem V_fn1 : (fun (c : Dev nD) (b : Ref sig .tc) => Gen.V1 m c b) = fun (c : Dev nD) (b : Ref sig .tc) => U1 m c b := by
  funext c b; rw [V_eq1]
theorem V_fn3 : (fun (c : Dev nD) (b : Ref sig .tc) => Gen.V3 m (outs m) c b) = fun (c : Dev nD) (b : Ref sig .tc) => U3 m c b := by
  funext c b; rw [V_eq3]
theorem V_fn5 : (fun (c : Dev nD) (b : Ref sig .tc) => Gen.V5 m (outs m) c b) = fun (c : Dev nD) (b : Ref sig .tc) => U5 m c b := by
  funext c b; rw [V_eq5]
theorem V_fn7 : (fun (c : Dev nD) (b : Ref sig .tc) => Gen.V7 m (outs m) c b) = fun (c : Dev nD) (b : Ref sig .tc) => U7 m c b := by
  funext c b; rw [V_eq7]
theorem V_fn9 : (fun (c : Dev nD) (b : Ref sig .tc) => Gen.V9 m (outs m) c b) = fun (c : Dev nD) (b : Ref sig .tc) => U9 m c b := by
  funext c b; rw [V_eq9]
theorem V_fn11 : (fun (c : Dev nD) (b : Ref sig .tc) => Gen.V11 m (outs m) c b) = fun (c : Dev nD) (b : Ref sig .tc) => U11 m c b := by
  funext c b; rw [V_eq11]
theorem V_fn13 : (fun (c : Dev nD) (b : Ref sig .tc) => Gen.V13 m (outs m) c b) = fun (c : Dev nD) (b : Ref sig .tc) => U13 m c b := by
  funext c b; rw [V_eq13]
theorem V_fn15 : (fun (c : Dev nD) (b : Ref sig .tc) => Gen.V15 m (outs m) c b) = fun (c : Dev nD) (b : Ref sig .tc) => U15 m c b := by
  funext c b; rw [V_eq15]
theorem V_fn17 : (fun (c : Dev nD) (b : Ref sig .tc) => Gen.V17 m (outs m) c b) = fun (c : Dev nD) (b : Ref sig .tc) => U17 m c b := by
  funext c b; rw [V_eq17]
theorem V_fn19 : (fun (c : Dev nD) (b : Ref sig .tc) => Gen.V19 m (outs m) c b) = fun (c : Dev nD) (b : Ref sig .tc) => U19 m c b := by
  funext c b; rw [V_eq19]
theorem V_fn21 : (fun (c : Dev nD) (b : Ref sig .tc) => Gen.V21 m (outs m) c b) = fun (c : Dev nD) (b : Ref sig .tc) => U21 m c b := by
  funext c b; rw [V_eq21]
theorem V_fn22 : (fun (c : Dev nD) (b : Ref sig .tc) => Gen.V22 m (outs m) c b) = fun (c : Dev nD) (b : Ref sig .tc) => U22 m c b := by
  funext c b; rw [V_eq22]

/-! ## What each region leaves in its output array -/

/-- Region 0's output array after the region: its write-backs over the contents the region was entered with. -/
theorem V_out0 (c : Dev nD) :
    Gen.V2 m (outs m) c main_v2 = (dat0 (fun c b => Gen.V1 m c b) c).arrAt 5 cfg0.N := by
  rw [V_eq2, V_fn1]; unfold U2; rw [Function.update_self]
/-- Region 1's output array after the region: its write-backs over the contents the region was entered with. -/
theorem V_out1 (c : Dev nD) :
    Gen.V4 m (outs m) c main_v44 = (dat1 (fun c b => Gen.V3 m (outs m) c b) c).arrAt 4 cfg1.N := by
  rw [V_eq4, V_fn3]; unfold U4; rw [Function.update_self]
/-- Region 2's output array after the region: its write-backs over the contents the region was entered with. -/
theorem V_out2 (c : Dev nD) :
    Gen.V6 m (outs m) c main_v58 = (dat2 (fun c b => Gen.V5 m (outs m) c b) c).arrAt 4 cfg2.N := by
  rw [V_eq6, V_fn5]; unfold U6; rw [Function.update_self]
/-- Region 3's output array after the region: its write-backs over the contents the region was entered with. -/
theorem V_out3 (c : Dev nD) :
    Gen.V8 m (outs m) c main_v72 = (dat3 (fun c b => Gen.V7 m (outs m) c b) c).arrAt 4 cfg3.N := by
  rw [V_eq8, V_fn7]; unfold U8; rw [Function.update_self]
/-- Region 4's output array after the region: its write-backs over the contents the region was entered with. -/
theorem V_out4 (c : Dev nD) :
    Gen.V10 m (outs m) c main_v86 = (dat4 (fun c b => Gen.V9 m (outs m) c b) c).arrAt 4 cfg4.N := by
  rw [V_eq10, V_fn9]; unfold U10; rw [Function.update_self]
/-- Region 5's output array after the region: its write-backs over the contents the region was entered with. -/
theorem V_out5 (c : Dev nD) :
    Gen.V12 m (outs m) c main_v100 = (dat5 (fun c b => Gen.V11 m (outs m) c b) c).arrAt 4 cfg5.N := by
  rw [V_eq12, V_fn11]; unfold U12; rw [Function.update_self]
/-- Region 6's output array after the region: its write-backs over the contents the region was entered with. -/
theorem V_out6 (c : Dev nD) :
    Gen.V14 m (outs m) c main_v114 = (dat6 (fun c b => Gen.V13 m (outs m) c b) c).arrAt 4 cfg6.N := by
  rw [V_eq14, V_fn13]; unfold U14; rw [Function.update_self]
/-- Region 7's output array after the region: its write-backs over the contents the region was entered with. -/
theorem V_out7 (c : Dev nD) :
    Gen.V16 m (outs m) c main_v128 = (dat7 (fun c b => Gen.V15 m (outs m) c b) c).arrAt 4 cfg7.N := by
  rw [V_eq16, V_fn15]; unfold U16; rw [Function.update_self]
/-- Region 8's output array after the region: its write-backs over the contents the region was entered with. -/
theorem V_out8 (c : Dev nD) :
    Gen.V18 m (outs m) c main_v142 = (dat8 (fun c b => Gen.V17 m (outs m) c b) c).arrAt 4 cfg8.N := by
  rw [V_eq18, V_fn17]; unfold U18; rw [Function.update_self]
/-- Region 9's output array after the region: its write-backs over the contents the region was entered with. -/
theorem V_out9 (c : Dev nD) :
    Gen.V20 m (outs m) c main_v156 = (dat9 (fun c b => Gen.V19 m (outs m) c b) c).arrAt 4 cfg9.N := by
  rw [V_eq20, V_fn19]; unfold U20; rw [Function.update_self]
/-- Region 10's output array after the region: its write-backs over the contents the region was entered with. -/
theorem V_out10 (c : Dev nD) :
    Gen.V22 m (outs m) c main_v170 = (dat10 (fun c b => Gen.V21 m (outs m) c b) c).arrAt 4 cfg10.N := by
  rw [V_eq22, V_fn21]; unfold U22; rw [Function.update_self]
/-- Region 11's output array after the region: its write-backs over the contents the region was entered with. -/
theorem V_out11 (c : Dev nD) :
    Gen.V23 m (outs m) c main_v171 = (dat11 (fun c b => Gen.V22 m (outs m) c b) c).arrAt 1 cfg11.N := by
  rw [V_eq23, V_fn22]; unfold U23; rw [Function.update_self]

/-! ## The proof data family -/

/-- Every region's proof data at the contents the region is entered with: a literal match on the region's number. -/
def pdats : (p : Fin 12) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c
  | ⟨3, _⟩ => fun c => dat3 (fun c b => Gen.V7 m (outs m) c b) c
  | ⟨4, _⟩ => fun c => dat4 (fun c b => Gen.V9 m (outs m) c b) c
  | ⟨5, _⟩ => fun c => dat5 (fun c b => Gen.V11 m (outs m) c b) c
  | ⟨6, _⟩ => fun c => dat6 (fun c b => Gen.V13 m (outs m) c b) c
  | ⟨7, _⟩ => fun c => dat7 (fun c b => Gen.V15 m (outs m) c b) c
  | ⟨8, _⟩ => fun c => dat8 (fun c b => Gen.V17 m (outs m) c b) c
  | ⟨9, _⟩ => fun c => dat9 (fun c b => Gen.V19 m (outs m) c b) c
  | ⟨10, _⟩ => fun c => dat10 (fun c b => Gen.V21 m (outs m) c b) c
  | ⟨11, _⟩ => fun c => dat11 (fun c b => Gen.V22 m (outs m) c b) c

/-! ## What rides beside the buffers -/

/-- No core owes another anything: no level is assigned. -/
abbrev L : GSem nD τ sig → Finset Unit := fun _ => ∅
abbrev lv : GSem nD τ sig → Unit → ℕ := fun _ _ => 0
/-- Through every item: the core's generator register at some state and its `owes`, at nothing. -/
abbrev R (c : Dev nD) : sProp 𝕄 := iprop((∃ r, prngReg c r) ∗ ∃ W, owes (c : Thread nD τ) (0 : CellTallies nD τ sig Unit) W)

end Cert.Kernel.Fr

end
-- ==== Proof.K.RunCond.lean ====
/-
  The run of @main, given the twelve regions' segment records: every weakly fair execution from memory `m` with
  zero counters terminates, and in every final memory, on every core, the last region's output array holds what
  the last valuation of the unscoped buffers assigns it, and each of the six argument arrays holds its launch
  contents.
-/
import proofs.«114710_j78030965834312_1_alg».proof.Proof.Gen.Kernel.Regions

set_option maxRecDepth 1820

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states `E` the launch makes on
    every core at once (`hE0`) and that end owing nothing (`hE12`), any contents the regions leave (`outs`) and any
    proof data: given, per region K, a segment record entered from the thread state before it and left at the one
    after it (`RK`, `hpreK`, `hpostK`), every weakly fair execution of @main from memory `m` with zero counters
    terminates, and every final memory holds, on every core, the result array `main_v171` at the last valuation's
    contents `V23 m outs c main_v171` and each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V22 m outs c) ∗ E 11 c) ⊢ R11.pre c)
    (hpost11 : ∀ c : Dev nD, R11.post c ⊢ iprop(StableHlo.held (c : Thread nD τ) (Pipeline.ucRefs τ sig) (V23 m outs c) ∗ E 12 c)) :
    θ_run defs (onTc (τ := τ) (main (F := F))) ⟨m, fun _ => 0, ρ⟩ (fun r => ∀ c : Dev nD,
      r.2.mem ((c.tc : Thread nD τ).loc main_v171) = V23 m outs c main_v171
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          Prog.lift (.customCall (Pipeline.entry 11) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, (hpost10 c).trans (hpre11 c), (hpost11 c).trans (sep_mono .rfl (hE12 c))⟩)
    (hinit := ?_) (QY := fun c s => s.mem ((c.tc : Thread nD τ).loc main_v171) = V23 m outs c main_v171 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last region's output and each argument read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨h (Proc.devRef .tc main_v171) (Finset.mem_filter.mpr ⟨StableHlo.devRef_mem_tcRefs main_v171, by decide⟩),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c)⟩
    · iexact HSI

end Cert.Kernel.Fr

end
-- ==== Proof.K.Reg0.lean ====
/-
  Region 0 of @main as a segment between two boundaries.  It is entered with every unscoped buffer at the contents of
  boundary 1 and left with them at boundary 2, the generator register at some state and nothing owed riding along.
  At entry the windows' arrays are split out of the unscoped buffers; at exit they are put back: an input window's array
  is never written back, so it holds what it held, which is also what boundary 2 has there (the region changes `main_v2`
  only); the output window's array holds its write-backs, which is boundary 2's value at `main_v2`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 2 has there, the region changing `main_v2` only. -/
theorem hF0_in (c : Dev nD) (w : Fin 6) (hin : (cfg0.win w).isOut = false)
    (hne : Pipeline.arrRef spec0 w ∉ ([main_v2] : List (Ref sig .tc))) :
    (pdats m 0 c).arrAt w cfg0.N = Gen.V2 m (outs m) c (Pipeline.arrRef spec0 w) :=
  ((pdats m 0 c).arrAt_in w hin _).trans ((A_eq0 (fun c b => Gen.V1 m c b) c w).trans (Gen.V2_of m (outs m) c _ hne).symm)

/-- At the region's exit each window's array holds what boundary 2 has there: the inputs' as above, the output's its
    write-backs. -/
theorem hF0 (c : Dev nD) (w : Fin 6) : (pdats m 0 c).arrAt w cfg0.N = Gen.V2 m (outs m) c (Pipeline.arrRef spec0 w) := by
  by_cases h : w = 5
  · subst h; exact (V_out0 m c).symm
  · exact hF0_in m c w (by revert w; decide) (by revert w; decide)

/-- Off the windows' arrays boundary 2 is boundary 1: the region changes `main_v2` only, which is a window's array. -/
theorem hrest0 (c : Dev nD) : ∀ b : Ref sig .tc, b ∉ Finset.univ.image (Pipeline.arrRef spec0) → Gen.V2 m (outs m) c b = Gen.V1 m c b :=
  fun b hb => Gen.V2_of m (outs m) c b fun hmem => hb (by
    rw [List.mem_singleton.mp hmem]; exact Finset.mem_image.mpr ⟨5, Finset.mem_univ _, rfl⟩)

set_option backward.isDefEq.respectTransparency.types false in
/-- REGION 0 over the thread state: its arrays split out of the unscoped buffers at entry and put back at the exit
    contents; the generator register into the invariant and out; nothing owed; no semaphore of the kernel's own. -/
def reg0 (hb : ∀ c, BodyObligation (dat0 (F := F) (fun c b => Gen.V1 m c b) c) (defs₀ (F := F)) Variants.none () Set.univ) :
    Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Arr1.lean ====
/-
  Region 1 stages ONE buffer through two input windows: on the first propagation step the previous iterate and the
  dense layers' output are the same array, so windows 2 and 3 both read `main_v2`.  The buffers behind the region's
  five arrays are therefore four.  A window's array is held at the proof data's share for it; the two windows on the
  shared buffer hold the two halves of its full share (a share is the composite of its left and right halves), every
  other window its buffer's full share.  At the region's entry the four buffers, each whole at the full share, are
  dealt to the five windows by splitting the shared buffer's share; at its exit the two halves, both still at the
  contents the region was entered with (an input array is never written back), are joined again.
-/
import proofs.«114710_j78030965834312_1_alg».proof.Proof.Gen.Kernel.Launch
import proofs.«114710_j78030965834312_1_alg».proof.Proof.Gen.Kernel.Skeleton
import proofs.«114710_j78030965834312_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 1's arrays are four: windows 2 and 3 stage the same one. -/
theorem arrImage1 : Finset.univ.image (Pipeline.arrRef spec1) = {main_v43, main_v30, main_v2, main_v44} := by decide

/-- Those four buffers, each whole at the full share, written out. -/
theorem arrBufs1_eq (c : Dev nD) (V : (b : Ref sig .tc) → Buf (Elt F) ((c : Thread nD τ).loc b)) :
    (Pipeline.arrBufs spec1 c V : sProp 𝕄)
      = iprop((((c : Thread nD τ).loc main_v43) ↦{fullShare} V main_v43) ∗ (((c : Thread nD τ).loc main_v30) ↦{fullShare} V main_v30)
          ∗ (((c : Thread nD τ).loc main_v2) ↦{fullShare} V main_v2) ∗ (((c : Thread nD τ).loc main_v44) ↦{fullShare} V main_v44)) := by
  unfold Pipeline.arrBufs
  rw [arrImage1, bigSep_insert (by decide), bigSep_insert (by decide), bigSep_insert (by decide), bigSep_singleton]
  rfl

/-- Region 1's arrays, each a whole buffer, as points-tos of the buffers behind them at the proof data's shares. -/
theorem arrays1_eq (c : Dev nD) (dat : Dat τ (Elt F) Unit ℕ (UR sig nD τ) ℕ cfg1 c)
    (G : (w : Fin cfg1.W) → Buf (Elt F) ((cfg1.win w).arr.view.loc (c : Thread nD τ))) :
    (dat.arrays G : sProp 𝕄) = bigSep Finset.univ fun w : Fin cfg1.W => ((((c : Thread nD τ).loc (Pipeline.arrRef spec1 w)) ↦{dat.share w} G w : sProp 𝕄)) := by
  unfold Dat.arrays
  exact bigSep_congr fun w _ => by rw [(arr_whole1 w).set_eq_univ]

section Shares

-- any proof data of region 1 that holds windows 2 and 3 at the two halves of the full share and every other window
-- at the full share; `G` the arrays' contents, read off a valuation `V` of the buffers
variable (c : Dev nD) (dat : Dat τ (Elt F) Unit ℕ (UR sig nD τ) ℕ cfg1 c)
  (hs0 : dat.share 0 = fullShare) (hs1 : dat.share 1 = fullShare)
  (hs2 : dat.share 2 = fullShare.left) (hs3 : dat.share 3 = fullShare.right) (hs4 : dat.share 4 = fullShare)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

include hs0 hs1 hs2 hs3 hs4 hG

set_option maxHeartbeats 800000 in
/-- The four buffers at the full share make the five windows' arrays: the buffer that windows 2 and 3 both stage
    is split into the two halves of its share, `q = q.left · q.right`. -/
theorem arrays1_of_arrBufs : (Pipeline.arrBufs spec1 c V : sProp 𝕄) ⊢ dat.arrays G := by
  rw [arrBufs1_eq, arrays1_eq, bigSep_W1, hs0, hs1, hs2, hs3, hs4, hG 0, hG 1, hG 2, hG 3, hG 4]
  iintro ⟨H0, H1, H2, H4⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  iexact H4

set_option maxHeartbeats 800000 in
/-- The converse: the two halves, at the same contents, joined into the full share. -/
theorem arrBufs_of_arrays1 : (dat.arrays G : sProp 𝕄) ⊢ Pipeline.arrBufs spec1 c V := by
  rw [arrBufs1_eq, arrays1_eq, bigSep_W1, hs0, hs1, hs2, hs3, hs4, hG 0, hG 1, hG 2, hG 3, hG 4]
  iintro ⟨H0, H1, H2, H3, H4⟩
  isplitl [H0]; · iexact H0
  isplitl [H1]; · iexact H1
  isplitl [H2 H3]
  · iapply (pointsTo_share (PosShare.mem_left_op_right fullShare)).2
    isplitl [H2]; · iexact H2
    iexact H3
  iexact H4

/-- ENTRY: a core's unscoped buffers at contents `V` are region 1's arrays at those contents and the unscoped rest. -/
theorem arrays1_of_unscopedBufs :
    (unscopedBufs c V : sProp 𝕄) ⊢ iprop(dat.arrays G ∗ Pipeline.unscopedRest spec1 c V) := by
  rw [Pipeline.unscopedBufs_split₀ cfgs 1 winFacts₀1.arr_unscoped c V]
  exact sep_mono (arrays1_of_arrBufs c dat hs0 hs1 hs2 hs3 hs4 V G hG) .rfl

end Shares

/-- The four buffers at contents `V'` beside every other unscoped buffer at `V` are the core's unscoped buffers at
    `V'`, when `V'` agrees with `V` off the four. -/
theorem unscopedBufs_of_arrBufs1 (c : Dev nD) (V V' : (b : Ref sig .tc) → Buf (Elt F) ((c : Thread nD τ).loc b))
    (hrest : ∀ b, b ∉ Finset.univ.image (Pipeline.arrRef spec1) → V' b = V b) :
    iprop((Pipeline.arrBufs spec1 c V' : sProp 𝕄) ∗ Pipeline.unscopedRest spec1 c V) ⊢ (unscopedBufs c V' : sProp 𝕄) := by
  rw [Pipeline.unscopedBufs_split₀ cfgs 1 winFacts₀1.arr_unscoped c V']
  refine sep_mono .rfl (Entails.of_eq ?_)
  unfold Pipeline.unscopedRest
  exact bigSep_congr fun b hb => by rw [hrest b (Finset.mem_sdiff.mp hb).2]

/-- EXIT: region 1's arrays at contents `G` and the unscoped rest at `V` are the core's unscoped buffers at any
    valuation `V'` that has the arrays at `G` and agrees with `V` off them. -/
theorem unscopedBufs_of_arrays1 (c : Dev nD) (dat : Dat τ (Elt F) Unit ℕ (UR sig nD τ) ℕ cfg1 c)
    (hs0 : dat.share 0 = fullShare) (hs1 : dat.share 1 = fullShare)
    (hs2 : dat.share 2 = fullShare.left) (hs3 : dat.share 3 = fullShare.right) (hs4 : dat.share 4 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) :=
  (sep_mono (arrBufs_of_arrays1 c dat hs0 hs1 hs2 hs3 hs4 V' G hG) .rfl).trans (unscopedBufs_of_arrBufs1 c V V' hrest)

end Cert.Kernel.Fr

end
-- ==== Proof.K.Reg1.lean ====
/-
  Region 1 of @main as a segment between two boundaries.  It is entered with every unscoped buffer at the contents of
  boundary 3 and left with them at boundary 4, the generator register at some state and nothing owed riding along.
  Two of its input windows stage the same buffer, `main_v2` (on the first propagation step the previous iterate is the
  dense layers' output), so the buffers behind its five arrays are four.  At entry the four are split out of the
  unscoped buffers and dealt to the windows, the shared buffer's full share halved between windows 2 and 3; at exit
  the halves are joined and the buffers put back: an input window's array is never written back, so it holds what it
  held, which is also what boundary 4 has there (the region changes `main_v44` only); the output window's array holds
  its write-backs, which is boundary 4's value at `main_v44`; every other buffer is untouched.  The body obligation
  is a hypothesis.
-/
import proofs.«114710_j78030965834312_1_alg».proof.Proof.K.Chain
import proofs.«114710_j78030965834312_1_alg».proof.Proof.K.Arr1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what the region was entered with,
    which is what boundary 4 has there too, the buffer not being `main_v44`. -/
theorem hF1_in (c : Dev nD) (w : Fin cfg1.W) (hin : (cfg1.win w).isOut = false)
    (hne : Pipeline.arrRef spec1 w ∉ ([main_v44] : List (Ref sig .tc))) :
    (pdats m 1 c).arrAt w cfg1.N = Gen.V4 m (outs m) c (Pipeline.arrRef spec1 w) :=
  ((pdats m 1 c).arrAt_in w hin _).trans ((A_eq1 (fun c b => Gen.V3 m (outs m) c b) c w).trans (Gen.V4_of m (outs m) c _ hne).symm)

/-- At the region's exit each window's array holds what boundary 4 has there. -/
theorem hF1 (c : Dev nD) : ∀ w : Fin cfg1.W, (pdats m 1 c).arrAt w cfg1.N = Gen.V4 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => (V_out1 m c).symm
  | ⟨_ + 5, h⟩ => absurd h (Nat.not_lt.2 (Nat.le_add_left _ _))

/-- Off the windows' arrays boundary 4 is boundary 3: the region changes `main_v44` only, which is a window's array. -/
theorem hrest1 (c : Dev nD) : ∀ b : Ref sig .tc, b ∉ Finset.univ.image (Pipeline.arrRef spec1) → Gen.V4 m (outs m) c b = Gen.V3 m (outs m) c b :=
  fun b hb => Gen.V4_of m (outs m) c b fun hmem => hb (by
    rw [List.mem_singleton.mp hmem]; exact Finset.mem_image.mpr ⟨4, Finset.mem_univ _, rfl⟩)

set_option backward.isDefEq.respectTransparency.types false in
/-- REGION 1 over the thread state: the buffers behind its arrays split out of the unscoped buffers at entry, the one
    two windows share halved between them, and put back at the exit contents, the halves joined; the generator
    register into the invariant and out; nothing owed; no semaphore of the kernel's own. -/
def reg1 (hb : ∀ c, BodyObligation (dat1 (F := F) (fun c b => Gen.V3 m (outs m) c b) c) (defs₀ (F := F)) Variants.none () Set.univ) :
    Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := arrays1_of_unscopedBufs c (pdats m 1 c) rfl rfl rfl rfl rfl (fun b => Gen.V3 m (outs m) c b)
      ((pdats m 1 c).arrAt · 0) fun _ => rfl
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl rfl rfl rfl
      (fun b => Gen.V3 m (outs m) c b) (fun b => Gen.V4 m (outs m) c b) ((pdats m 1 c).arrAt · cfg1.N) (hF1 m c) (hrest1 m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg2.lean ====
/-
  Region 2 of @main as a segment between two boundaries.  It is entered with every unscoped buffer at the contents of
  boundary 5 and left with them at boundary 6, the generator register at some state and nothing owed riding along.
  At entry the windows' arrays are split out of the unscoped buffers; at exit they are put back: an input window's array
  is never written back, so it holds what it held, which is also what boundary 6 has there (the region changes `main_v58`
  only); the output window's array holds its write-backs, which is boundary 6's value at `main_v58`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 6 has there, the region changing `main_v58` only. -/
theorem hF2_in (c : Dev nD) (w : Fin 5) (hin : (cfg2.win w).isOut = false)
    (hne : Pipeline.arrRef spec2 w ∉ ([main_v58] : List (Ref sig .tc))) :
    (pdats m 2 c).arrAt w cfg2.N = Gen.V6 m (outs m) c (Pipeline.arrRef spec2 w) :=
  ((pdats m 2 c).arrAt_in w hin _).trans ((A_eq2 (fun c b => Gen.V5 m (outs m) c b) c w).trans (Gen.V6_of m (outs m) c _ hne).symm)

/-- At the region's exit each window's array holds what boundary 6 has there: the inputs' as above, the output's its
    write-backs. -/
theorem hF2 (c : Dev nD) (w : Fin 5) : (pdats m 2 c).arrAt w cfg2.N = Gen.V6 m (outs m) c (Pipeline.arrRef spec2 w) := by
  by_cases h : w = 4
  · subst h; exact (V_out2 m c).symm
  · exact hF2_in m c w (by revert w; decide) (by revert w; decide)

/-- Off the windows' arrays boundary 6 is boundary 5: the region changes `main_v58` only, which is a window's array. -/
theorem hrest2 (c : Dev nD) : ∀ b : Ref sig .tc, b ∉ Finset.univ.image (Pipeline.arrRef spec2) → Gen.V6 m (outs m) c b = Gen.V5 m (outs m) c b :=
  fun b hb => Gen.V6_of m (outs m) c b fun hmem => hb (by
    rw [List.mem_singleton.mp hmem]; exact Finset.mem_image.mpr ⟨4, Finset.mem_univ _, rfl⟩)

set_option backward.isDefEq.respectTransparency.types false in
/-- REGION 2 over the thread state: its arrays split out of the unscoped buffers at entry and put back at the exit
    contents; the generator register into the invariant and out; nothing owed; no semaphore of the kernel's own. -/
def reg2 (hb : ∀ c, BodyObligation (dat2 (F := F) (fun c b => Gen.V5 m (outs m) c b) c) (defs₀ (F := F)) Variants.none () Set.univ) :
    Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V5 m (outs m) c b) fun _ => rfl
    rw [Pipeline.unscopedBufs_held c (Gen.V5 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held c (Gen.V6 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg3.lean ====
/-
  Region 3 of @main as a segment between two boundaries.  It is entered with every unscoped buffer at the contents of
  boundary 7 and left with them at boundary 8, the generator register at some state and nothing owed riding along.
  At entry the windows' arrays are split out of the unscoped buffers; at exit they are put back: an input window's array
  is never written back, so it holds what it held, which is also what boundary 8 has there (the region changes `main_v72`
  only); the output window's array holds its write-backs, which is boundary 8's value at `main_v72`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 8 has there, the region changing `main_v72` only. -/
theorem hF3_in (c : Dev nD) (w : Fin 5) (hin : (cfg3.win w).isOut = false)
    (hne : Pipeline.arrRef spec3 w ∉ ([main_v72] : List (Ref sig .tc))) :
    (pdats m 3 c).arrAt w cfg3.N = Gen.V8 m (outs m) c (Pipeline.arrRef spec3 w) :=
  ((pdats m 3 c).arrAt_in w hin _).trans ((A_eq3 (fun c b => Gen.V7 m (outs m) c b) c w).trans (Gen.V8_of m (outs m) c _ hne).symm)

/-- At the region's exit each window's array holds what boundary 8 has there: the inputs' as above, the output's its
    write-backs. -/
theorem hF3 (c : Dev nD) (w : Fin 5) : (pdats m 3 c).arrAt w cfg3.N = Gen.V8 m (outs m) c (Pipeline.arrRef spec3 w) := by
  by_cases h : w = 4
  · subst h; exact (V_out3 m c).symm
  · exact hF3_in m c w (by revert w; decide) (by revert w; decide)

/-- Off the windows' arrays boundary 8 is boundary 7: the region changes `main_v72` only, which is a window's array. -/
theorem hrest3 (c : Dev nD) : ∀ b : Ref sig .tc, b ∉ Finset.univ.image (Pipeline.arrRef spec3) → Gen.V8 m (outs m) c b = Gen.V7 m (outs m) c b :=
  fun b hb => Gen.V8_of m (outs m) c b fun hmem => hb (by
    rw [List.mem_singleton.mp hmem]; exact Finset.mem_image.mpr ⟨4, Finset.mem_univ _, rfl⟩)

set_option backward.isDefEq.respectTransparency.types false in
/-- REGION 3 over the thread state: its arrays split out of the unscoped buffers at entry and put back at the exit
    contents; the generator register into the invariant and out; nothing owed; no semaphore of the kernel's own. -/
def reg3 (hb : ∀ c, BodyObligation (dat3 (F := F) (fun c b => Gen.V7 m (outs m) c b) c) (defs₀ (F := F)) Variants.none () Set.univ) :
    Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (hb c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V7 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V7 m (outs m) c b) fun _ => rfl
    rw [Pipeline.unscopedBufs_held c (Gen.V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V7 m (outs m) c b) (fun b => Gen.V8 m (outs m) c b) ((pdats m 3 c).arrAt · cfg3.N) (hF3 m c) (hrest3 m c)
    rw [Pipeline.unscopedBufs_held c (Gen.V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg4.lean ====
/-
  Region 4 of @main as a segment between two boundaries.  It is entered with every unscoped buffer at the contents of
  boundary 9 and left with them at boundary 10, the generator register at some state and nothing owed riding along.
  At entry the windows' arrays are split out of the unscoped buffers; at exit they are put back: an input window's array
  is never written back, so it holds what it held, which is also what boundary 10 has there (the region changes `main_v86`
  only); the output window's array holds its write-backs, which is boundary 10's value at `main_v86`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 10 has there, the region changing `main_v86` only. -/
theorem hF4_in (c : Dev nD) (w : Fin 5) (hin : (cfg4.win w).isOut = false)
    (hne : Pipeline.arrRef spec4 w ∉ ([main_v86] : List (Ref sig .tc))) :
    (pdats m 4 c).arrAt w cfg4.N = Gen.V10 m (outs m) c (Pipeline.arrRef spec4 w) :=
  ((pdats m 4 c).arrAt_in w hin _).trans ((A_eq4 (fun c b => Gen.V9 m (outs m) c b) c w).trans (Gen.V10_of m (outs m) c _ hne).symm)

/-- At the region's exit each window's array holds what boundary 10 has there: the inputs' as above, the output's its
    write-backs. -/
theorem hF4 (c : Dev nD) (w : Fin 5) : (pdats m 4 c).arrAt w cfg4.N = Gen.V10 m (outs m) c (Pipeline.arrRef spec4 w) := by
  by_cases h : w = 4
  · subst h; exact (V_out4 m c).symm
  · exact hF4_in m c w (by revert w; decide) (by revert w; decide)

/-- Off the windows' arrays boundary 10 is boundary 9: the region changes `main_v86` only, which is a window's array. -/
theorem hrest4 (c : Dev nD) : ∀ b : Ref sig .tc, b ∉ Finset.univ.image (Pipeline.arrRef spec4) → Gen.V10 m (outs m) c b = Gen.V9 m (outs m) c b :=
  fun b hb => Gen.V10_of m (outs m) c b fun hmem => hb (by
    rw [List.mem_singleton.mp hmem]; exact Finset.mem_image.mpr ⟨4, Finset.mem_univ _, rfl⟩)

set_option backward.isDefEq.respectTransparency.types false in
/-- REGION 4 over the thread state: its arrays split out of the unscoped buffers at entry and put back at the exit
    contents; the generator register into the invariant and out; nothing owed; no semaphore of the kernel's own. -/
def reg4 (hb : ∀ c, BodyObligation (dat4 (F := F) (fun c b => Gen.V9 m (outs m) c b) c) (defs₀ (F := F)) Variants.none () Set.univ) :
    Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (hb c).loose
  hwaits := Pipeline.hwaits_of_owed_zero _ _ _ _ L lv 4 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V9 m (outs m) c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => Gen.V9 m (outs m) c b) fun _ => rfl
    rw [Pipeline.unscopedBufs_held c (Gen.V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V9 m (outs m) c b) (fun b => Gen.V10 m (outs m) c b) ((pdats m 4 c).arrAt · cfg4.N) (hF4 m c) (hrest4 m c)
    rw [Pipeline.unscopedBufs_held c (Gen.V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg5.lean ====
/-
  Region 5 of @main as a segment between two boundaries.  It is entered with every unscoped buffer at the contents of
  boundary 11 and left with them at boundary 12, the generator register at some state and nothing owed riding along.
  At entry the windows' arrays are split out of the unscoped buffers; at exit they are put back: an input window's array
  is never written back, so it holds what it held, which is also what boundary 12 has there (the region changes `main_v100`
  only); the output window's array holds its write-backs, which is boundary 12's value at `main_v100`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 12 has there, the region changing `main_v100` only. -/
theorem hF5_in (c : Dev nD) (w : Fin 5) (hin : (cfg5.win w).isOut = false)
    (hne : Pipeline.arrRef spec5 w ∉ ([main_v100] : List (Ref sig .tc))) :
    (pdats m 5 c).arrAt w cfg5.N = Gen.V12 m (outs m) c (Pipeline.arrRef spec5 w) :=
  ((pdats m 5 c).arrAt_in w hin _).trans ((A_eq5 (fun c b => Gen.V11 m (outs m) c b) c w).trans (Gen.V12_of m (outs m) c _ hne).symm)

/-- At the region's exit each window's array holds what boundary 12 has there: the inputs' as above, the output's its
    write-backs. -/
theorem hF5 (c : Dev nD) (w : Fin 5) : (pdats m 5 c).arrAt w cfg5.N = Gen.V12 m (outs m) c (Pipeline.arrRef spec5 w) := by
  by_cases h : w = 4
  · subst h; exact (V_out5 m c).symm
  · exact hF5_in m c w (by revert w; decide) (by revert w; decide)

/-- Off the windows' arrays boundary 12 is boundary 11: the region changes `main_v100` only, which is a window's array. -/
theorem hrest5 (c : Dev nD) : ∀ b : Ref sig .tc, b ∉ Finset.univ.image (Pipeline.arrRef spec5) → Gen.V12 m (outs m) c b = Gen.V11 m (outs m) c b :=
  fun b hb => Gen.V12_of m (outs m) c b fun hmem => hb (by
    rw [List.mem_singleton.mp hmem]; exact Finset.mem_image.mpr ⟨4, Finset.mem_univ _, rfl⟩)

set_option backward.isDefEq.respectTransparency.types false in
/-- REGION 5 over the thread state: its arrays split out of the unscoped buffers at entry and put back at the exit
    contents; the generator register into the invariant and out; nothing owed; no semaphore of the kernel's own. -/
def reg5 (hb : ∀ c, BodyObligation (dat5 (F := F) (fun c b => Gen.V11 m (outs m) c b) c) (defs₀ (F := F)) Variants.none () Set.univ) :
    Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (hb c).loose
  hwaits := Pipeline.hwaits_of_owed_zero _ _ _ _ L lv 5 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V11 m (outs m) c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => Gen.V11 m (outs m) c b) fun _ => rfl
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V11 m (outs m) c b) (fun b => Gen.V12 m (outs m) c b) ((pdats m 5 c).arrAt · cfg5.N) (hF5 m c) (hrest5 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg6.lean ====
/-
  Region 6 of @main as a segment between two boundaries.  It is entered with every unscoped buffer at the contents of
  boundary 13 and left with them at boundary 14, the generator register at some state and nothing owed riding along.
  At entry the windows' arrays are split out of the unscoped buffers; at exit they are put back: an input window's array
  is never written back, so it holds what it held, which is also what boundary 14 has there (the region changes `main_v114`
  only); the output window's array holds its write-backs, which is boundary 14's value at `main_v114`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 14 has there, the region changing `main_v114` only. -/
theorem hF6_in (c : Dev nD) (w : Fin 5) (hin : (cfg6.win w).isOut = false)
    (hne : Pipeline.arrRef spec6 w ∉ ([main_v114] : List (Ref sig .tc))) :
    (pdats m 6 c).arrAt w cfg6.N = Gen.V14 m (outs m) c (Pipeline.arrRef spec6 w) :=
  ((pdats m 6 c).arrAt_in w hin _).trans ((A_eq6 (fun c b => Gen.V13 m (outs m) c b) c w).trans (Gen.V14_of m (outs m) c _ hne).symm)

/-- At the region's exit each window's array holds what boundary 14 has there: the inputs' as above, the output's its
    write-backs. -/
theorem hF6 (c : Dev nD) (w : Fin 5) : (pdats m 6 c).arrAt w cfg6.N = Gen.V14 m (outs m) c (Pipeline.arrRef spec6 w) := by
  by_cases h : w = 4
  · subst h; exact (V_out6 m c).symm
  · exact hF6_in m c w (by revert w; decide) (by revert w; decide)

/-- Off the windows' arrays boundary 14 is boundary 13: the region changes `main_v114` only, which is a window's array. -/
theorem hrest6 (c : Dev nD) : ∀ b : Ref sig .tc, b ∉ Finset.univ.image (Pipeline.arrRef spec6) → Gen.V14 m (outs m) c b = Gen.V13 m (outs m) c b :=
  fun b hb => Gen.V14_of m (outs m) c b fun hmem => hb (by
    rw [List.mem_singleton.mp hmem]; exact Finset.mem_image.mpr ⟨4, Finset.mem_univ _, rfl⟩)

set_option backward.isDefEq.respectTransparency.types false in
/-- REGION 6 over the thread state: its arrays split out of the unscoped buffers at entry and put back at the exit
    contents; the generator register into the invariant and out; nothing owed; no semaphore of the kernel's own. -/
def reg6 (hb : ∀ c, BodyObligation (dat6 (F := F) (fun c b => Gen.V13 m (outs m) c b) c) (defs₀ (F := F)) Variants.none () Set.univ) :
    Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (hb c).loose
  hwaits := Pipeline.hwaits_of_owed_zero _ _ _ _ L lv 6 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V13 m (outs m) c b)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (fun b => Gen.V13 m (outs m) c b) fun _ => rfl
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => Gen.V13 m (outs m) c b) (fun b => Gen.V14 m (outs m) c b) ((pdats m 6 c).arrAt · cfg6.N) (hF6 m c) (hrest6 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg7.lean ====
/-
  Region 7 of @main as a segment between two boundaries.  It is entered with every unscoped buffer at the contents of
  boundary 15 and left with them at boundary 16, the generator register at some state and nothing owed riding along.
  At entry the windows' arrays are split out of the unscoped buffers; at exit they are put back: an input window's array
  is never written back, so it holds what it held, which is also what boundary 16 has there (the region changes `main_v128`
  only); the output window's array holds its write-backs, which is boundary 16's value at `main_v128`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 16 has there, the region changing `main_v128` only. -/
theorem hF7_in (c : Dev nD) (w : Fin 5) (hin : (cfg7.win w).isOut = false)
    (hne : Pipeline.arrRef spec7 w ∉ ([main_v128] : List (Ref sig .tc))) :
    (pdats m 7 c).arrAt w cfg7.N = Gen.V16 m (outs m) c (Pipeline.arrRef spec7 w) :=
  ((pdats m 7 c).arrAt_in w hin _).trans ((A_eq7 (fun c b => Gen.V15 m (outs m) c b) c w).trans (Gen.V16_of m (outs m) c _ hne).symm)

/-- At the region's exit each window's array holds what boundary 16 has there: the inputs' as above, the output's its
    write-backs. -/
theorem hF7 (c : Dev nD) (w : Fin 5) : (pdats m 7 c).arrAt w cfg7.N = Gen.V16 m (outs m) c (Pipeline.arrRef spec7 w) := by
  by_cases h : w = 4
  · subst h; exact (V_out7 m c).symm
  · exact hF7_in m c w (by revert w; decide) (by revert w; decide)

/-- Off the windows' arrays boundary 16 is boundary 15: the region changes `main_v128` only, which is a window's array. -/
theorem hrest7 (c : Dev nD) : ∀ b : Ref sig .tc, b ∉ Finset.univ.image (Pipeline.arrRef spec7) → Gen.V16 m (outs m) c b = Gen.V15 m (outs m) c b :=
  fun b hb => Gen.V16_of m (outs m) c b fun hmem => hb (by
    rw [List.mem_singleton.mp hmem]; exact Finset.mem_image.mpr ⟨4, Finset.mem_univ _, rfl⟩)

set_option backward.isDefEq.respectTransparency.types false in
/-- REGION 7 over the thread state: its arrays split out of the unscoped buffers at entry and put back at the exit
    contents; the generator register into the invariant and out; nothing owed; no semaphore of the kernel's own. -/
def reg7 (hb : ∀ c, BodyObligation (dat7 (F := F) (fun c b => Gen.V15 m (outs m) c b) c) (defs₀ (F := F)) Variants.none () Set.univ) :
    Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (hb c).loose
  hwaits := Pipeline.hwaits_of_owed_zero _ _ _ _ L lv 7 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V15 m (outs m) c b)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (fun b => Gen.V15 m (outs m) c b) fun _ => rfl
    rw [Pipeline.unscopedBufs_held c (Gen.V15 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => Gen.V15 m (outs m) c b) (fun b => Gen.V16 m (outs m) c b) ((pdats m 7 c).arrAt · cfg7.N) (hF7 m c) (hrest7 m c)
    rw [Pipeline.unscopedBufs_held c (Gen.V16 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg8.lean ====
/-
  Region 8 of @main as a segment between two boundaries.  It is entered with every unscoped buffer at the contents of
  boundary 17 and left with them at boundary 18, the generator register at some state and nothing owed riding along.
  At entry the windows' arrays are split out of the unscoped buffers; at exit they are put back: an input window's array
  is never written back, so it holds what it held, which is also what boundary 18 has there (the region changes `main_v142`
  only); the output window's array holds its write-backs, which is boundary 18's value at `main_v142`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 18 has there, the region changing `main_v142` only. -/
theorem hF8_in (c : Dev nD) (w : Fin 5) (hin : (cfg8.win w).isOut = false)
    (hne : Pipeline.arrRef spec8 w ∉ ([main_v142] : List (Ref sig .tc))) :
    (pdats m 8 c).arrAt w cfg8.N = Gen.V18 m (outs m) c (Pipeline.arrRef spec8 w) :=
  ((pdats m 8 c).arrAt_in w hin _).trans ((A_eq8 (fun c b => Gen.V17 m (outs m) c b) c w).trans (Gen.V18_of m (outs m) c _ hne).symm)

/-- At the region's exit each window's array holds what boundary 18 has there: the inputs' as above, the output's its
    write-backs. -/
theorem hF8 (c : Dev nD) (w : Fin 5) : (pdats m 8 c).arrAt w cfg8.N = Gen.V18 m (outs m) c (Pipeline.arrRef spec8 w) := by
  by_cases h : w = 4
  · subst h; exact (V_out8 m c).symm
  · exact hF8_in m c w (by revert w; decide) (by revert w; decide)

/-- Off the windows' arrays boundary 18 is boundary 17: the region changes `main_v142` only, which is a window's array. -/
theorem hrest8 (c : Dev nD) : ∀ b : Ref sig .tc, b ∉ Finset.univ.image (Pipeline.arrRef spec8) → Gen.V18 m (outs m) c b = Gen.V17 m (outs m) c b :=
  fun b hb => Gen.V18_of m (outs m) c b fun hmem => hb (by
    rw [List.mem_singleton.mp hmem]; exact Finset.mem_image.mpr ⟨4, Finset.mem_univ _, rfl⟩)

set_option backward.isDefEq.respectTransparency.types false in
/-- REGION 8 over the thread state: its arrays split out of the unscoped buffers at entry and put back at the exit
    contents; the generator register into the invariant and out; nothing owed; no semaphore of the kernel's own. -/
def reg8 (hb : ∀ c, BodyObligation (dat8 (F := F) (fun c b => Gen.V17 m (outs m) c b) c) (defs₀ (F := F)) Variants.none () Set.univ) :
    Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (hb c).loose
  hwaits := Pipeline.hwaits_of_owed_zero _ _ _ _ L lv 8 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => Gen.V17 m (outs m) c b)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (fun b => Gen.V17 m (outs m) c b) fun _ => rfl
    rw [Pipeline.unscopedBufs_held c (Gen.V17 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (fun b => Gen.V17 m (outs m) c b) (fun b => Gen.V18 m (outs m) c b) ((pdats m 8 c).arrAt · cfg8.N) (hF8 m c) (hrest8 m c)
    rw [Pipeline.unscopedBufs_held c (Gen.V18 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg9.lean ====
/-
  Region 9 of @main as a segment between two boundaries.  It is entered with every unscoped buffer at the contents of
  boundary 19 and left with them at boundary 20, the generator register at some state and nothing owed riding along.
  At entry the windows' arrays are split out of the unscoped buffers; at exit they are put back: an input window's array
  is never written back, so it holds what it held, which is also what boundary 20 has there (the region changes `main_v156`
  only); the output window's array holds its write-backs, which is boundary 20's value at `main_v156`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 20 has there, the region changing `main_v156` only. -/
theorem hF9_in (c : Dev nD) (w : Fin 5) (hin : (cfg9.win w).isOut = false)
    (hne : Pipeline.arrRef spec9 w ∉ ([main_v156] : List (Ref sig .tc))) :
    (pdats m 9 c).arrAt w cfg9.N = Gen.V20 m (outs m) c (Pipeline.arrRef spec9 w) :=
  ((pdats m 9 c).arrAt_in w hin _).trans ((A_eq9 (fun c b => Gen.V19 m (outs m) c b) c w).trans (Gen.V20_of m (outs m) c _ hne).symm)

/-- At the region's exit each window's array holds what boundary 20 has there: the inputs' as above, the output's its
    write-backs. -/
theorem hF9 (c : Dev nD) (w : Fin 5) : (pdats m 9 c).arrAt w cfg9.N = Gen.V20 m (outs m) c (Pipeline.arrRef spec9 w) := by
  by_cases h : w = 4
  · subst h; exact (V_out9 m c).symm
  · exact hF9_in m c w (by revert w; decide) (by revert w; decide)

/-- Off the windows' arrays boundary 20 is boundary 19: the region changes `main_v156` only, which is a window's array. -/
theorem hrest9 (c : Dev nD) : ∀ b : Ref sig .tc, b ∉ Finset.univ.image (Pipeline.arrRef spec9) → Gen.V20 m (outs m) c b = Gen.V19 m (outs m) c b :=
  fun b hb => Gen.V20_of m (outs m) c b fun hmem => hb (by
    rw [List.mem_singleton.mp hmem]; exact Finset.mem_image.mpr ⟨4, Finset.mem_univ _, rfl⟩)

set_option backward.isDefEq.respectTransparency.types false in
/-- REGION 9 over the thread state: its arrays split out of the unscoped buffers at entry and put back at the exit
    contents; the generator register into the invariant and out; nothing owed; no semaphore of the kernel's own. -/
def reg9 (hb : ∀ c, BodyObligation (dat9 (F := F) (fun c b => Gen.V19 m (outs m) c b) c) (defs₀ (F := F)) Variants.none () Set.univ) :
    Pipeline.RegionSeg (pcfgs (F := F)) Gen.adm (pdats m) () defs₀ Variants.none L lv 9 where
  win := launch9.win.to₀
  block_pos := launch9.block_pos
  stage_whole := launch9.stage_whole
  K := PEmpty
  osem k := k.elim
  ho := Pipeline.OwnSemFacts.none _
  hbody c := (hb c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec9 c (fun b => Gen.V19 m (outs m) c b)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (fun b => Gen.V19 m (outs m) c b) fun _ => rfl
    rw [Pipeline.unscopedBufs_held c (Gen.V19 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (fun b => Gen.V19 m (outs m) c b) (fun b => Gen.V20 m (outs m) c b) ((pdats m 9 c).arrAt · cfg9.N) (hF9 m c) (hrest9 m c)
    rw [Pipeline.unscopedBufs_held c (Gen.V20 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg10.lean ====
/-
  Region 10 of @main as a segment between two boundaries.  It is entered with every unscoped buffer at the contents of
  boundary 21 and left with them at boundary 22, the generator register at some state and nothing owed riding along.
  At entry the windows' arrays are split out of the unscoped buffers; at exit they are put back: an input window's array
  is never written back, so it holds what it held, which is also what boundary 22 has there (the region changes `main_v170`
  only); the output window's array holds its write-backs, which is boundary 22's value at `main_v170`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 22 has there, the region changing `main_v170` only. -/
theorem hF10_in (c : Dev nD) (w : Fin 5) (hin : (cfg10.win w).isOut = false)
    (hne : Pipeline.arrRef spec10 w ∉ ([main_v170] : List (Ref sig .tc))) :
    (pdats m 10 c).arrAt w cfg10.N = Gen.V22 m (outs m) c (Pipeline.arrRef spec10 w) :=
  ((pdats m 10 c).arrAt_in w hin _).trans ((A_eq10 (fun c b => Gen.V21 m (outs m) c b) c w).trans (Gen.V22_of m (outs m) c _ hne).symm)

/-- At the region's exit each window's array holds what boundary 22 has there: the inputs' as above, the output's its
    write-backs. -/
theorem hF10 (c : Dev nD) (w : Fin 5) : (pdats m 10 c).arrAt w cfg10.N = Gen.V22 m (outs m) c (Pipeline.arrRef spec10 w) := by
  by_cases h : w = 4
  · subst h; exact (V_out10 m c).symm
  · exact hF10_in m c w (by revert w; decide) (by revert w; decide)

/-- Off the windows' arrays boundary 22 is boundary 21: the region changes `main_v170` only, which is a window's array. -/
theorem hrest10 (c : Dev nD) : ∀ b : Ref sig .tc, b ∉ Finset.univ.image (Pipeline.arrRef spec10) → Gen.V22 m (outs m) c b = Gen.V21 m (outs m) c b :=
  fun b hb => Gen.V22_of m (outs m) c b fun hmem => hb (by
    rw [List.mem_singleton.mp hmem]; exact Finset.mem_image.mpr ⟨4, Finset.mem_univ _, rfl⟩)

set_option backward.isDefEq.respectTransparency.types false in
/-- REGION 10 over the thread state: its arrays split out of the unscoped buffers at entry and put back at the exit
    contents; the generator register into the invariant and out; nothing owed; no semaphore of the kernel's own. -/
def reg10 (hb : ∀ c, BodyObligation (dat10 (F := F) (fun c b => Gen.V21 m (outs m) c b) c) (defs₀ (F := F)) Variants.none () Set.univ) :
    Pipeline.RegionSeg (pcfgs (F := F)) Gen.adm (pdats m) () defs₀ Variants.none L lv 10 where
  win := launch10.win.to₀
  block_pos := launch10.block_pos
  stage_whole := launch10.stage_whole
  K := PEmpty
  osem k := k.elim
  ho := Pipeline.OwnSemFacts.none _
  hbody c := (hb c).loose
  hwaits := Pipeline.hwaits_of_owed_zero _ _ _ _ L lv 10 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec10 c (fun b => Gen.V21 m (outs m) c b)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (fun b => Gen.V21 m (outs m) c b) fun _ => rfl
    rw [Pipeline.unscopedBufs_held c (Gen.V21 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun _ => rfl)
      (fun b => Gen.V21 m (outs m) c b) (fun b => Gen.V22 m (outs m) c b) ((pdats m 10 c).arrAt · cfg10.N) (hF10 m c) (hrest10 m c)
    rw [Pipeline.unscopedBufs_held c (Gen.V22 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg11.lean ====
/-
  Region 11 of @main as a segment between two boundaries.  It is entered with every unscoped buffer at the contents of
  boundary 22 and left with them at boundary 23, the generator register at some state and nothing owed riding along.
  At entry the windows' arrays are split out of the unscoped buffers; at exit they are put back: an input window's array
  is never written back, so it holds what it held, which is also what boundary 23 has there (the region changes `main_v171`
  only); the output window's array holds its write-backs, which is boundary 23's value at `main_v171`; every other
  buffer is untouched.  The body obligation is a hypothesis.
-/
import proofs.«114710_j78030965834312_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 23 has there, the region changing `main_v171` only. -/
theorem hF11_in (c : Dev nD) (w : Fin 2) (hin : (cfg11.win w).isOut = false)
    (hne : Pipeline.arrRef spec11 w ∉ ([main_v171] : List (Ref sig .tc))) :
    (pdats m 11 c).arrAt w cfg11.N = Gen.V23 m (outs m) c (Pipeline.arrRef spec11 w) :=
  ((pdats m 11 c).arrAt_in w hin _).trans ((A_eq11 (fun c b => Gen.V22 m (outs m) c b) c w).trans (Gen.V23_of m (outs m) c _ hne).symm)

/-- At the region's exit each window's array holds what boundary 23 has there: the inputs' as above, the output's its
    write-backs. -/
theorem hF11 (c : Dev nD) (w : Fin 2) : (pdats m 11 c).arrAt w cfg11.N = Gen.V23 m (outs m) c (Pipeline.arrRef spec11 w) := by
  by_cases h : w = 1
  · subst h; exact (V_out11 m c).symm
  · exact hF11_in m c w (by revert w; decide) (by revert w; decide)

/-- Off the windows' arrays boundary 23 is boundary 22: the region changes `main_v171` only, which is a window's array. -/
theorem hrest11 (c : Dev nD) : ∀ b : Ref sig .tc, b ∉ Finset.univ.image (Pipeline.arrRef spec11) → Gen.V23 m (outs m) c b = Gen.V22 m (outs m) c b :=
  fun b hb => Gen.V23_of m (outs m) c b fun hmem => hb (by
    rw [List.mem_singleton.mp hmem]; exact Finset.mem_image.mpr ⟨1, Finset.mem_univ _, rfl⟩)

set_option backward.isDefEq.respectTransparency.types false in
/-- REGION 11 over the thread state: its arrays split out of the unscoped buffers at entry and put back at the exit
    contents; the generator register into the invariant and out; nothing owed; no semaphore of the kernel's own. -/
def reg11 (hb : ∀ c, BodyObligation (dat11 (F := F) (fun c b => Gen.V22 m (outs m) c b) c) (defs₀ (F := F)) Variants.none () Set.univ) :
    Pipeline.RegionSeg (pcfgs (F := F)) Gen.adm (pdats m) () defs₀ Variants.none L lv 11 where
  win := launch11.win.to₀
  block_pos := launch11.block_pos
  stage_whole := launch11.stage_whole
  K := PEmpty
  osem k := k.elim
  ho := Pipeline.OwnSemFacts.none _
  hbody c := (hb c).loose
  hwaits := Pipeline.hwaits_of_owed_zero _ _ _ _ L lv 11 fun _ _ => rfl
  pre c := iprop(StableHlo.held (c : Thread nD τ) (Pipeline.ucRefs τ sig) (Gen.V22 m (outs m) c) ∗ R c)
  post c := iprop(StableHlo.held (c : Thread nD τ) (Pipeline.ucRefs τ sig) (Gen.V23 m (outs m) c) ∗ R c)
  X c := iprop(∃ r, prngReg c r)
  Y c := iprop(∃ r, prngReg c r)
  Z c := Pipeline.unscopedRest (Ix := Unit) (Name := ℕ) (U := UR sig nD τ) (Lvl := ℕ) spec11 c (fun b => Gen.V22 m (outs m) c b)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (fun b => Gen.V22 m (outs m) c b) fun _ => rfl
    rw [Pipeline.unscopedBufs_held c (Gen.V22 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun _ => rfl)
      (fun b => Gen.V22 m (outs m) c b) (fun b => Gen.V23 m (outs m) c b) ((pdats m 11 c).arrAt · cfg11.N) (hF11 m c) (hrest11 m c)
    rw [Pipeline.unscopedBufs_held c (Gen.V23 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Body0.lean ====
/-
  Region 0's body obligation: the kernel body, run on the windows' staging buffers at a grid point, leaves
  every input block as it was fetched and the output block at its one whole-block store.
-/
import proofs.«114710_j78030965834312_1_alg».proof.Proof.K.Dat0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Input window 0's current staging buffer holds its block at every point, fetched there or not, for any proof
    data whose array is `V`'s and whose body leaves the block in place: where the window is not fetched its block
    index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved, so the buffer still holds this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: where the window is not fetched its block
    index has not moved, so the buffer still holds this point's block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output block's one store covers it -/

theorem cover0 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the inputs' at read contents `x0 … x4` and the output's at anything, runs
    to the continuation holding the inputs' as they were and the output's at `out0` of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x47 .f32) (harg4 : arg4.IsWhole)
    (arg5 : Memref sig .tc .vmem S1x47 .f32) (harg5 : arg5.IsWhole) (arg6 : Memref sig .tc .vmem S5000x47 .f32) (harg6 : arg6.IsWhole)
    (x0 : Vec F S5000x128 .f32) (x1 : Vec F S128x256 .f32) (x2 : Vec F S1x256 .f32) (x3 : Vec F S256x47 .f32) (x4 : Vec F S1x47 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the self-loop weights, a column): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the previous iterate): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the dense layers' output): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its block -/

/-- The body's one store is through the whole-block rectangle, which tiles the block, so it covers it. -/
theorem cover1 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel1 (c : Dev nD) (E : Set ℕ) (i : grid1.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The input windows, at the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the self-loop weights, a column): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the previous iterate): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the dense layers' output): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The output's one store covers its block -/

/-- The body's one store is through the whole-block rectangle, which tiles the block, so it covers it. -/
theorem cover2 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel2 (c : Dev nD) (E : Set ℕ) (i : grid2.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The input windows, at the region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, what the core owes, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/-
  Region 3's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the self-loop weights, a column): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the previous iterate): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the dense layers' output): the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The output's one store covers its block -/

/-- The body's one store is through the whole-block rectangle, which tiles the block, so it covers it. -/
theorem cover3 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel3 (c : Dev nD) (E : Set ℕ) (i : grid3.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The input windows, at the region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, what the core owes, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Body4.lean ====
/-
  Region 4's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat4

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the self-loop weights, a column): the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the previous iterate): the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the dense layers' output): the same. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The output's one store covers its block -/

/-- The body's one store is through the whole-block rectangle, which tiles the block, so it covers it. -/
theorem cover4 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel4 (c : Dev nD) (E : Set ℕ) (i : grid4.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The input windows, at the region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`: the invariant, what the core owes, and each window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: the same, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Body5.lean ====
/-
  Region 5's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the self-loop weights, a column): the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the previous iterate): the same. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the dense layers' output): the same. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The output's one store covers its block -/

/-- The body's one store is through the whole-block rectangle, which tiles the block, so it covers it. -/
theorem cover5 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel5 (c : Dev nD) (E : Set ℕ) (i : grid5.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

/-! ## The input windows, at the region's proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, what the core owes, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns: the same, each buffer at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Body6.lean ====
/-
  Region 6's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat6

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the self-loop weights, a column): the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the previous iterate): the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the dense layers' output): the same. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The output's one store covers its block -/

/-- The body's one store is through the whole-block rectangle, which tiles the block, so it covers it. -/
theorem cover6 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel6 (c : Dev nD) (E : Set ℕ) (i : grid6.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6 x0 x1 x2 x3)) -∗ K ⟨⟩))
      ⊢ wp frame (wpE (defs₀ (F := F)) Variants.none c none) E (cc6__combine_kernel i arg1 harg1 arg2 harg2 arg3 harg3 arg4 harg4 arg5 harg5) K := by
  simp only [cc6__combine_kernel_eq_skeleton]; unfold cc6__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6 _)

/-! ## The input windows, at the region's proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`: the invariant, what the core owes, and each window's current staging
    buffer at what the pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns: the same, each buffer at what the proof data says the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.Body7.lean ====
/-
  Region 7's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat7

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the self-loop weights, a column): the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the previous iterate): the same. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3 (the dense layers' output): the same. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The output's one store covers its block -/

/-- The body's one store is through the whole-block rectangle, which tiles the block, so it covers it. -/
theorem cover7 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel7 (c : Dev nD) (E : Set ℕ) (i : grid7.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7 x0 x1 x2 x3)) -∗ K ⟨⟩))
      ⊢ wp frame (wpE (defs₀ (F := F)) Variants.none c none) E (cc7__combine_kernel i arg1 harg1 arg2 harg2 arg3 harg3 arg4 harg4 arg5 harg5) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

/-! ## The input windows, at the region's proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`: the invariant, what the core owes, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns: the same, each buffer at what the proof data says the body leaves. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.Body8.lean ====
/-
  Region 8's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat8

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the self-loop weights, a column): the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 (the previous iterate): the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 (the dense layers' output): the same. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The output's one store covers its block -/

/-- The body's one store is through the whole-block rectangle, which tiles the block, so it covers it. -/
theorem cover8 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel8 (c : Dev nD) (E : Set ℕ) (i : grid8.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8 x0 x1 x2 x3)) -∗ K ⟨⟩))
      ⊢ wp frame (wpE (defs₀ (F := F)) Variants.none c none) E (cc8__combine_kernel i arg1 harg1 arg2 harg2 arg3 harg3 arg4 harg4 arg5 harg5) K := by
  simp only [cc8__combine_kernel_eq_skeleton]; unfold cc8__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8 _)

/-! ## The input windows, at the region's proof data -/

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`: the invariant, what the core owes, and each window's current staging
    buffer at what the pipeline left there, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns: the same, each buffer at what the proof data says the body leaves. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.K.Body9.lean ====
/-
  Region 9's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat9

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the self-loop weights, a column): the same. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the previous iterate): the same. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3 (the dense layers' output): the same. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The output's one store covers its block -/

/-- The body's one store is through the whole-block rectangle, which tiles the block, so it covers it. -/
theorem cover9 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel9 (c : Dev nD) (E : Set ℕ) (i : grid9.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9 x0 x1 x2 x3)) -∗ K ⟨⟩))
      ⊢ wp frame (wpE (defs₀ (F := F)) Variants.none c none) E (cc9__combine_kernel i arg1 harg1 arg2 harg2 arg3 harg3 arg4 harg4 arg5 harg5) K := by
  simp only [cc9__combine_kernel_eq_skeleton]; unfold cc9__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9 _)

/-! ## The input windows, at the region's proof data -/

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`: the invariant, what the core owes, and each window's current staging
    buffer at what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns: the same, each buffer at what the proof data says the body leaves. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.K.Body10.lean ====
/-
  Region 10's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.K.Dat10

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the self-loop weights, a column): the same. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2 (the previous iterate): the same. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3 (the dense layers' output): the same. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The output's one store covers its block -/

/-- The body's one store is through the whole-block rectangle, which tiles the block, so it covers it. -/
theorem cover10 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel10 (c : Dev nD) (E : Set ℕ) (i : grid10.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out10 x0 x1 x2 x3)) -∗ K ⟨⟩))
      ⊢ wp frame (wpE (defs₀ (F := F)) Variants.none c none) E (cc10__combine_kernel i arg1 harg1 arg2 harg2 arg3 harg3 arg4 harg4 arg5 harg5) K := by
  simp only [cc10__combine_kernel_eq_skeleton]; unfold cc10__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10 _)

/-! ## The input windows, at the region's proof data -/

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point `t`: the invariant, what the core owes, and each window's current staging
    buffer at what the pipeline left there, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns: the same, each buffer at what the proof data says the body leaves. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ (grid10.coords t) _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.K.Body11.lean ====
/-
  Region 11's body obligation: the kernel body, run on the windows' staging buffers at a grid point, leaves
  every input block as it was fetched and the output block at its one whole-block store.
-/
import proofs.«114710_j78030965834312_1_alg».proof.Proof.K.Dat11

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- The input window's current staging buffer holds its block at every point, for any proof data whose array is
    `V`'s and whose body leaves the block in place: the window is fetched at every point, uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## The output block's one store covers it -/

theorem cover11 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the input's at contents `x0` and the output's at anything, runs to the
    continuation holding the input's as it was and the output's at `out11 x0`. -/
theorem sound_kernel11 (c : Dev nD) (E : Set ℕ) (i : grid11.Coords) (arg1 : Memref sig .tc .vmem S5000x47 .f32) (harg1 : arg1.IsWhole)
    (arg2 : Memref sig .tc .vmem S5000x47 .f32) (harg2 : arg2.IsWhole)
    (x0 : Vec F S5000x47 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out11 x0)) -∗ K ⟨⟩))
      ⊢ wp frame (wpE (defs₀ (F := F)) Variants.none c none) E (cc11__log_softmax_kernel i arg1 harg1 arg2 harg2) K := by
  simp only [cc11__log_softmax_kernel_eq_skeleton]; unfold cc11__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover11 _)

/-- The input's current staging buffer holds its block at every point. -/
theorem before11_0 (c : Dev nD) (t : Fin cfg11.N) (d) : (dat11 V c).before 0 t d = iblk11 V c 0 t :=
  before11_0_of V (dat11 V c) (A_eq11 V c 0) (after11_0 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t))

/-- The body at any point: the input's memref holds its block, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0]
  rw [show (dat11 V c).Φ t.succ = (dat11 V c).Φ t.castSucc from rfl,
    show (dat11 V c).owesAt () t.succ = (dat11 V c).owesAt () t.castSucc from rfl,
    after11_0, after11_1]
  iintro ⟨HΦ, Ho, ⟨%d0, H0⟩, ⟨%d1, H1⟩⟩
  iapply (sound_kernel11 c Set.univ _ _ _ _ _ (iblk11 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.K.Run.lean ====
/-
  The run of @main at the chain's contents: the twelve regions' records, entered from and left at the boundaries' thread
  state "every unscoped buffer at the boundary's contents, the generator register at some state, nothing owed", put into
  the conditional run.  Every weakly fair execution of @main terminates, and every final memory holds the last region's
  output array at the last boundary's contents and each argument as launched; `frame` keeps the arguments' conjuncts.
-/
import proofs.«114710_j78030965834312_1_alg».proof.Proof.K.Chain
import proofs.«114710_j78030965834312_1_alg».proof.Proof.K.RunCond
import proofs.«114710_j78030965834312_1_alg».proof.Proof.K.Reg0
import proofs.«114710_j78030965834312_1_alg».proof.Proof.K.Reg1
import proofs.«114710_j78030965834312_1_alg».proof.Proof.K.Reg2
import proofs.«114710_j78030965834312_1_alg».proof.Proof.K.Reg3
import proofs.«114710_j78030965834312_1_alg».proof.Proof.K.Reg4
import proofs.«114710_j78030965834312_1_alg».proof.Proof.K.Reg5
import proofs.«114710_j78030965834312_1_alg».proof.Proof.K.Reg6
import proofs.«114710_j78030965834312_1_alg».proof.Proof.K.Reg7
import proofs.«114710_j78030965834312_1_alg».proof.Proof.K.Reg8
import proofs.«114710_j78030965834312_1_alg».proof.Proof.K.Reg9
import proofs.«114710_j78030965834312_1_alg».proof.Proof.K.Reg10
import proofs.«114710_j78030965834312_1_alg».proof.Proof.K.Reg11
import proofs.«114710_j78030965834312_1_alg».proof.Proof.K.Body0
import proofs.«114710_j78030965834312_1_alg».proof.Proof.K.Body1
import proofs.«114710_j78030965834312_1_alg».proof.Proof.K.Body2
import proofs.«114710_j78030965834312_1_alg».proof.Proof.K.Body3
import proofs.«114710_j78030965834312_1_alg».proof.Proof.K.Body4
import proofs.«114710_j78030965834312_1_alg».proof.Proof.K.Body5
import proofs.«114710_j78030965834312_1_alg».proof.Proof.K.Body6
import proofs.«114710_j78030965834312_1_alg».proof.Proof.K.Body7
import proofs.«114710_j78030965834312_1_alg».proof.Proof.K.Body8
import proofs.«114710_j78030965834312_1_alg».proof.Proof.K.Body9
import proofs.«114710_j78030965834312_1_alg».proof.Proof.K.Body10
import proofs.«114710_j78030965834312_1_alg».proof.Proof.K.Body11

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE RUN at the chain's contents. -/
theorem run_all (ρ : Dev nD → PrngReg)
    : θ_run defs (onTc (τ := τ) (main (F := F))) ⟨m, fun _ => 0, ρ⟩ (fun r => ∀ c : Dev nD,
      r.2.mem ((c.tc : Thread nD τ).loc main_v171) = Gen.V23 m (outs m) c main_v171
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m (fun c => body_obligation0 (fun c b => Gen.V1 m c b) c)) (fun _ => .rfl) (fun _ => .rfl)
    (reg1 m (fun c => body_obligation1 (fun c b => Gen.V3 m (outs m) c b) c)) (fun _ => .rfl) (fun _ => .rfl)
    (reg2 m (fun c => body_obligation2 (fun c b => Gen.V5 m (outs m) c b) c)) (fun _ => .rfl) (fun _ => .rfl)
    (reg3 m (fun c => body_obligation3 (fun c b => Gen.V7 m (outs m) c b) c)) (fun _ => .rfl) (fun _ => .rfl)
    (reg4 m (fun c => body_obligation4 (fun c b => Gen.V9 m (outs m) c b) c)) (fun _ => .rfl) (fun _ => .rfl)
    (reg5 m (fun c => body_obligation5 (fun c b => Gen.V11 m (outs m) c b) c)) (fun _ => .rfl) (fun _ => .rfl)
    (reg6 m (fun c => body_obligation6 (fun c b => Gen.V13 m (outs m) c b) c)) (fun _ => .rfl) (fun _ => .rfl)
    (reg7 m (fun c => body_obligation7 (fun c b => Gen.V15 m (outs m) c b) c)) (fun _ => .rfl) (fun _ => .rfl)
    (reg8 m (fun c => body_obligation8 (fun c b => Gen.V17 m (outs m) c b) c)) (fun _ => .rfl) (fun _ => .rfl)
    (reg9 m (fun c => body_obligation9 (fun c b => Gen.V19 m (outs m) c b) c)) (fun _ => .rfl) (fun _ => .rfl)
    (reg10 m (fun c => body_obligation10 (fun c b => Gen.V21 m (outs m) c b) c)) (fun _ => .rfl) (fun _ => .rfl)
    (reg11 m (fun c => body_obligation11 (fun c b => Gen.V22 m (outs m) c b) c)) (fun _ => .rfl) (fun _ => .rfl)

/-- THE FRAME: every weakly fair execution of @main terminates, nothing faulting, the argument arrays as launched. -/
theorem frame (ρ : Dev nD → PrngReg)
    : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Fr

end
-- ==== Proof.KI.Rects.lean ====
/-
  The whole-block rectangles the twelve kernel bodies load and store through: every body reads each of its
  blocks whole and writes its output block whole, once.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rBlk47 : Rect S5000x47 := Rect.unit (s := S5000x47) ![0, 0] S5000x47.size inb_S5000x47_S5000x47_0_0
abbrev rBlk1 : Rect S5000x1 := Rect.unit (s := S5000x1) ![0, 0] S5000x1.size inb_S5000x1_S5000x1_0_0
abbrev rBlk128 : Rect S5000x128 := Rect.unit (s := S5000x128) ![0, 0] S5000x128.size inb_S5000x128_S5000x128_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rW2 : Rect S256x47 := Rect.unit (s := S256x47) ![0, 0] S256x47.size inb_S256x47_S256x47_0_0
abbrev rB2 : Rect S1x47 := Rect.unit (s := S1x47) ![0, 0] S1x47.size inb_S1x47_S1x47_0_0

end Cert.KernelIdeal.Fr

end
-- ==== Proof.KI.Dat0.lean ====
/-
  Region 0's proof data at a parameter `V` (the buffers' contents when the region is entered): the two dense
  layers on a block of 5000 rows.  At point `t` the first window holds rows `5000 t … 5000 t + 4999` of `x`, the
  next four the whole of `W1`, `b1`, `W2`, `b2`; the body stores the output block whole, once:
  `relu (x · W1 + b1) · W2 + b2` of the loaded blocks.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its one whole-block store. -/
def out0 (x0 : Vec F S5000x128 .f32) (x1 : Vec F S128x256 .f32) (x2 : Vec F S1x256 .f32) (x3 : Vec F S256x47 .f32) (x4 : Vec F S1x47 .f32) : Vec F S5000x47 .f32 :=
  View.canon [⟨rBlk47, k0_pay1 (View.ld x0 rBlk128) (View.ld x1 rW1) (View.ld x2 rB1) (View.ld x3 rW2) (View.ld x4 rB2)⟩]

/-- After the body every input block is what was fetched and the output block is the dense layers' value;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0 (iblk0 V c 0 t) (iblk0 V c 1 t) (iblk0 V c 2 t) (iblk0 V c 3 t) (iblk0 V c 4 t) := by dsimp only [dat0]

end Cert.KernelIdeal.Fr

end
-- ==== Proof.KI.Dat1.lean ====
/-
  Region 1's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its one whole-block store. -/
def out1 (x0 : Vec F S5000x47 .f32) (x1 : Vec F S5000x1 .f32) (x2 x3 : Vec F S5000x47 .f32) : Vec F S5000x47 .f32 :=
  View.canon [⟨rBlk47, k1_pay1 (View.ld x0 rBlk47) (View.ld x1 rBlk1) (View.ld x2 rBlk47) (View.ld x3 rBlk47)⟩]

/-- After the body every input block is what was fetched and the output block is the blend; nothing owed;
    full shares, except that the previous iterate and the dense layers' output are ONE array on this first step, held half and half by the two windows that stage it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

end Cert.KernelIdeal.Fr

end
-- ==== Proof.KI.Dat2.lean ====
/-
  Region 2's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its one whole-block store. -/
def out2 (x0 : Vec F S5000x47 .f32) (x1 : Vec F S5000x1 .f32) (x2 x3 : Vec F S5000x47 .f32) : Vec F S5000x47 .f32 :=
  View.canon [⟨rBlk47, k2_pay1 (View.ld x0 rBlk47) (View.ld x1 rBlk1) (View.ld x2 rBlk47) (View.ld x3 rBlk47)⟩]

/-- After the body every input block is what was fetched and the output block is the blend; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

end Cert.KernelIdeal.Fr

end
-- ==== Proof.KI.Dat3.lean ====
/-
  Region 3's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its one whole-block store. -/
def out3 (x0 : Vec F S5000x47 .f32) (x1 : Vec F S5000x1 .f32) (x2 x3 : Vec F S5000x47 .f32) : Vec F S5000x47 .f32 :=
  View.canon [⟨rBlk47, k3_pay1 (View.ld x0 rBlk47) (View.ld x1 rBlk1) (View.ld x2 rBlk47) (View.ld x3 rBlk47)⟩]

/-- After the body every input block is what was fetched and the output block is the blend; nothing owed,
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

end Cert.KernelIdeal.Fr

end
-- ==== Proof.KI.Dat4.lean ====
/-
  Region 4's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its one whole-block store. -/
def out4 (x0 : Vec F S5000x47 .f32) (x1 : Vec F S5000x1 .f32) (x2 x3 : Vec F S5000x47 .f32) : Vec F S5000x47 .f32 :=
  View.canon [⟨rBlk47, k4_pay1 (View.ld x0 rBlk47) (View.ld x1 rBlk1) (View.ld x2 rBlk47) (View.ld x3 rBlk47)⟩]

/-- After the body every input block is what was fetched and the output block is the blend; nothing owed,
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4 (iblk4 V c 0 t) (iblk4 V c 1 t) (iblk4 V c 2 t) (iblk4 V c 3 t) := by dsimp only [dat4]

end Cert.KernelIdeal.Fr

end
-- ==== Proof.KI.Dat5.lean ====
/-
  Region 5's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its one whole-block store. -/
def out5 (x0 : Vec F S5000x47 .f32) (x1 : Vec F S5000x1 .f32) (x2 x3 : Vec F S5000x47 .f32) : Vec F S5000x47 .f32 :=
  View.canon [⟨rBlk47, k5_pay1 (View.ld x0 rBlk47) (View.ld x1 rBlk1) (View.ld x2 rBlk47) (View.ld x3 rBlk47)⟩]

/-- After the body every input block is what was fetched and the output block is the blend; nothing owed,
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5 (iblk5 V c 0 t) (iblk5 V c 1 t) (iblk5 V c 2 t) (iblk5 V c 3 t) := by dsimp only [dat5]

end Cert.KernelIdeal.Fr

end
-- ==== Proof.KI.Dat6.lean ====
/-
  Region 6's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body leaves in the output block: its one whole-block store. -/
def out6 (x0 : Vec F S5000x47 .f32) (x1 : Vec F S5000x1 .f32) (x2 x3 : Vec F S5000x47 .f32) : Vec F S5000x47 .f32 :=
  View.canon [⟨rBlk47, k6_pay1 (View.ld x0 rBlk47) (View.ld x1 rBlk1) (View.ld x2 rBlk47) (View.ld x3 rBlk47)⟩]

/-- After the body every input block is what was fetched and the output block is the blend; nothing owed,
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6 (iblk6 V c 0 t) (iblk6 V c 1 t) (iblk6 V c 2 t) (iblk6 V c 3 t) := by dsimp only [dat6]

end Cert.KernelIdeal.Fr

end
-- ==== Proof.KI.Dat7.lean ====
/-
  Region 7's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the body leaves in the output block: its one whole-block store. -/
def out7 (x0 : Vec F S5000x47 .f32) (x1 : Vec F S5000x1 .f32) (x2 x3 : Vec F S5000x47 .f32) : Vec F S5000x47 .f32 :=
  View.canon [⟨rBlk47, k7_pay1 (View.ld x0 rBlk47) (View.ld x1 rBlk1) (View.ld x2 rBlk47) (View.ld x3 rBlk47)⟩]

/-- After the body every input block is what was fetched and the output block is the blend; nothing owed,
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7 (iblk7 V c 0 t) (iblk7 V c 1 t) (iblk7 V c 2 t) (iblk7 V c 3 t) := by dsimp only [dat7]

end Cert.KernelIdeal.Fr

end
-- ==== Proof.KI.Dat8.lean ====
/-
  Region 8's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the body leaves in the output block: its one whole-block store. -/
def out8 (x0 : Vec F S5000x47 .f32) (x1 : Vec F S5000x1 .f32) (x2 x3 : Vec F S5000x47 .f32) : Vec F S5000x47 .f32 :=
  View.canon [⟨rBlk47, k8_pay1 (View.ld x0 rBlk47) (View.ld x1 rBlk1) (View.ld x2 rBlk47) (View.ld x3 rBlk47)⟩]

/-- After the body every input block is what was fetched and the output block is the blend; nothing owed,
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8 (iblk8 V c 0 t) (iblk8 V c 1 t) (iblk8 V c 2 t) (iblk8 V c 3 t) := by dsimp only [dat8]

end Cert.KernelIdeal.Fr

end
-- ==== Proof.KI.Dat9.lean ====
/-
  Region 9's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- What the body leaves in the output block: its one whole-block store. -/
def out9 (x0 : Vec F S5000x47 .f32) (x1 : Vec F S5000x1 .f32) (x2 x3 : Vec F S5000x47 .f32) : Vec F S5000x47 .f32 :=
  View.canon [⟨rBlk47, k9_pay1 (View.ld x0 rBlk47) (View.ld x1 rBlk1) (View.ld x2 rBlk47) (View.ld x3 rBlk47)⟩]

/-- After the body every input block is what was fetched and the output block is the blend; nothing owed,
    full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9 (iblk9 V c 0 t) (iblk9 V c 1 t) (iblk9 V c 2 t) (iblk9 V c 3 t) := by dsimp only [dat9]

end Cert.KernelIdeal.Fr

end
-- ==== Proof.KI.Dat10.lean ====
/-
  Region 10's proof data at a parameter `V` (the buffers' contents when the region is entered): one
  propagation step's blend on a block of 5000 rows.  At point `t` the windows hold rows
  `5000 t … 5000 t + 4999` of the neighbour sum `a`, the self-loop weights `w` (a column), the previous
  iterate `z` and the dense layers' output `h`; the body stores the output block whole, once:
  `0.9 · (a + w · z) + 0.1 · h`, entry by entry.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the body leaves in the output block: its one whole-block store. -/
def out10 (x0 : Vec F S5000x47 .f32) (x1 : Vec F S5000x1 .f32) (x2 x3 : Vec F S5000x47 .f32) : Vec F S5000x47 .f32 :=
  View.canon [⟨rBlk47, k10_pay1 (View.ld x0 rBlk47) (View.ld x1 rBlk1) (View.ld x2 rBlk47) (View.ld x3 rBlk47)⟩]

/-- After the body every input block is what was fetched and the output block is the blend; nothing owed,
    full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10 (iblk10 V c 0 t) (iblk10 V c 1 t) (iblk10 V c 2 t) (iblk10 V c 3 t) := by dsimp only [dat10]

end Cert.KernelIdeal.Fr

end
-- ==== Proof.KI.Dat11.lean ====
/-
  Region 11's proof data at a parameter `V` (the buffers' contents when the region is entered): the row-wise
  log-softmax on a block of 5000 rows.  At point `t` the input window holds rows `5000 t … 5000 t + 4999` of
  the last iterate `z`; the body stores the output block whole, once: `(z − max) − log Σ exp (z − max)`, the
  maximum and the sum taken along each row.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114710_j78030965834312_1_alg».proof.Proof.KI.Rects

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`: rows `5000 t … 5000 t + 4999` of its array as the region finds it
    (a window whose block is its whole array holds that array at every point). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the body leaves in the output block: its one whole-block store. -/
def out11 (x0 : Vec F S5000x47 .f32) : Vec F S5000x47 .f32 :=
  View.canon [⟨rBlk47, k11_pay1 (View.ld x0 rBlk47)⟩]

/-- After the body the input block is what was fetched and the output block is the log-softmax; nothing owed,
    full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11 (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = out11 (iblk11 V c 0 t) := by dsimp only [dat11]

end Cert.KernelIdeal.Fr

end
-- ==== Proof.KI.Chain.lean ====
/-
  The buffers' contents between the items of @main, closed into definitions.  An odd-numbered boundary follows a host
  stretch: the contents are the stretch's fold over the previous boundary's.  An even-numbered boundary (and the last)
  follows a region: the contents are the previous boundary's with the region's output array replaced by what the
  region's write-backs leave there, `Dat.arrAt … N` of the region's proof data read at the previous boundary.  Each step
  refers only to earlier ones, so the family is well founded; the unknowns of the conditional frame are then these
  contents, and its valuations agree with them boundary by boundary (one `Function.update_self` per region, one
  congruence per stretch).
-/
import proofs.«114710_j78030965834312_1_alg».proof.Proof.Gen.KernelIdeal.Regions
import proofs.«114710_j78030965834312_1_alg».proof.Proof.KI.Dat0
import proofs.«114710_j78030965834312_1_alg».proof.Proof.KI.Dat1
import proofs.«114710_j78030965834312_1_alg».proof.Proof.KI.Dat2
import proofs.«114710_j78030965834312_1_alg».proof.Proof.KI.Dat3
import proofs.«114710_j78030965834312_1_alg».proof.Proof.KI.Dat4
import proofs.«114710_j78030965834312_1_alg».proof.Proof.KI.Dat5
import proofs.«114710_j78030965834312_1_alg».proof.Proof.KI.Dat6
import proofs.«114710_j78030965834312_1_alg».proof.Proof.KI.Dat7
import proofs.«114710_j78030965834312_1_alg».proof.Proof.KI.Dat8
import proofs.«114710_j78030965834312_1_alg».proof.Proof.KI.Dat9
import proofs.«114710_j78030965834312_1_alg».proof.Proof.KI.Dat10
import proofs.«114710_j78030965834312_1_alg».proof.Proof.KI.Dat11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- After the first host stretch: region 0's entry. -/
def U1 (c : Dev nD) : Valuation τ sig (Elt F) := Gen.V1 m c
/-- After region 0: `main_v2` holds what the region's write-backs leave, every other buffer what it held. -/
def U2 (c : Dev nD) : Valuation τ sig (Elt F) :=
  Function.update (U1 m c) main_v2 ((dat0 (fun c b => U1 m c b) c).arrAt 5 cfg0.N)
/-- After the host stretch `hostOps1`: region 1's entry. -/
def U3 (c : Dev nD) : Valuation τ sig (Elt F) := StableHlo.after hostOps1 (U2 m c)
/-- After region 1: `main_v44` holds what the region's write-backs leave, every other buffer what it held. -/
def U4 (c : Dev nD) : Valuation τ sig (Elt F) :=
  Function.update (U3 m c) main_v44 ((dat1 (fun c b => U3 m c b) c).arrAt 4 cfg1.N)
/-- After the host stretch `hostOps2`: region 2's entry. -/
def U5 (c : Dev nD) : Valuation τ sig (Elt F) := StableHlo.after hostOps2 (U4 m c)
/-- After region 2: `main_v58` holds what the region's write-backs leave, every other buffer what it held. -/
def U6 (c : Dev nD) : Valuation τ sig (Elt F) :=
  Function.update (U5 m c) main_v58 ((dat2 (fun c b => U5 m c b) c).arrAt 4 cfg2.N)
/-- After the host stretch `hostOps3`: region 3's entry. -/
def U7 (c : Dev nD) : Valuation τ sig (Elt F) := StableHlo.after hostOps3 (U6 m c)
/-- After region 3: `main_v72` holds what the region's write-backs leave, every other buffer what it held. -/
def U8 (c : Dev nD) : Valuation τ sig (Elt F) :=
  Function.update (U7 m c) main_v72 ((dat3 (fun c b => U7 m c b) c).arrAt 4 cfg3.N)
/-- After the host stretch `hostOps4`: region 4's entry. -/
def U9 (c : Dev nD) : Valuation τ sig (Elt F) := StableHlo.after hostOps4 (U8 m c)
/-- After region 4: `main_v86` holds what the region's write-backs leave, every other buffer what it held. -/
def U10 (c : Dev nD) : Valuation τ sig (Elt F) :=
  Function.update (U9 m c) main_v86 ((dat4 (fun c b => U9 m c b) c).arrAt 4 cfg4.N)
/-- After the host stretch `hostOps5`: region 5's entry. -/
def U11 (c : Dev nD) : Valuation τ sig (Elt F) := StableHlo.after hostOps5 (U10 m c)
/-- After region 5: `main_v100` holds what the region's write-backs leave, every other buffer what it held. -/
def U12 (c : Dev nD) : Valuation τ sig (Elt F) :=
  Function.update (U11 m c) main_v100 ((dat5 (fun c b => U11 m c b) c).arrAt 4 cfg5.N)
/-- After the host stretch `hostOps6`: region 6's entry. -/
def U13 (c : Dev nD) : Valuation τ sig (Elt F) := StableHlo.after hostOps6 (U12 m c)
/-- After region 6: `main_v114` holds what the region's write-backs leave, every other buffer what it held. -/
def U14 (c : Dev nD) : Valuation τ sig (Elt F) :=
  Function.update (U13 m c) main_v114 ((dat6 (fun c b => U13 m c b) c).arrAt 4 cfg6.N)
/-- After the host stretch `hostOps7`: region 7's entry. -/
def U15 (c : Dev nD) : Valuation τ sig (Elt F) := StableHlo.after hostOps7 (U14 m c)
/-- After region 7: `main_v128` holds what the region's write-backs leave, every other buffer what it held. -/
def U16 (c : Dev nD) : Valuation τ sig (Elt F) :=
  Function.update (U15 m c) main_v128 ((dat7 (fun c b => U15 m c b) c).arrAt 4 cfg7.N)
/-- After the host stretch `hostOps8`: region 8's entry. -/
def U17 (c : Dev nD) : Valuation τ sig (Elt F) := StableHlo.after hostOps8 (U16 m c)
/-- After region 8: `main_v142` holds what the region's write-backs leave, every other buffer what it held. -/
def U18 (c : Dev nD) : Valuation τ sig (Elt F) :=
  Function.update (U17 m c) main_v142 ((dat8 (fun c b => U17 m c b) c).arrAt 4 cfg8.N)
/-- After the host stretch `hostOps9`: region 9's entry. -/
def U19 (c : Dev nD) : Valuation τ sig (Elt F) := StableHlo.after hostOps9 (U18 m c)
/-- After region 9: `main_v156` holds what the region's write-backs leave, every other buffer what it held. -/
def U20 (c : Dev nD) : Valuation τ sig (Elt F) :=
  Function.update (U19 m c) main_v156 ((dat9 (fun c b => U19 m c b) c).arrAt 4 cfg9.N)
/-- After the host stretch `hostOps10`: region 10's entry. -/
def U21 (c : Dev nD) : Valuation τ sig (Elt F) := StableHlo.after hostOps10 (U20 m c)
/-- After region 10: `main_v170` holds what the region's write-backs leave, every other buffer what it held. -/
def U22 (c : Dev nD) : Valuation τ sig (Elt F) :=
  Function.update (U21 m c) main_v170 ((dat10 (fun c b => U21 m c b) c).arrAt 4 cfg10.N)
/-- After region 11: `main_v171` holds what the region's write-backs leave, every other buffer what it held. -/
def U23 (c : Dev nD) : Valuation τ sig (Elt F) :=
  Function.update (U22 m c) main_v171 ((dat11 (fun c b => U22 m c b) c).arrAt 1 cfg11.N)

/-- What each region leaves in the buffer it may change, read off the boundary after it. -/
def outs : Gen.Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 23 => U23 m c r
  | _ => U1 m c r

/-! ## The conditional frame's valuations are these contents -/

theorem V_eq1 (c : Dev nD) : Gen.V1 m c = U1 m c := rfl
theorem V_eq2 (c : Dev nD) : Gen.V2 m (outs m) c = U2 m c := by
  have h : outs m 2 main_v2 c = U2 m c (Proc.devRef .tc main_v2) := rfl
  show Function.update (Gen.V1 m c) (Proc.devRef .tc main_v2) (outs m 2 main_v2 c) = U2 m c
  rw [h, V_eq1]; unfold U2; rw [Function.update_self]
theorem V_eq3 (c : Dev nD) : Gen.V3 m (outs m) c = U3 m c := by
  show StableHlo.after hostOps1 (Gen.V2 m (outs m) c) = U3 m c
  rw [V_eq2]; rfl
theorem V_eq4 (c : Dev nD) : Gen.V4 m (outs m) c = U4 m c := by
  have h : outs m 4 main_v44 c = U4 m c (Proc.devRef .tc main_v44) := rfl
  show Function.update (Gen.V3 m (outs m) c) (Proc.devRef .tc main_v44) (outs m 4 main_v44 c) = U4 m c
  rw [h, V_eq3]; unfold U4; rw [Function.update_self]
theorem V_eq5 (c : Dev nD) : Gen.V5 m (outs m) c = U5 m c := by
  show StableHlo.after hostOps2 (Gen.V4 m (outs m) c) = U5 m c
  rw [V_eq4]; rfl
theorem V_eq6 (c : Dev nD) : Gen.V6 m (outs m) c = U6 m c := by
  have h : outs m 6 main_v58 c = U6 m c (Proc.devRef .tc main_v58) := rfl
  show Function.update (Gen.V5 m (outs m) c) (Proc.devRef .tc main_v58) (outs m 6 main_v58 c) = U6 m c
  rw [h, V_eq5]; unfold U6; rw [Function.update_self]
theorem V_eq7 (c : Dev nD) : Gen.V7 m (outs m) c = U7 m c := by
  show StableHlo.after hostOps3 (Gen.V6 m (outs m) c) = U7 m c
  rw [V_eq6]; rfl
theorem V_eq8 (c : Dev nD) : Gen.V8 m (outs m) c = U8 m c := by
  have h : outs m 8 main_v72 c = U8 m c (Proc.devRef .tc main_v72) := rfl
  show Function.update (Gen.V7 m (outs m) c) (Proc.devRef .tc main_v72) (outs m 8 main_v72 c) = U8 m c
  rw [h, V_eq7]; unfold U8; rw [Function.update_self]
theorem V_eq9 (c : Dev nD) : Gen.V9 m (outs m) c = U9 m c := by
  show StableHlo.after hostOps4 (Gen.V8 m (outs m) c) = U9 m c
  rw [V_eq8]; rfl
theorem V_eq10 (c : Dev nD) : Gen.V10 m (outs m) c = U10 m c := by
  have h : outs m 10 main_v86 c = U10 m c (Proc.devRef .tc main_v86) := rfl
  show Function.update (Gen.V9 m (outs m) c) (Proc.devRef .tc main_v86) (outs m 10 main_v86 c) = U10 m c
  rw [h, V_eq9]; unfold U10; rw [Function.update_self]
theorem V_eq11 (c : Dev nD) : Gen.V11 m (outs m) c = U11 m c := by
  show StableHlo.after hostOps5 (Gen.V10 m (outs m) c) = U11 m c
  rw [V_eq10]; rfl
theorem V_eq12 (c : Dev nD) : Gen.V12 m (outs m) c = U12 m c := by
  have h : outs m 12 main_v100 c = U12 m c (Proc.devRef .tc main_v100) := rfl
  show Function.update (Gen.V11 m (outs m) c) (Proc.devRef .tc main_v100) (outs m 12 main_v100 c) = U12 m c
  rw [h, V_eq11]; unfold U12; rw [Function.update_self]
theorem V_eq13 (c : Dev nD) : Gen.V13 m (outs m) c = U13 m c := by
  show StableHlo.after hostOps6 (Gen.V12 m (outs m) c) = U13 m c
  rw [V_eq12]; rfl
theorem V_eq14 (c : Dev nD) : Gen.V14 m (outs m) c = U14 m c := by
  have h : outs m 14 main_v114 c = U14 m c (Proc.devRef .tc main_v114) := rfl
  show Function.update (Gen.V13 m (outs m) c) (Proc.devRef .tc main_v114) (outs m 14 main_v114 c) = U14 m c
  rw [h, V_eq13]; unfold U14; rw [Function.update_self]
theorem V_eq15 (c : Dev nD) : Gen.V15 m (outs m) c = U15 m c := by
  show StableHlo.after hostOps7 (Gen.V14 m (outs m) c) = U15 m c
  rw [V_eq14]; rfl
theorem V_eq16 (c : Dev nD) : Gen.V16 m (outs m) c = U16 m c := by
  have h : outs m 16 main_v128 c = U16 m c (Proc.devRef .tc main_v128) := rfl
  show Function.update (Gen.V15 m (outs m) c) (Proc.devRef .tc main_v128) (outs m 16 main_v128 c) = U16 m c
  rw [h, V_eq15]; unfold U16; rw [Function.update_self]
theorem V_eq17 (c : Dev nD) : Gen.V17 m (outs m) c = U17 m c := by
  show StableHlo.after hostOps8 (Gen.V16 m (outs m) c) = U17 m c
  rw [V_eq16]; rfl
theorem V_eq18 (c : Dev nD) : Gen.V18 m (outs m) c = U18 m c := by
  have h : outs m 18 main_v142 c = U18 m c (Proc.devRef .tc main_v142) := rfl
  show Function.update (Gen.V17 m (outs m) c) (Proc.devRef .tc main_v142) (outs m 18 main_v142 c) = U18 m c
  rw [h, V_eq17]; unfold U18; rw [Function.update_self]
theorem V_eq19 (c : Dev nD) : Gen.V19 m (outs m) c = U19 m c := by
  show StableHlo.after hostOps9 (Gen.V18 m (outs m) c) = U19 m c
  rw [V_eq18]; rfl
theorem V_eq20 (c : Dev nD) : Gen.V20 m (outs m) c = U20 m c := by
  have h : outs m 20 main_v156 c = U20 m c (Proc.devRef .tc main_v156) := rfl
  show Function.update (Gen.V19 m (outs m) c) (Proc.devRef .tc main_v156) (outs m 20 main_v156 c) = U20 m c
  rw [h, V_eq19]; unfold U20; rw [Function.update_self]
theorem V_eq21 (c : Dev nD) : Gen.V21 m (outs m) c = U21 m c := by
  show StableHlo.after hostOps10 (Gen.V20 m (outs m) c) = U21 m c
  rw [V_eq20]; rfl
theorem V_eq22 (c : Dev nD) : Gen.V22 m (outs m) c = U22 m c := by
  have h : outs m 22 main_v170 c = U22 m c (Proc.devRef .tc main_v170) := rfl
  show Function.update (Gen.V21 m (outs m) c) (Proc.devRef .tc main_v170) (outs m 22 main_v170 c) = U22 m c
  rw [h, V_eq21]; unfold U22; rw [Function.update_self]
theorem V_eq23 (c : Dev nD) : Gen.V23 m (outs m) c = U23 m c := by
  have h : outs m 23 main_v171 c = U23 m c (Proc.devRef .tc main_v171) := rfl
  show Function.update (Gen.V22 m (outs m) c) (Proc.devRef .tc main_v171) (outs m 23 main_v171 c) = U23 m c
  rw [h, V_eq22]; unfold U23; rw [Function.update_self]

/-! The same, as the functions of a core and a TensorCore reference that the regions' proof data take. -/

theorem V_fn1 : (fun (c : Dev nD) (b : Ref sig .tc) => Gen.V1 m c b) = fun (c : Dev nD) (b : Ref sig .tc) => U1 m c b := by
  funext c b; rw [V_eq1]
theorem V_fn3 : (fun (c : Dev nD) (b : Ref sig .tc) => Gen.V3 m (outs m) c b) = fun (c : Dev nD) (b : Ref sig .tc) => U3 m c b := by
  funext c b; rw [V_eq3]
theorem V_fn5 : (fun (c : Dev nD) (b : Ref sig .tc) => Gen.V5 m (outs m) c b) = fun (c : Dev nD) (b : Ref sig .tc) => U5 m c b := by
  funext c b; rw [V_eq5]
theorem V_fn7 : (fun (c : Dev nD) (b : Ref sig .tc) => Gen.V7 m (outs m) c b) = fun (c : Dev nD) (b : Ref sig .tc) => U7 m c b := by
  funext c b; rw [V_eq7]
theorem V_fn9 : (fun (c : Dev nD) (b : Ref sig .tc) => Gen.V9 m (outs m) c b) = fun (c : Dev nD) (b : Ref sig .tc) => U9 m c b := by
  funext c b; rw [V_eq9]
theorem V_fn11 : (fun (c : Dev nD) (b : Ref sig .tc) => Gen.V11 m (outs m) c b) = fun (c : Dev nD) (b : Ref sig .tc) => U11 m c b := by
  funext c b; rw [V_eq11]
theorem V_fn13 : (fun (c : Dev nD) (b : Ref sig .tc) => Gen.V13 m (outs m) c b) = fun (c : Dev nD) (b : Ref sig .tc) => U13 m c b := by
  funext c b; rw [V_eq13]
theorem V_fn15 : (fun (c : Dev nD) (b : Ref sig .tc) => Gen.V15 m (outs m) c b) = fun (c : Dev nD) (b : Ref sig .tc) => U15 m c b := by
  funext c b; rw [V_eq15]
theorem V_fn17 : (fun (c : Dev nD) (b : Ref sig .tc) => Gen.V17 m (outs m) c b) = fun (c : Dev nD) (b : Ref sig .tc) => U17 m c b := by
  funext c b; rw [V_eq17]
theorem V_fn19 : (fun (c : Dev nD) (b : Ref sig .tc) => Gen.V19 m (outs m) c b) = fun (c : Dev nD) (b : Ref sig .tc) => U19 m c b := by
  funext c b; rw [V_eq19]
theorem V_fn21 : (fun (c : Dev nD) (b : Ref sig .tc) => Gen.V21 m (outs m) c b) = fun (c : Dev nD) (b : Ref sig .tc) => U21 m c b := by
  funext c b; rw [V_eq21]
theorem V_fn22 : (fun (c : Dev nD) (b : Ref sig .tc) => Gen.V22 m (outs m) c b) = fun (c : Dev nD) (b : Ref sig .tc) => U22 m c b := by
  funext c b; rw [V_eq22]

/-! ## What each region leaves in its output array -/

/-- Region 0's output array after the region: its write-backs over the contents the region was entered with. -/
theorem V_out0 (c : Dev nD) :
    Gen.V2 m (outs m) c main_v2 = (dat0 (fun c b => Gen.V1 m c b) c).arrAt 5 cfg0.N := by
  rw [V_eq2, V_fn1]; unfold U2; rw [Function.update_self]
/-- Region 1's output array after the region: its write-backs over the contents the region was entered with. -/
theorem V_out1 (c : Dev nD) :
    Gen.V4 m (outs m) c main_v44 = (dat1 (fun c b => Gen.V3 m (outs m) c b) c).arrAt 4 cfg1.N := by
  rw [V_eq4, V_fn3]; unfold U4; rw [Function.update_self]
/-- Region 2's output array after the region: its write-backs over the contents the region was entered with. -/
theorem V_out2 (c : Dev nD) :
    Gen.V6 m (outs m) c main_v58 = (dat2 (fun c b => Gen.V5 m (outs m) c b) c).arrAt 4 cfg2.N := by
  rw [V_eq6, V_fn5]; unfold U6; rw [Function.update_self]
/-- Region 3's output array after the region: its write-backs over the contents the region was entered with. -/
theorem V_out3 (c : Dev nD) :
    Gen.V8 m (outs m) c main_v72 = (dat3 (fun c b => Gen.V7 m (outs m) c b) c).arrAt 4 cfg3.N := by
  rw [V_eq8, V_fn7]; unfold U8; rw [Function.update_self]
/-- Region 4's output array after the region: its write-backs over the contents the region was entered with. -/
theorem V_out4 (c : Dev nD) :
    Gen.V10 m (outs m) c main_v86 = (dat4 (fun c b => Gen.V9 m (outs m) c b) c).arrAt 4 cfg4.N := by
  rw [V_eq10, V_fn9]; unfold U10; rw [Function.update_self]
/-- Region 5's output array after the region: its write-backs over the contents the region was entered with. -/
theorem V_out5 (c : Dev nD) :
    Gen.V12 m (outs m) c main_v100 = (dat5 (fun c b => Gen.V11 m (outs m) c b) c).arrAt 4 cfg5.N := by
  rw [V_eq12, V_fn11]; unfold U12; rw [Function.update_self]
/-- Region 6's output array after the region: its write-backs over the contents the region was entered with. -/
theorem V_out6 (c : Dev nD) :
    Gen.V14 m (outs m) c main_v114 = (dat6 (fun c b => Gen.V13 m (outs m) c b) c).arrAt 4 cfg6.N := by
  rw [V_eq14, V_fn13]; unfold U14; rw [Function.update_self]
/-- Region 7's output array after the region: its write-backs over the contents the region was entered with. -/
theorem V_out7 (c : Dev nD) :
    Gen.V16 m (outs m) c main_v128 = (dat7 (fun c b => Gen.V15 m (outs m) c b) c).arrAt 4 cfg7.N := by
  rw [V_eq16, V_fn15]; unfold U16; rw [Function.update_self]
/-- Region 8's output array after the region: its write-backs over the contents the region was entered with. -/
theorem V_out8 (c : Dev nD) :
    Gen.V18 m (outs m) c main_v142 = (dat8 (fun c b => Gen.V17 m (outs m) c b) c).arrAt 4 cfg8.N := by
  rw [V_eq18, V_fn17]; unfold U18; rw [Function.update_self]
/-- Region 9's output array after the region: its write-backs over the contents the region was entered with. -/
theorem V_out9 (c : Dev nD) :
    Gen.V20 m (outs m) c main_v156 = (dat9 (fun c b => Gen.V19 m (outs m) c b) c).arrAt 4 cfg9.N := by
  rw [V_eq20, V_fn19]; unfold U20; rw [Function.update_self]
/-- Region 10's output array after the region: its write-backs over the contents the region was entered with. -/
theorem V_out10 (c : Dev nD) :
    Gen.V22 m (outs m) c main_v170 = (dat10 (fun c b => Gen.V21 m (outs m) c b) c).arrAt 4 cfg10.N := by
  rw [V_eq22, V_fn21]; unfold U22; rw [Function.update_self]
/-- Region 11's output array after the region: its write-backs over the contents the region was entered with. -/
theorem V_out11 (c : Dev nD) :
    Gen.V23 m (outs m) c main_v171 = (dat11 (fun c b => Gen.V22 m (outs m) c b) c).arrAt 1 cfg11.N := by
  rw [V_eq23, V_fn22]; unfold U23; rw [Function.update_self]

/-! ## The proof data family -/

/-- Every region's proof data at the contents the region is entered with: a literal match on the region's number. -/
def pdats : (p : Fin 12) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c
  | ⟨3, _⟩ => fun c => dat3 (fun c b => Gen.V7 m (outs m) c b) c
  | ⟨4, _⟩ => fun c => dat4 (fun c b => Gen.V9 m (outs m) c b) c
  | ⟨5, _⟩ => fun c => dat5 (fun c b => Gen.V11 m (outs m) c b) c
  | ⟨6, _⟩ => fun c => dat6 (fun c b => Gen.V13 m (outs m) c b) c
  | ⟨7, _⟩ => fun c => dat7 (fun c b => Gen.V15 m (outs m) c b) c
  | ⟨8, _⟩ => fun c => dat8 (fun c b => Gen.V17 m (outs m) c b) c
  | ⟨9, _⟩ => fun c => dat9 (fun c b => Gen.V19 m (outs m) c b) c
  | ⟨10, _⟩ => fun c => dat10 (fun c b => Gen.V21 m (outs m) c b) c
  | ⟨11, _⟩ => fun c => dat11 (fun c b => Gen.V22 m (outs m) c b) c

/-! ## What rides beside the buffers -/

/-- No core owes another anything: no level is assigned. -/
abbrev L : GSem nD τ sig → Finset Unit := fun _ => ∅
abbrev lv : GSem nD τ sig → Unit → ℕ := fun _ _ => 0
/-- Through every item: the core's generator register at some state and its `owes`, at nothing. -/
abbrev R (c : Dev nD) : sProp 𝕄 := iprop((∃ r, prngReg c r) ∗ ∃ W, owes (c : Thread nD τ) (0 : CellTallies nD τ sig Unit) W)

end Cert.KernelIdeal.Fr

end
-- ==== Proof.KI.RunCond.lean ====
/-
  The run of @main, given the twelve regions' segment records: every weakly fair execution from memory `m` with
  zero counters terminates, and in every final memory, on every core, the last region's output array holds what
  the last valuation of the unscoped buffers assigns it, and each of the six argument arrays holds its launch
  contents.
-/
import proofs.«114710_j78030965834312_1_alg».proof.Proof.Gen.KernelIdeal.Regions

set_option maxRecDepth 1820

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states `E` the launch makes on
    every core at once (`hE0`) and that end owing nothing (`hE12`), any contents the regions leave (`outs`) and any
    proof data: given, per region K, a segment record entered from the thread state before it and left at the one
    after it (`RK`, `hpreK`, `hpostK`), every weakly fair execution of @main from memory `m` with zero counters
    terminates, and every final memory holds, on every core, the result array `main_v171` at the last valuation's
    contents `V23 m outs c main_v171` and each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V22 m outs c) ∗ E 11 c) ⊢ R11.pre c)
    (hpost11 : ∀ c : Dev nD, R11.post c ⊢ iprop(StableHlo.held (c : Thread nD τ) (Pipeline.ucRefs τ sig) (V23 m outs c) ∗ E 12 c)) :
    θ_run defs (onTc (τ := τ) (main (F := F))) ⟨m, fun _ => 0, ρ⟩ (fun r => ∀ c : Dev nD,
      r.2.mem ((c.tc : Thread nD τ).loc main_v171) = V23 m outs c main_v171
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          Prog.lift (.customCall (Pipeline.entry 11) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, (hpost10 c).trans (hpre11 c), (hpost11 c).trans (sep_mono .rfl (hE12 c))⟩)
    (hinit := ?_) (QY := fun c s => s.mem ((c.tc : Thread nD τ).loc main_v171) = V23 m outs c main_v171 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last region's output and each argument read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨h (Proc.devRef .tc main_v171) (Finset.mem_filter.mpr ⟨StableHlo.devRef_mem_tcRefs main_v171, by decide⟩),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c)⟩
    · iexact HSI

end Cert.KernelIdeal.Fr

end
-- ==== Proof.KI.Reg0.lean ====
/-
  Region 0 of @main as a segment between two boundaries.  It is entered with every unscoped buffer at the contents of
  boundary 1 and left with them at boundary 2, the generator register at some state and nothing owed riding along.
  At entry the windows' arrays are split out of the unscoped buffers; at exit they are put back: an input window's array
  is never written back, so it holds what it held, which is also what boundary 2 has there (the region changes `main_v2`
  only); the output window's array holds its write-backs, which is boundary 2's value at `main_v2`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 2 has there, the region changing `main_v2` only. -/
theorem hF0_in (c : Dev nD) (w : Fin 6) (hin : (cfg0.win w).isOut = false)
    (hne : Pipeline.arrRef spec0 w ∉ ([main_v2] : List (Ref sig .tc))) :
    (pdats m 0 c).arrAt w cfg0.N = Gen.V2 m (outs m) c (Pipeline.arrRef spec0 w) :=
  ((pdats m 0 c).arrAt_in w hin _).trans ((A_eq0 (fun c b => Gen.V1 m c b) c w).trans (Gen.V2_of m (outs m) c _ hne).symm)

/-- At the region's exit each window's array holds what boundary 2 has there: the inputs' as above, the output's its
    write-backs. -/
theorem hF0 (c : Dev nD) (w : Fin 6) : (pdats m 0 c).arrAt w cfg0.N = Gen.V2 m (outs m) c (Pipeline.arrRef spec0 w) := by
  by_cases h : w = 5
  · subst h; exact (V_out0 m c).symm
  · exact hF0_in m c w (by revert w; decide) (by revert w; decide)

/-- Off the windows' arrays boundary 2 is boundary 1: the region changes `main_v2` only, which is a window's array. -/
theorem hrest0 (c : Dev nD) : ∀ b : Ref sig .tc, b ∉ Finset.univ.image (Pipeline.arrRef spec0) → Gen.V2 m (outs m) c b = Gen.V1 m c b :=
  fun b hb => Gen.V2_of m (outs m) c b fun hmem => hb (by
    rw [List.mem_singleton.mp hmem]; exact Finset.mem_image.mpr ⟨5, Finset.mem_univ _, rfl⟩)

set_option backward.isDefEq.respectTransparency.types false in
/-- REGION 0 over the thread state: its arrays split out of the unscoped buffers at entry and put back at the exit
    contents; the generator register into the invariant and out; nothing owed; no semaphore of the kernel's own. -/
def reg0 (hb : ∀ c, BodyObligation (dat0 (F := F) (fun c b => Gen.V1 m c b) c) (defs₀ (F := F)) Variants.none () Set.univ) :
    Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Arr1.lean ====
/-
  Region 1 stages ONE buffer through two input windows: on the first propagation step the previous iterate and the
  dense layers' output are the same array, so windows 2 and 3 both read `main_v2`.  The buffers behind the region's
  five arrays are therefore four.  A window's array is held at the proof data's share for it; the two windows on the
  shared buffer hold the two halves of its full share (a share is the composite of its left and right halves), every
  other window its buffer's full share.  At the region's entry the four buffers, each whole at the full share, are
  dealt to the five windows by splitting the shared buffer's share; at its exit the two halves, both still at the
  contents the region was entered with (an input array is never written back), are joined again.
-/
import proofs.«114710_j78030965834312_1_alg».proof.Proof.Gen.KernelIdeal.Launch
import proofs.«114710_j78030965834312_1_alg».proof.Proof.Gen.KernelIdeal.Skeleton
import proofs.«114710_j78030965834312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 1's arrays are four: windows 2 and 3 stage the same one. -/
theorem arrImage1 : Finset.univ.image (Pipeline.arrRef spec1) = {main_v43, main_v30, main_v2, main_v44} := by decide

/-- Those four buffers, each whole at the full share, written out. -/
theorem arrBufs1_eq (c : Dev nD) (V : (b : Ref sig .tc) → Buf (Elt F) ((c : Thread nD τ).loc b)) :
    (Pipeline.arrBufs spec1 c V : sProp 𝕄)
      = iprop((((c : Thread nD τ).loc main_v43) ↦{fullShare} V main_v43) ∗ (((c : Thread nD τ).loc main_v30) ↦{fullShare} V main_v30)
          ∗ (((c : Thread nD τ).loc main_v2) ↦{fullShare} V main_v2) ∗ (((c : Thread nD τ).loc main_v44) ↦{fullShare} V main_v44)) := by
  unfold Pipeline.arrBufs
  rw [arrImage1, bigSep_insert (by decide), bigSep_insert (by decide), bigSep_insert (by decide), bigSep_singleton]
  rfl

/-- Region 1's arrays, each a whole buffer, as points-tos of the buffers behind them at the proof data's shares. -/
theorem arrays1_eq (c : Dev nD) (dat : Dat τ (Elt F) Unit ℕ (UR sig nD τ) ℕ cfg1 c)
    (G : (w : Fin cfg1.W) → Buf (Elt F) ((cfg1.win w).arr.view.loc (c : Thread nD τ))) :
    (dat.arrays G : sProp 𝕄) = bigSep Finset.univ fun w : Fin cfg1.W => ((((c : Thread nD τ).loc (Pipeline.arrRef spec1 w)) ↦{dat.share w} G w : sProp 𝕄)) := by
  unfold Dat.arrays
  exact bigSep_congr fun w _ => by rw [(arr_whole1 w).set_eq_univ]

section Shares

-- any proof data of region 1 that holds windows 2 and 3 at the two halves of the full share and every other window
-- at the full share; `G` the arrays' contents, read off a valuation `V` of the buffers
variable (c : Dev nD) (dat : Dat τ (Elt F) Unit ℕ (UR sig nD τ) ℕ cfg1 c)
  (hs0 : dat.share 0 = fullShare) (hs1 : dat.share 1 = fullShare)
  (hs2 : dat.share 2 = fullShare.left) (hs3 : dat.share 3 = fullShare.right) (hs4 : dat.share 4 = fullShare)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

include hs0 hs1 hs2 hs3 hs4 hG

set_option maxHeartbeats 800000 in
/-- The four buffers at the full share make the five windows' arrays: the buffer that windows 2 and 3 both stage
    is split into the two halves of its share, `q = q.left · q.right`. -/
theorem arrays1_of_arrBufs : (Pipeline.arrBufs spec1 c V : sProp 𝕄) ⊢ dat.arrays G := by
  rw [arrBufs1_eq, arrays1_eq, bigSep_W1, hs0, hs1, hs2, hs3, hs4, hG 0, hG 1, hG 2, hG 3, hG 4]
  iintro ⟨H0, H1, H2, H4⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  iexact H4

set_option maxHeartbeats 800000 in
/-- The converse: the two halves, at the same contents, joined into the full share. -/
theorem arrBufs_of_arrays1 : (dat.arrays G : sProp 𝕄) ⊢ Pipeline.arrBufs spec1 c V := by
  rw [arrBufs1_eq, arrays1_eq, bigSep_W1, hs0, hs1, hs2, hs3, hs4, hG 0, hG 1, hG 2, hG 3, hG 4]
  iintro ⟨H0, H1, H2, H3, H4⟩
  isplitl [H0]; · iexact H0
  isplitl [H1]; · iexact H1
  isplitl [H2 H3]
  · iapply (pointsTo_share (PosShare.mem_left_op_right fullShare)).2
    isplitl [H2]; · iexact H2
    iexact H3
  iexact H4

/-- ENTRY: a core's unscoped buffers at contents `V` are region 1's arrays at those contents and the unscoped rest. -/
theorem arrays1_of_unscopedBufs :
    (unscopedBufs c V : sProp 𝕄) ⊢ iprop(dat.arrays G ∗ Pipeline.unscopedRest spec1 c V) := by
  rw [Pipeline.unscopedBufs_split₀ cfgs 1 winFacts₀1.arr_unscoped c V]
  exact sep_mono (arrays1_of_arrBufs c dat hs0 hs1 hs2 hs3 hs4 V G hG) .rfl

end Shares

/-- The four buffers at contents `V'` beside every other unscoped buffer at `V` are the core's unscoped buffers at
    `V'`, when `V'` agrees with `V` off the four. -/
theorem unscopedBufs_of_arrBufs1 (c : Dev nD) (V V' : (b : Ref sig .tc) → Buf (Elt F) ((c : Thread nD τ).loc b))
    (hrest : ∀ b, b ∉ Finset.univ.image (Pipeline.arrRef spec1) → V' b = V b) :
    iprop((Pipeline.arrBufs spec1 c V' : sProp 𝕄) ∗ Pipeline.unscopedRest spec1 c V) ⊢ (unscopedBufs c V' : sProp 𝕄) := by
  rw [Pipeline.unscopedBufs_split₀ cfgs 1 winFacts₀1.arr_unscoped c V']
  refine sep_mono .rfl (Entails.of_eq ?_)
  unfold Pipeline.unscopedRest
  exact bigSep_congr fun b hb => by rw [hrest b (Finset.mem_sdiff.mp hb).2]

/-- EXIT: region 1's arrays at contents `G` and the unscoped rest at `V` are the core's unscoped buffers at any
    valuation `V'` that has the arrays at `G` and agrees with `V` off them. -/
theorem unscopedBufs_of_arrays1 (c : Dev nD) (dat : Dat τ (Elt F) Unit ℕ (UR sig nD τ) ℕ cfg1 c)
    (hs0 : dat.share 0 = fullShare) (hs1 : dat.share 1 = fullShare)
    (hs2 : dat.share 2 = fullShare.left) (hs3 : dat.share 3 = fullShare.right) (hs4 : dat.share 4 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) :=
  (sep_mono (arrBufs_of_arrays1 c dat hs0 hs1 hs2 hs3 hs4 V' G hG) .rfl).trans (unscopedBufs_of_arrBufs1 c V V' hrest)

end Cert.KernelIdeal.Fr

end
-- ==== Proof.KI.Reg1.lean ====
/-
  Region 1 of @main as a segment between two boundaries.  It is entered with every unscoped buffer at the contents of
  boundary 3 and left with them at boundary 4, the generator register at some state and nothing owed riding along.
  Two of its input windows stage the same buffer, `main_v2` (on the first propagation step the previous iterate is the
  dense layers' output), so the buffers behind its five arrays are four.  At entry the four are split out of the
  unscoped buffers and dealt to the windows, the shared buffer's full share halved between windows 2 and 3; at exit
  the halves are joined and the buffers put back: an input window's array is never written back, so it holds what it
  held, which is also what boundary 4 has there (the region changes `main_v44` only); the output window's array holds
  its write-backs, which is boundary 4's value at `main_v44`; every other buffer is untouched.  The body obligation
  is a hypothesis.
-/
import proofs.«114710_j78030965834312_1_alg».proof.Proof.KI.Chain
import proofs.«114710_j78030965834312_1_alg».proof.Proof.KI.Arr1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what the region was entered with,
    which is what boundary 4 has there too, the buffer not being `main_v44`. -/
theorem hF1_in (c : Dev nD) (w : Fin cfg1.W) (hin : (cfg1.win w).isOut = false)
    (hne : Pipeline.arrRef spec1 w ∉ ([main_v44] : List (Ref sig .tc))) :
    (pdats m 1 c).arrAt w cfg1.N = Gen.V4 m (outs m) c (Pipeline.arrRef spec1 w) :=
  ((pdats m 1 c).arrAt_in w hin _).trans ((A_eq1 (fun c b => Gen.V3 m (outs m) c b) c w).trans (Gen.V4_of m (outs m) c _ hne).symm)

/-- At the region's exit each window's array holds what boundary 4 has there. -/
theorem hF1 (c : Dev nD) : ∀ w : Fin cfg1.W, (pdats m 1 c).arrAt w cfg1.N = Gen.V4 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => (V_out1 m c).symm
  | ⟨_ + 5, h⟩ => absurd h (Nat.not_lt.2 (Nat.le_add_left _ _))

/-- Off the windows' arrays boundary 4 is boundary 3: the region changes `main_v44` only, which is a window's array. -/
theorem hrest1 (c : Dev nD) : ∀ b : Ref sig .tc, b ∉ Finset.univ.image (Pipeline.arrRef spec1) → Gen.V4 m (outs m) c b = Gen.V3 m (outs m) c b :=
  fun b hb => Gen.V4_of m (outs m) c b fun hmem => hb (by
    rw [List.mem_singleton.mp hmem]; exact Finset.mem_image.mpr ⟨4, Finset.mem_univ _, rfl⟩)

set_option backward.isDefEq.respectTransparency.types false in
/-- REGION 1 over the thread state: the buffers behind its arrays split out of the unscoped buffers at entry, the one
    two windows share halved between them, and put back at the exit contents, the halves joined; the generator
    register into the invariant and out; nothing owed; no semaphore of the kernel's own. -/
def reg1 (hb : ∀ c, BodyObligation (dat1 (F := F) (fun c b => Gen.V3 m (outs m) c b) c) (defs₀ (F := F)) Variants.none () Set.univ) :
    Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := arrays1_of_unscopedBufs c (pdats m 1 c) rfl rfl rfl rfl rfl (fun b => Gen.V3 m (outs m) c b)
      ((pdats m 1 c).arrAt · 0) fun _ => rfl
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl rfl rfl rfl
      (fun b => Gen.V3 m (outs m) c b) (fun b => Gen.V4 m (outs m) c b) ((pdats m 1 c).arrAt · cfg1.N) (hF1 m c) (hrest1 m c)
    rw [Pipeline.unscopedBufs_held c (Gen.V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg2.lean ====
/-
  Region 2 of @main as a segment between two boundaries.  It is entered with every unscoped buffer at the contents of
  boundary 5 and left with them at boundary 6, the generator register at some state and nothing owed riding along.
  At entry the windows' arrays are split out of the unscoped buffers; at exit they are put back: an input window's array
  is never written back, so it holds what it held, which is also what boundary 6 has there (the region changes `main_v58`
  only); the output window's array holds its write-backs, which is boundary 6's value at `main_v58`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 6 has there, the region changing `main_v58` only. -/
theorem hF2_in (c : Dev nD) (w : Fin 5) (hin : (cfg2.win w).isOut = false)
    (hne : Pipeline.arrRef spec2 w ∉ ([main_v58] : List (Ref sig .tc))) :
    (pdats m 2 c).arrAt w cfg2.N = Gen.V6 m (outs m) c (Pipeline.arrRef spec2 w) :=
  ((pdats m 2 c).arrAt_in w hin _).trans ((A_eq2 (fun c b => Gen.V5 m (outs m) c b) c w).trans (Gen.V6_of m (outs m) c _ hne).symm)

/-- At the region's exit each window's array holds what boundary 6 has there: the inputs' as above, the output's its
    write-backs. -/
theorem hF2 (c : Dev nD) (w : Fin 5) : (pdats m 2 c).arrAt w cfg2.N = Gen.V6 m (outs m) c (Pipeline.arrRef spec2 w) := by
  by_cases h : w = 4
  · subst h; exact (V_out2 m c).symm
  · exact hF2_in m c w (by revert w; decide) (by revert w; decide)

/-- Off the windows' arrays boundary 6 is boundary 5: the region changes `main_v58` only, which is a window's array. -/
theorem hrest2 (c : Dev nD) : ∀ b : Ref sig .tc, b ∉ Finset.univ.image (Pipeline.arrRef spec2) → Gen.V6 m (outs m) c b = Gen.V5 m (outs m) c b :=
  fun b hb => Gen.V6_of m (outs m) c b fun hmem => hb (by
    rw [List.mem_singleton.mp hmem]; exact Finset.mem_image.mpr ⟨4, Finset.mem_univ _, rfl⟩)

set_option backward.isDefEq.respectTransparency.types false in
/-- REGION 2 over the thread state: its arrays split out of the unscoped buffers at entry and put back at the exit
    contents; the generator register into the invariant and out; nothing owed; no semaphore of the kernel's own. -/
def reg2 (hb : ∀ c, BodyObligation (dat2 (F := F) (fun c b => Gen.V5 m (outs m) c b) c) (defs₀ (F := F)) Variants.none () Set.univ) :
    Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V5 m (outs m) c b) fun _ => rfl
    rw [Pipeline.unscopedBufs_held c (Gen.V5 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held c (Gen.V6 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg3.lean ====
/-
  Region 3 of @main as a segment between two boundaries.  It is entered with every unscoped buffer at the contents of
  boundary 7 and left with them at boundary 8, the generator register at some state and nothing owed riding along.
  At entry the windows' arrays are split out of the unscoped buffers; at exit they are put back: an input window's array
  is never written back, so it holds what it held, which is also what boundary 8 has there (the region changes `main_v72`
  only); the output window's array holds its write-backs, which is boundary 8's value at `main_v72`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 8 has there, the region changing `main_v72` only. -/
theorem hF3_in (c : Dev nD) (w : Fin 5) (hin : (cfg3.win w).isOut = false)
    (hne : Pipeline.arrRef spec3 w ∉ ([main_v72] : List (Ref sig .tc))) :
    (pdats m 3 c).arrAt w cfg3.N = Gen.V8 m (outs m) c (Pipeline.arrRef spec3 w) :=
  ((pdats m 3 c).arrAt_in w hin _).trans ((A_eq3 (fun c b => Gen.V7 m (outs m) c b) c w).trans (Gen.V8_of m (outs m) c _ hne).symm)

/-- At the region's exit each window's array holds what boundary 8 has there: the inputs' as above, the output's its
    write-backs. -/
theorem hF3 (c : Dev nD) (w : Fin 5) : (pdats m 3 c).arrAt w cfg3.N = Gen.V8 m (outs m) c (Pipeline.arrRef spec3 w) := by
  by_cases h : w = 4
  · subst h; exact (V_out3 m c).symm
  · exact hF3_in m c w (by revert w; decide) (by revert w; decide)

/-- Off the windows' arrays boundary 8 is boundary 7: the region changes `main_v72` only, which is a window's array. -/
theorem hrest3 (c : Dev nD) : ∀ b : Ref sig .tc, b ∉ Finset.univ.image (Pipeline.arrRef spec3) → Gen.V8 m (outs m) c b = Gen.V7 m (outs m) c b :=
  fun b hb => Gen.V8_of m (outs m) c b fun hmem => hb (by
    rw [List.mem_singleton.mp hmem]; exact Finset.mem_image.mpr ⟨4, Finset.mem_univ _, rfl⟩)

set_option backward.isDefEq.respectTransparency.types false in
/-- REGION 3 over the thread state: its arrays split out of the unscoped buffers at entry and put back at the exit
    contents; the generator register into the invariant and out; nothing owed; no semaphore of the kernel's own. -/
def reg3 (hb : ∀ c, BodyObligation (dat3 (F := F) (fun c b => Gen.V7 m (outs m) c b) c) (defs₀ (F := F)) Variants.none () Set.univ) :
    Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (hb c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V7 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V7 m (outs m) c b) fun _ => rfl
    rw [Pipeline.unscopedBufs_held c (Gen.V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V7 m (outs m) c b) (fun b => Gen.V8 m (outs m) c b) ((pdats m 3 c).arrAt · cfg3.N) (hF3 m c) (hrest3 m c)
    rw [Pipeline.unscopedBufs_held c (Gen.V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg4.lean ====
/-
  Region 4 of @main as a segment between two boundaries.  It is entered with every unscoped buffer at the contents of
  boundary 9 and left with them at boundary 10, the generator register at some state and nothing owed riding along.
  At entry the windows' arrays are split out of the unscoped buffers; at exit they are put back: an input window's array
  is never written back, so it holds what it held, which is also what boundary 10 has there (the region changes `main_v86`
  only); the output window's array holds its write-backs, which is boundary 10's value at `main_v86`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 10 has there, the region changing `main_v86` only. -/
theorem hF4_in (c : Dev nD) (w : Fin 5) (hin : (cfg4.win w).isOut = false)
    (hne : Pipeline.arrRef spec4 w ∉ ([main_v86] : List (Ref sig .tc))) :
    (pdats m 4 c).arrAt w cfg4.N = Gen.V10 m (outs m) c (Pipeline.arrRef spec4 w) :=
  ((pdats m 4 c).arrAt_in w hin _).trans ((A_eq4 (fun c b => Gen.V9 m (outs m) c b) c w).trans (Gen.V10_of m (outs m) c _ hne).symm)

/-- At the region's exit each window's array holds what boundary 10 has there: the inputs' as above, the output's its
    write-backs. -/
theorem hF4 (c : Dev nD) (w : Fin 5) : (pdats m 4 c).arrAt w cfg4.N = Gen.V10 m (outs m) c (Pipeline.arrRef spec4 w) := by
  by_cases h : w = 4
  · subst h; exact (V_out4 m c).symm
  · exact hF4_in m c w (by revert w; decide) (by revert w; decide)

/-- Off the windows' arrays boundary 10 is boundary 9: the region changes `main_v86` only, which is a window's array. -/
theorem hrest4 (c : Dev nD) : ∀ b : Ref sig .tc, b ∉ Finset.univ.image (Pipeline.arrRef spec4) → Gen.V10 m (outs m) c b = Gen.V9 m (outs m) c b :=
  fun b hb => Gen.V10_of m (outs m) c b fun hmem => hb (by
    rw [List.mem_singleton.mp hmem]; exact Finset.mem_image.mpr ⟨4, Finset.mem_univ _, rfl⟩)

set_option backward.isDefEq.respectTransparency.types false in
/-- REGION 4 over the thread state: its arrays split out of the unscoped buffers at entry and put back at the exit
    contents; the generator register into the invariant and out; nothing owed; no semaphore of the kernel's own. -/
def reg4 (hb : ∀ c, BodyObligation (dat4 (F := F) (fun c b => Gen.V9 m (outs m) c b) c) (defs₀ (F := F)) Variants.none () Set.univ) :
    Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (hb c).loose
  hwaits := Pipeline.hwaits_of_owed_zero _ _ _ _ L lv 4 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V9 m (outs m) c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => Gen.V9 m (outs m) c b) fun _ => rfl
    rw [Pipeline.unscopedBufs_held c (Gen.V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V9 m (outs m) c b) (fun b => Gen.V10 m (outs m) c b) ((pdats m 4 c).arrAt · cfg4.N) (hF4 m c) (hrest4 m c)
    rw [Pipeline.unscopedBufs_held c (Gen.V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg5.lean ====
/-
  Region 5 of @main as a segment between two boundaries.  It is entered with every unscoped buffer at the contents of
  boundary 11 and left with them at boundary 12, the generator register at some state and nothing owed riding along.
  At entry the windows' arrays are split out of the unscoped buffers; at exit they are put back: an input window's array
  is never written back, so it holds what it held, which is also what boundary 12 has there (the region changes `main_v100`
  only); the output window's array holds its write-backs, which is boundary 12's value at `main_v100`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 12 has there, the region changing `main_v100` only. -/
theorem hF5_in (c : Dev nD) (w : Fin 5) (hin : (cfg5.win w).isOut = false)
    (hne : Pipeline.arrRef spec5 w ∉ ([main_v100] : List (Ref sig .tc))) :
    (pdats m 5 c).arrAt w cfg5.N = Gen.V12 m (outs m) c (Pipeline.arrRef spec5 w) :=
  ((pdats m 5 c).arrAt_in w hin _).trans ((A_eq5 (fun c b => Gen.V11 m (outs m) c b) c w).trans (Gen.V12_of m (outs m) c _ hne).symm)

/-- At the region's exit each window's array holds what boundary 12 has there: the inputs' as above, the output's its
    write-backs. -/
theorem hF5 (c : Dev nD) (w : Fin 5) : (pdats m 5 c).arrAt w cfg5.N = Gen.V12 m (outs m) c (Pipeline.arrRef spec5 w) := by
  by_cases h : w = 4
  · subst h; exact (V_out5 m c).symm
  · exact hF5_in m c w (by revert w; decide) (by revert w; decide)

/-- Off the windows' arrays boundary 12 is boundary 11: the region changes `main_v100` only, which is a window's array. -/
theorem hrest5 (c : Dev nD) : ∀ b : Ref sig .tc, b ∉ Finset.univ.image (Pipeline.arrRef spec5) → Gen.V12 m (outs m) c b = Gen.V11 m (outs m) c b :=
  fun b hb => Gen.V12_of m (outs m) c b fun hmem => hb (by
    rw [List.mem_singleton.mp hmem]; exact Finset.mem_image.mpr ⟨4, Finset.mem_univ _, rfl⟩)

set_option backward.isDefEq.respectTransparency.types false in
/-- REGION 5 over the thread state: its arrays split out of the unscoped buffers at entry and put back at the exit
    contents; the generator register into the invariant and out; nothing owed; no semaphore of the kernel's own. -/
def reg5 (hb : ∀ c, BodyObligation (dat5 (F := F) (fun c b => Gen.V11 m (outs m) c b) c) (defs₀ (F := F)) Variants.none () Set.univ) :
    Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (hb c).loose
  hwaits := Pipeline.hwaits_of_owed_zero _ _ _ _ L lv 5 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V11 m (outs m) c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => Gen.V11 m (outs m) c b) fun _ => rfl
    rw [Pipeline.unscopedBufs_held c (Gen.V11 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V11 m (outs m) c b) (fun b => Gen.V12 m (outs m) c b) ((pdats m 5 c).arrAt · cfg5.N) (hF5 m c) (hrest5 m c)
    rw [Pipeline.unscopedBufs_held c (Gen.V12 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg6.lean ====
/-
  Region 6 of @main as a segment between two boundaries.  It is entered with every unscoped buffer at the contents of
  boundary 13 and left with them at boundary 14, the generator register at some state and nothing owed riding along.
  At entry the windows' arrays are split out of the unscoped buffers; at exit they are put back: an input window's array
  is never written back, so it holds what it held, which is also what boundary 14 has there (the region changes `main_v114`
  only); the output window's array holds its write-backs, which is boundary 14's value at `main_v114`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 14 has there, the region changing `main_v114` only. -/
theorem hF6_in (c : Dev nD) (w : Fin 5) (hin : (cfg6.win w).isOut = false)
    (hne : Pipeline.arrRef spec6 w ∉ ([main_v114] : List (Ref sig .tc))) :
    (pdats m 6 c).arrAt w cfg6.N = Gen.V14 m (outs m) c (Pipeline.arrRef spec6 w) :=
  ((pdats m 6 c).arrAt_in w hin _).trans ((A_eq6 (fun c b => Gen.V13 m (outs m) c b) c w).trans (Gen.V14_of m (outs m) c _ hne).symm)

/-- At the region's exit each window's array holds what boundary 14 has there: the inputs' as above, the output's its
    write-backs. -/
theorem hF6 (c : Dev nD) (w : Fin 5) : (pdats m 6 c).arrAt w cfg6.N = Gen.V14 m (outs m) c (Pipeline.arrRef spec6 w) := by
  by_cases h : w = 4
  · subst h; exact (V_out6 m c).symm
  · exact hF6_in m c w (by revert w; decide) (by revert w; decide)

/-- Off the windows' arrays boundary 14 is boundary 13: the region changes `main_v114` only, which is a window's array. -/
theorem hrest6 (c : Dev nD) : ∀ b : Ref sig .tc, b ∉ Finset.univ.image (Pipeline.arrRef spec6) → Gen.V14 m (outs m) c b = Gen.V13 m (outs m) c b :=
  fun b hb => Gen.V14_of m (outs m) c b fun hmem => hb (by
    rw [List.mem_singleton.mp hmem]; exact Finset.mem_image.mpr ⟨4, Finset.mem_univ _, rfl⟩)

set_option backward.isDefEq.respectTransparency.types false in
/-- REGION 6 over the thread state: its arrays split out of the unscoped buffers at entry and put back at the exit
    contents; the generator register into the invariant and out; nothing owed; no semaphore of the kernel's own. -/
def reg6 (hb : ∀ c, BodyObligation (dat6 (F := F) (fun c b => Gen.V13 m (outs m) c b) c) (defs₀ (F := F)) Variants.none () Set.univ) :
    Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (hb c).loose
  hwaits := Pipeline.hwaits_of_owed_zero _ _ _ _ L lv 6 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V13 m (outs m) c b)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (fun b => Gen.V13 m (outs m) c b) fun _ => rfl
    rw [Pipeline.unscopedBufs_held c (Gen.V13 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => Gen.V13 m (outs m) c b) (fun b => Gen.V14 m (outs m) c b) ((pdats m 6 c).arrAt · cfg6.N) (hF6 m c) (hrest6 m c)
    rw [Pipeline.unscopedBufs_held c (Gen.V14 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg7.lean ====
/-
  Region 7 of @main as a segment between two boundaries.  It is entered with every unscoped buffer at the contents of
  boundary 15 and left with them at boundary 16, the generator register at some state and nothing owed riding along.
  At entry the windows' arrays are split out of the unscoped buffers; at exit they are put back: an input window's array
  is never written back, so it holds what it held, which is also what boundary 16 has there (the region changes `main_v128`
  only); the output window's array holds its write-backs, which is boundary 16's value at `main_v128`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 16 has there, the region changing `main_v128` only. -/
theorem hF7_in (c : Dev nD) (w : Fin 5) (hin : (cfg7.win w).isOut = false)
    (hne : Pipeline.arrRef spec7 w ∉ ([main_v128] : List (Ref sig .tc))) :
    (pdats m 7 c).arrAt w cfg7.N = Gen.V16 m (outs m) c (Pipeline.arrRef spec7 w) :=
  ((pdats m 7 c).arrAt_in w hin _).trans ((A_eq7 (fun c b => Gen.V15 m (outs m) c b) c w).trans (Gen.V16_of m (outs m) c _ hne).symm)

/-- At the region's exit each window's array holds what boundary 16 has there: the inputs' as above, the output's its
    write-backs. -/
theorem hF7 (c : Dev nD) (w : Fin 5) : (pdats m 7 c).arrAt w cfg7.N = Gen.V16 m (outs m) c (Pipeline.arrRef spec7 w) := by
  by_cases h : w = 4
  · subst h; exact (V_out7 m c).symm
  · exact hF7_in m c w (by revert w; decide) (by revert w; decide)

/-- Off the windows' arrays boundary 16 is boundary 15: the region changes `main_v128` only, which is a window's array. -/
theorem hrest7 (c : Dev nD) : ∀ b : Ref sig .tc, b ∉ Finset.univ.image (Pipeline.arrRef spec7) → Gen.V16 m (outs m) c b = Gen.V15 m (outs m) c b :=
  fun b hb => Gen.V16_of m (outs m) c b fun hmem => hb (by
    rw [List.mem_singleton.mp hmem]; exact Finset.mem_image.mpr ⟨4, Finset.mem_univ _, rfl⟩)

set_option backward.isDefEq.respectTransparency.types false in
/-- REGION 7 over the thread state: its arrays split out of the unscoped buffers at entry and put back at the exit
    contents; the generator register into the invariant and out; nothing owed; no semaphore of the kernel's own. -/
def reg7 (hb : ∀ c, BodyObligation (dat7 (F := F) (fun c b => Gen.V15 m (outs m) c b) c) (defs₀ (F := F)) Variants.none () Set.univ) :
    Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (hb c).loose
  hwaits := Pipeline.hwaits_of_owed_zero _ _ _ _ L lv 7 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V15 m (outs m) c b)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (fun b => Gen.V15 m (outs m) c b) fun _ => rfl
    rw [Pipeline.unscopedBufs_held c (Gen.V15 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => Gen.V15 m (outs m) c b) (fun b => Gen.V16 m (outs m) c b) ((pdats m 7 c).arrAt · cfg7.N) (hF7 m c) (hrest7 m c)
    rw [Pipeline.unscopedBufs_held c (Gen.V16 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg8.lean ====
/-
  Region 8 of @main as a segment between two boundaries.  It is entered with every unscoped buffer at the contents of
  boundary 17 and left with them at boundary 18, the generator register at some state and nothing owed riding along.
  At entry the windows' arrays are split out of the unscoped buffers; at exit they are put back: an input window's array
  is never written back, so it holds what it held, which is also what boundary 18 has there (the region changes `main_v142`
  only); the output window's array holds its write-backs, which is boundary 18's value at `main_v142`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 18 has there, the region changing `main_v142` only. -/
theorem hF8_in (c : Dev nD) (w : Fin 5) (hin : (cfg8.win w).isOut = false)
    (hne : Pipeline.arrRef spec8 w ∉ ([main_v142] : List (Ref sig .tc))) :
    (pdats m 8 c).arrAt w cfg8.N = Gen.V18 m (outs m) c (Pipeline.arrRef spec8 w) :=
  ((pdats m 8 c).arrAt_in w hin _).trans ((A_eq8 (fun c b => Gen.V17 m (outs m) c b) c w).trans (Gen.V18_of m (outs m) c _ hne).symm)

/-- At the region's exit each window's array holds what boundary 18 has there: the inputs' as above, the output's its
    write-backs. -/
theorem hF8 (c : Dev nD) (w : Fin 5) : (pdats m 8 c).arrAt w cfg8.N = Gen.V18 m (outs m) c (Pipeline.arrRef spec8 w) := by
  by_cases h : w = 4
  · subst h; exact (V_out8 m c).symm
  · exact hF8_in m c w (by revert w; decide) (by revert w; decide)

/-- Off the windows' arrays boundary 18 is boundary 17: the region changes `main_v142` only, which is a window's array. -/
theorem hrest8 (c : Dev nD) : ∀ b : Ref sig .tc, b ∉ Finset.univ.image (Pipeline.arrRef spec8) → Gen.V18 m (outs m) c b = Gen.V17 m (outs m) c b :=
  fun b hb => Gen.V18_of m (outs m) c b fun hmem => hb (by
    rw [List.mem_singleton.mp hmem]; exact Finset.mem_image.mpr ⟨4, Finset.mem_univ _, rfl⟩)

set_option backward.isDefEq.respectTransparency.types false in
/-- REGION 8 over the thread state: its arrays split out of the unscoped buffers at entry and put back at the exit
    contents; the generator register into the invariant and out; nothing owed; no semaphore of the kernel's own. -/
def reg8 (hb : ∀ c, BodyObligation (dat8 (F := F) (fun c b => Gen.V17 m (outs m) c b) c) (defs₀ (F := F)) Variants.none () Set.univ) :
    Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (hb c).loose
  hwaits := Pipeline.hwaits_of_owed_zero _ _ _ _ L lv 8 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => Gen.V17 m (outs m) c b)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (fun b => Gen.V17 m (outs m) c b) fun _ => rfl
    rw [Pipeline.unscopedBufs_held c (Gen.V17 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (fun b => Gen.V17 m (outs m) c b) (fun b => Gen.V18 m (outs m) c b) ((pdats m 8 c).arrAt · cfg8.N) (hF8 m c) (hrest8 m c)
    rw [Pipeline.unscopedBufs_held c (Gen.V18 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg9.lean ====
/-
  Region 9 of @main as a segment between two boundaries.  It is entered with every unscoped buffer at the contents of
  boundary 19 and left with them at boundary 20, the generator register at some state and nothing owed riding along.
  At entry the windows' arrays are split out of the unscoped buffers; at exit they are put back: an input window's array
  is never written back, so it holds what it held, which is also what boundary 20 has there (the region changes `main_v156`
  only); the output window's array holds its write-backs, which is boundary 20's value at `main_v156`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 20 has there, the region changing `main_v156` only. -/
theorem hF9_in (c : Dev nD) (w : Fin 5) (hin : (cfg9.win w).isOut = false)
    (hne : Pipeline.arrRef spec9 w ∉ ([main_v156] : List (Ref sig .tc))) :
    (pdats m 9 c).arrAt w cfg9.N = Gen.V20 m (outs m) c (Pipeline.arrRef spec9 w) :=
  ((pdats m 9 c).arrAt_in w hin _).trans ((A_eq9 (fun c b => Gen.V19 m (outs m) c b) c w).trans (Gen.V20_of m (outs m) c _ hne).symm)

/-- At the region's exit each window's array holds what boundary 20 has there: the inputs' as above, the output's its
    write-backs. -/
theorem hF9 (c : Dev nD) (w : Fin 5) : (pdats m 9 c).arrAt w cfg9.N = Gen.V20 m (outs m) c (Pipeline.arrRef spec9 w) := by
  by_cases h : w = 4
  · subst h; exact (V_out9 m c).symm
  · exact hF9_in m c w (by revert w; decide) (by revert w; decide)

/-- Off the windows' arrays boundary 20 is boundary 19: the region changes `main_v156` only, which is a window's array. -/
theorem hrest9 (c : Dev nD) : ∀ b : Ref sig .tc, b ∉ Finset.univ.image (Pipeline.arrRef spec9) → Gen.V20 m (outs m) c b = Gen.V19 m (outs m) c b :=
  fun b hb => Gen.V20_of m (outs m) c b fun hmem => hb (by
    rw [List.mem_singleton.mp hmem]; exact Finset.mem_image.mpr ⟨4, Finset.mem_univ _, rfl⟩)

set_option backward.isDefEq.respectTransparency.types false in
/-- REGION 9 over the thread state: its arrays split out of the unscoped buffers at entry and put back at the exit
    contents; the generator register into the invariant and out; nothing owed; no semaphore of the kernel's own. -/
def reg9 (hb : ∀ c, BodyObligation (dat9 (F := F) (fun c b => Gen.V19 m (outs m) c b) c) (defs₀ (F := F)) Variants.none () Set.univ) :
    Pipeline.RegionSeg (pcfgs (F := F)) Gen.adm (pdats m) () defs₀ Variants.none L lv 9 where
  win := launch9.win.to₀
  block_pos := launch9.block_pos
  stage_whole := launch9.stage_whole
  K := PEmpty
  osem k := k.elim
  ho := Pipeline.OwnSemFacts.none _
  hbody c := (hb c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec9 c (fun b => Gen.V19 m (outs m) c b)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (fun b => Gen.V19 m (outs m) c b) fun _ => rfl
    rw [Pipeline.unscopedBufs_held c (Gen.V19 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (fun b => Gen.V19 m (outs m) c b) (fun b => Gen.V20 m (outs m) c b) ((pdats m 9 c).arrAt · cfg9.N) (hF9 m c) (hrest9 m c)
    rw [Pipeline.unscopedBufs_held c (Gen.V20 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg10.lean ====
/-
  Region 10 of @main as a segment between two boundaries.  It is entered with every unscoped buffer at the contents of
  boundary 21 and left with them at boundary 22, the generator register at some state and nothing owed riding along.
  At entry the windows' arrays are split out of the unscoped buffers; at exit they are put back: an input window's array
  is never written back, so it holds what it held, which is also what boundary 22 has there (the region changes `main_v170`
  only); the output window's array holds its write-backs, which is boundary 22's value at `main_v170`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 22 has there, the region changing `main_v170` only. -/
theorem hF10_in (c : Dev nD) (w : Fin 5) (hin : (cfg10.win w).isOut = false)
    (hne : Pipeline.arrRef spec10 w ∉ ([main_v170] : List (Ref sig .tc))) :
    (pdats m 10 c).arrAt w cfg10.N = Gen.V22 m (outs m) c (Pipeline.arrRef spec10 w) :=
  ((pdats m 10 c).arrAt_in w hin _).trans ((A_eq10 (fun c b => Gen.V21 m (outs m) c b) c w).trans (Gen.V22_of m (outs m) c _ hne).symm)

/-- At the region's exit each window's array holds what boundary 22 has there: the inputs' as above, the output's its
    write-backs. -/
theorem hF10 (c : Dev nD) (w : Fin 5) : (pdats m 10 c).arrAt w cfg10.N = Gen.V22 m (outs m) c (Pipeline.arrRef spec10 w) := by
  by_cases h : w = 4
  · subst h; exact (V_out10 m c).symm
  · exact hF10_in m c w (by revert w; decide) (by revert w; decide)

/-- Off the windows' arrays boundary 22 is boundary 21: the region changes `main_v170` only, which is a window's array. -/
theorem hrest10 (c : Dev nD) : ∀ b : Ref sig .tc, b ∉ Finset.univ.image (Pipeline.arrRef spec10) → Gen.V22 m (outs m) c b = Gen.V21 m (outs m) c b :=
  fun b hb => Gen.V22_of m (outs m) c b fun hmem => hb (by
    rw [List.mem_singleton.mp hmem]; exact Finset.mem_image.mpr ⟨4, Finset.mem_univ _, rfl⟩)

set_option backward.isDefEq.respectTransparency.types false in
/-- REGION 10 over the thread state: its arrays split out of the unscoped buffers at entry and put back at the exit
    contents; the generator register into the invariant and out; nothing owed; no semaphore of the kernel's own. -/
def reg10 (hb : ∀ c, BodyObligation (dat10 (F := F) (fun c b => Gen.V21 m (outs m) c b) c) (defs₀ (F := F)) Variants.none () Set.univ) :
    Pipeline.RegionSeg (pcfgs (F := F)) Gen.adm (pdats m) () defs₀ Variants.none L lv 10 where
  win := launch10.win.to₀
  block_pos := launch10.block_pos
  stage_whole := launch10.stage_whole
  K := PEmpty
  osem k := k.elim
  ho := Pipeline.OwnSemFacts.none _
  hbody c := (hb c).loose
  hwaits := Pipeline.hwaits_of_owed_zero _ _ _ _ L lv 10 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec10 c (fun b => Gen.V21 m (outs m) c b)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (fun b => Gen.V21 m (outs m) c b) fun _ => rfl
    rw [Pipeline.unscopedBufs_held c (Gen.V21 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun _ => rfl)
      (fun b => Gen.V21 m (outs m) c b) (fun b => Gen.V22 m (outs m) c b) ((pdats m 10 c).arrAt · cfg10.N) (hF10 m c) (hrest10 m c)
    rw [Pipeline.unscopedBufs_held c (Gen.V22 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg11.lean ====
/-
  Region 11 of @main as a segment between two boundaries.  It is entered with every unscoped buffer at the contents of
  boundary 22 and left with them at boundary 23, the generator register at some state and nothing owed riding along.
  At entry the windows' arrays are split out of the unscoped buffers; at exit they are put back: an input window's array
  is never written back, so it holds what it held, which is also what boundary 23 has there (the region changes `main_v171`
  only); the output window's array holds its write-backs, which is boundary 23's value at `main_v171`; every other
  buffer is untouched.  The body obligation is a hypothesis.
-/
import proofs.«114710_j78030965834312_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array is never written back: at the region's exit it holds what it held at entry, which is what
    boundary 23 has there, the region changing `main_v171` only. -/
theorem hF11_in (c : Dev nD) (w : Fin 2) (hin : (cfg11.win w).isOut = false)
    (hne : Pipeline.arrRef spec11 w ∉ ([main_v171] : List (Ref sig .tc))) :
    (pdats m 11 c).arrAt w cfg11.N = Gen.V23 m (outs m) c (Pipeline.arrRef spec11 w) :=
  ((pdats m 11 c).arrAt_in w hin _).trans ((A_eq11 (fun c b => Gen.V22 m (outs m) c b) c w).trans (Gen.V23_of m (outs m) c _ hne).symm)

/-- At the region's exit each window's array holds what boundary 23 has there: the inputs' as above, the output's its
    write-backs. -/
theorem hF11 (c : Dev nD) (w : Fin 2) : (pdats m 11 c).arrAt w cfg11.N = Gen.V23 m (outs m) c (Pipeline.arrRef spec11 w) := by
  by_cases h : w = 1
  · subst h; exact (V_out11 m c).symm
  · exact hF11_in m c w (by revert w; decide) (by revert w; decide)

/-- Off the windows' arrays boundary 23 is boundary 22: the region changes `main_v171` only, which is a window's array. -/
theorem hrest11 (c : Dev nD) : ∀ b : Ref sig .tc, b ∉ Finset.univ.image (Pipeline.arrRef spec11) → Gen.V23 m (outs m) c b = Gen.V22 m (outs m) c b :=
  fun b hb => Gen.V23_of m (outs m) c b fun hmem => hb (by
    rw [List.mem_singleton.mp hmem]; exact Finset.mem_image.mpr ⟨1, Finset.mem_univ _, rfl⟩)

set_option backward.isDefEq.respectTransparency.types false in
/-- REGION 11 over the thread state: its arrays split out of the unscoped buffers at entry and put back at the exit
    contents; the generator register into the invariant and out; nothing owed; no semaphore of the kernel's own. -/
def reg11 (hb : ∀ c, BodyObligation (dat11 (F := F) (fun c b => Gen.V22 m (outs m) c b) c) (defs₀ (F := F)) Variants.none () Set.univ) :
    Pipeline.RegionSeg (pcfgs (F := F)) Gen.adm (pdats m) () defs₀ Variants.none L lv 11 where
  win := launch11.win.to₀
  block_pos := launch11.block_pos
  stage_whole := launch11.stage_whole
  K := PEmpty
  osem k := k.elim
  ho := Pipeline.OwnSemFacts.none _
  hbody c := (hb c).loose
  hwaits := Pipeline.hwaits_of_owed_zero _ _ _ _ L lv 11 fun _ _ => rfl
  pre c := iprop(StableHlo.held (c : Thread nD τ) (Pipeline.ucRefs τ sig) (Gen.V22 m (outs m) c) ∗ R c)
  post c := iprop(StableHlo.held (c : Thread nD τ) (Pipeline.ucRefs τ sig) (Gen.V23 m (outs m) c) ∗ R c)
  X c := iprop(∃ r, prngReg c r)
  Y c := iprop(∃ r, prngReg c r)
  Z c := Pipeline.unscopedRest (Ix := Unit) (Name := ℕ) (U := UR sig nD τ) (Lvl := ℕ) spec11 c (fun b => Gen.V22 m (outs m) c b)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (fun b => Gen.V22 m (outs m) c b) fun _ => rfl
    rw [Pipeline.unscopedBufs_held c (Gen.V22 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun _ => rfl)
      (fun b => Gen.V22 m (outs m) c b) (fun b => Gen.V23 m (outs m) c b) ((pdats m 11 c).arrAt · cfg11.N) (hF11 m c) (hrest11 m c)
    rw [Pipeline.unscopedBufs_held c (Gen.V23 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Body0.lean ====
/-
  Region 0's body obligation: the kernel body, run on the windows' staging buffers at a grid point, leaves
  every input block as it was fetched and the output block at its one whole-block store.
-/
import proofs.«114710_j78030965834312_1_alg».proof.Proof.KI.Dat0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Input window 0's current staging buffer holds its block at every point, fetched there or not, for any proof
    data whose array is `V`'s and whose body leaves the block in place: where the window is not fetched its block
    index has not moved, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved, so the buffer still holds this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: where the window is not fetched its block
    index has not moved, so the buffer still holds this point's block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output block's one store covers it -/

theorem cover0 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the inputs' at read contents `x0 … x4` and the output's at anything, runs
    to the continuation holding the inputs' as they were and the output's at `out0` of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x47 .f32) (harg4 : arg4.IsWhole)
    (arg5 : Memref sig .tc .vmem S1x47 .f32) (harg5 : arg5.IsWhole) (arg6 : Memref sig .tc .vmem S5000x47 .f32) (harg6 : arg6.IsWhole)
    (x0 : Vec F S5000x128 .f32) (x1 : Vec F S128x256 .f32) (x2 : Vec F S1x256 .f32) (x3 : Vec F S256x47 .f32) (x4 : Vec F S1x47 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the self-loop weights, a column): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the previous iterate): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the dense layers' output): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its block -/

/-- The body's one store is through the whole-block rectangle, which tiles the block, so it covers it. -/
theorem cover1 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel1 (c : Dev nD) (E : Set ℕ) (i : grid1.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The input windows, at the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the self-loop weights, a column): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the previous iterate): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the dense layers' output): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The output's one store covers its block -/

/-- The body's one store is through the whole-block rectangle, which tiles the block, so it covers it. -/
theorem cover2 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel2 (c : Dev nD) (E : Set ℕ) (i : grid2.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The input windows, at the region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, what the core owes, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the self-loop weights, a column): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the previous iterate): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the dense layers' output): the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The output's one store covers its block -/

/-- The body's one store is through the whole-block rectangle, which tiles the block, so it covers it. -/
theorem cover3 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel3 (c : Dev nD) (E : Set ℕ) (i : grid3.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The input windows, at the region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, what the core owes, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Body4.lean ====
/-
  Region 4's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the self-loop weights, a column): the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the previous iterate): the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the dense layers' output): the same. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The output's one store covers its block -/

/-- The body's one store is through the whole-block rectangle, which tiles the block, so it covers it. -/
theorem cover4 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel4 (c : Dev nD) (E : Set ℕ) (i : grid4.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The input windows, at the region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`: the invariant, what the core owes, and each window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: the same, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Body5.lean ====
/-
  Region 5's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the self-loop weights, a column): the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the previous iterate): the same. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the dense layers' output): the same. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The output's one store covers its block -/

/-- The body's one store is through the whole-block rectangle, which tiles the block, so it covers it. -/
theorem cover5 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel5 (c : Dev nD) (E : Set ℕ) (i : grid5.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

/-! ## The input windows, at the region's proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, what the core owes, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns: the same, each buffer at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Body6.lean ====
/-
  Region 6's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat6

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the self-loop weights, a column): the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the previous iterate): the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the dense layers' output): the same. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The output's one store covers its block -/

/-- The body's one store is through the whole-block rectangle, which tiles the block, so it covers it. -/
theorem cover6 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel6 (c : Dev nD) (E : Set ℕ) (i : grid6.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6 x0 x1 x2 x3)) -∗ K ⟨⟩))
      ⊢ wp frame (wpE (defs₀ (F := F)) Variants.none c none) E (cc6__combine_kernel i arg1 harg1 arg2 harg2 arg3 harg3 arg4 harg4 arg5 harg5) K := by
  simp only [cc6__combine_kernel_eq_skeleton]; unfold cc6__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6 _)

/-! ## The input windows, at the region's proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`: the invariant, what the core owes, and each window's current staging
    buffer at what the pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns: the same, each buffer at what the proof data says the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Body7.lean ====
/-
  Region 7's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat7

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the self-loop weights, a column): the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the previous iterate): the same. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3 (the dense layers' output): the same. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The output's one store covers its block -/

/-- The body's one store is through the whole-block rectangle, which tiles the block, so it covers it. -/
theorem cover7 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel7 (c : Dev nD) (E : Set ℕ) (i : grid7.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7 x0 x1 x2 x3)) -∗ K ⟨⟩))
      ⊢ wp frame (wpE (defs₀ (F := F)) Variants.none c none) E (cc7__combine_kernel i arg1 harg1 arg2 harg2 arg3 harg3 arg4 harg4 arg5 harg5) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

/-! ## The input windows, at the region's proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`: the invariant, what the core owes, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns: the same, each buffer at what the proof data says the body leaves. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Body8.lean ====
/-
  Region 8's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat8

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the self-loop weights, a column): the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 (the previous iterate): the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 (the dense layers' output): the same. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The output's one store covers its block -/

/-- The body's one store is through the whole-block rectangle, which tiles the block, so it covers it. -/
theorem cover8 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel8 (c : Dev nD) (E : Set ℕ) (i : grid8.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8 x0 x1 x2 x3)) -∗ K ⟨⟩))
      ⊢ wp frame (wpE (defs₀ (F := F)) Variants.none c none) E (cc8__combine_kernel i arg1 harg1 arg2 harg2 arg3 harg3 arg4 harg4 arg5 harg5) K := by
  simp only [cc8__combine_kernel_eq_skeleton]; unfold cc8__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8 _)

/-! ## The input windows, at the region's proof data -/

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`: the invariant, what the core owes, and each window's current staging
    buffer at what the pipeline left there, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns: the same, each buffer at what the proof data says the body leaves. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.Body9.lean ====
/-
  Region 9's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat9

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the self-loop weights, a column): the same. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the previous iterate): the same. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3 (the dense layers' output): the same. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The output's one store covers its block -/

/-- The body's one store is through the whole-block rectangle, which tiles the block, so it covers it. -/
theorem cover9 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel9 (c : Dev nD) (E : Set ℕ) (i : grid9.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9 x0 x1 x2 x3)) -∗ K ⟨⟩))
      ⊢ wp frame (wpE (defs₀ (F := F)) Variants.none c none) E (cc9__combine_kernel i arg1 harg1 arg2 harg2 arg3 harg3 arg4 harg4 arg5 harg5) K := by
  simp only [cc9__combine_kernel_eq_skeleton]; unfold cc9__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9 _)

/-! ## The input windows, at the region's proof data -/

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`: the invariant, what the core owes, and each window's current staging
    buffer at what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns: the same, each buffer at what the proof data says the body leaves. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.Body10.lean ====
/-
  Region 10's body obligation: one propagation step's blend on a block of 5000 rows.  At every point the body
  finds, in its four input staging buffers, the point's blocks of the neighbour sum, the self-loop weights, the
  previous iterate and the dense layers' output (each window is fetched at every point, so its current buffer
  holds the block of the array as the region found it); it loads the four blocks whole, stores the blend whole
  into the output buffer, once, and touches nothing else.  So the output buffer ends at the canonical contents
  of that one store, whatever it held before, and the input buffers end as they were.
-/
import proofs.«114710_j78030965834312_1_alg».proof.Proof.KI.Dat10

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers hold their blocks -/

/-- Input window 0 (the neighbour sum): its current staging buffer holds its block at every point, for any proof
    data whose array is the region-entry contents (`hA`) and whose body leaves the block in place (`hafter`):
    the window is an input, uncut and never idle, so the buffer holds what a fetch puts there. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the self-loop weights, a column): the same. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2 (the previous iterate): the same. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3 (the dense layers' output): the same. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The output's one store covers its block -/

/-- The body's one store is through the whole-block rectangle, which tiles the block, so it covers it. -/
theorem cover10 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the four inputs' at read contents `x0 … x3` and the output's at anything,
    runs to the continuation holding the inputs' as they were and the output's at the blend of the inputs: four
    whole loads, a load of the output that is not used, one whole store. -/
theorem sound_kernel10 (c : Dev nD) (E : Set ℕ) (i : grid10.Coords) (arg1 : Memref sig .tc .vmem S5000x47 .f32) (harg1 : arg1.IsWhole) (arg2 : Memref sig .tc .vmem S5000x1 .f32) (harg2 : arg2.IsWhole) (arg3 : Memref sig .tc .vmem S5000x47 .f32) (harg3 : arg3.IsWhole) (arg4 : Memref sig .tc .vmem S5000x47 .f32) (harg4 : arg4.IsWhole) (arg5 : Memref sig .tc .vmem S5000x47 .f32) (harg5 : arg5.IsWhole)
    (x0 : Vec F S5000x47 .f32) (x1 : Vec F S5000x1 .f32) (x2 : Vec F S5000x47 .f32) (x3 : Vec F S5000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out10 x0 x1 x2 x3)) -∗ K ⟨⟩))
      ⊢ wp frame (wpE (defs₀ (F := F)) Variants.none c none) E (cc10__combine_kernel i arg1 harg1 arg2 harg2 arg3 harg3 arg4 harg4 arg5 harg5) K := by
  simp only [cc10__combine_kernel_eq_skeleton]; unfold cc10__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10 _)

/-! ## The input windows, at the region's proof data -/

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point `t`: the invariant, what the core owes, and each window's current staging
    buffer at what the pipeline left there, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns: the same, each buffer at what the proof data says the body leaves. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ (grid10.coords t) _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.Body11.lean ====
/-
  Region 11's body obligation: the kernel body, run on the windows' staging buffers at a grid point, leaves
  every input block as it was fetched and the output block at its one whole-block store.
-/
import proofs.«114710_j78030965834312_1_alg».proof.Proof.KI.Dat11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- The input window's current staging buffer holds its block at every point, for any proof data whose array is
    `V`'s and whose body leaves the block in place: the window is fetched at every point, uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## The output block's one store covers it -/

theorem cover11 (p0 : Vec F S5000x47 .f32) (y : S5000x47.Idx) :
    ∃ pc ∈ ([⟨rBlk47, p0⟩] : List (View.Piece (Elt F) S5000x47 .f32)), y ∈ pc.1.set :=
  View.cover_of_tiled [⟨rBlk47, p0⟩] S5000x47.size (by rfl) y

/-! ## The body's triple -/

set_option maxHeartbeats 1000000 in
/-- The body on whole staging memrefs, the input's at contents `x0` and the output's at anything, runs to the
    continuation holding the input's as it was and the output's at `out11 x0`. -/
theorem sound_kernel11 (c : Dev nD) (E : Set ℕ) (i : grid11.Coords) (arg1 : Memref sig .tc .vmem S5000x47 .f32) (harg1 : arg1.IsWhole)
    (arg2 : Memref sig .tc .vmem S5000x47 .f32) (harg2 : arg2.IsWhole)
    (x0 : Vec F S5000x47 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out11 x0)) -∗ K ⟨⟩))
      ⊢ wp frame (wpE (defs₀ (F := F)) Variants.none c none) E (cc11__log_softmax_kernel i arg1 harg1 arg2 harg2) K := by
  simp only [cc11__log_softmax_kernel_eq_skeleton]; unfold cc11__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover11 _)

/-- The input's current staging buffer holds its block at every point. -/
theorem before11_0 (c : Dev nD) (t : Fin cfg11.N) (d) : (dat11 V c).before 0 t d = iblk11 V c 0 t :=
  before11_0_of V (dat11 V c) (A_eq11 V c 0) (after11_0 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t))

/-- The body at any point: the input's memref holds its block, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0]
  rw [show (dat11 V c).Φ t.succ = (dat11 V c).Φ t.castSucc from rfl,
    show (dat11 V c).owesAt () t.succ = (dat11 V c).owesAt () t.castSucc from rfl,
    after11_0, after11_1]
  iintro ⟨HΦ, Ho, ⟨%d0, H0⟩, ⟨%d1, H1⟩⟩
  iapply (sound_kernel11 c Set.univ _ _ _ _ _ (iblk11 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.Run.lean ====
/-
  The run of @main at the chain's contents: the twelve regions' records, entered from and left at the boundaries' thread
  state "every unscoped buffer at the boundary's contents, the generator register at some state, nothing owed", put into
  the conditional run.  Every weakly fair execution of @main terminates, and every final memory holds the last region's
  output array at the last boundary's contents and each argument as launched; `frame` keeps the arguments' conjuncts.
-/
import proofs.«114710_j78030965834312_1_alg».proof.Proof.KI.Chain
import proofs.«114710_j78030965834312_1_alg».proof.Proof.KI.RunCond
import proofs.«114710_j78030965834312_1_alg».proof.Proof.KI.Reg0
import proofs.«114710_j78030965834312_1_alg».proof.Proof.KI.Reg1
import proofs.«114710_j78030965834312_1_alg».proof.Proof.KI.Reg2
import proofs.«114710_j78030965834312_1_alg».proof.Proof.KI.Reg3
import proofs.«114710_j78030965834312_1_alg».proof.Proof.KI.Reg4
import proofs.«114710_j78030965834312_1_alg».proof.Proof.KI.Reg5
import proofs.«114710_j78030965834312_1_alg».proof.Proof.KI.Reg6
import proofs.«114710_j78030965834312_1_alg».proof.Proof.KI.Reg7
import proofs.«114710_j78030965834312_1_alg».proof.Proof.KI.Reg8
import proofs.«114710_j78030965834312_1_alg».proof.Proof.KI.Reg9
import proofs.«114710_j78030965834312_1_alg».proof.Proof.KI.Reg10
import proofs.«114710_j78030965834312_1_alg».proof.Proof.KI.Reg11
import proofs.«114710_j78030965834312_1_alg».proof.Proof.KI.Body0
import proofs.«114710_j78030965834312_1_alg».proof.Proof.KI.Body1
import proofs.«114710_j78030965834312_1_alg».proof.Proof.KI.Body2
import proofs.«114710_j78030965834312_1_alg».proof.Proof.KI.Body3
import proofs.«114710_j78030965834312_1_alg».proof.Proof.KI.Body4
import proofs.«114710_j78030965834312_1_alg».proof.Proof.KI.Body5
import proofs.«114710_j78030965834312_1_alg».proof.Proof.KI.Body6
import proofs.«114710_j78030965834312_1_alg».proof.Proof.KI.Body7
import proofs.«114710_j78030965834312_1_alg».proof.Proof.KI.Body8
import proofs.«114710_j78030965834312_1_alg».proof.Proof.KI.Body9
import proofs.«114710_j78030965834312_1_alg».proof.Proof.KI.Body10
import proofs.«114710_j78030965834312_1_alg».proof.Proof.KI.Body11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE RUN at the chain's contents. -/
theorem run_all (ρ : Dev nD → PrngReg)
    : θ_run defs (onTc (τ := τ) (main (F := F))) ⟨m, fun _ => 0, ρ⟩ (fun r => ∀ c : Dev nD,
      r.2.mem ((c.tc : Thread nD τ).loc main_v171) = Gen.V23 m (outs m) c main_v171
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m (fun c => body_obligation0 (fun c b => Gen.V1 m c b) c)) (fun _ => .rfl) (fun _ => .rfl)
    (reg1 m (fun c => body_obligation1 (fun c b => Gen.V3 m (outs m) c b) c)) (fun _ => .rfl) (fun _ => .rfl)
    (reg2 m (fun c => body_obligation2 (fun c b => Gen.V5 m (outs m) c b) c)) (fun _ => .rfl) (fun _ => .rfl)
    (reg3 m (fun c => body_obligation3 (fun c b => Gen.V7 m (outs m) c b) c)) (fun _ => .rfl) (fun _ => .rfl)
    (reg4 m (fun c => body_obligation4 (fun c b => Gen.V9 m (outs m) c b) c)) (fun _ => .rfl) (fun _ => .rfl)
    (reg5 m (fun c => body_obligation5 (fun c b => Gen.V11 m (outs m) c b) c)) (fun _ => .rfl) (fun _ => .rfl)
    (reg6 m (fun c => body_obligation6 (fun c b => Gen.V13 m (outs m) c b) c)) (fun _ => .rfl) (fun _ => .rfl)
    (reg7 m (fun c => body_obligation7 (fun c b => Gen.V15 m (outs m) c b) c)) (fun _ => .rfl) (fun _ => .rfl)
    (reg8 m (fun c => body_obligation8 (fun c b => Gen.V17 m (outs m) c b) c)) (fun _ => .rfl) (fun _ => .rfl)
    (reg9 m (fun c => body_obligation9 (fun c b => Gen.V19 m (outs m) c b) c)) (fun _ => .rfl) (fun _ => .rfl)
    (reg10 m (fun c => body_obligation10 (fun c b => Gen.V21 m (outs m) c b) c)) (fun _ => .rfl) (fun _ => .rfl)
    (reg11 m (fun c => body_obligation11 (fun c b => Gen.V22 m (outs m) c b) c)) (fun _ => .rfl) (fun _ => .rfl)

/-- THE FRAME: every weakly fair execution of @main terminates, nothing faulting, the argument arrays as launched. -/
theorem frame (ρ : Dev nD → PrngReg)
    : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Fr

end
-- ==== Proof.Spec.lean ====
/-
  What both programs compute, as one function of the six argument arrays — APPNP on a graph of 100000 nodes and
  1600000 edges with 47 classes:
    h      = relu (x · W1 + b1) · W2 + b2                                   the two dense layers, [100000, 47];
    deg    = 1 + the number of edges into each node;   dinv = deg^(-1/2);
    ew e   = dinv (src e) · dinv (dst e)                                     one weight per edge;
    sw i   = dinv i · dinv i                                                 the self-loop weight, a column;
    agg z  = the sum, into row (dst e), of ew e · (row (src e) of z), over all edges e;
    step z = 0.9 · (agg z + sw · z) + 0.1 · h;
    result = log-softmax along each row of step^10 h.
  An edge endpoint below zero is first moved up by 100000, as both programs do before they gather.
  Every piece is written with the host operations of the reference program, on the extended reals or on words
  alike (`F` is a parameter); the two constants 0.9 and 0.1 are the f32 words both programs carry.
-/
import proofs.«114710_j78030965834312_1_alg».proof.ReferenceIdeal
import proofs.«114710_j78030965834312_1_alg».proof.Proof.Gen.ReferenceIdeal

noncomputable section

namespace Cert.Sp

open Cert.ReferenceIdeal Cert.ReferenceIdeal.Gen Idealize.ShloMosaic

variable {F : FTy → Type} [FloatOps F]

/-- An array's contents: shape and element type. -/
abbrev Arr (F : FTy → Type) [FloatOps F] (s : Shape) (e : EltTy) : Type := (⟨s, e⟩ : BufTy).Contents (Elt F)

/-- Row `r` of the edge list as a vector of 1600000 endpoints (`r = 0`: sources; `r = 1`: targets). -/
def srcOf (a1 : Arr F S2x1600000 .i32) : Arr F S1600000 .i32 :=
  shapeCast _ (extractStridedSlice S1x1600000 ![0, 0] a1 slices_S2x1600000_S1x1600000_0_0) shapeCasts_S1x1600000_S1600000
def dstOf (a1 : Arr F S2x1600000 .i32) : Arr F S1600000 .i32 :=
  shapeCast _ (extractStridedSlice S1x1600000 ![1, 0] a1 slices_S2x1600000_S1x1600000_1_0) shapeCasts_S1x1600000_S1600000

/-- An endpoint below zero counts from the end: `v < 0 ? v + 100000 : v`. -/
def wrap (v : Arr F S1600000 .i32) : Arr F S1600000 .i32 :=
  select (cmpi .slt v (broadcastInDim S1600000 ![] bcast_S_S1600000 (constantI S_ 32 0#32)))
    (addi v (broadcastInDim S1600000 ![] bcast_S_S1600000 (constantI S_ 32 100000#32))) v

/-- An endpoint vector as the one-column index array a gather or a scatter takes. -/
def col (v : Arr F S1600000 .i32) : Arr F S1600000x1 .i32 :=
  broadcastInDim S1600000x1 ![0] bcast_S1600000_S1600000x1_0 v

/-- `deg^(-1/2)`, the degree counting each edge into the node and the node's own loop. -/
def dinv (dst : Arr F S1600000 .i32) : Arr F S100000 .f32 :=
  Host.rsqrt (addf
    (Host.scatterAdd scatter_S100000_S1600000x1_S1600000_n_0_0_1
      (broadcastInDim S100000 ![] bcast_S_S100000 (constant S_ .f32 0x00000000#32)) (col dst)
      (broadcastInDim S1600000 ![] bcast_S_S1600000 (constant S_ .f32 0x3F800000#32)))
    (broadcastInDim S100000 ![] bcast_S_S100000 (constant S_ .f32 0x3F800000#32)))

/-- The edge weights `dinv (src e) · dinv (dst e)`. -/
def ewOf (src dst : Arr F S1600000 .i32) : Arr F S1600000 .f32 :=
  mulf (Host.gather gather_S100000_S1600000x1_S1600000_n_0_n_n_0_1_1 (dinv dst) (col (wrap src)))
    (Host.gather gather_S100000_S1600000x1_S1600000_n_0_n_n_0_1_1 (dinv dst) (col (wrap dst)))

/-- The self-loop weights `dinv i · dinv i`, as a column. -/
def swOf (dst : Arr F S1600000 .i32) : Arr F S100000x1 .f32 :=
  broadcastInDim S100000x1 ![0] bcast_S100000_S100000x1_0 (mulf (dinv dst) (dinv dst))

/-- One propagation's neighbour sum: row `src e` of `z`, weighted by `ew e`, added into row `dst e`. -/
def agg (src dst : Arr F S1600000 .i32) (ew : Arr F S1600000 .f32) (z : Arr F S100000x47 .f32) : Arr F S100000x47 .f32 :=
  Host.scatterAdd scatter_S100000x47_S1600000x1_S1600000x47_1_0_0_1
    (broadcastInDim S100000x47 ![] bcast_S_S100000x47 (constant S_ .f32 0x00000000#32)) (col dst)
    (mulf (broadcastInDim S1600000x47 ![0, 1] bcast_S1600000x1_S1600000x47_0_1
        (broadcastInDim S1600000x1 ![0] bcast_S1600000_S1600000x1_0 ew))
      (Host.gather gather_S100000x47_S1600000x1_S1600000x47_1_0_n_n_0_1_147 z (col (wrap src))))

/-- The blend `0.9 · (a + w · z) + 0.1 · h`, the column `w` read along each row. -/
def blend (a : Arr F S100000x47 .f32) (w : Arr F S100000x1 .f32) (z h : Arr F S100000x47 .f32) : Arr F S100000x47 .f32 :=
  addf (mulf (broadcastInDim S100000x47 ![] bcast_S_S100000x47 (constant S_ .f32 0x3F666666#32))
      (addf a (mulf (broadcastInDim S100000x47 ![0, 1] bcast_S100000x1_S100000x47_0_1 w) z)))
    (mulf (broadcastInDim S100000x47 ![] bcast_S_S100000x47 (constant S_ .f32 0x3DCCCCCD#32)) h)

/-- One propagation step. -/
def step (src dst : Arr F S1600000 .i32) (ew : Arr F S1600000 .f32) (w : Arr F S100000x1 .f32)
    (h z : Arr F S100000x47 .f32) : Arr F S100000x47 .f32 :=
  blend (agg src dst ew z) w z h

/-- The two dense layers, `relu (x · W1 + b1) · W2 + b2`. -/
def hid (x : Arr F S100000x128 .f32) (W1 : Arr F S128x256 .f32) (b1 : Arr F S256 .f32) (W2 : Arr F S256x47 .f32)
    (b2 : Arr F S47 .f32) : Arr F S100000x47 .f32 :=
  addf (Host.dotGeneral dot_S100000x256_S256x47_S100000x47_1_0_0_1_n_n none
      (maximumf
        (addf (Host.dotGeneral dot_S100000x128_S128x256_S100000x256_1_0_0_1_n_n none x W1)
          (broadcastInDim S100000x256 ![0, 1] bcast_S1x256_S100000x256_0_1 (broadcastInDim S1x256 ![1] bcast_S256_S1x256_1 b1)))
        (broadcastInDim S100000x256 ![] bcast_S_S100000x256 (constant S_ .f32 0x00000000#32))) W2)
    (broadcastInDim S100000x47 ![0, 1] bcast_S1x47_S100000x47_0_1 (broadcastInDim S1x47 ![1] bcast_S47_S1x47_1 b2))

/-- `z` less its row maximum (the maximum taken from −∞, and once more against −∞). -/
def shifted (z : Arr F S100000x47 .f32) : Arr F S100000x47 .f32 :=
  subf z (broadcastInDim S100000x47 ![0, 1] bcast_S100000x1_S100000x47_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x47_S100000_d1 h_S_))))

/-- The row-wise log-softmax: `(z − max) − log Σ exp (z − max)`. -/
def lsm (z : Arr F S100000x47 .f32) : Arr F S100000x47 .f32 :=
  subf (shifted z) (broadcastInDim S100000x47 ![0, 1] bcast_S100000x1_S100000x47_0_1
    (Host.log (broadcastInDim S100000x1 ![0] bcast_S100000_S100000x1_0
      (Host.reduceAdd (Host.exp (shifted z)) (constant S_ .f32 0x00000000#32) reducesTo_S100000x47_S100000_d1 h_S_))))

/-- The result: ten propagation steps from the dense layers' output, then the log-softmax. -/
def final (x : Arr F S100000x128 .f32) (a1 : Arr F S2x1600000 .i32) (W1 : Arr F S128x256 .f32) (b1 : Arr F S256 .f32)
    (W2 : Arr F S256x47 .f32) (b2 : Arr F S47 .f32) : Arr F S100000x47 .f32 :=
  let src := srcOf a1
  let dst := dstOf a1
  let h := hid x W1 b1 W2 b2
  lsm ((step src dst (ewOf src dst) (swOf dst) h)^[10] h)

end Cert.Sp

end
-- ==== Proof.Ref.Value.lean ====
/-
  The fold of the reference's 321 host operations, read: from ANY contents `W` of the buffers, what the operations leave
  at the result `main_v247` is `Cert.Sp.final` of `W` at the six arguments, and the arguments are left as they were.

  The list is cut into twelve consecutive chunks — the operations before the first propagation step, the ten steps, the
  log-softmax — and the fold of a concatenation is the fold of the folds (`after_append`). Each chunk is read over a
  VARIABLE valuation: what it writes at its one output as a function of what it reads (an equation between the operations'
  composed term and the piece of `Cert.Sp`, by unfolding), and that it leaves every reference it does not write. The
  chunks are then chained by rewriting: a propagation step reads the previous array twice, so the composed term of the
  whole list doubles per step and is never formed.
-/
import proofs.«114710_j78030965834312_1_alg».proof.Proof.Ref.Ops
import proofs.«114710_j78030965834312_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the second's fold of the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## The chunks -/

/-- The operations before the first propagation step: the dense layers (`main_v8`), the edge endpoints (`main_v10`, `main_v12`), the edge weights (`main_v34`) and the self-loop weights (`main_v36`). -/
abbrev pre : List (HloOp τ sig (Elt F)) :=
  [ binary main_arg0 main_arg2 main_v0 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v3) (TRef.of (T := ⟨S100000x256, .f32⟩) main_call0_v0) (TRef.of (T := ⟨S100000x256, .f32⟩) main_v4) maximumf,
    binary main_v4 main_arg4 main_v5 ((fun l r => Host.dotGeneral dot_S100000x256_S256x47_S100000x47_1_0_0_1_n_n none l r) : (⟨S100000x256, .f32⟩ : BufTy).Contents (Elt F) → (⟨S256x47, .f32⟩ : BufTy).Contents (Elt F) → (⟨S100000x47, .f32⟩ : BufTy).Contents (Elt F)),
    unary main_arg5 main_v6 (broadcastInDim S1x47 ![1] bcast_S47_S1x47_1 : (⟨S47, .f32⟩ : BufTy).Contents (Elt F) → (⟨S1x47, .f32⟩ : BufTy).Contents (Elt F)),
    unary main_v6 main_v7 (broadcastInDim S100000x47 ![0, 1] bcast_S1x47_S100000x47_0_1 : (⟨S1x47, .f32⟩ : BufTy).Contents (Elt F) → (⟨S100000x47, .f32⟩ : BufTy).Contents (Elt F)),
    binary main_v5 main_v7 main_v8 (addf : (⟨S100000x47, .f32⟩ : BufTy).Contents (Elt F) → (⟨S100000x47, .f32⟩ : BufTy).Contents (Elt F) → (⟨S100000x47, .f32⟩ : BufTy).Contents (Elt F)),
    unary main_arg1 main_v9 ((extractStridedSlice S1x1600000 ![0, 0] · slices_S2x1600000_S1x1600000_0_0) : (⟨S2x1600000, .i32⟩ : BufTy).Contents (Elt F) → (⟨S1x1600000, .i32⟩ : BufTy).Contents (Elt F)),
    reshape main_v9 main_v10 rfl shapeCasts_S1x1600000_S1600000,
    unary main_arg1 main_v11 ((extractStridedSlice S1x1600000 ![1, 0] · slices_S2x1600000_S1x1600000_1_0) : (⟨S2x1600000, .i32⟩ : BufTy).Contents (Elt F) → (⟨S1x1600000, .i32⟩ : BufTy).Contents (Elt F)),
    reshape main_v11 main_v12 rfl shapeCasts_S1x1600000_S1600000,
    nullary main_cst (constant S_ .f32 0x3F800000#32),
    unary main_cst main_v13 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v14 (broadcastInDim S100000 ![] bcast_S_S100000 : (⟨S_, .f32⟩ : BufTy).Contents (Elt F) → (⟨S100000, .f32⟩ : BufTy).Contents (Elt F)),
    unary main_v12 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v17 (broadcastInDim S100000 ![] bcast_S_S100000 : (⟨S_, .f32⟩ : BufTy).Contents (Elt F) → (⟨S100000, .f32⟩ : BufTy).Contents (Elt F)),
    binary main_v16 main_v17 main_v18 (addf : (⟨S100000, .f32⟩ : BufTy).Contents (Elt F) → (⟨S100000, .f32⟩ : BufTy).Contents (Elt F) → (⟨S100000, .f32⟩ : BufTy).Contents (Elt F)),
    unary main_v18 main_v19 (Host.rsqrt : (⟨S100000, .f32⟩ : BufTy).Contents (Elt F) → (⟨S100000, .f32⟩ : BufTy).Contents (Elt F)),
    nullary main_c (constantI S_ 32 0#32),
    unary main_c main_v20 (broadcastInDim S1600000 ![] bcast_S_S1600000 : (⟨S_, .i32⟩ : BufTy).Contents (Elt F) → (⟨S1600000, .i32⟩ : BufTy).Contents (Elt F)),
    binary main_v10 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_v10 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v10 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v19 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v27 (broadcastInDim S1600000 ![] bcast_S_S1600000 : (⟨S_, .i32⟩ : BufTy).Contents (Elt F) → (⟨S1600000, .i32⟩ : BufTy).Contents (Elt F)),
    binary main_v12 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v29 (broadcastInDim S1600000 ![] bcast_S_S1600000 : (⟨S_, .i32⟩ : BufTy).Contents (Elt F) → (⟨S1600000, .i32⟩ : BufTy).Contents (Elt F)),
    binary main_v12 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v12 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v19 main_v32 main_v33 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v26 main_v33 main_v34 (mulf : (⟨S1600000, .f32⟩ : BufTy).Contents (Elt F) → (⟨S1600000, .f32⟩ : BufTy).Contents (Elt F) → (⟨S1600000, .f32⟩ : BufTy).Contents (Elt F)),
    binary main_v19 main_v19 main_v35 (mulf : (⟨S100000, .f32⟩ : BufTy).Contents (Elt F) → (⟨S100000, .f32⟩ : BufTy).Contents (Elt F) → (⟨S100000, .f32⟩ : BufTy).Contents (Elt F)),
    unary main_v35 main_v36 (broadcastInDim S100000x1 ![0] bcast_S100000_S100000x1_0 : (⟨S100000, .f32⟩ : BufTy).Contents (Elt F) → (⟨S100000x1, .f32⟩ : BufTy).Contents (Elt F)) ]

/-- Propagation step 1: from `main_v8` to `main_v57`. -/
abbrev it1 : List (HloOp τ sig (Elt F)) :=
  [ unary main_v34 main_v37 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v38 (broadcastInDim S1600000 ![] bcast_S_S1600000 : (⟨S_, .i32⟩ : BufTy).Contents (Elt F) → (⟨S1600000, .i32⟩ : BufTy).Contents (Elt F)),
    binary main_v10 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v40 (broadcastInDim S1600000 ![] bcast_S_S1600000 : (⟨S_, .i32⟩ : BufTy).Contents (Elt F) → (⟨S1600000, .i32⟩ : BufTy).Contents (Elt F)),
    binary main_v10 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_v10 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v8 main_v43 main_v44 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v37 main_v45 (broadcastInDim S1600000x47 ![0, 1] bcast_S1600000x1_S1600000x47_0_1 : (⟨S1600000x1, .f32⟩ : BufTy).Contents (Elt F) → (⟨S1600000x47, .f32⟩ : BufTy).Contents (Elt F)),
    binary main_v45 main_v44 main_v46 (mulf : (⟨S1600000x47, .f32⟩ : BufTy).Contents (Elt F) → (⟨S1600000x47, .f32⟩ : BufTy).Contents (Elt F) → (⟨S1600000x47, .f32⟩ : BufTy).Contents (Elt F)),
    nullary main_cst_7 (constant S_ .f32 0x00000000#32),
    unary main_cst_7 main_v47 (broadcastInDim S100000x47 ![] bcast_S_S100000x47 : (⟨S_, .f32⟩ : BufTy).Contents (Elt F) → (⟨S100000x47, .f32⟩ : BufTy).Contents (Elt F)),
    unary main_v12 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v50 (broadcastInDim S100000x47 ![0, 1] bcast_S100000x1_S100000x47_0_1 : (⟨S100000x1, .f32⟩ : BufTy).Contents (Elt F) → (⟨S100000x47, .f32⟩ : BufTy).Contents (Elt F)),
    binary main_v50 main_v8 main_v51 (mulf : (⟨S100000x47, .f32⟩ : BufTy).Contents (Elt F) → (⟨S100000x47, .f32⟩ : BufTy).Contents (Elt F) → (⟨S100000x47, .f32⟩ : BufTy).Contents (Elt F)),
    binary main_v49 main_v51 main_v52 (addf : (⟨S100000x47, .f32⟩ : BufTy).Contents (Elt F) → (⟨S100000x47, .f32⟩ : BufTy).Contents (Elt F) → (⟨S100000x47, .f32⟩ : BufTy).Contents (Elt F)),
    nullary main_cst_8 (constant S_ .f32 0x3F666666#32),
    unary main_cst_8 main_v53 (broadcastInDim S100000x47 ![] bcast_S_S100000x47 : (⟨S_, .f32⟩ : BufTy).Contents (Elt F) → (⟨S100000x47, .f32⟩ : BufTy).Contents (Elt F)),
    binary main_v53 main_v52 main_v54 (mulf : (⟨S100000x47, .f32⟩ : BufTy).Contents (Elt F) → (⟨S100000x47, .f32⟩ : BufTy).Contents (Elt F) → (⟨S100000x47, .f32⟩ : BufTy).Contents (Elt F)),
    nullary main_cst_9 (constant S_ .f32 0x3DCCCCCD#32),
    unary main_cst_9 main_v55 (broadcastInDim S100000x47 ![] bcast_S_S100000x47 : (⟨S_, .f32⟩ : BufTy).Contents (Elt F) → (⟨S100000x47, .f32⟩ : BufTy).Contents (Elt F)),
    binary main_v55 main_v8 main_v56 (mulf : (⟨S100000x47, .f32⟩ : BufTy).Contents (Elt F) → (⟨S100000x47, .f32⟩ : BufTy).Contents (Elt F) → (⟨S100000x47, .f32⟩ : BufTy).Contents (Elt F)),
    binary main_v54 main_v56 main_v57 (addf : (⟨S100000x47, .f32⟩ : BufTy).Contents (Elt F) → (⟨S100000x47, .f32⟩ : BufTy).Contents (Elt F) → (⟨S100000x47, .f32⟩ : BufTy).Contents (Elt F)) ]

/-- Propagation step 2: from `main_v57` to `main_v78`. -/
abbrev it2 : List (HloOp τ sig (Elt F)) :=
  [ unary main_v34 main_v58 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v59 (broadcastInDim S1600000 ![] bcast_S_S1600000 : (⟨S_, .i32⟩ : BufTy).Contents (Elt F) → (⟨S1600000, .i32⟩ : BufTy).Contents (Elt F)),
    binary main_v10 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v61 (broadcastInDim S1600000 ![] bcast_S_S1600000 : (⟨S_, .i32⟩ : BufTy).Contents (Elt F) → (⟨S1600000, .i32⟩ : BufTy).Contents (Elt F)),
    binary main_v10 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_v10 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v57 main_v64 main_v65 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v58 main_v66 (broadcastInDim S1600000x47 ![0, 1] bcast_S1600000x1_S1600000x47_0_1 : (⟨S1600000x1, .f32⟩ : BufTy).Contents (Elt F) → (⟨S1600000x47, .f32⟩ : BufTy).Contents (Elt F)),
    binary main_v66 main_v65 main_v67 (mulf : (⟨S1600000x47, .f32⟩ : BufTy).Contents (Elt F) → (⟨S1600000x47, .f32⟩ : BufTy).Contents (Elt F) → (⟨S1600000x47, .f32⟩ : BufTy).Contents (Elt F)),
    nullary main_cst_12 (constant S_ .f32 0x00000000#32),
    unary main_cst_12 main_v68 (broadcastInDim S100000x47 ![] bcast_S_S100000x47 : (⟨S_, .f32⟩ : BufTy).Contents (Elt F) → (⟨S100000x47, .f32⟩ : BufTy).Contents (Elt F)),
    unary main_v12 main_v69 (broadcastInDim S1600000x1 ![0] bcast_S1600000_S1600000x1_0 : (⟨S1600000, .i32⟩ : BufTy).Contents (Elt F) → (⟨S1600000x1, .i32⟩ : BufTy).Contents (Elt F)),
    ternary main_v68 main_v69 main_v67 main_v70 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v71 (broadcastInDim S100000x47 ![0, 1] bcast_S100000x1_S100000x47_0_1 : (⟨S100000x1, .f32⟩ : BufTy).Contents (Elt F) → (⟨S100000x47, .f32⟩ : BufTy).Contents (Elt F)),
    binary main_v71 main_v57 main_v72 (mulf : (⟨S100000x47, .f32⟩ : BufTy).Contents (Elt F) → (⟨S100000x47, .f32⟩ : BufTy).Contents (Elt F) → (⟨S100000x47, .f32⟩ : BufTy).Contents (Elt F)),
    binary main_v70 main_v72 main_v73 (addf : (⟨S100000x47, .f32⟩ : BufTy).Contents (Elt F) → (⟨S100000x47, .f32⟩ : BufTy).Contents (Elt F) → (⟨S100000x47, .f32⟩ : BufTy).Contents (Elt F)),
    nullary main_cst_13 (constant S_ .f32 0x3F666666#32),
    unary main_cst_13 main_v74 (broadcastInDim S100000x47 ![] bcast_S_S100000x47 : (⟨S_, .f32⟩ : BufTy).Contents (Elt F) → (⟨S100000x47, .f32⟩ : BufTy).Contents (Elt F)),
    binary main_v74 main_v73 main_v75 (mulf : (⟨S100000x47, .f32⟩ : BufTy).Contents (Elt F) → (⟨S100000x47, .f32⟩ : BufTy).Contents (Elt F) → (⟨S100000x47, .f32⟩ : BufTy).Contents (Elt F)),
    nullary main_cst_14 (constant S_ .f32 0x3DCCCCCD#32),
    unary main_cst_14 main_v76 (broadcastInDim S100000x47 ![] bcast_S_S100000x47 : (⟨S_, .f32⟩ : BufTy).Contents (Elt F) → (⟨S100000x47, .f32⟩ : BufTy).Contents (Elt F)),
    binary main_v76 main_v8 main_v77 (mulf : (⟨S100000x47, .f32⟩ : BufTy).Contents (Elt F) → (⟨S100000x47, .f32⟩ : BufTy).Contents (Elt F) → (⟨S100000x47, .f32⟩ : BufTy).Contents (Elt F)),
    binary main_v75 main_v77 main_v78 (addf : (⟨S100000x47, .f32⟩ : BufTy).Contents (Elt F) → (⟨S100000x47, .f32⟩ : BufTy).Contents (Elt F) → (⟨S100000x47, .f32⟩ : BufTy).Contents (Elt F)) ]

/-- Propagation step 3: from `main_v78` to `main_v99`. -/
abbrev it3 : List (HloOp τ sig (Elt F)) :=
  [ unary main_v34 main_v79 (broadcastInDim S1600000x1 ![0] bcast_S1600000_S1600000x1_0 : (⟨S1600000, .f32⟩ : BufTy).Contents (Elt F) → (⟨S1600000x1, .f32⟩ : BufTy).Contents (Elt F)),
    nullary main_c_15 (constantI S_ 32 0#32),
    unary main_c_15 main_v80 (broadcastInDim S1600000 ![] bcast_S_S1600000 : (⟨S_, .i32⟩ : BufTy).Contents (Elt F) → (⟨S1600000, .i32⟩ : BufTy).Contents (Elt F)),
    binary main_v10 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v82 (broadcastInDim S1600000 ![] bcast_S_S1600000 : (⟨S_, .i32⟩ : BufTy).Contents (Elt F) → (⟨S1600000, .i32⟩ : BufTy).Contents (Elt F)),
    binary main_v10 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v10 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v78 main_v85 main_v86 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v79 main_v87 (broadcastInDim S1600000x47 ![0, 1] bcast_S1600000x1_S1600000x47_0_1 : (⟨S1600000x1, .f32⟩ : BufTy).Contents (Elt F) → (⟨S1600000x47, .f32⟩ : BufTy).Contents (Elt F)),
    binary main_v87 main_v86 main_v88 (mulf : (⟨S1600000x47, .f32⟩ : BufTy).Contents (Elt F) → (⟨S1600000x47, .f32⟩ : BufTy).Contents (Elt F) → (⟨S1600000x47, .f32⟩ : BufTy).Contents (Elt F)),
    nullary main_cst_17 (constant S_ .f32 0x00000000#32),
    unary main_cst_17 main_v89 (broadcastInDim S100000x47 ![] bcast_S_S100000x47 : (⟨S_, .f32⟩ : BufTy).Contents (Elt F) → (⟨S100000x47, .f32⟩ : BufTy).Contents (Elt F)),
    unary main_v12 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v92 (broadcastInDim S100000x47 ![0, 1] bcast_S100000x1_S100000x47_0_1 : (⟨S100000x1, .f32⟩ : BufTy).Contents (Elt F) → (⟨S100000x47, .f32⟩ : BufTy).Contents (Elt F)),
    binary main_v92 main_v78 main_v93 (mulf : (⟨S100000x47, .f32⟩ : BufTy).Contents (Elt F) → (⟨S100000x47, .f32⟩ : BufTy).Contents (Elt F) → (⟨S100000x47, .f32⟩ : BufTy).Contents (Elt F)),
    binary main_v91 main_v93 main_v94 (addf : (⟨S100000x47, .f32⟩ : BufTy).Contents (Elt F) → (⟨S100000x47, .f32⟩ : BufTy).Contents (Elt F) → (⟨S100000x47, .f32⟩ : BufTy).Contents (Elt F)),
    nullary main_cst_18 (constant S_ .f32 0x3F666666#32),
    unary main_cst_18 main_v95 (broadcastInDim S100000x47 ![] bcast_S_S100000x47 : (⟨S_, .f32⟩ : BufTy).Contents (Elt F) → (⟨S100000x47, .f32⟩ : BufTy).Contents (Elt F)),
    binary main_v95 main_v94 main_v96 (mulf : (⟨S100000x47, .f32⟩ : BufTy).Contents (Elt F) → (⟨S100000x47, .f32⟩ : BufTy).Contents (Elt F) → (⟨S100000x47, .f32⟩ : BufTy).Contents (Elt F)),
    nullary main_cst_19 (constant S_ .f32 0x3DCCCCCD#32),
    unary main_cst_19 main_v97 (broadcastInDim S100000x47 ![] bcast_S_S100000x47 : (⟨S_, .f32⟩ : BufTy).Contents (Elt F) → (⟨S100000x47, .f32⟩ : BufTy).Contents (Elt F)),
    binary main_v97 main_v8 main_v98 (mulf : (⟨S100000x47, .f32⟩ : BufTy).Contents (Elt F) → (⟨S100000x47, .f32⟩ : BufTy).Contents (Elt F) → (⟨S100000x47, .f32⟩ : BufTy).Contents (Elt F)),
    binary main_v96 main_v98 main_v99 (addf : (⟨S100000x47, .f32⟩ : BufTy).Contents (Elt F) → (⟨S100000x47, .f32⟩ : BufTy).Contents (Elt F) → (⟨S100000x47, .f32⟩ : BufTy).Contents (Elt F)) ]

/-- Propagation step 4: from `main_v99` to `main_v120`. -/
abbrev it4 : List (HloOp τ sig (Elt F)) :=
  [ unary main_v34 main_v100 (broadcastInDim S1600000x1 ![0] bcast_S1600000_S1600000x1_0 : (⟨S1600000, .f32⟩ : BufTy).Contents (Elt F) → (⟨S1600000x1, .f32⟩ : BufTy).Contents (Elt F)),
    nullary main_c_20 (constantI S_ 32 0#32),
    unary main_c_20 main_v101 (broadcastInDim S1600000 ![] bcast_S_S1600000 : (⟨S_, .i32⟩ : BufTy).Contents (Elt F) → (⟨S1600000, .i32⟩ : BufTy).Contents (Elt F)),
    binary main_v10 main_v101 main_v102 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v103 (broadcastInDim S1600000 ![] bcast_S_S1600000 : (⟨S_, .i32⟩ : BufTy).Contents (Elt F) → (⟨S1600000, .i32⟩ : BufTy).Contents (Elt F)),
    binary main_v10 main_v103 main_v104 (addi : (⟨S1600000, .i32⟩ : BufTy).Contents (Elt F) → (⟨S1600000, .i32⟩ : BufTy).Contents (Elt F) → (⟨S1600000, .i32⟩ : BufTy).Contents (Elt F)),
    ternary main_v102 main_v104 main_v10 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v105 main_v106 (broadcastInDim S1600000x1 ![0] bcast_S1600000_S1600000x1_0 : (⟨S1600000, .i32⟩ : BufTy).Contents (Elt F) → (⟨S1600000x1, .i32⟩ : BufTy).Contents (Elt F)),
    binary main_v99 main_v106 main_v107 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v100 main_v108 (broadcastInDim S1600000x47 ![0, 1] bcast_S1600000x1_S1600000x47_0_1 : (⟨S1600000x1, .f32⟩ : BufTy).Contents (Elt F) → (⟨S1600000x47, .f32⟩ : BufTy).Contents (Elt F)),
    binary main_v108 main_v107 main_v109 (mulf : (⟨S1600000x47, .f32⟩ : BufTy).Contents (Elt F) → (⟨S1600000x47, .f32⟩ : BufTy).Contents (Elt F) → (⟨S1600000x47, .f32⟩ : BufTy).Contents (Elt F)),
    nullary main_cst_22 (constant S_ .f32 0x00000000#32),
    unary main_cst_22 main_v110 (broadcastInDim S100000x47 ![] bcast_S_S100000x47 : (⟨S_, .f32⟩ : BufTy).Contents (Elt F) → (⟨S100000x47, .f32⟩ : BufTy).Contents (Elt F)),
    unary main_v12 main_v111 (broadcastInDim S1600000x1 ![0] bcast_S1600000_S1600000x1_0 : (⟨S1600000, .i32⟩ : BufTy).Contents (Elt F) → (⟨S1600000x1, .i32⟩ : BufTy).Contents (Elt F)),
    ternary main_v110 main_v111 main_v109 main_v112 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v113 (broadcastInDim S100000x47 ![0, 1] bcast_S100000x1_S100000x47_0_1 : (⟨S100000x1, .f32⟩ : BufTy).Contents (Elt F) → (⟨S100000x47, .f32⟩ : BufTy).Contents (Elt F)),
    binary main_v113 main_v99 main_v114 (mulf : (⟨S100000x47, .f32⟩ : BufTy).Contents (Elt F) → (⟨S100000x47, .f32⟩ : BufTy).Contents (Elt F) → (⟨S100000x47, .f32⟩ : BufTy).Contents (Elt F)),
    binary main_v112 main_v114 main_v115 (addf : (⟨S100000x47, .f32⟩ : BufTy).Contents (Elt F) → (⟨S100000x47, .f32⟩ : BufTy).Contents (Elt F) → (⟨S100000x47, .f32⟩ : BufTy).Contents (Elt F)),
    nullary main_cst_23 (constant S_ .f32 0x3F666666#32),
    unary main_cst_23 main_v116 (broadcastInDim S100000x47 ![] bcast_S_S100000x47 : (⟨S_, .f32⟩ : BufTy).Contents (Elt F) → (⟨S100000x47, .f32⟩ : BufTy).Contents (Elt F)),
    binary main_v116 main_v115 main_v117 (mulf : (⟨S100000x47, .f32⟩ : BufTy).Contents (Elt F) → (⟨S100000x47, .f32⟩ : BufTy).Contents (Elt F) → (⟨S100000x47, .f32⟩ : BufTy).Contents (Elt F)),
    nullary main_cst_24 (constant S_ .f32 0x3DCCCCCD#32),
    unary main_cst_24 main_v118 (broadcastInDim S100000x47 ![] bcast_S_S100000x47 : (⟨S_, .f32⟩ : BufTy).Contents (Elt F) → (⟨S100000x47, .f32⟩ : BufTy).Contents (Elt F)),
    binary main_v118 main_v8 main_v119 (mulf : (⟨S100000x47, .f32⟩ : BufTy).Contents (Elt F) → (⟨S100000x47, .f32⟩ : BufTy).Contents (Elt F) → (⟨S100000x47, .f32⟩ : BufTy).Contents (Elt F)),
    binary main_v117 main_v119 main_v120 (addf : (⟨S100000x47, .f32⟩ : BufTy).Contents (Elt F) → (⟨S100000x47, .f32⟩ : BufTy).Contents (Elt F) → (⟨S100000x47, .f32⟩ : BufTy).Contents (Elt F)) ]

/-- Propagation step 5: from `main_v120` to `main_v141`. -/
abbrev it5 : List (HloOp τ sig (Elt F)) :=
  [ unary main_v34 main_v121 (broadcastInDim S1600000x1 ![0] bcast_S1600000_S1600000x1_0 : (⟨S1600000, .f32⟩ : BufTy).Contents (Elt F) → (⟨S1600000x1, .f32⟩ : BufTy).Contents (Elt F)),
    nullary main_c_25 (constantI S_ 32 0#32),
    unary main_c_25 main_v122 (broadcastInDim S1600000 ![] bcast_S_S1600000 : (⟨S_, .i32⟩ : BufTy).Contents (Elt F) → (⟨S1600000, .i32⟩ : BufTy).Contents (Elt F)),
    binary main_v10 main_v122 main_v123 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v124 (broadcastInDim S1600000 ![] bcast_S_S1600000 : (⟨S_, .i32⟩ : BufTy).Contents (Elt F) → (⟨S1600000, .i32⟩ : BufTy).Contents (Elt F)),
    binary main_v10 main_v124 main_v125 (addi : (⟨S1600000, .i32⟩ : BufTy).Contents (Elt F) → (⟨S1600000, .i32⟩ : BufTy).Contents (Elt F) → (⟨S1600000, .i32⟩ : BufTy).Contents (Elt F)),
    ternary main_v123 main_v125 main_v10 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v126 main_v127 (broadcastInDim S1600000x1 ![0] bcast_S1600000_S1600000x1_0 : (⟨S1600000, .i32⟩ : BufTy).Contents (Elt F) → (⟨S1600000x1, .i32⟩ : BufTy).Contents (Elt F)),
    binary main_v120 main_v127 main_v128 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v121 main_v129 (broadcastInDim S1600000x47 ![0, 1] bcast_S1600000x1_S1600000x47_0_1 : (⟨S1600000x1, .f32⟩ : BufTy).Contents (Elt F) → (⟨S1600000x47, .f32⟩ : BufTy).Contents (Elt F)),
    binary main_v129 main_v128 main_v130 (mulf : (⟨S1600000x47, .f32⟩ : BufTy).Contents (Elt F) → (⟨S1600000x47, .f32⟩ : BufTy).Contents (Elt F) → (⟨S1600000x47, .f32⟩ : BufTy).Contents (Elt F)),
    nullary main_cst_27 (constant S_ .f32 0x00000000#32),
    unary main_cst_27 main_v131 (broadcastInDim S100000x47 ![] bcast_S_S100000x47 : (⟨S_, .f32⟩ : BufTy).Contents (Elt F) → (⟨S100000x47, .f32⟩ : BufTy).Contents (Elt F)),
    unary main_v12 main_v132 (broadcastInDim S1600000x1 ![0] bcast_S1600000_S1600000x1_0 : (⟨S1600000, .i32⟩ : BufTy).Contents (Elt F) → (⟨S1600000x1, .i32⟩ : BufTy).Contents (Elt F)),
    ternary main_v131 main_v132 main_v130 main_v133 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v134 (broadcastInDim S100000x47 ![0, 1] bcast_S100000x1_S100000x47_0_1 : (⟨S100000x1, .f32⟩ : BufTy).Contents (Elt F) → (⟨S100000x47, .f32⟩ : BufTy).Contents (Elt F)),
    binary main_v134 main_v120 main_v135 (mulf : (⟨S100000x47, .f32⟩ : BufTy).Contents (Elt F) → (⟨S100000x47, .f32⟩ : BufTy).Contents (Elt F) → (⟨S100000x47, .f32⟩ : BufTy).Contents (Elt F)),
    binary main_v133 main_v135 main_v136 (addf : (⟨S100000x47, .f32⟩ : BufTy).Contents (Elt F) → (⟨S100000x47, .f32⟩ : BufTy).Contents (Elt F) → (⟨S100000x47, .f32⟩ : BufTy).Contents (Elt F)),
    nullary main_cst_28 (constant S_ .f32 0x3F666666#32),
    unary main_cst_28 main_v137 (broadcastInDim S100000x47 ![] bcast_S_S100000x47 : (⟨S_, .f32⟩ : BufTy).Contents (Elt F) → (⟨S100000x47, .f32⟩ : BufTy).Contents (Elt F)),
    binary main_v137 main_v136 main_v138 (mulf : (⟨S100000x47, .f32⟩ : BufTy).Contents (Elt F) → (⟨S100000x47, .f32⟩ : BufTy).Contents (Elt F) → (⟨S100000x47, .f32⟩ : BufTy).Contents (Elt F)),
    nullary main_cst_29 (constant S_ .f32 0x3DCCCCCD#32),
    unary main_cst_29 main_v139 (broadcastInDim S100000x47 ![] bcast_S_S100000x47 : (⟨S_, .f32⟩ : BufTy).Contents (Elt F) → (⟨S100000x47, .f32⟩ : BufTy).Contents (Elt F)),
    binary main_v139 main_v8 main_v140 (mulf : (⟨S100000x47, .f32⟩ : BufTy).Contents (Elt F) → (⟨S100000x47, .f32⟩ : BufTy).Contents (Elt F) → (⟨S100000x47, .f32⟩ : BufTy).Contents (Elt F)),
    binary main_v138 main_v140 main_v141 (addf : (⟨S100000x47, .f32⟩ : BufTy).Contents (Elt F) → (⟨S100000x47, .f32⟩ : BufTy).Contents (Elt F) → (⟨S100000x47, .f32⟩ : BufTy).Contents (Elt F)) ]

/-- Propagation step 6: from `main_v141` to `main_v162`. -/
abbrev it6 : List (HloOp τ sig (Elt F)) :=
  [ unary main_v34 main_v142 (broadcastInDim S1600000x1 ![0] bcast_S1600000_S1600000x1_0 : (⟨S1600000, .f32⟩ : BufTy).Contents (Elt F) → (⟨S1600000x1, .f32⟩ : BufTy).Contents (Elt F)),
    nullary main_c_30 (constantI S_ 32 0#32),
    unary main_c_30 main_v143 (broadcastInDim S1600000 ![] bcast_S_S1600000 : (⟨S_, .i32⟩ : BufTy).Contents (Elt F) → (⟨S1600000, .i32⟩ : BufTy).Contents (Elt F)),
    binary main_v10 main_v143 main_v144 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v145 (broadcastInDim S1600000 ![] bcast_S_S1600000 : (⟨S_, .i32⟩ : BufTy).Contents (Elt F) → (⟨S1600000, .i32⟩ : BufTy).Contents (Elt F)),
    binary main_v10 main_v145 main_v146 (addi : (⟨S1600000, .i32⟩ : BufTy).Contents (Elt F) → (⟨S1600000, .i32⟩ : BufTy).Contents (Elt F) → (⟨S1600000, .i32⟩ : BufTy).Contents (Elt F)),
    ternary main_v144 main_v146 main_v10 main_v147 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v147 main_v148 (broadcastInDim S1600000x1 ![0] bcast_S1600000_S1600000x1_0 : (⟨S1600000, .i32⟩ : BufTy).Contents (Elt F) → (⟨S1600000x1, .i32⟩ : BufTy).Contents (Elt F)),
    binary main_v141 main_v148 main_v149 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v142 main_v150 (broadcastInDim S1600000x47 ![0, 1] bcast_S1600000x1_S1600000x47_0_1 : (⟨S1600000x1, .f32⟩ : BufTy).Contents (Elt F) → (⟨S1600000x47, .f32⟩ : BufTy).Contents (Elt F)),
    binary main_v150 main_v149 main_v151 (mulf : (⟨S1600000x47, .f32⟩ : BufTy).Contents (Elt F) → (⟨S1600000x47, .f32⟩ : BufTy).Contents (Elt F) → (⟨S1600000x47, .f32⟩ : BufTy).Contents (Elt F)),
    nullary main_cst_32 (constant S_ .f32 0x00000000#32),
    unary main_cst_32 main_v152 (broadcastInDim S100000x47 ![] bcast_S_S100000x47 : (⟨S_, .f32⟩ : BufTy).Contents (Elt F) → (⟨S100000x47, .f32⟩ : BufTy).Contents (Elt F)),
    unary main_v12 main_v153 (broadcastInDim S1600000x1 ![0] bcast_S1600000_S1600000x1_0 : (⟨S1600000, .i32⟩ : BufTy).Contents (Elt F) → (⟨S1600000x1, .i32⟩ : BufTy).Contents (Elt F)),
    ternary main_v152 main_v153 main_v151 main_v154 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v155 (broadcastInDim S100000x47 ![0, 1] bcast_S100000x1_S100000x47_0_1 : (⟨S100000x1, .f32⟩ : BufTy).Contents (Elt F) → (⟨S100000x47, .f32⟩ : BufTy).Contents (Elt F)),
    binary main_v155 main_v141 main_v156 (mulf : (⟨S100000x47, .f32⟩ : BufTy).Contents (Elt F) → (⟨S100000x47, .f32⟩ : BufTy).Contents (Elt F) → (⟨S100000x47, .f32⟩ : BufTy).Contents (Elt F)),
    binary main_v154 main_v156 main_v157 (addf : (⟨S100000x47, .f32⟩ : BufTy).Contents (Elt F) → (⟨S100000x47, .f32⟩ : BufTy).Contents (Elt F) → (⟨S100000x47, .f32⟩ : BufTy).Contents (Elt F)),
    nullary main_cst_33 (constant S_ .f32 0x3F666666#32),
    unary main_cst_33 main_v158 (broadcastInDim S100000x47 ![] bcast_S_S100000x47 : (⟨S_, .f32⟩ : BufTy).Contents (Elt F) → (⟨S100000x47, .f32⟩ : BufTy).Contents (Elt F)),
    binary main_v158 main_v157 main_v159 (mulf : (⟨S100000x47, .f32⟩ : BufTy).Contents (Elt F) → (⟨S100000x47, .f32⟩ : BufTy).Contents (Elt F) → (⟨S100000x47, .f32⟩ : BufTy).Contents (Elt F)),
    nullary main_cst_34 (constant S_ .f32 0x3DCCCCCD#32),
    unary main_cst_34 main_v160 (broadcastInDim S100000x47 ![] bcast_S_S100000x47 : (⟨S_, .f32⟩ : BufTy).Contents (Elt F) → (⟨S100000x47, .f32⟩ : BufTy).Contents (Elt F)),
    binary main_v160 main_v8 main_v161 (mulf : (⟨S100000x47, .f32⟩ : BufTy).Contents (Elt F) → (⟨S100000x47, .f32⟩ : BufTy).Contents (Elt F) → (⟨S100000x47, .f32⟩ : BufTy).Contents (Elt F)),
    binary main_v159 main_v161 main_v162 (addf : (⟨S100000x47, .f32⟩ : BufTy).Contents (Elt F) → (⟨S100000x47, .f32⟩ : BufTy).Contents (Elt F) → (⟨S100000x47, .f32⟩ : BufTy).Contents (Elt F)) ]

/-- Propagation step 7: from `main_v162` to `main_v183`. -/
abbrev it7 : List (HloOp τ sig (Elt F)) :=
  [ unary main_v34 main_v163 (broadcastInDim S1600000x1 ![0] bcast_S1600000_S1600000x1_0 : (⟨S1600000, .f32⟩ : BufTy).Contents (Elt F) → (⟨S1600000x1, .f32⟩ : BufTy).Contents (Elt F)),
    nullary main_c_35 (constantI S_ 32 0#32),
    unary main_c_35 main_v164 (broadcastInDim S1600000 ![] bcast_S_S1600000 : (⟨S_, .i32⟩ : BufTy).Contents (Elt F) → (⟨S1600000, .i32⟩ : BufTy).Contents (Elt F)),
    binary main_v10 main_v164 main_v165 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v166 (broadcastInDim S1600000 ![] bcast_S_S1600000 : (⟨S_, .i32⟩ : BufTy).Contents (Elt F) → (⟨S1600000, .i32⟩ : BufTy).Contents (Elt F)),
    binary main_v10 main_v166 main_v167 (addi : (⟨S1600000, .i32⟩ : BufTy).Contents (Elt F) → (⟨S1600000, .i32⟩ : BufTy).Contents (Elt F) → (⟨S1600000, .i32⟩ : BufTy).Contents (Elt F)),
    ternary main_v165 main_v167 main_v10 main_v168 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v168 main_v169 (broadcastInDim S1600000x1 ![0] bcast_S1600000_S1600000x1_0 : (⟨S1600000, .i32⟩ : BufTy).Contents (Elt F) → (⟨S1600000x1, .i32⟩ : BufTy).Contents (Elt F)),
    binary main_v162 main_v169 main_v170 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v163 main_v171 (broadcastInDim S1600000x47 ![0, 1] bcast_S1600000x1_S1600000x47_0_1 : (⟨S1600000x1, .f32⟩ : BufTy).Contents (Elt F) → (⟨S1600000x47, .f32⟩ : BufTy).Contents (Elt F)),
    binary main_v171 main_v170 main_v172 (mulf : (⟨S1600000x47, .f32⟩ : BufTy).Contents (Elt F) → (⟨S1600000x47, .f32⟩ : BufTy).Contents (Elt F) → (⟨S1600000x47, .f32⟩ : BufTy).Contents (Elt F)),
    nullary main_cst_37 (constant S_ .f32 0x00000000#32),
    unary main_cst_37 main_v173 (broadcastInDim S100000x47 ![] bcast_S_S100000x47 : (⟨S_, .f32⟩ : BufTy).Contents (Elt F) → (⟨S100000x47, .f32⟩ : BufTy).Contents (Elt F)),
    unary main_v12 main_v174 (broadcastInDim S1600000x1 ![0] bcast_S1600000_S1600000x1_0 : (⟨S1600000, .i32⟩ : BufTy).Contents (Elt F) → (⟨S1600000x1, .i32⟩ : BufTy).Contents (Elt F)),
    ternary main_v173 main_v174 main_v172 main_v175 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v176 (broadcastInDim S100000x47 ![0, 1] bcast_S100000x1_S100000x47_0_1 : (⟨S100000x1, .f32⟩ : BufTy).Contents (Elt F) → (⟨S100000x47, .f32⟩ : BufTy).Contents (Elt F)),
    binary main_v176 main_v162 main_v177 (mulf : (⟨S100000x47, .f32⟩ : BufTy).Contents (Elt F) → (⟨S100000x47, .f32⟩ : BufTy).Contents (Elt F) → (⟨S100000x47, .f32⟩ : BufTy).Contents (Elt F)),
    binary main_v175 main_v177 main_v178 (addf : (⟨S100000x47, .f32⟩ : BufTy).Contents (Elt F) → (⟨S100000x47, .f32⟩ : BufTy).Contents (Elt F) → (⟨S100000x47, .f32⟩ : BufTy).Contents (Elt F)),
    nullary main_cst_38 (constant S_ .f32 0x3F666666#32),
    unary main_cst_38 main_v179 (broadcastInDim S100000x47 ![] bcast_S_S100000x47 : (⟨S_, .f32⟩ : BufTy).Contents (Elt F) → (⟨S100000x47, .f32⟩ : BufTy).Contents (Elt F)),
    binary main_v179 main_v178 main_v180 (mulf : (⟨S100000x47, .f32⟩ : BufTy).Contents (Elt F) → (⟨S100000x47, .f32⟩ : BufTy).Contents (Elt F) → (⟨S100000x47, .f32⟩ : BufTy).Contents (Elt F)),
    nullary main_cst_39 (constant S_ .f32 0x3DCCCCCD#32),
    unary main_cst_39 main_v181 (broadcastInDim S100000x47 ![] bcast_S_S100000x47 : (⟨S_, .f32⟩ : BufTy).Contents (Elt F) → (⟨S100000x47, .f32⟩ : BufTy).Contents (Elt F)),
    binary main_v181 main_v8 main_v182 (mulf : (⟨S100000x47, .f32⟩ : BufTy).Contents (Elt F) → (⟨S100000x47, .f32⟩ : BufTy).Contents (Elt F) → (⟨S100000x47, .f32⟩ : BufTy).Contents (Elt F)),
    binary main_v180 main_v182 main_v183 (addf : (⟨S100000x47, .f32⟩ : BufTy).Contents (Elt F) → (⟨S100000x47, .f32⟩ : BufTy).Contents (Elt F) → (⟨S100000x47, .f32⟩ : BufTy).Contents (Elt F)) ]

/-- Propagation step 8: from `main_v183` to `main_v204`. -/
abbrev it8 : List (HloOp τ sig (Elt F)) :=
  [ unary main_v34 main_v184 (broadcastInDim S1600000x1 ![0] bcast_S1600000_S1600000x1_0 : (⟨S1600000, .f32⟩ : BufTy).Contents (Elt F) → (⟨S1600000x1, .f32⟩ : BufTy).Contents (Elt F)),
    nullary main_c_40 (constantI S_ 32 0#32),
    unary main_c_40 main_v185 (broadcastInDim S1600000 ![] bcast_S_S1600000 : (⟨S_, .i32⟩ : BufTy).Contents (Elt F) → (⟨S1600000, .i32⟩ : BufTy).Contents (Elt F)),
    binary main_v10 main_v185 main_v186 (cmpi .slt : (⟨S1600000, .i32⟩ : BufTy).Contents (Elt F) → (⟨S1600000, .i32⟩ : BufTy).Contents (Elt F) → (⟨S1600000, .i1⟩ : BufTy).Contents (Elt F)),
    nullary main_c_41 (constantI S_ 32 100000#32),
    unary main_c_41 main_v187 (broadcastInDim S1600000 ![] bcast_S_S1600000 : (⟨S_, .i32⟩ : BufTy).Contents (Elt F) → (⟨S1600000, .i32⟩ : BufTy).Contents (Elt F)),
    binary main_v10 main_v187 main_v188 (addi : (⟨S1600000, .i32⟩ : BufTy).Contents (Elt F) → (⟨S1600000, .i32⟩ : BufTy).Contents (Elt F) → (⟨S1600000, .i32⟩ : BufTy).Contents (Elt F)),
    ternary main_v186 main_v188 main_v10 main_v189 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v189 main_v190 (broadcastInDim S1600000x1 ![0] bcast_S1600000_S1600000x1_0 : (⟨S1600000, .i32⟩ : BufTy).Contents (Elt F) → (⟨S1600000x1, .i32⟩ : BufTy).Contents (Elt F)),
    binary main_v183 main_v190 main_v191 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v184 main_v192 (broadcastInDim S1600000x47 ![0, 1] bcast_S1600000x1_S1600000x47_0_1 : (⟨S1600000x1, .f32⟩ : BufTy).Contents (Elt F) → (⟨S1600000x47, .f32⟩ : BufTy).Contents (Elt F)),
    binary main_v192 main_v191 main_v193 (mulf : (⟨S1600000x47, .f32⟩ : BufTy).Contents (Elt F) → (⟨S1600000x47, .f32⟩ : BufTy).Contents (Elt F) → (⟨S1600000x47, .f32⟩ : BufTy).Contents (Elt F)),
    nullary main_cst_42 (constant S_ .f32 0x00000000#32),
    unary main_cst_42 main_v194 (broadcastInDim S100000x47 ![] bcast_S_S100000x47 : (⟨S_, .f32⟩ : BufTy).Contents (Elt F) → (⟨S100000x47, .f32⟩ : BufTy).Contents (Elt F)),
    unary main_v12 main_v195 (broadcastInDim S1600000x1 ![0] bcast_S1600000_S1600000x1_0 : (⟨S1600000, .i32⟩ : BufTy).Contents (Elt F) → (⟨S1600000x1, .i32⟩ : BufTy).Contents (Elt F)),
    ternary main_v194 main_v195 main_v193 main_v196 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v197 (broadcastInDim S100000x47 ![0, 1] bcast_S100000x1_S100000x47_0_1 : (⟨S100000x1, .f32⟩ : BufTy).Contents (Elt F) → (⟨S100000x47, .f32⟩ : BufTy).Contents (Elt F)),
    binary main_v197 main_v183 main_v198 (mulf : (⟨S100000x47, .f32⟩ : BufTy).Contents (Elt F) → (⟨S100000x47, .f32⟩ : BufTy).Contents (Elt F) → (⟨S100000x47, .f32⟩ : BufTy).Contents (Elt F)),
    binary main_v196 main_v198 main_v199 (addf : (⟨S100000x47, .f32⟩ : BufTy).Contents (Elt F) → (⟨S100000x47, .f32⟩ : BufTy).Contents (Elt F) → (⟨S100000x47, .f32⟩ : BufTy).Contents (Elt F)),
    nullary main_cst_43 (constant S_ .f32 0x3F666666#32),
    unary main_cst_43 main_v200 (broadcastInDim S100000x47 ![] bcast_S_S100000x47 : (⟨S_, .f32⟩ : BufTy).Contents (Elt F) → (⟨S100000x47, .f32⟩ : BufTy).Contents (Elt F)),
    binary main_v200 main_v199 main_v201 (mulf : (⟨S100000x47, .f32⟩ : BufTy).Contents (Elt F) → (⟨S100000x47, .f32⟩ : BufTy).Contents (Elt F) → (⟨S100000x47, .f32⟩ : BufTy).Contents (Elt F)),
    nullary main_cst_44 (constant S_ .f32 0x3DCCCCCD#32),
    unary main_cst_44 main_v202 (broadcastInDim S100000x47 ![] bcast_S_S100000x47 : (⟨S_, .f32⟩ : BufTy).Contents (Elt F) → (⟨S100000x47, .f32⟩ : BufTy).Contents (Elt F)),
    binary main_v202 main_v8 main_v203 (mulf : (⟨S100000x47, .f32⟩ : BufTy).Contents (Elt F) → (⟨S100000x47, .f32⟩ : BufTy).Contents (Elt F) → (⟨S100000x47, .f32⟩ : BufTy).Contents (Elt F)),
    binary main_v201 main_v203 main_v204 (addf : (⟨S100000x47, .f32⟩ : BufTy).Contents (Elt F) → (⟨S100000x47, .f32⟩ : BufTy).Contents (Elt F) → (⟨S100000x47, .f32⟩ : BufTy).Contents (Elt F)) ]

/-- Propagation step 9: from `main_v204` to `main_v225`. -/
abbrev it9 : List (HloOp τ sig (Elt F)) :=
  [ unary main_v34 main_v205 (broadcastInDim S1600000x1 ![0] bcast_S1600000_S1600000x1_0 : (⟨S1600000, .f32⟩ : BufTy).Contents (Elt F) → (⟨S1600000x1, .f32⟩ : BufTy).Contents (Elt F)),
    nullary main_c_45 (constantI S_ 32 0#32),
    unary main_c_45 main_v206 (broadcastInDim S1600000 ![] bcast_S_S1600000 : (⟨S_, .i32⟩ : BufTy).Contents (Elt F) → (⟨S1600000, .i32⟩ : BufTy).Contents (Elt F)),
    binary main_v10 main_v206 main_v207 (cmpi .slt : (⟨S1600000, .i32⟩ : BufTy).Contents (Elt F) → (⟨S1600000, .i32⟩ : BufTy).Contents (Elt F) → (⟨S1600000, .i1⟩ : BufTy).Contents (Elt F)),
    nullary main_c_46 (constantI S_ 32 100000#32),
    unary main_c_46 main_v208 (broadcastInDim S1600000 ![] bcast_S_S1600000 : (⟨S_, .i32⟩ : BufTy).Contents (Elt F) → (⟨S1600000, .i32⟩ : BufTy).Contents (Elt F)),
    binary main_v10 main_v208 main_v209 (addi : (⟨S1600000, .i32⟩ : BufTy).Contents (Elt F) → (⟨S1600000, .i32⟩ : BufTy).Contents (Elt F) → (⟨S1600000, .i32⟩ : BufTy).Contents (Elt F)),
    ternary main_v207 main_v209 main_v10 main_v210 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v210 main_v211 (broadcastInDim S1600000x1 ![0] bcast_S1600000_S1600000x1_0 : (⟨S1600000, .i32⟩ : BufTy).Contents (Elt F) → (⟨S1600000x1, .i32⟩ : BufTy).Contents (Elt F)),
    binary main_v204 main_v211 main_v212 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v205 main_v213 (broadcastInDim S1600000x47 ![0, 1] bcast_S1600000x1_S1600000x47_0_1 : (⟨S1600000x1, .f32⟩ : BufTy).Contents (Elt F) → (⟨S1600000x47, .f32⟩ : BufTy).Contents (Elt F)),
    binary main_v213 main_v212 main_v214 (mulf : (⟨S1600000x47, .f32⟩ : BufTy).Contents (Elt F) → (⟨S1600000x47, .f32⟩ : BufTy).Contents (Elt F) → (⟨S1600000x47, .f32⟩ : BufTy).Contents (Elt F)),
    nullary main_cst_47 (constant S_ .f32 0x00000000#32),
    unary main_cst_47 main_v215 (broadcastInDim S100000x47 ![] bcast_S_S100000x47 : (⟨S_, .f32⟩ : BufTy).Contents (Elt F) → (⟨S100000x47, .f32⟩ : BufTy).Contents (Elt F)),
    unary main_v12 main_v216 (broadcastInDim S1600000x1 ![0] bcast_S1600000_S1600000x1_0 : (⟨S1600000, .i32⟩ : BufTy).Contents (Elt F) → (⟨S1600000x1, .i32⟩ : BufTy).Contents (Elt F)),
    ternary main_v215 main_v216 main_v214 main_v217 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v218 (broadcastInDim S100000x47 ![0, 1] bcast_S100000x1_S100000x47_0_1 : (⟨S100000x1, .f32⟩ : BufTy).Contents (Elt F) → (⟨S100000x47, .f32⟩ : BufTy).Contents (Elt F)),
    binary main_v218 main_v204 main_v219 (mulf : (⟨S100000x47, .f32⟩ : BufTy).Contents (Elt F) → (⟨S100000x47, .f32⟩ : BufTy).Contents (Elt F) → (⟨S100000x47, .f32⟩ : BufTy).Contents (Elt F)),
    binary main_v217 main_v219 main_v220 (addf : (⟨S100000x47, .f32⟩ : BufTy).Contents (Elt F) → (⟨S100000x47, .f32⟩ : BufTy).Contents (Elt F) → (⟨S100000x47, .f32⟩ : BufTy).Contents (Elt F)),
    nullary main_cst_48 (constant S_ .f32 0x3F666666#32),
    unary main_cst_48 main_v221 (broadcastInDim S100000x47 ![] bcast_S_S100000x47 : (⟨S_, .f32⟩ : BufTy).Contents (Elt F) → (⟨S100000x47, .f32⟩ : BufTy).Contents (Elt F)),
    binary main_v221 main_v220 main_v222 (mulf : (⟨S100000x47, .f32⟩ : BufTy).Contents (Elt F) → (⟨S100000x47, .f32⟩ : BufTy).Contents (Elt F) → (⟨S100000x47, .f32⟩ : BufTy).Contents (Elt F)),
    nullary main_cst_49 (constant S_ .f32 0x3DCCCCCD#32),
    unary main_cst_49 main_v223 (broadcastInDim S100000x47 ![] bcast_S_S100000x47 : (⟨S_, .f32⟩ : BufTy).Contents (Elt F) → (⟨S100000x47, .f32⟩ : BufTy).Contents (Elt F)),
    binary main_v223 main_v8 main_v224 (mulf : (⟨S100000x47, .f32⟩ : BufTy).Contents (Elt F) → (⟨S100000x47, .f32⟩ : BufTy).Contents (Elt F) → (⟨S100000x47, .f32⟩ : BufTy).Contents (Elt F)),
    binary main_v222 main_v224 main_v225 (addf : (⟨S100000x47, .f32⟩ : BufTy).Contents (Elt F) → (⟨S100000x47, .f32⟩ : BufTy).Contents (Elt F) → (⟨S100000x47, .f32⟩ : BufTy).Contents (Elt F)) ]

/-- Propagation step 10: from `main_v225` to `main_v246`. -/
abbrev it10 : List (HloOp τ sig (Elt F)) :=
  [ unary main_v34 main_v226 (broadcastInDim S1600000x1 ![0] bcast_S1600000_S1600000x1_0 : (⟨S1600000, .f32⟩ : BufTy).Contents (Elt F) → (⟨S1600000x1, .f32⟩ : BufTy).Contents (Elt F)),
    nullary main_c_50 (constantI S_ 32 0#32),
    unary main_c_50 main_v227 (broadcastInDim S1600000 ![] bcast_S_S1600000 : (⟨S_, .i32⟩ : BufTy).Contents (Elt F) → (⟨S1600000, .i32⟩ : BufTy).Contents (Elt F)),
    binary main_v10 main_v227 main_v228 (cmpi .slt : (⟨S1600000, .i32⟩ : BufTy).Contents (Elt F) → (⟨S1600000, .i32⟩ : BufTy).Contents (Elt F) → (⟨S1600000, .i1⟩ : BufTy).Contents (Elt F)),
    nullary main_c_51 (constantI S_ 32 100000#32),
    unary main_c_51 main_v229 (broadcastInDim S1600000 ![] bcast_S_S1600000 : (⟨S_, .i32⟩ : BufTy).Contents (Elt F) → (⟨S1600000, .i32⟩ : BufTy).Contents (Elt F)),
    binary main_v10 main_v229 main_v230 (addi : (⟨S1600000, .i32⟩ : BufTy).Contents (Elt F) → (⟨S1600000, .i32⟩ : BufTy).Contents (Elt F) → (⟨S1600000, .i32⟩ : BufTy).Contents (Elt F)),
    ternary main_v228 main_v230 main_v10 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v231 main_v232 (broadcastInDim S1600000x1 ![0] bcast_S1600000_S1600000x1_0 : (⟨S1600000, .i32⟩ : BufTy).Contents (Elt F) → (⟨S1600000x1, .i32⟩ : BufTy).Contents (Elt F)),
    binary main_v225 main_v232 main_v233 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v226 main_v234 (broadcastInDim S1600000x47 ![0, 1] bcast_S1600000x1_S1600000x47_0_1 : (⟨S1600000x1, .f32⟩ : BufTy).Contents (Elt F) → (⟨S1600000x47, .f32⟩ : BufTy).Contents (Elt F)),
    binary main_v234 main_v233 main_v235 (mulf : (⟨S1600000x47, .f32⟩ : BufTy).Contents (Elt F) → (⟨S1600000x47, .f32⟩ : BufTy).Contents (Elt F) → (⟨S1600000x47, .f32⟩ : BufTy).Contents (Elt F)),
    nullary main_cst_52 (constant S_ .f32 0x00000000#32),
    unary main_cst_52 main_v236 (broadcastInDim S100000x47 ![] bcast_S_S100000x47 : (⟨S_, .f32⟩ : BufTy).Contents (Elt F) → (⟨S100000x47, .f32⟩ : BufTy).Contents (Elt F)),
    unary main_v12 main_v237 (broadcastInDim S1600000x1 ![0] bcast_S1600000_S1600000x1_0 : (⟨S1600000, .i32⟩ : BufTy).Contents (Elt F) → (⟨S1600000x1, .i32⟩ : BufTy).Contents (Elt F)),
    ternary main_v236 main_v237 main_v235 main_v238 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_v36 main_v239 (broadcastInDim S100000x47 ![0, 1] bcast_S100000x1_S100000x47_0_1 : (⟨S100000x1, .f32⟩ : BufTy).Contents (Elt F) → (⟨S100000x47, .f32⟩ : BufTy).Contents (Elt F)),
    binary main_v239 main_v225 main_v240 (mulf : (⟨S100000x47, .f32⟩ : BufTy).Contents (Elt F) → (⟨S100000x47, .f32⟩ : BufTy).Contents (Elt F) → (⟨S100000x47, .f32⟩ : BufTy).Contents (Elt F)),
    binary main_v238 main_v240 main_v241 (addf : (⟨S100000x47, .f32⟩ : BufTy).Contents (Elt F) → (⟨S100000x47, .f32⟩ : BufTy).Contents (Elt F) → (⟨S100000x47, .f32⟩ : BufTy).Contents (Elt F)),
    nullary main_cst_53 (constant S_ .f32 0x3F666666#32),
    unary main_cst_53 main_v242 (broadcastInDim S100000x47 ![] bcast_S_S100000x47 : (⟨S_, .f32⟩ : BufTy).Contents (Elt F) → (⟨S100000x47, .f32⟩ : BufTy).Contents (Elt F)),
    binary main_v242 main_v241 main_v243 (mulf : (⟨S100000x47, .f32⟩ : BufTy).Contents (Elt F) → (⟨S100000x47, .f32⟩ : BufTy).Contents (Elt F) → (⟨S100000x47, .f32⟩ : BufTy).Contents (Elt F)),
    nullary main_cst_54 (constant S_ .f32 0x3DCCCCCD#32),
    unary main_cst_54 main_v244 (broadcastInDim S100000x47 ![] bcast_S_S100000x47 : (⟨S_, .f32⟩ : BufTy).Contents (Elt F) → (⟨S100000x47, .f32⟩ : BufTy).Contents (Elt F)),
    binary main_v244 main_v8 main_v245 (mulf : (⟨S100000x47, .f32⟩ : BufTy).Contents (Elt F) → (⟨S100000x47, .f32⟩ : BufTy).Contents (Elt F) → (⟨S100000x47, .f32⟩ : BufTy).Contents (Elt F)),
    binary main_v243 main_v245 main_v246 (addf : (⟨S100000x47, .f32⟩ : BufTy).Contents (Elt F) → (⟨S100000x47, .f32⟩ : BufTy).Contents (Elt F) → (⟨S100000x47, .f32⟩ : BufTy).Contents (Elt F)) ]

/-- The row-wise log-softmax of `main_v246`, into `main_v247`. -/
abbrev post : List (HloOp τ sig (Elt F)) :=
  [ TRef.nullary (TRef.of (T := ⟨S_, .f32⟩) main_call1_cst) (constant S_ .f32 0xFF800000#32),
    TRef.binary (TRef.of (T := ⟨S100000x47, .f32⟩) main_v246) (TRef.of (T := ⟨S_, .f32⟩) main_call1_cst) (TRef.of (T := ⟨S100000, .f32⟩) main_call1_v0) (fun x v => Host.reduce FloatOps.maximumf x v reducesTo_S100000x47_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x47, .f32⟩) main_call1_v4) (broadcastInDim S100000x47 ![0, 1] bcast_S100000x1_S100000x47_0_1),
    TRef.binary (TRef.of (T := ⟨S100000x47, .f32⟩) main_v246) (TRef.of (T := ⟨S100000x47, .f32⟩) main_call1_v4) (TRef.of (T := ⟨S100000x47, .f32⟩) main_call1_v5) subf,
    TRef.unary (TRef.of (T := ⟨S100000x47, .f32⟩) main_call1_v5) (TRef.of (T := ⟨S100000x47, .f32⟩) main_call1_v6) Host.exp,
    TRef.nullary (TRef.of (T := ⟨S_, .f32⟩) main_call1_cst_1) (constant S_ .f32 0x00000000#32),
    TRef.binary (TRef.of (T := ⟨S100000x47, .f32⟩) main_call1_v6) (TRef.of (T := ⟨S_, .f32⟩) main_call1_cst_1) (TRef.of (T := ⟨S100000, .f32⟩) main_call1_v7) (fun x v => Host.reduceAdd x v reducesTo_S100000x47_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x47, .f32⟩) main_call1_v10) (broadcastInDim S100000x47 ![0, 1] bcast_S100000x1_S100000x47_0_1),
    TRef.binary (TRef.of (T := ⟨S100000x47, .f32⟩) main_call1_v5) (TRef.of (T := ⟨S100000x47, .f32⟩) main_call1_v10) (TRef.of (T := ⟨S100000x47, .f32⟩) main_v247) subf ]

set_option maxRecDepth 8192 in
/-- The list is its chunks in order. -/
theorem ops_eq : (ops : List (HloOp τ sig (Elt F)))
    = pre ++ (it1 ++ (it2 ++ (it3 ++ (it4 ++ (it5 ++ (it6 ++ (it7 ++ (it8 ++ (it9 ++ (it10 ++ post)))))))))) := rfl

/-! ## What each chunk leaves alone -/

/-- The references `pre`'s operations write. -/
abbrev pre_W : List (Ref sig .tc) := [main_v0, main_v1, main_v2, main_v3, main_call0_cst, main_call0_v0, main_v4, main_v5, main_v6, main_v7, main_v8, main_v9, main_v10, main_v11, main_v12, main_cst, main_v13, main_cst_0, main_v14, main_v15, main_v16, main_cst_1, main_v17, main_v18, main_v19, main_c, main_v20, main_v21, main_c_2, main_v22, main_v23, main_v24, main_v25, main_v26, main_c_3, main_v27, main_v28, main_c_4, main_v29, main_v30, main_v31, main_v32, main_v33, main_v34, main_v35, main_v36]
theorem pre_writes : (pre : List (HloOp τ sig (Elt F))).Forall fun op => op.writes ⊆ (pre_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `pre` does not write keeps its contents. -/
theorem pre_keep (V : Valuation τ sig (Elt F)) (r : Ref sig .tc) (h : r ∉ pre_W) : after pre V r = V r :=
  after_of_writes_sub pre V pre_writes h

/-- The references `it1`'s operations write. -/
abbrev it1_W : List (Ref sig .tc) := [main_v37, main_c_5, main_v38, main_v39, main_c_6, main_v40, main_v41, main_v42, main_v43, main_v44, main_v45, main_v46, main_cst_7, main_v47, main_v48, main_v49, main_v50, main_v51, main_v52, main_cst_8, main_v53, main_v54, main_cst_9, main_v55, main_v56, main_v57]
theorem it1_writes : (it1 : List (HloOp τ sig (Elt F))).Forall fun op => op.writes ⊆ (it1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it1` does not write keeps its contents. -/
theorem it1_keep (V : Valuation τ sig (Elt F)) (r : Ref sig .tc) (h : r ∉ it1_W) : after it1 V r = V r :=
  after_of_writes_sub it1 V it1_writes h

/-- The references `it2`'s operations write. -/
abbrev it2_W : List (Ref sig .tc) := [main_v58, main_c_10, main_v59, main_v60, main_c_11, main_v61, main_v62, main_v63, main_v64, main_v65, main_v66, main_v67, main_cst_12, main_v68, main_v69, main_v70, main_v71, main_v72, main_v73, main_cst_13, main_v74, main_v75, main_cst_14, main_v76, main_v77, main_v78]
theorem it2_writes : (it2 : List (HloOp τ sig (Elt F))).Forall fun op => op.writes ⊆ (it2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it2` does not write keeps its contents. -/
theorem it2_keep (V : Valuation τ sig (Elt F)) (r : Ref sig .tc) (h : r ∉ it2_W) : after it2 V r = V r :=
  after_of_writes_sub it2 V it2_writes h

/-- The references `it3`'s operations write. -/
abbrev it3_W : List (Ref sig .tc) := [main_v79, main_c_15, main_v80, main_v81, main_c_16, main_v82, main_v83, main_v84, main_v85, main_v86, main_v87, main_v88, main_cst_17, main_v89, main_v90, main_v91, main_v92, main_v93, main_v94, main_cst_18, main_v95, main_v96, main_cst_19, main_v97, main_v98, main_v99]
theorem it3_writes : (it3 : List (HloOp τ sig (Elt F))).Forall fun op => op.writes ⊆ (it3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it3` does not write keeps its contents. -/
theorem it3_keep (V : Valuation τ sig (Elt F)) (r : Ref sig .tc) (h : r ∉ it3_W) : after it3 V r = V r :=
  after_of_writes_sub it3 V it3_writes h

/-- The references `it4`'s operations write. -/
abbrev it4_W : List (Ref sig .tc) := [main_v100, main_c_20, main_v101, main_v102, main_c_21, main_v103, main_v104, main_v105, main_v106, main_v107, main_v108, main_v109, main_cst_22, main_v110, main_v111, main_v112, main_v113, main_v114, main_v115, main_cst_23, main_v116, main_v117, main_cst_24, main_v118, main_v119, main_v120]
theorem it4_writes : (it4 : List (HloOp τ sig (Elt F))).Forall fun op => op.writes ⊆ (it4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it4` does not write keeps its contents. -/
theorem it4_keep (V : Valuation τ sig (Elt F)) (r : Ref sig .tc) (h : r ∉ it4_W) : after it4 V r = V r :=
  after_of_writes_sub it4 V it4_writes h

/-- The references `it5`'s operations write. -/
abbrev it5_W : List (Ref sig .tc) := [main_v121, main_c_25, main_v122, main_v123, main_c_26, main_v124, main_v125, main_v126, main_v127, main_v128, main_v129, main_v130, main_cst_27, main_v131, main_v132, main_v133, main_v134, main_v135, main_v136, main_cst_28, main_v137, main_v138, main_cst_29, main_v139, main_v140, main_v141]
theorem it5_writes : (it5 : List (HloOp τ sig (Elt F))).Forall fun op => op.writes ⊆ (it5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it5` does not write keeps its contents. -/
theorem it5_keep (V : Valuation τ sig (Elt F)) (r : Ref sig .tc) (h : r ∉ it5_W) : after it5 V r = V r :=
  after_of_writes_sub it5 V it5_writes h

/-- The references `it6`'s operations write. -/
abbrev it6_W : List (Ref sig .tc) := [main_v142, main_c_30, main_v143, main_v144, main_c_31, main_v145, main_v146, main_v147, main_v148, main_v149, main_v150, main_v151, main_cst_32, main_v152, main_v153, main_v154, main_v155, main_v156, main_v157, main_cst_33, main_v158, main_v159, main_cst_34, main_v160, main_v161, main_v162]
theorem it6_writes : (it6 : List (HloOp τ sig (Elt F))).Forall fun op => op.writes ⊆ (it6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it6` does not write keeps its contents. -/
theorem it6_keep (V : Valuation τ sig (Elt F)) (r : Ref sig .tc) (h : r ∉ it6_W) : after it6 V r = V r :=
  after_of_writes_sub it6 V it6_writes h

/-- The references `it7`'s operations write. -/
abbrev it7_W : List (Ref sig .tc) := [main_v163, main_c_35, main_v164, main_v165, main_c_36, main_v166, main_v167, main_v168, main_v169, main_v170, main_v171, main_v172, main_cst_37, main_v173, main_v174, main_v175, main_v176, main_v177, main_v178, main_cst_38, main_v179, main_v180, main_cst_39, main_v181, main_v182, main_v183]
theorem it7_writes : (it7 : List (HloOp τ sig (Elt F))).Forall fun op => op.writes ⊆ (it7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it7` does not write keeps its contents. -/
theorem it7_keep (V : Valuation τ sig (Elt F)) (r : Ref sig .tc) (h : r ∉ it7_W) : after it7 V r = V r :=
  after_of_writes_sub it7 V it7_writes h

/-- The references `it8`'s operations write. -/
abbrev it8_W : List (Ref sig .tc) := [main_v184, main_c_40, main_v185, main_v186, main_c_41, main_v187, main_v188, main_v189, main_v190, main_v191, main_v192, main_v193, main_cst_42, main_v194, main_v195, main_v196, main_v197, main_v198, main_v199, main_cst_43, main_v200, main_v201, main_cst_44, main_v202, main_v203, main_v204]
theorem it8_writes : (it8 : List (HloOp τ sig (Elt F))).Forall fun op => op.writes ⊆ (it8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it8` does not write keeps its contents. -/
theorem it8_keep (V : Valuation τ sig (Elt F)) (r : Ref sig .tc) (h : r ∉ it8_W) : after it8 V r = V r :=
  after_of_writes_sub it8 V it8_writes h

/-- The references `it9`'s operations write. -/
abbrev it9_W : List (Ref sig .tc) := [main_v205, main_c_45, main_v206, main_v207, main_c_46, main_v208, main_v209, main_v210, main_v211, main_v212, main_v213, main_v214, main_cst_47, main_v215, main_v216, main_v217, main_v218, main_v219, main_v220, main_cst_48, main_v221, main_v222, main_cst_49, main_v223, main_v224, main_v225]
theorem it9_writes : (it9 : List (HloOp τ sig (Elt F))).Forall fun op => op.writes ⊆ (it9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it9` does not write keeps its contents. -/
theorem it9_keep (V : Valuation τ sig (Elt F)) (r : Ref sig .tc) (h : r ∉ it9_W) : after it9 V r = V r :=
  after_of_writes_sub it9 V it9_writes h

/-- The references `it10`'s operations write. -/
abbrev it10_W : List (Ref sig .tc) := [main_v226, main_c_50, main_v227, main_v228, main_c_51, main_v229, main_v230, main_v231, main_v232, main_v233, main_v234, main_v235, main_cst_52, main_v236, main_v237, main_v238, main_v239, main_v240, main_v241, main_cst_53, main_v242, main_v243, main_cst_54, main_v244, main_v245, main_v246]
theorem it10_writes : (it10 : List (HloOp τ sig (Elt F))).Forall fun op => op.writes ⊆ (it10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `it10` does not write keeps its contents. -/
theorem it10_keep (V : Valuation τ sig (Elt F)) (r : Ref sig .tc) (h : r ∉ it10_W) : after it10 V r = V r :=
  after_of_writes_sub it10 V it10_writes h

/-- The references `post`'s operations write. -/
abbrev post_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v247]
theorem post_writes : (post : List (HloOp τ sig (Elt F))).Forall fun op => op.writes ⊆ (post_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A reference that `post` does not write keeps its contents. -/
theorem post_keep (V : Valuation τ sig (Elt F)) (r : Ref sig .tc) (h : r ∉ post_W) : after post V r = V r :=
  after_of_writes_sub post V post_writes h

/-! ## What each chunk writes -/

set_option maxRecDepth 8192 in
set_option maxHeartbeats 4000000 in
/-- The dense layers. -/
theorem pre_h (W : Valuation τ sig (Elt F)) : after pre W main_v8 = (Cert.Sp.hid (W main_arg0) (W main_arg2) (W main_arg3) (W main_arg4) (W main_arg5)) := by
  after_results_simp <;> rfl
set_option maxRecDepth 8192 in
set_option maxHeartbeats 4000000 in
/-- The edges' sources. -/
theorem pre_src (W : Valuation τ sig (Elt F)) : after pre W main_v10 = (Cert.Sp.srcOf (W main_arg1)) := by
  after_results_simp <;> rfl
set_option maxRecDepth 8192 in
set_option maxHeartbeats 4000000 in
/-- The edges' targets. -/
theorem pre_dst (W : Valuation τ sig (Elt F)) : after pre W main_v12 = (Cert.Sp.dstOf (W main_arg1)) := by
  after_results_simp <;> rfl
set_option maxRecDepth 8192 in
set_option maxHeartbeats 4000000 in
/-- The edge weights. -/
theorem pre_ew (W : Valuation τ sig (Elt F)) : after pre W main_v34 = (Cert.Sp.ewOf (Cert.Sp.srcOf (W main_arg1)) (Cert.Sp.dstOf (W main_arg1))) := by
  after_results_simp <;> rfl
set_option maxRecDepth 8192 in
set_option maxHeartbeats 4000000 in
/-- The self-loop weights. -/
theorem pre_sw (W : Valuation τ sig (Elt F)) : after pre W main_v36 = (Cert.Sp.swOf (Cert.Sp.dstOf (W main_arg1))) := by
  after_results_simp <;> rfl

set_option maxRecDepth 8192 in
set_option maxHeartbeats 4000000 in
/-- Step 1 writes one propagation step of what it reads. -/
theorem it1_z (V : Valuation τ sig (Elt F)) : after it1 V main_v57
    = Cert.Sp.step (V main_v10) (V main_v12) (V main_v34) (V main_v36) (V main_v8) (V main_v8) := by
  after_results_simp <;> rfl
set_option maxRecDepth 8192 in
set_option maxHeartbeats 4000000 in
/-- Step 2 writes one propagation step of what it reads. -/
theorem it2_z (V : Valuation τ sig (Elt F)) : after it2 V main_v78
    = Cert.Sp.step (V main_v10) (V main_v12) (V main_v34) (V main_v36) (V main_v8) (V main_v57) := by
  after_results_simp <;> rfl
set_option maxRecDepth 8192 in
set_option maxHeartbeats 4000000 in
/-- Step 3 writes one propagation step of what it reads. -/
theorem it3_z (V : Valuation τ sig (Elt F)) : after it3 V main_v99
    = Cert.Sp.step (V main_v10) (V main_v12) (V main_v34) (V main_v36) (V main_v8) (V main_v78) := by
  after_results_simp <;> rfl
set_option maxRecDepth 8192 in
set_option maxHeartbeats 4000000 in
/-- Step 4 writes one propagation step of what it reads. -/
theorem it4_z (V : Valuation τ sig (Elt F)) : after it4 V main_v120
    = Cert.Sp.step (V main_v10) (V main_v12) (V main_v34) (V main_v36) (V main_v8) (V main_v99) := by
  after_results_simp <;> rfl
set_option maxRecDepth 8192 in
set_option maxHeartbeats 4000000 in
/-- Step 5 writes one propagation step of what it reads. -/
theorem it5_z (V : Valuation τ sig (Elt F)) : after it5 V main_v141
    = Cert.Sp.step (V main_v10) (V main_v12) (V main_v34) (V main_v36) (V main_v8) (V main_v120) := by
  after_results_simp <;> rfl
set_option maxRecDepth 8192 in
set_option maxHeartbeats 4000000 in
/-- Step 6 writes one propagation step of what it reads. -/
theorem it6_z (V : Valuation τ sig (Elt F)) : after it6 V main_v162
    = Cert.Sp.step (V main_v10) (V main_v12) (V main_v34) (V main_v36) (V main_v8) (V main_v141) := by
  after_results_simp <;> rfl
set_option maxRecDepth 8192 in
set_option maxHeartbeats 4000000 in
/-- Step 7 writes one propagation step of what it reads. -/
theorem it7_z (V : Valuation τ sig (Elt F)) : after it7 V main_v183
    = Cert.Sp.step (V main_v10) (V main_v12) (V main_v34) (V main_v36) (V main_v8) (V main_v162) := by
  after_results_simp <;> rfl
set_option maxRecDepth 8192 in
set_option maxHeartbeats 4000000 in
/-- Step 8 writes one propagation step of what it reads. -/
theorem it8_z (V : Valuation τ sig (Elt F)) : after it8 V main_v204
    = Cert.Sp.step (V main_v10) (V main_v12) (V main_v34) (V main_v36) (V main_v8) (V main_v183) := by
  after_results_simp <;> rfl
set_option maxRecDepth 8192 in
set_option maxHeartbeats 4000000 in
/-- Step 9 writes one propagation step of what it reads. -/
theorem it9_z (V : Valuation τ sig (Elt F)) : after it9 V main_v225
    = Cert.Sp.step (V main_v10) (V main_v12) (V main_v34) (V main_v36) (V main_v8) (V main_v204) := by
  after_results_simp <;> rfl
set_option maxRecDepth 8192 in
set_option maxHeartbeats 4000000 in
/-- Step 10 writes one propagation step of what it reads. -/
theorem it10_z (V : Valuation τ sig (Elt F)) : after it10 V main_v246
    = Cert.Sp.step (V main_v10) (V main_v12) (V main_v34) (V main_v36) (V main_v8) (V main_v225) := by
  after_results_simp <;> rfl

/-- Contents carried to a typed reference's buffer and back are the contents. -/
theorem ofBuf_toBuf {T : BufTy} (x : TRef sig T) (v : T.Contents (Elt F)) : x.ofBuf (x.toBuf v) = v := by
  obtain ⟨r, ty_eq, h1, h2⟩ := x
  subst ty_eq
  rfl

set_option maxRecDepth 8192 in
set_option maxHeartbeats 4000000 in
/-- The last chunk writes the log-softmax of what it reads (its operations are those of a called function, each
    carrying its values to and from its buffers' types: those transports cancel in pairs). -/
theorem post_res (V : Valuation τ sig (Elt F)) : after post V main_v247 = Cert.Sp.lsm (V main_v246) := by
  after_results_simp
  simp only [ofBuf_toBuf]
  rfl

/-! ## The chain -/

/-- What a stage `V` after the first chunk holds at the references every later chunk reads, in terms of the contents
    `W` the operations start from: the six arguments as in `W`, and the five quantities the arguments fix — the dense
    layers' output, the edges' sources and targets, the edge weights, the self-loop weights. -/
structure Ctx (W V : Valuation τ sig (Elt F)) : Prop where
  a0 : V main_arg0 = W main_arg0
  a1 : V main_arg1 = W main_arg1
  a2 : V main_arg2 = W main_arg2
  a3 : V main_arg3 = W main_arg3
  a4 : V main_arg4 = W main_arg4
  a5 : V main_arg5 = W main_arg5
  h : V main_v8 = (Cert.Sp.hid (W main_arg0) (W main_arg2) (W main_arg3) (W main_arg4) (W main_arg5))
  src : V main_v10 = (Cert.Sp.srcOf (W main_arg1))
  dst : V main_v12 = (Cert.Sp.dstOf (W main_arg1))
  ew : V main_v34 = (Cert.Sp.ewOf (Cert.Sp.srcOf (W main_arg1)) (Cert.Sp.dstOf (W main_arg1)))
  sw : V main_v36 = (Cert.Sp.swOf (Cert.Sp.dstOf (W main_arg1)))

/-- The first chunk establishes it. -/
theorem ctx_pre (W : Valuation τ sig (Elt F)) : Ctx W (after pre W) :=
  ⟨pre_keep W main_arg0 (by decide), pre_keep W main_arg1 (by decide), pre_keep W main_arg2 (by decide), pre_keep W main_arg3 (by decide), pre_keep W main_arg4 (by decide), pre_keep W main_arg5 (by decide),
    pre_h W, pre_src W, pre_dst W, pre_ew W, pre_sw W⟩
/-- Step 1 writes none of those references. -/
theorem ctx_it1 {W V : Valuation τ sig (Elt F)} (c : Ctx W V) : Ctx W (after it1 V) :=
  ⟨(it1_keep V main_arg0 (by decide)).trans c.a0,
    (it1_keep V main_arg1 (by decide)).trans c.a1,
    (it1_keep V main_arg2 (by decide)).trans c.a2,
    (it1_keep V main_arg3 (by decide)).trans c.a3,
    (it1_keep V main_arg4 (by decide)).trans c.a4,
    (it1_keep V main_arg5 (by decide)).trans c.a5,
    (it1_keep V main_v8 (by decide)).trans c.h,
    (it1_keep V main_v10 (by decide)).trans c.src,
    (it1_keep V main_v12 (by decide)).trans c.dst,
    (it1_keep V main_v34 (by decide)).trans c.ew,
    (it1_keep V main_v36 (by decide)).trans c.sw⟩
/-- Step 2 writes none of those references. -/
theorem ctx_it2 {W V : Valuation τ sig (Elt F)} (c : Ctx W V) : Ctx W (after it2 V) :=
  ⟨(it2_keep V main_arg0 (by decide)).trans c.a0,
    (it2_keep V main_arg1 (by decide)).trans c.a1,
    (it2_keep V main_arg2 (by decide)).trans c.a2,
    (it2_keep V main_arg3 (by decide)).trans c.a3,
    (it2_keep V main_arg4 (by decide)).trans c.a4,
    (it2_keep V main_arg5 (by decide)).trans c.a5,
    (it2_keep V main_v8 (by decide)).trans c.h,
    (it2_keep V main_v10 (by decide)).trans c.src,
    (it2_keep V main_v12 (by decide)).trans c.dst,
    (it2_keep V main_v34 (by decide)).trans c.ew,
    (it2_keep V main_v36 (by decide)).trans c.sw⟩
/-- Step 3 writes none of those references. -/
theorem ctx_it3 {W V : Valuation τ sig (Elt F)} (c : Ctx W V) : Ctx W (after it3 V) :=
  ⟨(it3_keep V main_arg0 (by decide)).trans c.a0,
    (it3_keep V main_arg1 (by decide)).trans c.a1,
    (it3_keep V main_arg2 (by decide)).trans c.a2,
    (it3_keep V main_arg3 (by decide)).trans c.a3,
    (it3_keep V main_arg4 (by decide)).trans c.a4,
    (it3_keep V main_arg5 (by decide)).trans c.a5,
    (it3_keep V main_v8 (by decide)).trans c.h,
    (it3_keep V main_v10 (by decide)).trans c.src,
    (it3_keep V main_v12 (by decide)).trans c.dst,
    (it3_keep V main_v34 (by decide)).trans c.ew,
    (it3_keep V main_v36 (by decide)).trans c.sw⟩
/-- Step 4 writes none of those references. -/
theorem ctx_it4 {W V : Valuation τ sig (Elt F)} (c : Ctx W V) : Ctx W (after it4 V) :=
  ⟨(it4_keep V main_arg0 (by decide)).trans c.a0,
    (it4_keep V main_arg1 (by decide)).trans c.a1,
    (it4_keep V main_arg2 (by decide)).trans c.a2,
    (it4_keep V main_arg3 (by decide)).trans c.a3,
    (it4_keep V main_arg4 (by decide)).trans c.a4,
    (it4_keep V main_arg5 (by decide)).trans c.a5,
    (it4_keep V main_v8 (by decide)).trans c.h,
    (it4_keep V main_v10 (by decide)).trans c.src,
    (it4_keep V main_v12 (by decide)).trans c.dst,
    (it4_keep V main_v34 (by decide)).trans c.ew,
    (it4_keep V main_v36 (by decide)).trans c.sw⟩
/-- Step 5 writes none of those references. -/
theorem ctx_it5 {W V : Valuation τ sig (Elt F)} (c : Ctx W V) : Ctx W (after it5 V) :=
  ⟨(it5_keep V main_arg0 (by decide)).trans c.a0,
    (it5_keep V main_arg1 (by decide)).trans c.a1,
    (it5_keep V main_arg2 (by decide)).trans c.a2,
    (it5_keep V main_arg3 (by decide)).trans c.a3,
    (it5_keep V main_arg4 (by decide)).trans c.a4,
    (it5_keep V main_arg5 (by decide)).trans c.a5,
    (it5_keep V main_v8 (by decide)).trans c.h,
    (it5_keep V main_v10 (by decide)).trans c.src,
    (it5_keep V main_v12 (by decide)).trans c.dst,
    (it5_keep V main_v34 (by decide)).trans c.ew,
    (it5_keep V main_v36 (by decide)).trans c.sw⟩
/-- Step 6 writes none of those references. -/
theorem ctx_it6 {W V : Valuation τ sig (Elt F)} (c : Ctx W V) : Ctx W (after it6 V) :=
  ⟨(it6_keep V main_arg0 (by decide)).trans c.a0,
    (it6_keep V main_arg1 (by decide)).trans c.a1,
    (it6_keep V main_arg2 (by decide)).trans c.a2,
    (it6_keep V main_arg3 (by decide)).trans c.a3,
    (it6_keep V main_arg4 (by decide)).trans c.a4,
    (it6_keep V main_arg5 (by decide)).trans c.a5,
    (it6_keep V main_v8 (by decide)).trans c.h,
    (it6_keep V main_v10 (by decide)).trans c.src,
    (it6_keep V main_v12 (by decide)).trans c.dst,
    (it6_keep V main_v34 (by decide)).trans c.ew,
    (it6_keep V main_v36 (by decide)).trans c.sw⟩
/-- Step 7 writes none of those references. -/
theorem ctx_it7 {W V : Valuation τ sig (Elt F)} (c : Ctx W V) : Ctx W (after it7 V) :=
  ⟨(it7_keep V main_arg0 (by decide)).trans c.a0,
    (it7_keep V main_arg1 (by decide)).trans c.a1,
    (it7_keep V main_arg2 (by decide)).trans c.a2,
    (it7_keep V main_arg3 (by decide)).trans c.a3,
    (it7_keep V main_arg4 (by decide)).trans c.a4,
    (it7_keep V main_arg5 (by decide)).trans c.a5,
    (it7_keep V main_v8 (by decide)).trans c.h,
    (it7_keep V main_v10 (by decide)).trans c.src,
    (it7_keep V main_v12 (by decide)).trans c.dst,
    (it7_keep V main_v34 (by decide)).trans c.ew,
    (it7_keep V main_v36 (by decide)).trans c.sw⟩
/-- Step 8 writes none of those references. -/
theorem ctx_it8 {W V : Valuation τ sig (Elt F)} (c : Ctx W V) : Ctx W (after it8 V) :=
  ⟨(it8_keep V main_arg0 (by decide)).trans c.a0,
    (it8_keep V main_arg1 (by decide)).trans c.a1,
    (it8_keep V main_arg2 (by decide)).trans c.a2,
    (it8_keep V main_arg3 (by decide)).trans c.a3,
    (it8_keep V main_arg4 (by decide)).trans c.a4,
    (it8_keep V main_arg5 (by decide)).trans c.a5,
    (it8_keep V main_v8 (by decide)).trans c.h,
    (it8_keep V main_v10 (by decide)).trans c.src,
    (it8_keep V main_v12 (by decide)).trans c.dst,
    (it8_keep V main_v34 (by decide)).trans c.ew,
    (it8_keep V main_v36 (by decide)).trans c.sw⟩
/-- Step 9 writes none of those references. -/
theorem ctx_it9 {W V : Valuation τ sig (Elt F)} (c : Ctx W V) : Ctx W (after it9 V) :=
  ⟨(it9_keep V main_arg0 (by decide)).trans c.a0,
    (it9_keep V main_arg1 (by decide)).trans c.a1,
    (it9_keep V main_arg2 (by decide)).trans c.a2,
    (it9_keep V main_arg3 (by decide)).trans c.a3,
    (it9_keep V main_arg4 (by decide)).trans c.a4,
    (it9_keep V main_arg5 (by decide)).trans c.a5,
    (it9_keep V main_v8 (by decide)).trans c.h,
    (it9_keep V main_v10 (by decide)).trans c.src,
    (it9_keep V main_v12 (by decide)).trans c.dst,
    (it9_keep V main_v34 (by decide)).trans c.ew,
    (it9_keep V main_v36 (by decide)).trans c.sw⟩
/-- Step 10 writes none of those references. -/
theorem ctx_it10 {W V : Valuation τ sig (Elt F)} (c : Ctx W V) : Ctx W (after it10 V) :=
  ⟨(it10_keep V main_arg0 (by decide)).trans c.a0,
    (it10_keep V main_arg1 (by decide)).trans c.a1,
    (it10_keep V main_arg2 (by decide)).trans c.a2,
    (it10_keep V main_arg3 (by decide)).trans c.a3,
    (it10_keep V main_arg4 (by decide)).trans c.a4,
    (it10_keep V main_arg5 (by decide)).trans c.a5,
    (it10_keep V main_v8 (by decide)).trans c.h,
    (it10_keep V main_v10 (by decide)).trans c.src,
    (it10_keep V main_v12 (by decide)).trans c.dst,
    (it10_keep V main_v34 (by decide)).trans c.ew,
    (it10_keep V main_v36 (by decide)).trans c.sw⟩

/-- After the k-th step the propagated array is the k-th iterate of the step from the dense layers' output. -/
theorem z1 (W : Valuation τ sig (Elt F)) : after it1 (after pre W) main_v57
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[1] (Cert.Sp.hid (W main_arg0) (W main_arg2) (W main_arg3) (W main_arg4) (W main_arg5)) := by
  have c := ctx_pre W
  rw [it1_z, c.src, c.dst, c.ew, c.sw, c.h]
  exact (Function.iterate_succ_apply' _ 0 _).symm
theorem z2 (W : Valuation τ sig (Elt F)) : after it2 (after it1 (after pre W)) main_v78
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[2] (Cert.Sp.hid (W main_arg0) (W main_arg2) (W main_arg3) (W main_arg4) (W main_arg5)) := by
  have c := ctx_it1 (ctx_pre W)
  rw [it2_z, c.src, c.dst, c.ew, c.sw, c.h, z1 W]
  exact (Function.iterate_succ_apply' _ 1 _).symm
theorem z3 (W : Valuation τ sig (Elt F)) : after it3 (after it2 (after it1 (after pre W))) main_v99
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[3] (Cert.Sp.hid (W main_arg0) (W main_arg2) (W main_arg3) (W main_arg4) (W main_arg5)) := by
  have c := ctx_it2 (ctx_it1 (ctx_pre W))
  rw [it3_z, c.src, c.dst, c.ew, c.sw, c.h, z2 W]
  exact (Function.iterate_succ_apply' _ 2 _).symm
theorem z4 (W : Valuation τ sig (Elt F)) : after it4 (after it3 (after it2 (after it1 (after pre W)))) main_v120
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[4] (Cert.Sp.hid (W main_arg0) (W main_arg2) (W main_arg3) (W main_arg4) (W main_arg5)) := by
  have c := ctx_it3 (ctx_it2 (ctx_it1 (ctx_pre W)))
  rw [it4_z, c.src, c.dst, c.ew, c.sw, c.h, z3 W]
  exact (Function.iterate_succ_apply' _ 3 _).symm
theorem z5 (W : Valuation τ sig (Elt F)) : after it5 (after it4 (after it3 (after it2 (after it1 (after pre W))))) main_v141
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[5] (Cert.Sp.hid (W main_arg0) (W main_arg2) (W main_arg3) (W main_arg4) (W main_arg5)) := by
  have c := ctx_it4 (ctx_it3 (ctx_it2 (ctx_it1 (ctx_pre W))))
  rw [it5_z, c.src, c.dst, c.ew, c.sw, c.h, z4 W]
  exact (Function.iterate_succ_apply' _ 4 _).symm
theorem z6 (W : Valuation τ sig (Elt F)) : after it6 (after it5 (after it4 (after it3 (after it2 (after it1 (after pre W)))))) main_v162
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[6] (Cert.Sp.hid (W main_arg0) (W main_arg2) (W main_arg3) (W main_arg4) (W main_arg5)) := by
  have c := ctx_it5 (ctx_it4 (ctx_it3 (ctx_it2 (ctx_it1 (ctx_pre W)))))
  rw [it6_z, c.src, c.dst, c.ew, c.sw, c.h, z5 W]
  exact (Function.iterate_succ_apply' _ 5 _).symm
theorem z7 (W : Valuation τ sig (Elt F)) : after it7 (after it6 (after it5 (after it4 (after it3 (after it2 (after it1 (after pre W))))))) main_v183
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[7] (Cert.Sp.hid (W main_arg0) (W main_arg2) (W main_arg3) (W main_arg4) (W main_arg5)) := by
  have c := ctx_it6 (ctx_it5 (ctx_it4 (ctx_it3 (ctx_it2 (ctx_it1 (ctx_pre W))))))
  rw [it7_z, c.src, c.dst, c.ew, c.sw, c.h, z6 W]
  exact (Function.iterate_succ_apply' _ 6 _).symm
theorem z8 (W : Valuation τ sig (Elt F)) : after it8 (after it7 (after it6 (after it5 (after it4 (after it3 (after it2 (after it1 (after pre W)))))))) main_v204
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[8] (Cert.Sp.hid (W main_arg0) (W main_arg2) (W main_arg3) (W main_arg4) (W main_arg5)) := by
  have c := ctx_it7 (ctx_it6 (ctx_it5 (ctx_it4 (ctx_it3 (ctx_it2 (ctx_it1 (ctx_pre W)))))))
  rw [it8_z, c.src, c.dst, c.ew, c.sw, c.h, z7 W]
  exact (Function.iterate_succ_apply' _ 7 _).symm
theorem z9 (W : Valuation τ sig (Elt F)) : after it9 (after it8 (after it7 (after it6 (after it5 (after it4 (after it3 (after it2 (after it1 (after pre W))))))))) main_v225
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[9] (Cert.Sp.hid (W main_arg0) (W main_arg2) (W main_arg3) (W main_arg4) (W main_arg5)) := by
  have c := ctx_it8 (ctx_it7 (ctx_it6 (ctx_it5 (ctx_it4 (ctx_it3 (ctx_it2 (ctx_it1 (ctx_pre W))))))))
  rw [it9_z, c.src, c.dst, c.ew, c.sw, c.h, z8 W]
  exact (Function.iterate_succ_apply' _ 8 _).symm
theorem z10 (W : Valuation τ sig (Elt F)) : after it10 (after it9 (after it8 (after it7 (after it6 (after it5 (after it4 (after it3 (after it2 (after it1 (after pre W)))))))))) main_v246
    = (Cert.Sp.step (Cert.Sp.srcOf (W main_arg1)) (Cert.Sp.dstOf (W main_arg1)) (Cert.Sp.ewOf (Cert.Sp.srcOf (W main_arg1)) (Cert.Sp.dstOf (W main_arg1))) (Cert.Sp.swOf (Cert.Sp.dstOf (W main_arg1))) (Cert.Sp.hid (W main_arg0) (W main_arg2) (W main_arg3) (W main_arg4) (W main_arg5)))^[10] (Cert.Sp.hid (W main_arg0) (W main_arg2) (W main_arg3) (W main_arg4) (W main_arg5)) := by
  have c := ctx_it9 (ctx_it8 (ctx_it7 (ctx_it6 (ctx_it5 (ctx_it4 (ctx_it3 (ctx_it2 (ctx_it1 (ctx_pre W)))))))))
  rw [it10_z, c.src, c.dst, c.ew, c.sw, c.h, z9 W]
  exact (Function.iterate_succ_apply' _ 9 _).symm

/-- The fold of the whole list is the chunks' folds, one inside the next. -/
theorem after_ops (W : Valuation τ sig (Elt F)) : after ops W = after post (after it10 (after it9 (after it8 (after it7 (after it6 (after it5 (after it4 (after it3 (after it2 (after it1 (after pre W))))))))))) := by
  rw [ops_eq]; simp only [after_append]

/-- From any contents, the operations leave `Cert.Sp.final` of the arguments at the result. -/
theorem after_ops_result (W : Valuation τ sig (Elt F)) : after ops W main_v247
    = Cert.Sp.final (W main_arg0) (W main_arg1) (W main_arg2) (W main_arg3) (W main_arg4) (W main_arg5) := by
  rw [after_ops, post_res, z10 W]; rfl
/-- From any contents, the operations leave argument 0 as it was. -/
theorem after_ops_arg0 (W : Valuation τ sig (Elt F)) : after ops W main_arg0 = W main_arg0 := by
  rw [after_ops]; exact (post_keep _ main_arg0 (by decide)).trans (ctx_it10 (ctx_it9 (ctx_it8 (ctx_it7 (ctx_it6 (ctx_it5 (ctx_it4 (ctx_it3 (ctx_it2 (ctx_it1 (ctx_pre W))))))))))).a0
/-- From any contents, the operations leave argument 1 as it was. -/
theorem after_ops_arg1 (W : Valuation τ sig (Elt F)) : after ops W main_arg1 = W main_arg1 := by
  rw [after_ops]; exact (post_keep _ main_arg1 (by decide)).trans (ctx_it10 (ctx_it9 (ctx_it8 (ctx_it7 (ctx_it6 (ctx_it5 (ctx_it4 (ctx_it3 (ctx_it2 (ctx_it1 (ctx_pre W))))))))))).a1
/-- From any contents, the operations leave argument 2 as it was. -/
theorem after_ops_arg2 (W : Valuation τ sig (Elt F)) : after ops W main_arg2 = W main_arg2 := by
  rw [after_ops]; exact (post_keep _ main_arg2 (by decide)).trans (ctx_it10 (ctx_it9 (ctx_it8 (ctx_it7 (ctx_it6 (ctx_it5 (ctx_it4 (ctx_it3 (ctx_it2 (ctx_it1 (ctx_pre W))))))))))).a2
/-- From any contents, the operations leave argument 3 as it was. -/
theorem after_ops_arg3 (W : Valuation τ sig (Elt F)) : after ops W main_arg3 = W main_arg3 := by
  rw [after_ops]; exact (post_keep _ main_arg3 (by decide)).trans (ctx_it10 (ctx_it9 (ctx_it8 (ctx_it7 (ctx_it6 (ctx_it5 (ctx_it4 (ctx_it3 (ctx_it2 (ctx_it1 (ctx_pre W))))))))))).a3
/-- From any contents, the operations leave argument 4 as it was. -/
theorem after_ops_arg4 (W : Valuation τ sig (Elt F)) : after ops W main_arg4 = W main_arg4 := by
  rw [after_ops]; exact (post_keep _ main_arg4 (by decide)).trans (ctx_it10 (ctx_it9 (ctx_it8 (ctx_it7 (ctx_it6 (ctx_it5 (ctx_it4 (ctx_it3 (ctx_it2 (ctx_it1 (ctx_pre W))))))))))).a4
/-- From any contents, the operations leave argument 5 as it was. -/
theorem after_ops_arg5 (W : Valuation τ sig (Elt F)) : after ops W main_arg5 = W main_arg5 := by
  rw [after_ops]; exact (post_keep _ main_arg5 (by decide)).trans (ctx_it10 (ctx_it9 (ctx_it8 (ctx_it7 (ctx_it6 (ctx_it5 (ctx_it4 (ctx_it3 (ctx_it2 (ctx_it1 (ctx_pre W))))))))))).a5

end Cert.ReferenceIdeal.RefRun

end
-- ==== Proof.Ref.Run.lean ====
/-
  The reference program's run, read: on every device, from any memory with zero counters, every weakly fair execution
  of @main terminates with the result `main_v247` at `Cert.Sp.final` of the six arguments' launch contents and the
  arguments unchanged. It is the run with the final memory as the FOLD of the operations over the launch contents
  (`run_fold`), weakened by the fold's reading at the seven references (`after_ops_result`, `after_ops_arg0` … `5`).
-/
import proofs.«114710_j78030965834312_1_alg».proof.Proof.Ref.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at `Cert.Sp.final` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v247) = Cert.Sp.final (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v247).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _)⟩)
    (run_fold m ρ)

end Cert.ReferenceIdeal.RefRun

end
-- ==== Proof.Val.Stretch.lean ====
/-
  What the host stretches between the kernel regions write, read off ANY contents `W` of the buffers they
  start from.  The first stretch recasts the two bias vectors as rows; the second cuts the edge list into its
  sources and targets, forms `deg^(-1/2)`, the edge weights and the self-loop column, and the first neighbour
  sum; each later stretch forms the next neighbour sum from the previous iterate.  Each is, operation for
  operation, the corresponding piece of the specification.
-/
import proofs.«114710_j78030965834312_1_alg».proof.Proof.Gen.KernelIdeal.Launch
import proofs.«114710_j78030965834312_1_alg».proof.Proof.Spec
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo
open Idealize.SL.Sem

variable {F : FTy → Type} [FloatOps F] (W : Valuation τ sig (Elt F))

/-! ## The bias vectors as rows -/

set_option maxRecDepth 8192 in
set_option maxHeartbeats 4000000 in
theorem stretch0_b1 : StableHlo.after (hostOps0 (F := F)) W main_v0 = shapeCast _ (W main_arg3) shapeCasts_S256_S1x256 := by
  after_results_simp <;> rfl
set_option maxRecDepth 8192 in
set_option maxHeartbeats 4000000 in
theorem stretch0_b2 : StableHlo.after (hostOps0 (F := F)) W main_v1 = shapeCast _ (W main_arg5) shapeCasts_S47_S1x47 := by
  after_results_simp <;> rfl

/-! ## The graph's constants and the first neighbour sum -/

set_option maxRecDepth 8192 in
set_option maxHeartbeats 4000000 in
theorem stretch1_src : StableHlo.after (hostOps1 (F := F)) W main_v4 = Cert.Sp.srcOf (W main_arg1) := by
  after_results_simp <;> rfl
set_option maxRecDepth 8192 in
set_option maxHeartbeats 4000000 in
theorem stretch1_dst : StableHlo.after (hostOps1 (F := F)) W main_v6 = Cert.Sp.dstOf (W main_arg1) := by
  after_results_simp <;> rfl
set_option maxRecDepth 8192 in
set_option maxHeartbeats 4000000 in
theorem stretch1_ew : StableHlo.after (hostOps1 (F := F)) W main_v28
    = Cert.Sp.ewOf (Cert.Sp.srcOf (W main_arg1)) (Cert.Sp.dstOf (W main_arg1)) := by
  after_results_simp <;> rfl
set_option maxRecDepth 8192 in
set_option maxHeartbeats 4000000 in
theorem stretch1_sw : StableHlo.after (hostOps1 (F := F)) W main_v30 = Cert.Sp.swOf (Cert.Sp.dstOf (W main_arg1)) := by
  after_results_simp <;> rfl
set_option maxRecDepth 8192 in
set_option maxHeartbeats 4000000 in
theorem stretch1_agg : StableHlo.after (hostOps1 (F := F)) W main_v43
    = Cert.Sp.agg (Cert.Sp.srcOf (W main_arg1)) (Cert.Sp.dstOf (W main_arg1))
        (Cert.Sp.ewOf (Cert.Sp.srcOf (W main_arg1)) (Cert.Sp.dstOf (W main_arg1))) (W main_v2) := by
  after_results_simp <;> rfl

/-! ## The later neighbour sums -/

set_option maxRecDepth 8192 in
set_option maxHeartbeats 4000000 in
theorem stretch2_agg : StableHlo.after (hostOps2 (F := F)) W main_v57
    = Cert.Sp.agg (W main_v4) (W main_v6) (W main_v28) (W main_v44) := by
  after_results_simp <;> rfl

set_option maxRecDepth 8192 in
set_option maxHeartbeats 4000000 in
theorem stretch3_agg : StableHlo.after (hostOps3 (F := F)) W main_v71
    = Cert.Sp.agg (W main_v4) (W main_v6) (W main_v28) (W main_v58) := by
  after_results_simp <;> rfl

set_option maxRecDepth 8192 in
set_option maxHeartbeats 4000000 in
theorem stretch4_agg : StableHlo.after (hostOps4 (F := F)) W main_v85
    = Cert.Sp.agg (W main_v4) (W main_v6) (W main_v28) (W main_v72) := by
  after_results_simp <;> rfl

set_option maxRecDepth 8192 in
set_option maxHeartbeats 4000000 in
theorem stretch5_agg : StableHlo.after (hostOps5 (F := F)) W main_v99
    = Cert.Sp.agg (W main_v4) (W main_v6) (W main_v28) (W main_v86) := by
  after_results_simp <;> rfl

set_option maxRecDepth 8192 in
set_option maxHeartbeats 4000000 in
theorem stretch6_agg : StableHlo.after (hostOps6 (F := F)) W main_v113
    = Cert.Sp.agg (W main_v4) (W main_v6) (W main_v28) (W main_v100) := by
  after_results_simp <;> rfl

set_option maxRecDepth 8192 in
set_option maxHeartbeats 4000000 in
theorem stretch7_agg : StableHlo.after (hostOps7 (F := F)) W main_v127
    = Cert.Sp.agg (W main_v4) (W main_v6) (W main_v28) (W main_v114) := by
  after_results_simp <;> rfl

set_option maxRecDepth 8192 in
set_option maxHeartbeats 4000000 in
theorem stretch8_agg : StableHlo.after (hostOps8 (F := F)) W main_v141
    = Cert.Sp.agg (W main_v4) (W main_v6) (W main_v28) (W main_v128) := by
  after_results_simp <;> rfl

set_option maxRecDepth 8192 in
set_option maxHeartbeats 4000000 in
theorem stretch9_agg : StableHlo.after (hostOps9 (F := F)) W main_v155
    = Cert.Sp.agg (W main_v4) (W main_v6) (W main_v28) (W main_v142) := by
  after_results_simp <;> rfl

set_option maxRecDepth 8192 in
set_option maxHeartbeats 4000000 in
theorem stretch10_agg : StableHlo.after (hostOps10 (F := F)) W main_v169
    = Cert.Sp.agg (W main_v4) (W main_v6) (W main_v28) (W main_v156) := by
  after_results_simp <;> rfl

end Cert.KernelIdeal.Val

end
-- ==== Proof.Val.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Val.DenseRow.lean ====
/-
  The two dense layers at one output entry, on the extended reals.

  For a row `xr` of 128 features, weights `W1` (128 × 256) and `W2c` (one column of the 256 × 47 second layer),
  a bias vector `b1` and a bias entry `b2j`:
      denseRow = Σ_q max (Σ_r xr r · W1 r q + b1 q) z · W2c q + b2j,
  where `z` is the extended real the f32 zero word encodes (the same word on every side, so it is never evaluated).
-/
import Idealize.ShloMosaic.PureOps.Ideal

noncomputable section

open scoped BigOperators

namespace Cert.Val

open Idealize.ShloMosaic

/-- One entry of `relu (x · W1 + b1) · W2 + b2`: the hidden layer's 256 entries for the row, rectified, against one
    column of the second layer, plus that column's bias. -/
def denseRow (xr : Fin 128 → EReal) (W1 : Fin 128 → Fin 256 → EReal) (b1 : Fin 256 → EReal) (W2c : Fin 256 → EReal)
    (b2j : EReal) : EReal :=
  (∑ q : Fin 256, max ((∑ r : Fin 128, xr r * W1 r q) + b1 q) (Ideal.ofBits .f32 0x00000000#32) * W2c q) + b2j

end Cert.Val

end
-- ==== Proof.Val.DenseK.lean ====
/-
  The dense layers' block product at an entry: row `p` of what the kernel stores, at column `j`, is `denseRow` of
  the loaded blocks' entries.  The two block products into a zero accumulator are sums over the contraction axis,
  the bias rows are broadcast down the rows, the format changes are the identity on extended reals.
-/
import proofs.«114710_j78030965834312_1_alg».proof.Proof.Gen.KernelIdeal.Skeleton
import proofs.«114710_j78030965834312_1_alg».proof.Proof.Val.LibPlainDot
import proofs.«114710_j78030965834312_1_alg».proof.Proof.Val.DenseRow
import Idealize.ShloMosaic.Lib.ValueLayout
import Idealize.ShloMosaic.Lib.Pipeline.Value

noncomputable section

open scoped BigOperators

namespace Cert.Val

open Cert.KernelIdeal Cert.KernelIdeal.Gen Idealize.ShloMosaic Idealize.ShloMosaic.ValueIdx

set_option maxHeartbeats 400000 in
/-- The kernel's stored value at `(p, j)`. -/
theorem k0_pay1_ix2 (xb : Vec Ideal S5000x128 .f32) (W1b : Vec Ideal S128x256 .f32) (b1b : Vec Ideal S1x256 .f32)
    (W2b : Vec Ideal S256x47 .f32) (b2b : Vec Ideal S1x47 .f32) (p : Fin 5000) (j : Fin 47) :
    Cert.KernelIdeal.Gen.k0_pay1 (F := Ideal) xb W1b b1b W2b b2b (ix2 p j)
      = denseRow (fun r => xb (ix2 p r)) (fun r q => W1b (ix2 r q)) (fun q => b1b (ix2 (0 : Fin 1) q))
          (fun q => W2b (ix2 q j)) (b2b (ix2 (0 : Fin 1) j)) := by
  unfold Cert.KernelIdeal.Gen.k0_pay1 denseRow
  refine congrArg₂ (· + ·) ?_ ?_
  · -- the second product, into the zero splat
    refine (Cert.PlainDot.matmul_zero_ix2 _ rfl none _ _ p j).trans ?_
    refine Finset.sum_congr rfl fun q _ => ?_
    refine congrArg₂ (· * ·) ?_ rfl
    -- the rectified hidden entry
    refine congrArg₂ max ?_ rfl
    refine congrArg₂ (· + ·) ?_ ?_
    · exact Cert.PlainDot.matmul_zero_ix2 _ rfl none _ _ p q
    · refine (broadcastTo_1b_ab_apply _ _ p q).trans ?_
      rw [shapeCast_self]
  · refine (broadcastTo_1b_ab_apply _ _ p j).trans ?_
    rw [shapeCast_self]

end Cert.Val

end
-- ==== Proof.Val.DenseR.lean ====
/-
  The reference's dense layers at an entry: row `i`, column `j` of `relu (x · W1 + b1) · W2 + b2` is `denseRow` of
  the arrays' entries.  The two host products are sums over the contraction axis; a bias vector is made a one-row
  array and that row is repeated down the rows; the rectifier's zero is a scalar repeated everywhere.
-/
import proofs.«114710_j78030965834312_1_alg».proof.Proof.Spec
import proofs.«114710_j78030965834312_1_alg».proof.Proof.Val.LibPlainDot
import proofs.«114710_j78030965834312_1_alg».proof.Proof.Val.DenseRow
import Idealize.ShloMosaic.Lib.IdealHost
import Idealize.ShloMosaic.Lib.Pipeline.Value

noncomputable section

open scoped BigOperators

namespace Cert.Val

open Cert.ReferenceIdeal Cert.ReferenceIdeal.Gen Idealize.ShloMosaic Idealize.ShloMosaic.ValueIdx

section Layout
variable {α : Type}

/-- A one-row array `[1, b]` repeated down the rows of `[a, b]` reads, at `(p, c)`, its one row at `c`. -/
theorem bcastRow_apply {a b : ℕ} (v : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` made the one row of `[1, b]` reads, at `(0, c)`, the vector at `c`. -/
theorem bcastVecRow_apply {b : ℕ} (v : (⟨1, ![b]⟩ : Shape).Idx → α)
    (h : (⟨1, ![b]⟩ : Shape).BroadcastsInDim ⟨2, ![1, b]⟩ (![1] : Fin 1 → Fin (⟨2, ![1, b]⟩ : Shape).rank))
    (c : Fin b) :
    broadcastInDim ⟨2, ![1, b]⟩ ![1] h v (ix2 (0 : Fin 1) c) = v (ix1 c) := by
  refine broadcastInDim_apply _ h v (ix2 (0 : Fin 1) c) (ix1 c) fun ax => ?_
  match ax with
  | ⟨0, _⟩ =>
    show c.val = if b = 1 then 0 else c.val
    split
    · have := c.isLt; omega
    · rfl

end Layout

set_option maxHeartbeats 400000 in
/-- The reference's hidden-layer output at `(i, j)`. -/
theorem hid_ix2 (x : Cert.Sp.Arr Ideal S100000x128 .f32) (W1 : Cert.Sp.Arr Ideal S128x256 .f32)
    (b1 : Cert.Sp.Arr Ideal S256 .f32) (W2 : Cert.Sp.Arr Ideal S256x47 .f32) (b2 : Cert.Sp.Arr Ideal S47 .f32)
    (i : Fin 100000) (j : Fin 47) :
    Cert.Sp.hid (F := Ideal) x W1 b1 W2 b2 (ix2 i j)
      = denseRow (fun r => x (ix2 i r)) (fun r q => W1 (ix2 r q)) (fun q => b1 (ix1 q))
          (fun q => W2 (ix2 q j)) (b2 (ix1 j)) := by
  unfold Cert.Sp.hid denseRow
  refine congrArg₂ (· + ·) ?_ ?_
  · -- the second product
    refine (Cert.PlainDot.dotGeneral_ix2 _ rfl none _ _ i j).trans ?_
    refine Finset.sum_congr rfl fun q _ => ?_
    refine congrArg₂ (· * ·) ?_ rfl
    -- the rectified hidden entry
    refine congrArg₂ max ?_ ?_
    · refine congrArg₂ (· + ·) ?_ ?_
      · exact Cert.PlainDot.dotGeneral_ix2 _ rfl none _ _ i q
      · exact (bcastRow_apply _ _ i q).trans (bcastVecRow_apply _ _ q)
    · exact broadcastInDim_scalar_apply _ _ _
  · exact (bcastRow_apply _ _ i j).trans (bcastVecRow_apply _ _ j)

end Cert.Val

end
-- ==== Proof.Val.Dense.lean ====
/-
  The dense layers, block against array: where a row of the loaded block is a row of the feature array and the
  loaded weights and bias rows are the arrays' own entries, the value the kernel stores at that row is the reference's
  `relu (x · W1 + b1) · W2 + b2` at the array's row.  Both sides are `denseRow` of entries that agree one by one.
-/
import proofs.«114710_j78030965834312_1_alg».proof.Proof.Val.DenseK
import proofs.«114710_j78030965834312_1_alg».proof.Proof.Val.DenseR

noncomputable section

namespace Cert.Val

open Cert.KernelIdeal Idealize.ShloMosaic Idealize.ShloMosaic.ValueIdx

/-- Row `p` of the block through the kernel's two products is row `i` of the reference's dense layers. -/
theorem dense_pay_eq
    (xb : Vec Ideal S5000x128 .f32) (W1b : Vec Ideal S128x256 .f32) (b1b : Vec Ideal S1x256 .f32)
    (W2b : Vec Ideal S256x47 .f32) (b2b : Vec Ideal S1x47 .f32)
    (x : Cert.Sp.Arr Ideal Cert.ReferenceIdeal.S100000x128 .f32) (W1 : Cert.Sp.Arr Ideal Cert.ReferenceIdeal.S128x256 .f32)
    (b1 : Cert.Sp.Arr Ideal Cert.ReferenceIdeal.S256 .f32)
    (W2 : Cert.Sp.Arr Ideal Cert.ReferenceIdeal.S256x47 .f32) (b2 : Cert.Sp.Arr Ideal Cert.ReferenceIdeal.S47 .f32)
    (p : Fin 5000) (i : Fin 100000)
    (hx : ∀ r : Fin 128, xb (ix2 p r) = x (ix2 i r))
    (hW1 : ∀ (r : Fin 128) (q : Fin 256), W1b (ix2 r q) = W1 (ix2 r q))
    (hb1 : ∀ q : Fin 256, b1b (ix2 (0 : Fin 1) q) = b1 (ix1 q))
    (hW2 : ∀ (q : Fin 256) (j : Fin 47), W2b (ix2 q j) = W2 (ix2 q j))
    (hb2 : ∀ j : Fin 47, b2b (ix2 (0 : Fin 1) j) = b2 (ix1 j))
    (j : Fin 47) :
    Cert.KernelIdeal.Gen.k0_pay1 (F := Ideal) xb W1b b1b W2b b2b (ix2 p j)
      = Cert.Sp.hid (F := Ideal) x W1 b1 W2 b2 (ix2 i j) := by
  refine (k0_pay1_ix2 xb W1b b1b W2b b2b p j).trans (Eq.trans ?_ (hid_ix2 x W1 b1 W2 b2 i j).symm)
  exact congr (congr (congr (congr (congrArg denseRow (funext hx)) (funext fun r => funext fun q => hW1 r q))
    (funext hb1)) (funext fun q => hW2 q j)) (hb2 j)

end Cert.Val

end
-- ==== Proof.Val.Arr0.lean ====
/-
  Region 0's output array after the region, as one function of the arrays the region finds: the two dense
  layers `relu (x · W1 + b1) · W2 + b2`.  Point `t` of the grid holds rows `5000 t … 5000 t + 4999` of `x` and
  of the output (block index `(t, 0)`) and the whole of `W1`, `W2` and the two bias rows (block index `(0, 0)`);
  the bias rows are the bias vectors recast as `[1, 256]` and `[1, 47]`.  A row of the result depends on that row
  of `x` alone, so a block's row `p` is the array's row `5000 t + p` through the same function; the twenty output
  blocks tile the array.
-/
import proofs.«114710_j78030965834312_1_alg».proof.Proof.KI.Dat0
import proofs.«114710_j78030965834312_1_alg».proof.Proof.Val.Dense
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- A vector `[n]` recast as the one-row array `[1, n]` reads, at `(0, q)`, the vector's entry `q`. -/
theorem row_cast_apply {α : Type} {n : ℕ} (x : (⟨1, ![n]⟩ : Shape).Idx → α) (h : (⟨1, ![n]⟩ : Shape).ShapeCasts ⟨2, ![1, n]⟩)
    (u : Fin 1) (q : Fin n) : shapeCast ⟨2, ![1, n]⟩ x h (ix2 u q) = x (ix1 q) :=
  shapeCast_apply x h _ _ (by
    have hu : u.val = 0 := by omega
    rw [Shape.rowMajor_val_two, Shape.rowMajor_val_one]
    show q.val = u.val * n + q.val
    rw [hu, Nat.zero_mul, Nat.zero_add])

/-- The block of `x` and the output block at point `t` are block `(t, 0)`; the weights and bias rows are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the region ends with: the dense layers of the arrays it finds, the bias vectors `b1`, `b2` given. -/
abbrev G0 (c : Dev nD) (b1 : Cert.Sp.Arr Ideal Cert.ReferenceIdeal.S256 .f32) (b2 : Cert.Sp.Arr Ideal Cert.ReferenceIdeal.S47 .f32) :
    Cert.Sp.Arr Ideal Cert.ReferenceIdeal.S100000x47 .f32 :=
  Cert.Sp.hid (F := Ideal) (V c main_arg0) (V c main_arg2) b1 (V c main_arg4) b2

theorem row_lt0 (t : Fin cfg0.N) (p : Fin 5000) : t.val * 5000 + p.val < 100000 := by
  have hN : grid0.N = 20 := N_0
  have ht : t.val < grid0.N := t.isLt
  have hp := p.isLt
  omega

/-- What point `t` writes back is block `t` of the dense layers of the arrays the region finds, where the two
    bias-row buffers hold the bias vectors recast as rows. -/
theorem flushed0_eq (c : Dev nD) (b1 : Cert.Sp.Arr Ideal Cert.ReferenceIdeal.S256 .f32) (b2 : Cert.Sp.Arr Ideal Cert.ReferenceIdeal.S47 .f32)
    (hb1 : V c main_v0 = shapeCast _ b1 shapeCasts_S256_S1x256) (hb2 : V c main_v1 = shapeCast _ b2 shapeCasts_S47_S1x47)
    (t : Fin cfg0.N) :
    (dat0 V c).flushed 5 t = ((cfg0.win 5).blk t).view.read (Elt Ideal) (G0 V c b1 b2) := by
  show (cfg0.win 5).cut (grid0.coords t) ((dat0 V c).after 5 t) = _
  rw [after0_5]
  unfold out0
  rw [View.canon_unit_zero hz0]
  simp only [View.ld_unit_zero (S := S5000x128) hz0, View.ld_unit_zero (S := S128x256) hz0, View.ld_unit_zero (S := S1x256) hz0,
    View.ld_unit_zero (S := S256x47) hz0, View.ld_unit_zero (S := S1x47) hz0]
  obtain ⟨e00, e01, e10, e11, e20, e21, e30, e31, e40, e41, e50, e51⟩ := idx_facts0 t
  funext y
  obtain ⟨p, j, rfl⟩ : ∃ (p : Fin 5000) (j : Fin 47), y = ix2 p j := ⟨y 0, y 1, eq_ix2 y⟩
  have hI : ((cfg0.win 5).blk t).view.emb (ix2 p j) = ix2 (⟨t.val * 5000 + p.val, row_lt0 t p⟩ : Fin 100000) j := by
    funext a; apply Fin.ext
    match a with
    | ⟨0, _⟩ => show win0_5.index t (0 : Fin 2) * 5000 + 1 * p.val = t.val * 5000 + p.val; omega
    | ⟨1, _⟩ => show win0_5.index t (1 : Fin 2) * 47 + 1 * j.val = j.val; omega
  show Cert.KernelIdeal.Gen.k0_pay1 (F := Ideal) (iblk0 V c 0 t) (iblk0 V c 1 t) (iblk0 V c 2 t) (iblk0 V c 3 t) (iblk0 V c 4 t) (ix2 p j)
      = G0 V c b1 b2 (((cfg0.win 5).blk t).view.emb (ix2 p j))
  rw [hI]
  refine Cert.Val.dense_pay_eq _ _ _ _ _ _ _ _ _ _ p ⟨t.val * 5000 + p.val, row_lt0 t p⟩ (fun r => ?_) (fun r q => ?_) (fun q => ?_) (fun q k => ?_) (fun k => ?_) j
  · show V c main_arg0 (((cfg0.win 0).blk t).view.emb (ix2 p r)) = V c main_arg0 (ix2 (⟨t.val * 5000 + p.val, row_lt0 t p⟩ : Fin 100000) r)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * r.val = r.val; omega
  · show V c main_arg2 (((cfg0.win 1).blk t).view.emb (ix2 r q)) = V c main_arg2 (ix2 r q)
    refine congrArg (V c main_arg2) (funext fun a => Fin.ext ?_)
    match a with
    | ⟨0, _⟩ => show win0_1.index t (0 : Fin 2) * 128 + 1 * r.val = r.val; omega
    | ⟨1, _⟩ => show win0_1.index t (1 : Fin 2) * 256 + 1 * q.val = q.val; omega
  · show V c main_v0 (((cfg0.win 2).blk t).view.emb (ix2 (0 : Fin 1) q)) = b1 (ix1 q)
    have hE : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 256 + 1 * q.val = q.val; omega
    rw [hE, hb1]
    exact row_cast_apply b1 _ 0 q
  · show V c main_arg4 (((cfg0.win 3).blk t).view.emb (ix2 q k)) = V c main_arg4 (ix2 q k)
    refine congrArg (V c main_arg4) (funext fun a => Fin.ext ?_)
    match a with
    | ⟨0, _⟩ => show win0_3.index t (0 : Fin 2) * 256 + 1 * q.val = q.val; omega
    | ⟨1, _⟩ => show win0_3.index t (1 : Fin 2) * 47 + 1 * k.val = k.val; omega
  · show V c main_v1 (((cfg0.win 4).blk t).view.emb (ix2 (0 : Fin 1) k)) = b2 (ix1 k)
    have hE : ((cfg0.win 4).blk t).view.emb (ix2 (0 : Fin 1) k) = ix2 (0 : Fin 1) k := by
      funext a; apply Fin.ext
      match a with
      | ⟨0, _⟩ => show win0_4.index t (0 : Fin 2) * 1 + 1 * 0 = 0; omega
      | ⟨1, _⟩ => show win0_4.index t (1 : Fin 2) * 47 + 1 * k.val = k.val; omega
    rw [hE, hb2]
    exact row_cast_apply b2 _ 0 k

theorem mem_blk0 (t : Fin cfg0.N) (i : S100000x47.Idx) :
    i ∈ ((cfg0.win 5).blk t).view.set ↔ ∀ a : Fin 2, win0_5.index t a * S5000x47.size a ≤ (i a).val ∧ (i a).val < win0_5.index t a * S5000x47.size a + S5000x47.size a := by
  show i ∈ ((View.whole main_v2).slice (win0_5.rect t)).set ↔ _
  rw [View.set_slice_whole, Rect.mem_set_unit]
  exact Iff.rfl

/-- Every row of the output array lies in the block of point `row / 5000`. -/
theorem cover0 (i : S100000x47.Idx) : ∃ t : Fin cfg0.N, (cfg0.win 5).flush t = true ∧ i ∈ ((cfg0.win 5).blk t).view.set := by
  have hi0 : (i 0).val < 100000 := (i 0).isLt
  have hi1 : (i 1).val < 47 := (i 1).isLt
  have hN : grid0.N = 20 := N_0
  have hlt : (i 0).val / 5000 < grid0.N := by rw [hN]; omega
  refine ⟨⟨(i 0).val / 5000, hlt⟩, flush0_5 _, ?_⟩
  rw [mem_blk0]
  obtain ⟨-, -, -, -, -, -, -, -, -, -, e50, e51⟩ := idx_facts0 ⟨(i 0).val / 5000, hlt⟩
  have e50' : win0_5.index ⟨(i 0).val / 5000, hlt⟩ (0 : Fin 2) = (i 0).val / 5000 := e50
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; omega
  | ⟨1, _⟩ => show win0_5.index ⟨(i 0).val / 5000, hlt⟩ (1 : Fin 2) * 47 ≤ (i 1).val ∧ (i 1).val < win0_5.index ⟨(i 0).val / 5000, hlt⟩ (1 : Fin 2) * 47 + 47; omega

/-- The output array after the region: the dense layers of the arrays the region finds, everywhere. -/
theorem final0 (c : Dev nD) (b1 : Cert.Sp.Arr Ideal Cert.ReferenceIdeal.S256 .f32) (b2 : Cert.Sp.Arr Ideal Cert.ReferenceIdeal.S47 .f32)
    (hb1 : V c main_v0 = shapeCast _ b1 shapeCasts_S256_S1x256) (hb2 : V c main_v1 = shapeCast _ b2 shapeCasts_S47_S1x47) :
    (dat0 V c).arrAt 5 cfg0.N = G0 V c b1 b2 :=
  (dat0 V c).arrAt_eq_of_cover 5 (G0 V c b1 b2) (fun t _ => flushed0_eq V c b1 b2 hb1 hb2 t) cover0

end Cert.KernelIdeal.Val

end
-- ==== Proof.Val.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Val.Blend.lean ====
/-
  One propagation step's blend at an entry.  On a block of 5000 rows the kernel computes, at row `p` and class `j`,
  `0.9 · (a (p, j) + w (p, 0) · z (p, j)) + 0.1 · h (p, j)` — the self-loop weights are a column, broadcast along
  the row —; the host computes the same expression of whole arrays at row `i`.  So where a block's row `p` is the
  arrays' row `i`, the two agree entry by entry: nothing beyond reading each operation at an index is used, and
  the two constants are the same two words on both sides, never evaluated.
-/
import proofs.«114710_j78030965834312_1_alg».proof.Proof.Gen.KernelIdeal.Skeleton
import proofs.«114710_j78030965834312_1_alg».proof.Proof.Spec
import proofs.«114710_j78030965834312_1_alg».proof.Proof.Val.LibKeepdims
import Idealize.ShloMosaic.Lib.Pipeline.Value
import Idealize.ShloMosaic.Lib.ValueIdx

noncomputable section

namespace Cert.Val

open Idealize.ShloMosaic Idealize.ShloMosaic.ValueIdx

/-- The blend of four extended reals. -/
def blendPt (a w z h : EReal) : EReal :=
  Ideal.ofBits .f32 0x3F666666#32 * (a + w * z) + Ideal.ofBits .f32 0x3DCCCCCD#32 * h

/-- A scalar constant broadcast over a host array reads the constant's value everywhere. -/
theorem bcast_const_apply {t : Shape} (h : (⟨0, ![]⟩ : Shape).BroadcastsInDim t (![] : Fin 0 → Fin t.rank)) (b : BitVec 32) (I : t.Idx) :
    broadcastInDim t ![] h (constant (F := Ideal) ⟨0, ![]⟩ .f32 b) I = Ideal.ofBits .f32 b :=
  (broadcastInDim_apply (![] : Fin 0 → Fin t.rank) h (constant (F := Ideal) ⟨0, ![]⟩ .f32 b) I ix0 (fun a => a.elim0)).trans rfl

/-- A host column `[n, 1]` broadcast to `[n, b]` reads, at `(i, j)`, the column's entry `i`. -/
theorem bcast_col_apply {n b : ℕ} (hn : n ≠ 1) {α : Type} (h : (⟨2, ![n, 1]⟩ : Shape).BroadcastsInDim ⟨2, ![n, b]⟩ (![0, 1] : Fin 2 → Fin 2))
    (w : (⟨2, ![n, 1]⟩ : Shape).Idx → α) (i : Fin n) (j : Fin b) :
    broadcastInDim ⟨2, ![n, b]⟩ ![0, 1] h w (ix2 i j) = w (ix2 i (0 : Fin 1)) := by
  refine broadcastInDim_apply (![0, 1] : Fin 2 → Fin 2) h w (ix2 i j) (ix2 i (0 : Fin 1)) fun ax => ?_
  match ax with
  | ⟨0, _⟩ =>
    show i.val = if n = 1 then 0 else i.val
    rw [if_neg hn]
  | ⟨1, _⟩ => rfl

/-- The kernel's blend on a block, at row `p` and class `j`. -/
theorem k1_pay1_apply (ab : Vec Ideal Cert.KernelIdeal.S5000x47 .f32) (wb : Vec Ideal Cert.KernelIdeal.S5000x1 .f32)
    (zb hb : Vec Ideal Cert.KernelIdeal.S5000x47 .f32) (p : Fin 5000) (j : Fin 47) :
    Cert.KernelIdeal.Gen.k1_pay1 (F := Ideal) ab wb zb hb (ix2 p j)
      = blendPt (ab (ix2 p j)) (wb (ix2 p (0 : Fin 1))) (zb (ix2 p j)) (hb (ix2 p j)) := by
  unfold Cert.KernelIdeal.Gen.k1_pay1
  simp only [shapeCast_self]
  show Ideal.ofBits .f32 0x3F666666#32 * (ab (ix2 p j) + broadcastTo Cert.KernelIdeal.S5000x47 wb _ (ix2 p j) * zb (ix2 p j))
      + Ideal.ofBits .f32 0x3DCCCCCD#32 * hb (ix2 p j) = _
  rw [Cert.LibKeepdims.broadcastTo_a1_ab_apply]
  rfl

/-- The host's blend of whole arrays, at row `i` and class `j`. -/
theorem blend_apply (a : Cert.Sp.Arr Ideal Cert.ReferenceIdeal.S100000x47 .f32) (w : Cert.Sp.Arr Ideal Cert.ReferenceIdeal.S100000x1 .f32)
    (z h : Cert.Sp.Arr Ideal Cert.ReferenceIdeal.S100000x47 .f32) (i : Fin 100000) (j : Fin 47) :
    Cert.Sp.blend (F := Ideal) a w z h (ix2 i j)
      = blendPt (a (ix2 i j)) (w (ix2 i (0 : Fin 1))) (z (ix2 i j)) (h (ix2 i j)) := by
  unfold Cert.Sp.blend
  show broadcastInDim Cert.ReferenceIdeal.S100000x47 ![] _ (constant (F := Ideal) Cert.ReferenceIdeal.S_ .f32 0x3F666666#32) (ix2 i j)
        * (a (ix2 i j) + broadcastInDim Cert.ReferenceIdeal.S100000x47 ![0, 1] _ w (ix2 i j) * z (ix2 i j))
      + broadcastInDim Cert.ReferenceIdeal.S100000x47 ![] _ (constant (F := Ideal) Cert.ReferenceIdeal.S_ .f32 0x3DCCCCCD#32) (ix2 i j) * h (ix2 i j) = _
  rw [bcast_const_apply, bcast_const_apply, bcast_col_apply (by decide)]
  rfl

/-- Where row `p` of the four blocks is row `i` of the four arrays, the kernel's blend of the blocks at `(p, j)`
    is the host's blend of the arrays at `(i, j)`. -/
theorem blend_pay_eq (ab : Vec Ideal Cert.KernelIdeal.S5000x47 .f32) (wb : Vec Ideal Cert.KernelIdeal.S5000x1 .f32)
    (zb hb : Vec Ideal Cert.KernelIdeal.S5000x47 .f32)
    (a : Cert.Sp.Arr Ideal Cert.ReferenceIdeal.S100000x47 .f32) (w : Cert.Sp.Arr Ideal Cert.ReferenceIdeal.S100000x1 .f32)
    (z h : Cert.Sp.Arr Ideal Cert.ReferenceIdeal.S100000x47 .f32) (p : Fin 5000) (i : Fin 100000) (j : Fin 47)
    (ha : ab (ix2 p j) = a (ix2 i j)) (hw : wb (ix2 p (0 : Fin 1)) = w (ix2 i (0 : Fin 1)))
    (hz : zb (ix2 p j) = z (ix2 i j)) (hh : hb (ix2 p j) = h (ix2 i j)) :
    Cert.KernelIdeal.Gen.k1_pay1 (F := Ideal) ab wb zb hb (ix2 p j) = Cert.Sp.blend (F := Ideal) a w z h (ix2 i j) := by
  rw [k1_pay1_apply, blend_apply, ha, hw, hz, hh]

end Cert.Val

end
-- ==== Proof.Val.Arr1.lean ====
/-
  Region 1's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat1
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Every window's block at point `t` is block `(t, 0)` of its array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The array the region ends with, where its blocks cover: the blend of the arrays the region finds. -/
abbrev G1 (c : Dev nD) : Cert.Sp.Arr Ideal Cert.ReferenceIdeal.S100000x47 .f32 :=
  Cert.Sp.blend (F := Ideal) (V c main_v43) (V c main_v30) (V c main_v2) (V c main_v2)

/-- A block's row `p` at point `t` is the array's row `5000 t + p`. -/
theorem row_lt1 (t : Fin cfg1.N) (p : Fin 5000) : t.val * 5000 + p.val < 100000 := by
  have hN : grid1.N = 20 := N_1
  have ht : t.val < grid1.N := t.isLt
  have hp := p.isLt
  omega

/-- What point `t` writes back is block `t` of the blend of the arrays the region finds. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1
  rw [View.canon_unit_zero hz1]
  simp only [View.ld_unit_zero (S := S5000x47) hz1, View.ld_unit_zero (S := S5000x1) hz1]
  obtain ⟨e00, e01, e10, e11, e20, e21, e30, e31, e40, e41⟩ := idx_facts1 t
  funext y
  obtain ⟨p, j, rfl⟩ : ∃ (p : Fin 5000) (j : Fin 47), y = ix2 p j := ⟨y 0, y 1, eq_ix2 y⟩
  have hI : ((cfg1.win 4).blk t).view.emb (ix2 p j) = ix2 (⟨t.val * 5000 + p.val, row_lt1 t p⟩ : Fin 100000) j := by
    funext a; apply Fin.ext
    match a with
    | ⟨0, _⟩ => show win1_4.index t (0 : Fin 2) * 5000 + 1 * p.val = t.val * 5000 + p.val; omega
    | ⟨1, _⟩ => show win1_4.index t (1 : Fin 2) * 47 + 1 * j.val = j.val; omega
  show Cert.KernelIdeal.Gen.k1_pay1 (F := Ideal) (iblk1 V c 0 t) (iblk1 V c 1 t) (iblk1 V c 2 t) (iblk1 V c 3 t) (ix2 p j)
      = G1 V c (((cfg1.win 4).blk t).view.emb (ix2 p j))
  rw [hI]
  refine Cert.Val.blend_pay_eq _ _ _ _ _ _ _ _ p ⟨t.val * 5000 + p.val, row_lt1 t p⟩ j ?_ ?_ ?_ ?_
  · show V c main_v43 (((cfg1.win 0).blk t).view.emb (ix2 p j)) = V c main_v43 (ix2 (⟨t.val * 5000 + p.val, row_lt1 t p⟩ : Fin 100000) j)
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 47 + 1 * j.val = j.val; omega
  · show V c main_v30 (((cfg1.win 1).blk t).view.emb (ix2 p (0 : Fin 1))) = V c main_v30 (ix2 (⟨t.val * 5000 + p.val, row_lt1 t p⟩ : Fin 100000) (0 : Fin 1))
    refine congrArg (V c main_v30) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v2 (((cfg1.win 2).blk t).view.emb (ix2 p j)) = V c main_v2 (ix2 (⟨t.val * 5000 + p.val, row_lt1 t p⟩ : Fin 100000) j)
    refine congrArg (V c main_v2) (funext fun a => Fin.ext ?_)
    match a with
    | ⟨0, _⟩ => show win1_2.index t (0 : Fin 2) * 5000 + 1 * p.val = t.val * 5000 + p.val; omega
    | ⟨1, _⟩ => show win1_2.index t (1 : Fin 2) * 47 + 1 * j.val = j.val; omega
  · show V c main_v2 (((cfg1.win 3).blk t).view.emb (ix2 p j)) = V c main_v2 (ix2 (⟨t.val * 5000 + p.val, row_lt1 t p⟩ : Fin 100000) j)
    refine congrArg (V c main_v2) (funext fun a => Fin.ext ?_)
    match a with
    | ⟨0, _⟩ => show win1_3.index t (0 : Fin 2) * 5000 + 1 * p.val = t.val * 5000 + p.val; omega
    | ⟨1, _⟩ => show win1_3.index t (1 : Fin 2) * 47 + 1 * j.val = j.val; omega

/-- An index of the output array is in point `t`'s block iff each coordinate is in the block's range on its axis. -/
theorem mem_blk1 (t : Fin cfg1.N) (i : S100000x47.Idx) :
    i ∈ ((cfg1.win 4).blk t).view.set ↔ ∀ a : Fin 2, win1_4.index t a * S5000x47.size a ≤ (i a).val ∧ (i a).val < win1_4.index t a * S5000x47.size a + S5000x47.size a := by
  show i ∈ ((View.whole main_v44).slice (win1_4.rect t)).set ↔ _
  rw [View.set_slice_whole, Rect.mem_set_unit]
  exact Iff.rfl

/-- Every row of the output array lies in the block of point `row / 5000`. -/
theorem cover1 (i : S100000x47.Idx) : ∃ t : Fin cfg1.N, (cfg1.win 4).flush t = true ∧ i ∈ ((cfg1.win 4).blk t).view.set := by
  have hi0 : (i 0).val < 100000 := (i 0).isLt
  have hi1 : (i 1).val < 47 := (i 1).isLt
  have hN : grid1.N = 20 := N_1
  have hlt : (i 0).val / 5000 < grid1.N := by rw [hN]; omega
  refine ⟨⟨(i 0).val / 5000, hlt⟩, flush1_4 _, ?_⟩
  rw [mem_blk1]
  obtain ⟨-, -, -, -, -, -, -, -, e40, e41⟩ := idx_facts1 ⟨(i 0).val / 5000, hlt⟩
  have e40' : win1_4.index ⟨(i 0).val / 5000, hlt⟩ (0 : Fin 2) = (i 0).val / 5000 := e40
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 47 ≤ (i 1).val ∧ (i 1).val < win1_4.index ⟨(i 0).val / 5000, hlt⟩ (1 : Fin 2) * 47 + 47; omega

/-- The output array after the region: the blend of the arrays the region finds, everywhere. -/
theorem final1 (c : Dev nD) : (dat1 V c).arrAt 4 cfg1.N = G1 V c :=
  (dat1 V c).arrAt_eq_of_cover 4 (G1 V c) (fun t _ => flushed1_eq V c t) cover1

end Cert.KernelIdeal.Val

end
-- ==== Proof.Val.Arr2.lean ====
/-
  Region 2's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat2
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Every window's block at point `t` is block `(t, 0)` of its array. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The array the region ends with, where its blocks cover: the blend of the arrays the region finds. -/
abbrev G2 (c : Dev nD) : Cert.Sp.Arr Ideal Cert.ReferenceIdeal.S100000x47 .f32 :=
  Cert.Sp.blend (F := Ideal) (V c main_v57) (V c main_v30) (V c main_v44) (V c main_v2)

/-- A block's row `p` at point `t` is the array's row `5000 t + p`. -/
theorem row_lt2 (t : Fin cfg2.N) (p : Fin 5000) : t.val * 5000 + p.val < 100000 := by
  have hN : grid2.N = 20 := N_2
  have ht : t.val < grid2.N := t.isLt
  have hp := p.isLt
  omega

/-- What point `t` writes back is block `t` of the blend of the arrays the region finds. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2
  rw [View.canon_unit_zero hz2]
  simp only [View.ld_unit_zero (S := S5000x47) hz2, View.ld_unit_zero (S := S5000x1) hz2]
  obtain ⟨e00, e01, e10, e11, e20, e21, e30, e31, e40, e41⟩ := idx_facts2 t
  funext y
  obtain ⟨p, j, rfl⟩ : ∃ (p : Fin 5000) (j : Fin 47), y = ix2 p j := ⟨y 0, y 1, eq_ix2 y⟩
  have hI : ((cfg2.win 4).blk t).view.emb (ix2 p j) = ix2 (⟨t.val * 5000 + p.val, row_lt2 t p⟩ : Fin 100000) j := by
    funext a; apply Fin.ext
    match a with
    | ⟨0, _⟩ => show win2_4.index t (0 : Fin 2) * 5000 + 1 * p.val = t.val * 5000 + p.val; omega
    | ⟨1, _⟩ => show win2_4.index t (1 : Fin 2) * 47 + 1 * j.val = j.val; omega
  show Cert.KernelIdeal.Gen.k1_pay1 (F := Ideal) (iblk2 V c 0 t) (iblk2 V c 1 t) (iblk2 V c 2 t) (iblk2 V c 3 t) (ix2 p j)
      = G2 V c (((cfg2.win 4).blk t).view.emb (ix2 p j))
  rw [hI]
  refine Cert.Val.blend_pay_eq _ _ _ _ _ _ _ _ p ⟨t.val * 5000 + p.val, row_lt2 t p⟩ j ?_ ?_ ?_ ?_
  · show V c main_v57 (((cfg2.win 0).blk t).view.emb (ix2 p j)) = V c main_v57 (ix2 (⟨t.val * 5000 + p.val, row_lt2 t p⟩ : Fin 100000) j)
    refine congrArg (V c main_v57) (funext fun a => Fin.ext ?_)
    match a with
    | ⟨0, _⟩ => show win2_0.index t (0 : Fin 2) * 5000 + 1 * p.val = t.val * 5000 + p.val; omega
    | ⟨1, _⟩ => show win2_0.index t (1 : Fin 2) * 47 + 1 * j.val = j.val; omega
  · show V c main_v30 (((cfg2.win 1).blk t).view.emb (ix2 p (0 : Fin 1))) = V c main_v30 (ix2 (⟨t.val * 5000 + p.val, row_lt2 t p⟩ : Fin 100000) (0 : Fin 1))
    refine congrArg (V c main_v30) (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · show V c main_v44 (((cfg2.win 2).blk t).view.emb (ix2 p j)) = V c main_v44 (ix2 (⟨t.val * 5000 + p.val, row_lt2 t p⟩ : Fin 100000) j)
    refine congrArg (V c main_v44) (funext fun a => Fin.ext ?_)
    match a with
    | ⟨0, _⟩ => show win2_2.index t (0 : Fin 2) * 5000 + 1 * p.val = t.val * 5000 + p.val; omega
    | ⟨1, _⟩ => show win2_2.index t (1 : Fin 2) * 47 + 1 * j.val = j.val; omega
  · show V c main_v2 (((cfg2.win 3).blk t).view.emb (ix2 p j)) = V c main_v2 (ix2 (⟨t.val * 5000 + p.val, row_lt2 t p⟩ : Fin 100000) j)
    refine congrArg (V c main_v2) (funext fun a => Fin.ext ?_)
    match a with
    | ⟨0, _⟩ => show win2_3.index t (0 : Fin 2) * 5000 + 1 * p.val = t.val * 5000 + p.val; omega
    | ⟨1, _⟩ => show win2_3.index t (1 : Fin 2) * 47 + 1 * j.val = j.val; omega

/-- An index of the output array is in point `t`'s block iff each coordinate is in the block's range on its axis. -/
theorem mem_blk2 (t : Fin cfg2.N) (i : S100000x47.Idx) :
    i ∈ ((cfg2.win 4).blk t).view.set ↔ ∀ a : Fin 2, win2_4.index t a * S5000x47.size a ≤ (i a).val ∧ (i a).val < win2_4.index t a * S5000x47.size a + S5000x47.size a := by
  show i ∈ ((View.whole main_v58).slice (win2_4.rect t)).set ↔ _
  rw [View.set_slice_whole, Rect.mem_set_unit]
  exact Iff.rfl

/-- Every row of the output array lies in the block of point `row / 5000`. -/
theorem cover2 (i : S100000x47.Idx) : ∃ t : Fin cfg2.N, (cfg2.win 4).flush t = true ∧ i ∈ ((cfg2.win 4).blk t).view.set := by
  have hi0 : (i 0).val < 100000 := (i 0).isLt
  have hi1 : (i 1).val < 47 := (i 1).isLt
  have hN : grid2.N = 20 := N_2
  have hlt : (i 0).val / 5000 < grid2.N := by rw [hN]; omega
  refine ⟨⟨(i 0).val / 5000, hlt⟩, flush2_4 _, ?_⟩
  rw [mem_blk2]
  obtain ⟨-, -, -, -, -, -, -, -, e40, e41⟩ := idx_facts2 ⟨(i 0).val / 5000, hlt⟩
  have e40' : win2_4.index ⟨(i 0).val / 5000, hlt⟩ (0 : Fin 2) = (i 0).val / 5000 := e40
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; omega
  | ⟨1, _⟩ => show win2_4.index ⟨(i 0).val / 5000, hlt⟩ (1 : Fin 2) * 47 ≤ (i 1).val ∧ (i 1).val < win2_4.index ⟨(i 0).val / 5000, hlt⟩ (1 : Fin 2) * 47 + 47; omega

/-- The output array after the region: the blend of the arrays the region finds, everywhere. -/
theorem final2 (c : Dev nD) : (dat2 V c).arrAt 4 cfg2.N = G2 V c :=
  (dat2 V c).arrAt_eq_of_cover 4 (G2 V c) (fun t _ => flushed2_eq V c t) cover2

end Cert.KernelIdeal.Val

end
-- ==== Proof.Val.Arr3.lean ====
/-
  Region 3's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat3
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- Every window's block at point `t` is block `(t, 0)` of its array. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The array the region ends with, where its blocks cover: the blend of the arrays the region finds. -/
abbrev G3 (c : Dev nD) : Cert.Sp.Arr Ideal Cert.ReferenceIdeal.S100000x47 .f32 :=
  Cert.Sp.blend (F := Ideal) (V c main_v71) (V c main_v30) (V c main_v58) (V c main_v2)

/-- A block's row `p` at point `t` is the array's row `5000 t + p`. -/
theorem row_lt3 (t : Fin cfg3.N) (p : Fin 5000) : t.val * 5000 + p.val < 100000 := by
  have hN : grid3.N = 20 := N_3
  have ht : t.val < grid3.N := t.isLt
  have hp := p.isLt
  omega

/-- What point `t` writes back is block `t` of the blend of the arrays the region finds. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3
  rw [View.canon_unit_zero hz3]
  simp only [View.ld_unit_zero (S := S5000x47) hz3, View.ld_unit_zero (S := S5000x1) hz3]
  obtain ⟨e00, e01, e10, e11, e20, e21, e30, e31, e40, e41⟩ := idx_facts3 t
  funext y
  obtain ⟨p, j, rfl⟩ : ∃ (p : Fin 5000) (j : Fin 47), y = ix2 p j := ⟨y 0, y 1, eq_ix2 y⟩
  have hI : ((cfg3.win 4).blk t).view.emb (ix2 p j) = ix2 (⟨t.val * 5000 + p.val, row_lt3 t p⟩ : Fin 100000) j := by
    funext a; apply Fin.ext
    match a with
    | ⟨0, _⟩ => show win3_4.index t (0 : Fin 2) * 5000 + 1 * p.val = t.val * 5000 + p.val; omega
    | ⟨1, _⟩ => show win3_4.index t (1 : Fin 2) * 47 + 1 * j.val = j.val; omega
  show Cert.KernelIdeal.Gen.k1_pay1 (F := Ideal) (iblk3 V c 0 t) (iblk3 V c 1 t) (iblk3 V c 2 t) (iblk3 V c 3 t) (ix2 p j)
      = G3 V c (((cfg3.win 4).blk t).view.emb (ix2 p j))
  rw [hI]
  refine Cert.Val.blend_pay_eq _ _ _ _ _ _ _ _ p ⟨t.val * 5000 + p.val, row_lt3 t p⟩ j ?_ ?_ ?_ ?_
  · show V c main_v71 (((cfg3.win 0).blk t).view.emb (ix2 p j)) = V c main_v71 (ix2 (⟨t.val * 5000 + p.val, row_lt3 t p⟩ : Fin 100000) j)
    refine congrArg (V c main_v71) (funext fun a => Fin.ext ?_)
    match a with
    | ⟨0, _⟩ => show win3_0.index t (0 : Fin 2) * 5000 + 1 * p.val = t.val * 5000 + p.val; omega
    | ⟨1, _⟩ => show win3_0.index t (1 : Fin 2) * 47 + 1 * j.val = j.val; omega
  · show V c main_v30 (((cfg3.win 1).blk t).view.emb (ix2 p (0 : Fin 1))) = V c main_v30 (ix2 (⟨t.val * 5000 + p.val, row_lt3 t p⟩ : Fin 100000) (0 : Fin 1))
    refine congrArg (V c main_v30) (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_v58 (((cfg3.win 2).blk t).view.emb (ix2 p j)) = V c main_v58 (ix2 (⟨t.val * 5000 + p.val, row_lt3 t p⟩ : Fin 100000) j)
    refine congrArg (V c main_v58) (funext fun a => Fin.ext ?_)
    match a with
    | ⟨0, _⟩ => show win3_2.index t (0 : Fin 2) * 5000 + 1 * p.val = t.val * 5000 + p.val; omega
    | ⟨1, _⟩ => show win3_2.index t (1 : Fin 2) * 47 + 1 * j.val = j.val; omega
  · show V c main_v2 (((cfg3.win 3).blk t).view.emb (ix2 p j)) = V c main_v2 (ix2 (⟨t.val * 5000 + p.val, row_lt3 t p⟩ : Fin 100000) j)
    refine congrArg (V c main_v2) (funext fun a => Fin.ext ?_)
    match a with
    | ⟨0, _⟩ => show win3_3.index t (0 : Fin 2) * 5000 + 1 * p.val = t.val * 5000 + p.val; omega
    | ⟨1, _⟩ => show win3_3.index t (1 : Fin 2) * 47 + 1 * j.val = j.val; omega

/-- An index of the output array is in point `t`'s block iff each coordinate is in the block's range on its axis. -/
theorem mem_blk3 (t : Fin cfg3.N) (i : S100000x47.Idx) :
    i ∈ ((cfg3.win 4).blk t).view.set ↔ ∀ a : Fin 2, win3_4.index t a * S5000x47.size a ≤ (i a).val ∧ (i a).val < win3_4.index t a * S5000x47.size a + S5000x47.size a := by
  show i ∈ ((View.whole main_v72).slice (win3_4.rect t)).set ↔ _
  rw [View.set_slice_whole, Rect.mem_set_unit]
  exact Iff.rfl

/-- Every row of the output array lies in the block of point `row / 5000`. -/
theorem cover3 (i : S100000x47.Idx) : ∃ t : Fin cfg3.N, (cfg3.win 4).flush t = true ∧ i ∈ ((cfg3.win 4).blk t).view.set := by
  have hi0 : (i 0).val < 100000 := (i 0).isLt
  have hi1 : (i 1).val < 47 := (i 1).isLt
  have hN : grid3.N = 20 := N_3
  have hlt : (i 0).val / 5000 < grid3.N := by rw [hN]; omega
  refine ⟨⟨(i 0).val / 5000, hlt⟩, flush3_4 _, ?_⟩
  rw [mem_blk3]
  obtain ⟨-, -, -, -, -, -, -, -, e40, e41⟩ := idx_facts3 ⟨(i 0).val / 5000, hlt⟩
  have e40' : win3_4.index ⟨(i 0).val / 5000, hlt⟩ (0 : Fin 2) = (i 0).val / 5000 := e40
  intro a
  match a with
  | ⟨0, _⟩ => show win3_4.index ⟨(i 0).val / 5000, hlt⟩ (0 : Fin 2) * 5000 ≤ (i 0).val ∧ (i 0).val < win3_4.index ⟨(i 0).val / 5000, hlt⟩ (0 : Fin 2) * 5000 + 5000; omega
  | ⟨1, _⟩ => show win3_4.index ⟨(i 0).val / 5000, hlt⟩ (1 : Fin 2) * 47 ≤ (i 1).val ∧ (i 1).val < win3_4.index ⟨(i 0).val / 5000, hlt⟩ (1 : Fin 2) * 47 + 47; omega

/-- The output array after the region: the blend of the arrays the region finds, everywhere. -/
theorem final3 (c : Dev nD) : (dat3 V c).arrAt 4 cfg3.N = G3 V c :=
  (dat3 V c).arrAt_eq_of_cover 4 (G3 V c) (fun t _ => flushed3_eq V c t) cover3

end Cert.KernelIdeal.Val

end
-- ==== Proof.Val.Arr4.lean ====
/-
  Region 4's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat4
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- Every window's block at point `t` is block `(t, 0)` of its array. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The array the region ends with, where its blocks cover: the blend of the arrays the region finds. -/
abbrev G4 (c : Dev nD) : Cert.Sp.Arr Ideal Cert.ReferenceIdeal.S100000x47 .f32 :=
  Cert.Sp.blend (F := Ideal) (V c main_v85) (V c main_v30) (V c main_v72) (V c main_v2)

/-- A block's row `p` at point `t` is the array's row `5000 t + p`. -/
theorem row_lt4 (t : Fin cfg4.N) (p : Fin 5000) : t.val * 5000 + p.val < 100000 := by
  have hN : grid4.N = 20 := N_4
  have ht : t.val < grid4.N := t.isLt
  have hp := p.isLt
  omega

/-- What point `t` writes back is block `t` of the blend of the arrays the region finds. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4
  rw [View.canon_unit_zero hz4]
  simp only [View.ld_unit_zero (S := S5000x47) hz4, View.ld_unit_zero (S := S5000x1) hz4]
  obtain ⟨e00, e01, e10, e11, e20, e21, e30, e31, e40, e41⟩ := idx_facts4 t
  funext y
  obtain ⟨p, j, rfl⟩ : ∃ (p : Fin 5000) (j : Fin 47), y = ix2 p j := ⟨y 0, y 1, eq_ix2 y⟩
  have hI : ((cfg4.win 4).blk t).view.emb (ix2 p j) = ix2 (⟨t.val * 5000 + p.val, row_lt4 t p⟩ : Fin 100000) j := by
    funext a; apply Fin.ext
    match a with
    | ⟨0, _⟩ => show win4_4.index t (0 : Fin 2) * 5000 + 1 * p.val = t.val * 5000 + p.val; omega
    | ⟨1, _⟩ => show win4_4.index t (1 : Fin 2) * 47 + 1 * j.val = j.val; omega
  show Cert.KernelIdeal.Gen.k1_pay1 (F := Ideal) (iblk4 V c 0 t) (iblk4 V c 1 t) (iblk4 V c 2 t) (iblk4 V c 3 t) (ix2 p j)
      = G4 V c (((cfg4.win 4).blk t).view.emb (ix2 p j))
  rw [hI]
  refine Cert.Val.blend_pay_eq _ _ _ _ _ _ _ _ p ⟨t.val * 5000 + p.val, row_lt4 t p⟩ j ?_ ?_ ?_ ?_
  · show V c main_v85 (((cfg4.win 0).blk t).view.emb (ix2 p j)) = V c main_v85 (ix2 (⟨t.val * 5000 + p.val, row_lt4 t p⟩ : Fin 100000) j)
    refine congrArg (V c main_v85) (funext fun a => Fin.ext ?_)
    match a with
    | ⟨0, _⟩ => show win4_0.index t (0 : Fin 2) * 5000 + 1 * p.val = t.val * 5000 + p.val; omega
    | ⟨1, _⟩ => show win4_0.index t (1 : Fin 2) * 47 + 1 * j.val = j.val; omega
  · show V c main_v30 (((cfg4.win 1).blk t).view.emb (ix2 p (0 : Fin 1))) = V c main_v30 (ix2 (⟨t.val * 5000 + p.val, row_lt4 t p⟩ : Fin 100000) (0 : Fin 1))
    refine congrArg (V c main_v30) (funext fun a => Fin.ext ?_)
    match a with
    | ⟨0, _⟩ => show win4_1.index t (0 : Fin 2) * 5000 + 1 * p.val = t.val * 5000 + p.val; omega
    | ⟨1, _⟩ => show win4_1.index t (1 : Fin 2) * 1 + 1 * 0 = 0; omega
  · show V c main_v72 (((cfg4.win 2).blk t).view.emb (ix2 p j)) = V c main_v72 (ix2 (⟨t.val * 5000 + p.val, row_lt4 t p⟩ : Fin 100000) j)
    refine congrArg (V c main_v72) (funext fun a => Fin.ext ?_)
    match a with
    | ⟨0, _⟩ => show win4_2.index t (0 : Fin 2) * 5000 + 1 * p.val = t.val * 5000 + p.val; omega
    | ⟨1, _⟩ => show win4_2.index t (1 : Fin 2) * 47 + 1 * j.val = j.val; omega
  · show V c main_v2 (((cfg4.win 3).blk t).view.emb (ix2 p j)) = V c main_v2 (ix2 (⟨t.val * 5000 + p.val, row_lt4 t p⟩ : Fin 100000) j)
    refine congrArg (V c main_v2) (funext fun a => Fin.ext ?_)
    match a with
    | ⟨0, _⟩ => show win4_3.index t (0 : Fin 2) * 5000 + 1 * p.val = t.val * 5000 + p.val; omega
    | ⟨1, _⟩ => show win4_3.index t (1 : Fin 2) * 47 + 1 * j.val = j.val; omega

/-- An index of the output array is in point `t`'s block iff each coordinate is in the block's range on its axis. -/
theorem mem_blk4 (t : Fin cfg4.N) (i : S100000x47.Idx) :
    i ∈ ((cfg4.win 4).blk t).view.set ↔ ∀ a : Fin 2, win4_4.index t a * S5000x47.size a ≤ (i a).val ∧ (i a).val < win4_4.index t a * S5000x47.size a + S5000x47.size a := by
  show i ∈ ((View.whole main_v86).slice (win4_4.rect t)).set ↔ _
  rw [View.set_slice_whole, Rect.mem_set_unit]
  exact Iff.rfl

/-- Every row of the output array lies in the block of point `row / 5000`. -/
theorem cover4 (i : S100000x47.Idx) : ∃ t : Fin cfg4.N, (cfg4.win 4).flush t = true ∧ i ∈ ((cfg4.win 4).blk t).view.set := by
  have hi0 : (i 0).val < 100000 := (i 0).isLt
  have hi1 : (i 1).val < 47 := (i 1).isLt
  have hN : grid4.N = 20 := N_4
  have hlt : (i 0).val / 5000 < grid4.N := by rw [hN]; omega
  refine ⟨⟨(i 0).val / 5000, hlt⟩, flush4_4 _, ?_⟩
  rw [mem_blk4]
  obtain ⟨-, -, -, -, -, -, -, -, e40, e41⟩ := idx_facts4 ⟨(i 0).val / 5000, hlt⟩
  have e40' : win4_4.index ⟨(i 0).val / 5000, hlt⟩ (0 : Fin 2) = (i 0).val / 5000 := e40
  intro a
  match a with
  | ⟨0, _⟩ => show win4_4.index ⟨(i 0).val / 5000, hlt⟩ (0 : Fin 2) * 5000 ≤ (i 0).val ∧ (i 0).val < win4_4.index ⟨(i 0).val / 5000, hlt⟩ (0 : Fin 2) * 5000 + 5000; omega
  | ⟨1, _⟩ => show win4_4.index ⟨(i 0).val / 5000, hlt⟩ (1 : Fin 2) * 47 ≤ (i 1).val ∧ (i 1).val < win4_4.index ⟨(i 0).val / 5000, hlt⟩ (1 : Fin 2) * 47 + 47; omega

/-- The output array after the region: the blend of the arrays the region finds, everywhere. -/
theorem final4 (c : Dev nD) : (dat4 V c).arrAt 4 cfg4.N = G4 V c :=
  (dat4 V c).arrAt_eq_of_cover 4 (G4 V c) (fun t _ => flushed4_eq V c t) cover4

end Cert.KernelIdeal.Val

end
-- ==== Proof.Val.Arr5.lean ====
/-
  Region 5's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat5
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- Every window's block at point `t` is block `(t, 0)` of its array. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The array the region ends with, where its blocks cover: the blend of the arrays the region finds. -/
abbrev G5 (c : Dev nD) : Cert.Sp.Arr Ideal Cert.ReferenceIdeal.S100000x47 .f32 :=
  Cert.Sp.blend (F := Ideal) (V c main_v99) (V c main_v30) (V c main_v86) (V c main_v2)

/-- A block's row `p` at point `t` is the array's row `5000 t + p`. -/
theorem row_lt5 (t : Fin cfg5.N) (p : Fin 5000) : t.val * 5000 + p.val < 100000 := by
  have hN : grid5.N = 20 := N_5
  have ht : t.val < grid5.N := t.isLt
  have hp := p.isLt
  omega

/-- What point `t` writes back is block `t` of the blend of the arrays the region finds. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5
  rw [View.canon_unit_zero hz5]
  simp only [View.ld_unit_zero (S := S5000x47) hz5, View.ld_unit_zero (S := S5000x1) hz5]
  obtain ⟨e00, e01, e10, e11, e20, e21, e30, e31, e40, e41⟩ := idx_facts5 t
  funext y
  obtain ⟨p, j, rfl⟩ : ∃ (p : Fin 5000) (j : Fin 47), y = ix2 p j := ⟨y 0, y 1, eq_ix2 y⟩
  have hI : ((cfg5.win 4).blk t).view.emb (ix2 p j) = ix2 (⟨t.val * 5000 + p.val, row_lt5 t p⟩ : Fin 100000) j := by
    funext a; apply Fin.ext
    match a with
    | ⟨0, _⟩ => show win5_4.index t (0 : Fin 2) * 5000 + 1 * p.val = t.val * 5000 + p.val; omega
    | ⟨1, _⟩ => show win5_4.index t (1 : Fin 2) * 47 + 1 * j.val = j.val; omega
  show Cert.KernelIdeal.Gen.k1_pay1 (F := Ideal) (iblk5 V c 0 t) (iblk5 V c 1 t) (iblk5 V c 2 t) (iblk5 V c 3 t) (ix2 p j)
      = G5 V c (((cfg5.win 4).blk t).view.emb (ix2 p j))
  rw [hI]
  refine Cert.Val.blend_pay_eq _ _ _ _ _ _ _ _ p ⟨t.val * 5000 + p.val, row_lt5 t p⟩ j ?_ ?_ ?_ ?_
  · show V c main_v99 (((cfg5.win 0).blk t).view.emb (ix2 p j)) = V c main_v99 (ix2 (⟨t.val * 5000 + p.val, row_lt5 t p⟩ : Fin 100000) j)
    refine congrArg (V c main_v99) (funext fun a => Fin.ext ?_)
    match a with
    | ⟨0, _⟩ => show win5_0.index t (0 : Fin 2) * 5000 + 1 * p.val = t.val * 5000 + p.val; omega
    | ⟨1, _⟩ => show win5_0.index t (1 : Fin 2) * 47 + 1 * j.val = j.val; omega
  · show V c main_v30 (((cfg5.win 1).blk t).view.emb (ix2 p (0 : Fin 1))) = V c main_v30 (ix2 (⟨t.val * 5000 + p.val, row_lt5 t p⟩ : Fin 100000) (0 : Fin 1))
    refine congrArg (V c main_v30) (funext fun a => Fin.ext ?_)
    match a with
    | ⟨0, _⟩ => show win5_1.index t (0 : Fin 2) * 5000 + 1 * p.val = t.val * 5000 + p.val; omega
    | ⟨1, _⟩ => show win5_1.index t (1 : Fin 2) * 1 + 1 * 0 = 0; omega
  · show V c main_v86 (((cfg5.win 2).blk t).view.emb (ix2 p j)) = V c main_v86 (ix2 (⟨t.val * 5000 + p.val, row_lt5 t p⟩ : Fin 100000) j)
    refine congrArg (V c main_v86) (funext fun a => Fin.ext ?_)
    match a with
    | ⟨0, _⟩ => show win5_2.index t (0 : Fin 2) * 5000 + 1 * p.val = t.val * 5000 + p.val; omega
    | ⟨1, _⟩ => show win5_2.index t (1 : Fin 2) * 47 + 1 * j.val = j.val; omega
  · show V c main_v2 (((cfg5.win 3).blk t).view.emb (ix2 p j)) = V c main_v2 (ix2 (⟨t.val * 5000 + p.val, row_lt5 t p⟩ : Fin 100000) j)
    refine congrArg (V c main_v2) (funext fun a => Fin.ext ?_)
    match a with
    | ⟨0, _⟩ => show win5_3.index t (0 : Fin 2) * 5000 + 1 * p.val = t.val * 5000 + p.val; omega
    | ⟨1, _⟩ => show win5_3.index t (1 : Fin 2) * 47 + 1 * j.val = j.val; omega

/-- An index of the output array is in point `t`'s block iff each coordinate is in the block's range on its axis. -/
theorem mem_blk5 (t : Fin cfg5.N) (i : S100000x47.Idx) :
    i ∈ ((cfg5.win 4).blk t).view.set ↔ ∀ a : Fin 2, win5_4.index t a * S5000x47.size a ≤ (i a).val ∧ (i a).val < win5_4.index t a * S5000x47.size a + S5000x47.size a := by
  show i ∈ ((View.whole main_v100).slice (win5_4.rect t)).set ↔ _
  rw [View.set_slice_whole, Rect.mem_set_unit]
  exact Iff.rfl

/-- Every row of the output array lies in the block of point `row / 5000`. -/
theorem cover5 (i : S100000x47.Idx) : ∃ t : Fin cfg5.N, (cfg5.win 4).flush t = true ∧ i ∈ ((cfg5.win 4).blk t).view.set := by
  have hi0 : (i 0).val < 100000 := (i 0).isLt
  have hi1 : (i 1).val < 47 := (i 1).isLt
  have hN : grid5.N = 20 := N_5
  have hlt : (i 0).val / 5000 < grid5.N := by rw [hN]; omega
  refine ⟨⟨(i 0).val / 5000, hlt⟩, flush5_4 _, ?_⟩
  rw [mem_blk5]
  obtain ⟨-, -, -, -, -, -, -, -, e40, e41⟩ := idx_facts5 ⟨(i 0).val / 5000, hlt⟩
  have e40' : win5_4.index ⟨(i 0).val / 5000, hlt⟩ (0 : Fin 2) = (i 0).val / 5000 := e40
  intro a
  match a with
  | ⟨0, _⟩ => show win5_4.index ⟨(i 0).val / 5000, hlt⟩ (0 : Fin 2) * 5000 ≤ (i 0).val ∧ (i 0).val < win5_4.index ⟨(i 0).val / 5000, hlt⟩ (0 : Fin 2) * 5000 + 5000; omega
  | ⟨1, _⟩ => show win5_4.index ⟨(i 0).val / 5000, hlt⟩ (1 : Fin 2) * 47 ≤ (i 1).val ∧ (i 1).val < win5_4.index ⟨(i 0).val / 5000, hlt⟩ (1 : Fin 2) * 47 + 47; omega

/-- The output array after the region: the blend of the arrays the region finds, everywhere. -/
theorem final5 (c : Dev nD) : (dat5 V c).arrAt 4 cfg5.N = G5 V c :=
  (dat5 V c).arrAt_eq_of_cover 4 (G5 V c) (fun t _ => flushed5_eq V c t) cover5

end Cert.KernelIdeal.Val

end
-- ==== Proof.Val.Arr6.lean ====
/-
  Region 6's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat6
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- Every window's block at point `t` is block `(t, 0)` of its array. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The array the region ends with, where its blocks cover: the blend of the arrays the region finds. -/
abbrev G6 (c : Dev nD) : Cert.Sp.Arr Ideal Cert.ReferenceIdeal.S100000x47 .f32 :=
  Cert.Sp.blend (F := Ideal) (V c main_v113) (V c main_v30) (V c main_v100) (V c main_v2)

/-- A block's row `p` at point `t` is the array's row `5000 t + p`. -/
theorem row_lt6 (t : Fin cfg6.N) (p : Fin 5000) : t.val * 5000 + p.val < 100000 := by
  have hN : grid6.N = 20 := N_6
  have ht : t.val < grid6.N := t.isLt
  have hp := p.isLt
  omega

/-- What point `t` writes back is block `t` of the blend of the arrays the region finds. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  unfold out6
  rw [View.canon_unit_zero hz6]
  simp only [View.ld_unit_zero (S := S5000x47) hz6, View.ld_unit_zero (S := S5000x1) hz6]
  obtain ⟨e00, e01, e10, e11, e20, e21, e30, e31, e40, e41⟩ := idx_facts6 t
  funext y
  obtain ⟨p, j, rfl⟩ : ∃ (p : Fin 5000) (j : Fin 47), y = ix2 p j := ⟨y 0, y 1, eq_ix2 y⟩
  have hI : ((cfg6.win 4).blk t).view.emb (ix2 p j) = ix2 (⟨t.val * 5000 + p.val, row_lt6 t p⟩ : Fin 100000) j := by
    funext a; apply Fin.ext
    match a with
    | ⟨0, _⟩ => show win6_4.index t (0 : Fin 2) * 5000 + 1 * p.val = t.val * 5000 + p.val; omega
    | ⟨1, _⟩ => show win6_4.index t (1 : Fin 2) * 47 + 1 * j.val = j.val; omega
  show Cert.KernelIdeal.Gen.k1_pay1 (F := Ideal) (iblk6 V c 0 t) (iblk6 V c 1 t) (iblk6 V c 2 t) (iblk6 V c 3 t) (ix2 p j)
      = G6 V c (((cfg6.win 4).blk t).view.emb (ix2 p j))
  rw [hI]
  refine Cert.Val.blend_pay_eq _ _ _ _ _ _ _ _ p ⟨t.val * 5000 + p.val, row_lt6 t p⟩ j ?_ ?_ ?_ ?_
  · show V c main_v113 (((cfg6.win 0).blk t).view.emb (ix2 p j)) = V c main_v113 (ix2 (⟨t.val * 5000 + p.val, row_lt6 t p⟩ : Fin 100000) j)
    refine congrArg (V c main_v113) (funext fun a => Fin.ext ?_)
    match a with
    | ⟨0, _⟩ => show win6_0.index t (0 : Fin 2) * 5000 + 1 * p.val = t.val * 5000 + p.val; omega
    | ⟨1, _⟩ => show win6_0.index t (1 : Fin 2) * 47 + 1 * j.val = j.val; omega
  · show V c main_v30 (((cfg6.win 1).blk t).view.emb (ix2 p (0 : Fin 1))) = V c main_v30 (ix2 (⟨t.val * 5000 + p.val, row_lt6 t p⟩ : Fin 100000) (0 : Fin 1))
    refine congrArg (V c main_v30) (funext fun a => Fin.ext ?_)
    match a with
    | ⟨0, _⟩ => show win6_1.index t (0 : Fin 2) * 5000 + 1 * p.val = t.val * 5000 + p.val; omega
    | ⟨1, _⟩ => show win6_1.index t (1 : Fin 2) * 1 + 1 * 0 = 0; omega
  · show V c main_v100 (((cfg6.win 2).blk t).view.emb (ix2 p j)) = V c main_v100 (ix2 (⟨t.val * 5000 + p.val, row_lt6 t p⟩ : Fin 100000) j)
    refine congrArg (V c main_v100) (funext fun a => Fin.ext ?_)
    match a with
    | ⟨0, _⟩ => show win6_2.index t (0 : Fin 2) * 5000 + 1 * p.val = t.val * 5000 + p.val; omega
    | ⟨1, _⟩ => show win6_2.index t (1 : Fin 2) * 47 + 1 * j.val = j.val; omega
  · show V c main_v2 (((cfg6.win 3).blk t).view.emb (ix2 p j)) = V c main_v2 (ix2 (⟨t.val * 5000 + p.val, row_lt6 t p⟩ : Fin 100000) j)
    refine congrArg (V c main_v2) (funext fun a => Fin.ext ?_)
    match a with
    | ⟨0, _⟩ => show win6_3.index t (0 : Fin 2) * 5000 + 1 * p.val = t.val * 5000 + p.val; omega
    | ⟨1, _⟩ => show win6_3.index t (1 : Fin 2) * 47 + 1 * j.val = j.val; omega

/-- An index of the output array is in point `t`'s block iff each coordinate is in the block's range on its axis. -/
theorem mem_blk6 (t : Fin cfg6.N) (i : S100000x47.Idx) :
    i ∈ ((cfg6.win 4).blk t).view.set ↔ ∀ a : Fin 2, win6_4.index t a * S5000x47.size a ≤ (i a).val ∧ (i a).val < win6_4.index t a * S5000x47.size a + S5000x47.size a := by
  show i ∈ ((View.whole main_v114).slice (win6_4.rect t)).set ↔ _
  rw [View.set_slice_whole, Rect.mem_set_unit]
  exact Iff.rfl

/-- Every row of the output array lies in the block of point `row / 5000`. -/
theorem cover6 (i : S100000x47.Idx) : ∃ t : Fin cfg6.N, (cfg6.win 4).flush t = true ∧ i ∈ ((cfg6.win 4).blk t).view.set := by
  have hi0 : (i 0).val < 100000 := (i 0).isLt
  have hi1 : (i 1).val < 47 := (i 1).isLt
  have hN : grid6.N = 20 := N_6
  have hlt : (i 0).val / 5000 < grid6.N := by rw [hN]; omega
  refine ⟨⟨(i 0).val / 5000, hlt⟩, flush6_4 _, ?_⟩
  rw [mem_blk6]
  obtain ⟨-, -, -, -, -, -, -, -, e40, e41⟩ := idx_facts6 ⟨(i 0).val / 5000, hlt⟩
  have e40' : win6_4.index ⟨(i 0).val / 5000, hlt⟩ (0 : Fin 2) = (i 0).val / 5000 := e40
  intro a
  match a with
  | ⟨0, _⟩ => show win6_4.index ⟨(i 0).val / 5000, hlt⟩ (0 : Fin 2) * 5000 ≤ (i 0).val ∧ (i 0).val < win6_4.index ⟨(i 0).val / 5000, hlt⟩ (0 : Fin 2) * 5000 + 5000; omega
  | ⟨1, _⟩ => show win6_4.index ⟨(i 0).val / 5000, hlt⟩ (1 : Fin 2) * 47 ≤ (i 1).val ∧ (i 1).val < win6_4.index ⟨(i 0).val / 5000, hlt⟩ (1 : Fin 2) * 47 + 47; omega

/-- The output array after the region: the blend of the arrays the region finds, everywhere. -/
theorem final6 (c : Dev nD) : (dat6 V c).arrAt 4 cfg6.N = G6 V c :=
  (dat6 V c).arrAt_eq_of_cover 4 (G6 V c) (fun t _ => flushed6_eq V c t) cover6

end Cert.KernelIdeal.Val

end
-- ==== Proof.Val.Arr7.lean ====
/-
  Region 7's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat7
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- Every window's block at point `t` is block `(t, 0)` of its array. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The array the region ends with, where its blocks cover: the blend of the arrays the region finds. -/
abbrev G7 (c : Dev nD) : Cert.Sp.Arr Ideal Cert.ReferenceIdeal.S100000x47 .f32 :=
  Cert.Sp.blend (F := Ideal) (V c main_v127) (V c main_v30) (V c main_v114) (V c main_v2)

/-- A block's row `p` at point `t` is the array's row `5000 t + p`. -/
theorem row_lt7 (t : Fin cfg7.N) (p : Fin 5000) : t.val * 5000 + p.val < 100000 := by
  have hN : grid7.N = 20 := N_7
  have ht : t.val < grid7.N := t.isLt
  have hp := p.isLt
  omega

/-- What point `t` writes back is block `t` of the blend of the arrays the region finds. -/
theorem flushed7_eq (c : Dev nD) (t : Fin cfg7.N) :
    (dat7 V c).flushed 4 t = ((cfg7.win 4).blk t).view.read (Elt Ideal) (G7 V c) := by
  show (cfg7.win 4).cut (grid7.coords t) ((dat7 V c).after 4 t) = _
  rw [after7_4]
  unfold out7
  rw [View.canon_unit_zero hz7]
  simp only [View.ld_unit_zero (S := S5000x47) hz7, View.ld_unit_zero (S := S5000x1) hz7]
  obtain ⟨e00, e01, e10, e11, e20, e21, e30, e31, e40, e41⟩ := idx_facts7 t
  funext y
  obtain ⟨p, j, rfl⟩ : ∃ (p : Fin 5000) (j : Fin 47), y = ix2 p j := ⟨y 0, y 1, eq_ix2 y⟩
  have hI : ((cfg7.win 4).blk t).view.emb (ix2 p j) = ix2 (⟨t.val * 5000 + p.val, row_lt7 t p⟩ : Fin 100000) j := by
    funext a; apply Fin.ext
    match a with
    | ⟨0, _⟩ => show win7_4.index t (0 : Fin 2) * 5000 + 1 * p.val = t.val * 5000 + p.val; omega
    | ⟨1, _⟩ => show win7_4.index t (1 : Fin 2) * 47 + 1 * j.val = j.val; omega
  show Cert.KernelIdeal.Gen.k1_pay1 (F := Ideal) (iblk7 V c 0 t) (iblk7 V c 1 t) (iblk7 V c 2 t) (iblk7 V c 3 t) (ix2 p j)
      = G7 V c (((cfg7.win 4).blk t).view.emb (ix2 p j))
  rw [hI]
  refine Cert.Val.blend_pay_eq _ _ _ _ _ _ _ _ p ⟨t.val * 5000 + p.val, row_lt7 t p⟩ j ?_ ?_ ?_ ?_
  · show V c main_v127 (((cfg7.win 0).blk t).view.emb (ix2 p j)) = V c main_v127 (ix2 (⟨t.val * 5000 + p.val, row_lt7 t p⟩ : Fin 100000) j)
    refine congrArg (V c main_v127) (funext fun a => Fin.ext ?_)
    match a with
    | ⟨0, _⟩ => show win7_0.index t (0 : Fin 2) * 5000 + 1 * p.val = t.val * 5000 + p.val; omega
    | ⟨1, _⟩ => show win7_0.index t (1 : Fin 2) * 47 + 1 * j.val = j.val; omega
  · show V c main_v30 (((cfg7.win 1).blk t).view.emb (ix2 p (0 : Fin 1))) = V c main_v30 (ix2 (⟨t.val * 5000 + p.val, row_lt7 t p⟩ : Fin 100000) (0 : Fin 1))
    refine congrArg (V c main_v30) (funext fun a => Fin.ext ?_)
    match a with
    | ⟨0, _⟩ => show win7_1.index t (0 : Fin 2) * 5000 + 1 * p.val = t.val * 5000 + p.val; omega
    | ⟨1, _⟩ => show win7_1.index t (1 : Fin 2) * 1 + 1 * 0 = 0; omega
  · show V c main_v114 (((cfg7.win 2).blk t).view.emb (ix2 p j)) = V c main_v114 (ix2 (⟨t.val * 5000 + p.val, row_lt7 t p⟩ : Fin 100000) j)
    refine congrArg (V c main_v114) (funext fun a => Fin.ext ?_)
    match a with
    | ⟨0, _⟩ => show win7_2.index t (0 : Fin 2) * 5000 + 1 * p.val = t.val * 5000 + p.val; omega
    | ⟨1, _⟩ => show win7_2.index t (1 : Fin 2) * 47 + 1 * j.val = j.val; omega
  · show V c main_v2 (((cfg7.win 3).blk t).view.emb (ix2 p j)) = V c main_v2 (ix2 (⟨t.val * 5000 + p.val, row_lt7 t p⟩ : Fin 100000) j)
    refine congrArg (V c main_v2) (funext fun a => Fin.ext ?_)
    match a with
    | ⟨0, _⟩ => show win7_3.index t (0 : Fin 2) * 5000 + 1 * p.val = t.val * 5000 + p.val; omega
    | ⟨1, _⟩ => show win7_3.index t (1 : Fin 2) * 47 + 1 * j.val = j.val; omega

/-- An index of the output array is in point `t`'s block iff each coordinate is in the block's range on its axis. -/
theorem mem_blk7 (t : Fin cfg7.N) (i : S100000x47.Idx) :
    i ∈ ((cfg7.win 4).blk t).view.set ↔ ∀ a : Fin 2, win7_4.index t a * S5000x47.size a ≤ (i a).val ∧ (i a).val < win7_4.index t a * S5000x47.size a + S5000x47.size a := by
  show i ∈ ((View.whole main_v128).slice (win7_4.rect t)).set ↔ _
  rw [View.set_slice_whole, Rect.mem_set_unit]
  exact Iff.rfl

/-- Every row of the output array lies in the block of point `row / 5000`. -/
theorem cover7 (i : S100000x47.Idx) : ∃ t : Fin cfg7.N, (cfg7.win 4).flush t = true ∧ i ∈ ((cfg7.win 4).blk t).view.set := by
  have hi0 : (i 0).val < 100000 := (i 0).isLt
  have hi1 : (i 1).val < 47 := (i 1).isLt
  have hN : grid7.N = 20 := N_7
  have hlt : (i 0).val / 5000 < grid7.N := by rw [hN]; omega
  refine ⟨⟨(i 0).val / 5000, hlt⟩, flush7_4 _, ?_⟩
  rw [mem_blk7]
  obtain ⟨-, -, -, -, -, -, -, -, e40, e41⟩ := idx_facts7 ⟨(i 0).val / 5000, hlt⟩
  have e40' : win7_4.index ⟨(i 0).val / 5000, hlt⟩ (0 : Fin 2) = (i 0).val / 5000 := e40
  intro a
  match a with
  | ⟨0, _⟩ => show win7_4.index ⟨(i 0).val / 5000, hlt⟩ (0 : Fin 2) * 5000 ≤ (i 0).val ∧ (i 0).val < win7_4.index ⟨(i 0).val / 5000, hlt⟩ (0 : Fin 2) * 5000 + 5000; omega
  | ⟨1, _⟩ => show win7_4.index ⟨(i 0).val / 5000, hlt⟩ (1 : Fin 2) * 47 ≤ (i 1).val ∧ (i 1).val < win7_4.index ⟨(i 0).val / 5000, hlt⟩ (1 : Fin 2) * 47 + 47; omega

/-- The output array after the region: the blend of the arrays the region finds, everywhere. -/
theorem final7 (c : Dev nD) : (dat7 V c).arrAt 4 cfg7.N = G7 V c :=
  (dat7 V c).arrAt_eq_of_cover 4 (G7 V c) (fun t _ => flushed7_eq V c t) cover7

end Cert.KernelIdeal.Val

end
-- ==== Proof.Val.Arr8.lean ====
/-
  Region 8's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat8
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- Every window's block at point `t` is block `(t, 0)` of its array. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- The array the region ends with, where its blocks cover: the blend of the arrays the region finds. -/
abbrev G8 (c : Dev nD) : Cert.Sp.Arr Ideal Cert.ReferenceIdeal.S100000x47 .f32 :=
  Cert.Sp.blend (F := Ideal) (V c main_v141) (V c main_v30) (V c main_v128) (V c main_v2)

/-- A block's row `p` at point `t` is the array's row `5000 t + p`. -/
theorem row_lt8 (t : Fin cfg8.N) (p : Fin 5000) : t.val * 5000 + p.val < 100000 := by
  have hN : grid8.N = 20 := N_8
  have ht : t.val < grid8.N := t.isLt
  have hp := p.isLt
  omega

/-- What point `t` writes back is block `t` of the blend of the arrays the region finds. -/
theorem flushed8_eq (c : Dev nD) (t : Fin cfg8.N) :
    (dat8 V c).flushed 4 t = ((cfg8.win 4).blk t).view.read (Elt Ideal) (G8 V c) := by
  show (cfg8.win 4).cut (grid8.coords t) ((dat8 V c).after 4 t) = _
  rw [after8_4]
  unfold out8
  rw [View.canon_unit_zero hz8]
  simp only [View.ld_unit_zero (S := S5000x47) hz8, View.ld_unit_zero (S := S5000x1) hz8]
  obtain ⟨e00, e01, e10, e11, e20, e21, e30, e31, e40, e41⟩ := idx_facts8 t
  funext y
  obtain ⟨p, j, rfl⟩ : ∃ (p : Fin 5000) (j : Fin 47), y = ix2 p j := ⟨y 0, y 1, eq_ix2 y⟩
  have hI : ((cfg8.win 4).blk t).view.emb (ix2 p j) = ix2 (⟨t.val * 5000 + p.val, row_lt8 t p⟩ : Fin 100000) j := by
    funext a; apply Fin.ext
    match a with
    | ⟨0, _⟩ => show win8_4.index t (0 : Fin 2) * 5000 + 1 * p.val = t.val * 5000 + p.val; omega
    | ⟨1, _⟩ => show win8_4.index t (1 : Fin 2) * 47 + 1 * j.val = j.val; omega
  show Cert.KernelIdeal.Gen.k1_pay1 (F := Ideal) (iblk8 V c 0 t) (iblk8 V c 1 t) (iblk8 V c 2 t) (iblk8 V c 3 t) (ix2 p j)
      = G8 V c (((cfg8.win 4).blk t).view.emb (ix2 p j))
  rw [hI]
  refine Cert.Val.blend_pay_eq _ _ _ _ _ _ _ _ p ⟨t.val * 5000 + p.val, row_lt8 t p⟩ j ?_ ?_ ?_ ?_
  · show V c main_v141 (((cfg8.win 0).blk t).view.emb (ix2 p j)) = V c main_v141 (ix2 (⟨t.val * 5000 + p.val, row_lt8 t p⟩ : Fin 100000) j)
    refine congrArg (V c main_v141) (funext fun a => Fin.ext ?_)
    match a with
    | ⟨0, _⟩ => show win8_0.index t (0 : Fin 2) * 5000 + 1 * p.val = t.val * 5000 + p.val; omega
    | ⟨1, _⟩ => show win8_0.index t (1 : Fin 2) * 47 + 1 * j.val = j.val; omega
  · show V c main_v30 (((cfg8.win 1).blk t).view.emb (ix2 p (0 : Fin 1))) = V c main_v30 (ix2 (⟨t.val * 5000 + p.val, row_lt8 t p⟩ : Fin 100000) (0 : Fin 1))
    refine congrArg (V c main_v30) (funext fun a => Fin.ext ?_)
    match a with
    | ⟨0, _⟩ => show win8_1.index t (0 : Fin 2) * 5000 + 1 * p.val = t.val * 5000 + p.val; omega
    | ⟨1, _⟩ => show win8_1.index t (1 : Fin 2) * 1 + 1 * 0 = 0; omega
  · show V c main_v128 (((cfg8.win 2).blk t).view.emb (ix2 p j)) = V c main_v128 (ix2 (⟨t.val * 5000 + p.val, row_lt8 t p⟩ : Fin 100000) j)
    refine congrArg (V c main_v128) (funext fun a => Fin.ext ?_)
    match a with
    | ⟨0, _⟩ => show win8_2.index t (0 : Fin 2) * 5000 + 1 * p.val = t.val * 5000 + p.val; omega
    | ⟨1, _⟩ => show win8_2.index t (1 : Fin 2) * 47 + 1 * j.val = j.val; omega
  · show V c main_v2 (((cfg8.win 3).blk t).view.emb (ix2 p j)) = V c main_v2 (ix2 (⟨t.val * 5000 + p.val, row_lt8 t p⟩ : Fin 100000) j)
    refine congrArg (V c main_v2) (funext fun a => Fin.ext ?_)
    match a with
    | ⟨0, _⟩ => show win8_3.index t (0 : Fin 2) * 5000 + 1 * p.val = t.val * 5000 + p.val; omega
    | ⟨1, _⟩ => show win8_3.index t (1 : Fin 2) * 47 + 1 * j.val = j.val; omega

/-- An index of the output array is in point `t`'s block iff each coordinate is in the block's range on its axis. -/
theorem mem_blk8 (t : Fin cfg8.N) (i : S100000x47.Idx) :
    i ∈ ((cfg8.win 4).blk t).view.set ↔ ∀ a : Fin 2, win8_4.index t a * S5000x47.size a ≤ (i a).val ∧ (i a).val < win8_4.index t a * S5000x47.size a + S5000x47.size a := by
  show i ∈ ((View.whole main_v142).slice (win8_4.rect t)).set ↔ _
  rw [View.set_slice_whole, Rect.mem_set_unit]
  exact Iff.rfl

/-- Every row of the output array lies in the block of point `row / 5000`. -/
theorem cover8 (i : S100000x47.Idx) : ∃ t : Fin cfg8.N, (cfg8.win 4).flush t = true ∧ i ∈ ((cfg8.win 4).blk t).view.set := by
  have hi0 : (i 0).val < 100000 := (i 0).isLt
  have hi1 : (i 1).val < 47 := (i 1).isLt
  have hN : grid8.N = 20 := N_8
  have hlt : (i 0).val / 5000 < grid8.N := by rw [hN]; omega
  refine ⟨⟨(i 0).val / 5000, hlt⟩, flush8_4 _, ?_⟩
  rw [mem_blk8]
  obtain ⟨-, -, -, -, -, -, -, -, e40, e41⟩ := idx_facts8 ⟨(i 0).val / 5000, hlt⟩
  have e40' : win8_4.index ⟨(i 0).val / 5000, hlt⟩ (0 : Fin 2) = (i 0).val / 5000 := e40
  intro a
  match a with
  | ⟨0, _⟩ => show win8_4.index ⟨(i 0).val / 5000, hlt⟩ (0 : Fin 2) * 5000 ≤ (i 0).val ∧ (i 0).val < win8_4.index ⟨(i 0).val / 5000, hlt⟩ (0 : Fin 2) * 5000 + 5000; omega
  | ⟨1, _⟩ => show win8_4.index ⟨(i 0).val / 5000, hlt⟩ (1 : Fin 2) * 47 ≤ (i 1).val ∧ (i 1).val < win8_4.index ⟨(i 0).val / 5000, hlt⟩ (1 : Fin 2) * 47 + 47; omega

/-- The output array after the region: the blend of the arrays the region finds, everywhere. -/
theorem final8 (c : Dev nD) : (dat8 V c).arrAt 4 cfg8.N = G8 V c :=
  (dat8 V c).arrAt_eq_of_cover 4 (G8 V c) (fun t _ => flushed8_eq V c t) cover8

end Cert.KernelIdeal.Val

end
-- ==== Proof.Val.Arr9.lean ====
/-
  Region 9's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat9
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

/-- Every window's block at point `t` is block `(t, 0)` of its array. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- The array the region ends with, where its blocks cover: the blend of the arrays the region finds. -/
abbrev G9 (c : Dev nD) : Cert.Sp.Arr Ideal Cert.ReferenceIdeal.S100000x47 .f32 :=
  Cert.Sp.blend (F := Ideal) (V c main_v155) (V c main_v30) (V c main_v142) (V c main_v2)

/-- A block's row `p` at point `t` is the array's row `5000 t + p`. -/
theorem row_lt9 (t : Fin cfg9.N) (p : Fin 5000) : t.val * 5000 + p.val < 100000 := by
  have hN : grid9.N = 20 := N_9
  have ht : t.val < grid9.N := t.isLt
  have hp := p.isLt
  omega

/-- What point `t` writes back is block `t` of the blend of the arrays the region finds. -/
theorem flushed9_eq (c : Dev nD) (t : Fin cfg9.N) :
    (dat9 V c).flushed 4 t = ((cfg9.win 4).blk t).view.read (Elt Ideal) (G9 V c) := by
  show (cfg9.win 4).cut (grid9.coords t) ((dat9 V c).after 4 t) = _
  rw [after9_4]
  unfold out9
  rw [View.canon_unit_zero hz9]
  simp only [View.ld_unit_zero (S := S5000x47) hz9, View.ld_unit_zero (S := S5000x1) hz9]
  obtain ⟨e00, e01, e10, e11, e20, e21, e30, e31, e40, e41⟩ := idx_facts9 t
  funext y
  obtain ⟨p, j, rfl⟩ : ∃ (p : Fin 5000) (j : Fin 47), y = ix2 p j := ⟨y 0, y 1, eq_ix2 y⟩
  have hI : ((cfg9.win 4).blk t).view.emb (ix2 p j) = ix2 (⟨t.val * 5000 + p.val, row_lt9 t p⟩ : Fin 100000) j := by
    funext a; apply Fin.ext
    match a with
    | ⟨0, _⟩ => show win9_4.index t (0 : Fin 2) * 5000 + 1 * p.val = t.val * 5000 + p.val; omega
    | ⟨1, _⟩ => show win9_4.index t (1 : Fin 2) * 47 + 1 * j.val = j.val; omega
  show Cert.KernelIdeal.Gen.k1_pay1 (F := Ideal) (iblk9 V c 0 t) (iblk9 V c 1 t) (iblk9 V c 2 t) (iblk9 V c 3 t) (ix2 p j)
      = G9 V c (((cfg9.win 4).blk t).view.emb (ix2 p j))
  rw [hI]
  refine Cert.Val.blend_pay_eq _ _ _ _ _ _ _ _ p ⟨t.val * 5000 + p.val, row_lt9 t p⟩ j ?_ ?_ ?_ ?_
  · show V c main_v155 (((cfg9.win 0).blk t).view.emb (ix2 p j)) = V c main_v155 (ix2 (⟨t.val * 5000 + p.val, row_lt9 t p⟩ : Fin 100000) j)
    refine congrArg (V c main_v155) (funext fun a => Fin.ext ?_)
    match a with
    | ⟨0, _⟩ => show win9_0.index t (0 : Fin 2) * 5000 + 1 * p.val = t.val * 5000 + p.val; omega
    | ⟨1, _⟩ => show win9_0.index t (1 : Fin 2) * 47 + 1 * j.val = j.val; omega
  · show V c main_v30 (((cfg9.win 1).blk t).view.emb (ix2 p (0 : Fin 1))) = V c main_v30 (ix2 (⟨t.val * 5000 + p.val, row_lt9 t p⟩ : Fin 100000) (0 : Fin 1))
    refine congrArg (V c main_v30) (funext fun a => Fin.ext ?_)
    match a with
    | ⟨0, _⟩ => show win9_1.index t (0 : Fin 2) * 5000 + 1 * p.val = t.val * 5000 + p.val; omega
    | ⟨1, _⟩ => show win9_1.index t (1 : Fin 2) * 1 + 1 * 0 = 0; omega
  · show V c main_v142 (((cfg9.win 2).blk t).view.emb (ix2 p j)) = V c main_v142 (ix2 (⟨t.val * 5000 + p.val, row_lt9 t p⟩ : Fin 100000) j)
    refine congrArg (V c main_v142) (funext fun a => Fin.ext ?_)
    match a with
    | ⟨0, _⟩ => show win9_2.index t (0 : Fin 2) * 5000 + 1 * p.val = t.val * 5000 + p.val; omega
    | ⟨1, _⟩ => show win9_2.index t (1 : Fin 2) * 47 + 1 * j.val = j.val; omega
  · show V c main_v2 (((cfg9.win 3).blk t).view.emb (ix2 p j)) = V c main_v2 (ix2 (⟨t.val * 5000 + p.val, row_lt9 t p⟩ : Fin 100000) j)
    refine congrArg (V c main_v2) (funext fun a => Fin.ext ?_)
    match a with
    | ⟨0, _⟩ => show win9_3.index t (0 : Fin 2) * 5000 + 1 * p.val = t.val * 5000 + p.val; omega
    | ⟨1, _⟩ => show win9_3.index t (1 : Fin 2) * 47 + 1 * j.val = j.val; omega

/-- An index of the output array is in point `t`'s block iff each coordinate is in the block's range on its axis. -/
theorem mem_blk9 (t : Fin cfg9.N) (i : S100000x47.Idx) :
    i ∈ ((cfg9.win 4).blk t).view.set ↔ ∀ a : Fin 2, win9_4.index t a * S5000x47.size a ≤ (i a).val ∧ (i a).val < win9_4.index t a * S5000x47.size a + S5000x47.size a := by
  show i ∈ ((View.whole main_v156).slice (win9_4.rect t)).set ↔ _
  rw [View.set_slice_whole, Rect.mem_set_unit]
  exact Iff.rfl

/-- Every row of the output array lies in the block of point `row / 5000`. -/
theorem cover9 (i : S100000x47.Idx) : ∃ t : Fin cfg9.N, (cfg9.win 4).flush t = true ∧ i ∈ ((cfg9.win 4).blk t).view.set := by
  have hi0 : (i 0).val < 100000 := (i 0).isLt
  have hi1 : (i 1).val < 47 := (i 1).isLt
  have hN : grid9.N = 20 := N_9
  have hlt : (i 0).val / 5000 < grid9.N := by rw [hN]; omega
  refine ⟨⟨(i 0).val / 5000, hlt⟩, flush9_4 _, ?_⟩
  rw [mem_blk9]
  obtain ⟨-, -, -, -, -, -, -, -, e40, e41⟩ := idx_facts9 ⟨(i 0).val / 5000, hlt⟩
  have e40' : win9_4.index ⟨(i 0).val / 5000, hlt⟩ (0 : Fin 2) = (i 0).val / 5000 := e40
  intro a
  match a with
  | ⟨0, _⟩ => show win9_4.index ⟨(i 0).val / 5000, hlt⟩ (0 : Fin 2) * 5000 ≤ (i 0).val ∧ (i 0).val < win9_4.index ⟨(i 0).val / 5000, hlt⟩ (0 : Fin 2) * 5000 + 5000; omega
  | ⟨1, _⟩ => show win9_4.index ⟨(i 0).val / 5000, hlt⟩ (1 : Fin 2) * 47 ≤ (i 1).val ∧ (i 1).val < win9_4.index ⟨(i 0).val / 5000, hlt⟩ (1 : Fin 2) * 47 + 47; omega

/-- The output array after the region: the blend of the arrays the region finds, everywhere. -/
theorem final9 (c : Dev nD) : (dat9 V c).arrAt 4 cfg9.N = G9 V c :=
  (dat9 V c).arrAt_eq_of_cover 4 (G9 V c) (fun t _ => flushed9_eq V c t) cover9

end Cert.KernelIdeal.Val

end
-- ==== Proof.Val.Arr10.lean ====
/-
  Region 10's output array after the region, as one function of the arrays the region finds: the blend
  `0.9 · (a + w · z) + 0.1 · h` of the neighbour sum, the self-loop weights, the previous iterate and the dense
  layers' output, entry by entry.  Point `t` of the grid holds rows `5000 t … 5000 t + 4999` of every array
  (each window's block index at `t` is `(t, 0)`), its body blends the blocks entry by entry, and the twenty
  output blocks tile the array: row `r` lies in the block of point `r / 5000`.
-/
import proofs.«114710_j78030965834312_1_alg».proof.Proof.KI.Dat10
import proofs.«114710_j78030965834312_1_alg».proof.Proof.Val.Blend
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz10 : (![0, 0] : Fin 2 → Nat) = fun _ => 0 := funext fun a => by fin_cases a <;> rfl

/-- Every window's block at point `t` is block `(t, 0)` of its array. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- The array the region ends with, where its blocks cover: the blend of the arrays the region finds. -/
abbrev G10 (c : Dev nD) : Cert.Sp.Arr Ideal Cert.ReferenceIdeal.S100000x47 .f32 :=
  Cert.Sp.blend (F := Ideal) (V c main_v169) (V c main_v30) (V c main_v156) (V c main_v2)

/-- A block's row `p` at point `t` is the array's row `5000 t + p`. -/
theorem row_lt10 (t : Fin cfg10.N) (p : Fin 5000) : t.val * 5000 + p.val < 100000 := by
  have hN : grid10.N = 20 := N_10
  have ht : t.val < grid10.N := t.isLt
  have hp := p.isLt
  omega

/-- What point `t` writes back is block `t` of the blend of the arrays the region finds. -/
theorem flushed10_eq (c : Dev nD) (t : Fin cfg10.N) :
    (dat10 V c).flushed 4 t = ((cfg10.win 4).blk t).view.read (Elt Ideal) (G10 V c) := by
  show (cfg10.win 4).cut (grid10.coords t) ((dat10 V c).after 4 t) = _
  rw [after10_4]
  unfold out10
  rw [View.canon_unit_zero hz10]
  simp only [View.ld_unit_zero (S := S5000x47) hz10, View.ld_unit_zero (S := S5000x1) hz10]
  obtain ⟨e00, e01, e10, e11, e20, e21, e30, e31, e40, e41⟩ := idx_facts10 t
  funext y
  obtain ⟨p, j, rfl⟩ : ∃ (p : Fin 5000) (j : Fin 47), y = ix2 p j := ⟨y 0, y 1, eq_ix2 y⟩
  have hI : ((cfg10.win 4).blk t).view.emb (ix2 p j) = ix2 (⟨t.val * 5000 + p.val, row_lt10 t p⟩ : Fin 100000) j := by
    funext a; apply Fin.ext
    match a with
    | ⟨0, _⟩ => show win10_4.index t (0 : Fin 2) * 5000 + 1 * p.val = t.val * 5000 + p.val; omega
    | ⟨1, _⟩ => show win10_4.index t (1 : Fin 2) * 47 + 1 * j.val = j.val; omega
  show Cert.KernelIdeal.Gen.k1_pay1 (F := Ideal) (iblk10 V c 0 t) (iblk10 V c 1 t) (iblk10 V c 2 t) (iblk10 V c 3 t) (ix2 p j)
      = G10 V c (((cfg10.win 4).blk t).view.emb (ix2 p j))
  rw [hI]
  refine Cert.Val.blend_pay_eq _ _ _ _ _ _ _ _ p ⟨t.val * 5000 + p.val, row_lt10 t p⟩ j ?_ ?_ ?_ ?_
  · show V c main_v169 (((cfg10.win 0).blk t).view.emb (ix2 p j)) = V c main_v169 (ix2 (⟨t.val * 5000 + p.val, row_lt10 t p⟩ : Fin 100000) j)
    refine congrArg (V c main_v169) (funext fun a => Fin.ext ?_)
    match a with
    | ⟨0, _⟩ => show win10_0.index t (0 : Fin 2) * 5000 + 1 * p.val = t.val * 5000 + p.val; omega
    | ⟨1, _⟩ => show win10_0.index t (1 : Fin 2) * 47 + 1 * j.val = j.val; omega
  · show V c main_v30 (((cfg10.win 1).blk t).view.emb (ix2 p (0 : Fin 1))) = V c main_v30 (ix2 (⟨t.val * 5000 + p.val, row_lt10 t p⟩ : Fin 100000) (0 : Fin 1))
    refine congrArg (V c main_v30) (funext fun a => Fin.ext ?_)
    match a with
    | ⟨0, _⟩ => show win10_1.index t (0 : Fin 2) * 5000 + 1 * p.val = t.val * 5000 + p.val; omega
    | ⟨1, _⟩ => show win10_1.index t (1 : Fin 2) * 1 + 1 * 0 = 0; omega
  · show V c main_v156 (((cfg10.win 2).blk t).view.emb (ix2 p j)) = V c main_v156 (ix2 (⟨t.val * 5000 + p.val, row_lt10 t p⟩ : Fin 100000) j)
    refine congrArg (V c main_v156) (funext fun a => Fin.ext ?_)
    match a with
    | ⟨0, _⟩ => show win10_2.index t (0 : Fin 2) * 5000 + 1 * p.val = t.val * 5000 + p.val; omega
    | ⟨1, _⟩ => show win10_2.index t (1 : Fin 2) * 47 + 1 * j.val = j.val; omega
  · show V c main_v2 (((cfg10.win 3).blk t).view.emb (ix2 p j)) = V c main_v2 (ix2 (⟨t.val * 5000 + p.val, row_lt10 t p⟩ : Fin 100000) j)
    refine congrArg (V c main_v2) (funext fun a => Fin.ext ?_)
    match a with
    | ⟨0, _⟩ => show win10_3.index t (0 : Fin 2) * 5000 + 1 * p.val = t.val * 5000 + p.val; omega
    | ⟨1, _⟩ => show win10_3.index t (1 : Fin 2) * 47 + 1 * j.val = j.val; omega

/-- An index of the output array is in point `t`'s block iff each coordinate is in the block's range on its axis. -/
theorem mem_blk10 (t : Fin cfg10.N) (i : S100000x47.Idx) :
    i ∈ ((cfg10.win 4).blk t).view.set ↔ ∀ a : Fin 2, win10_4.index t a * S5000x47.size a ≤ (i a).val ∧ (i a).val < win10_4.index t a * S5000x47.size a + S5000x47.size a := by
  show i ∈ ((View.whole main_v170).slice (win10_4.rect t)).set ↔ _
  rw [View.set_slice_whole, Rect.mem_set_unit]
  exact Iff.rfl

/-- Every row of the output array lies in the block of point `row / 5000`. -/
theorem cover10 (i : S100000x47.Idx) : ∃ t : Fin cfg10.N, (cfg10.win 4).flush t = true ∧ i ∈ ((cfg10.win 4).blk t).view.set := by
  have hi0 : (i 0).val < 100000 := (i 0).isLt
  have hi1 : (i 1).val < 47 := (i 1).isLt
  have hN : grid10.N = 20 := N_10
  have hlt : (i 0).val / 5000 < grid10.N := by rw [hN]; omega
  refine ⟨⟨(i 0).val / 5000, hlt⟩, flush10_4 _, ?_⟩
  rw [mem_blk10]
  obtain ⟨-, -, -, -, -, -, -, -, e40, e41⟩ := idx_facts10 ⟨(i 0).val / 5000, hlt⟩
  have e40' : win10_4.index ⟨(i 0).val / 5000, hlt⟩ (0 : Fin 2) = (i 0).val / 5000 := e40
  intro a
  match a with
  | ⟨0, _⟩ => show win10_4.index ⟨(i 0).val / 5000, hlt⟩ (0 : Fin 2) * 5000 ≤ (i 0).val ∧ (i 0).val < win10_4.index ⟨(i 0).val / 5000, hlt⟩ (0 : Fin 2) * 5000 + 5000; omega
  | ⟨1, _⟩ => show win10_4.index ⟨(i 0).val / 5000, hlt⟩ (1 : Fin 2) * 47 ≤ (i 1).val ∧ (i 1).val < win10_4.index ⟨(i 0).val / 5000, hlt⟩ (1 : Fin 2) * 47 + 47; omega

/-- The output array after the region: the blend of the arrays the region finds, everywhere. -/
theorem final10 (c : Dev nD) : (dat10 V c).arrAt 4 cfg10.N = G10 V c :=
  (dat10 V c).arrAt_eq_of_cover 4 (G10 V c) (fun t _ => flushed10_eq V c t) cover10

end Cert.KernelIdeal.Val

end
-- ==== Proof.Val.LsmRow.lean ====
/-
  The row-wise log-softmax in closed form, and the reductions of a 47-column array along its rows read at a
  row: the maximum (the vector unit's and the host's) as the fold of `max` over the row's 47 entries from −∞,
  the sum (the vector unit's and the host's) as the `Fin 47` sum.
-/
import Idealize.ShloMosaic.PureOps.Ideal.Laws
import Idealize.ShloMosaic.Lib.IdealHost
import Idealize.ShloMosaic.Lib.ValueIdx

noncomputable section

namespace Cert.Val

open Idealize.ShloMosaic Idealize.ShloMosaic.ValueIdx

/-- The maximum of a row of 47 extended reals, taken from −∞. -/
def rowMax (row : Fin 47 → EReal) : EReal := (Finset.univ : Finset (Fin 47)).fold max ⊥ row

/-- The log-softmax of a row at column `j`: `(row j − M) − log Σ_k exp (row k − M)`, `M` the row's maximum. -/
def lsmRow (row : Fin 47 → EReal) (j : Fin 47) : EReal :=
  (row j - rowMax row) - Ideal.log (∑ k : Fin 47, Ideal.exp (row k - rowMax row))

/-- The word of −∞ is the bottom of the extended reals. -/
theorem ofBits_neg_inf : Ideal.ofBits .f32 0xFF800000#32 = (⊥ : EReal) := by
  simp [Ideal.ofBits, Ideal.ieee]

/-- Inserting the column `k` into the row index `p` of an `[a, b]` array gives `(p, k)`. -/
theorem lift_ix1 {a b : ℕ} (h : Shape.Reduces ⟨2, ![a, b]⟩ [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an `[a, 47]` vector, from −∞, at row `p`: the row's maximum. -/
theorem multiReduction_max_row {a : ℕ} (src : FVec Ideal ⟨2, ![a, 47]⟩ .f32)
    (h : Shape.Reduces ⟨2, ![a, 47]⟩ [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k => src (ix2 p k) := by
  refine (Ideal.multiReduction_maximumf_single src _ h hφ hacc (ix1 p)).trans ?_
  show (Finset.univ : Finset (Fin 47)).fold max (Ideal.ofBits .f32 0xFF800000#32) (src ∘ h.lift (ix1 p)) = _
  rw [ofBits_neg_inf]
  unfold rowMax
  exact congrArg (fun f => (Finset.univ : Finset (Fin 47)).fold max ⊥ f) (funext fun k => congrArg src (lift_ix1 h p k))

/-- The vector unit's sum along the rows of an `[a, 47]` vector, from the zero word, at row `p`: the row's sum. -/
theorem multiReduction_add_row {a : ℕ} (src : FVec Ideal ⟨2, ![a, 47]⟩ .f32)
    (h : Shape.Reduces ⟨2, ![a, 47]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin 47, src (ix2 p k) := by
  refine (Ideal.multiReduction_add_single src _ h hφ hacc (ix1 p)).trans ?_
  show ∑ k : Fin 47, src (h.lift (ix1 p) k) = _
  exact Finset.sum_congr rfl fun k _ => congrArg src (lift_ix1 h p k)

/-- The host's maximum along the rows of an `[a, 47]` array, from the scalar −∞, at row `p`: the row's maximum. -/
theorem hostReduce_max_row {a : ℕ} (x : FVec Ideal ⟨2, ![a, 47]⟩ .f32)
    (h' : Shape.ReducesTo ⟨2, ![a, 47]⟩ [1] ⟨1, ![a]⟩) (h : Shape.Reduces ⟨2, ![a, 47]⟩ [1] ⟨1, ![a]⟩)
    (hu : 0 < (⟨0, ![]⟩ : Shape).numel) (p : Fin a) :
    Host.reduce (FloatOps.maximumf (F := Ideal) (φ := .f32)) x (constant (F := Ideal) ⟨0, ![]⟩ .f32 0xFF800000#32) h' hu (ix1 p)
      = rowMax fun k => x (ix2 p k) := by
  refine (Host.reduce_eq_fold_single _ x _ h' h hu (ix1 p)).trans ?_
  show (Finset.univ : Finset (Fin 47)).fold max (Ideal.ofBits .f32 0xFF800000#32) (x ∘ h.lift (ix1 p)) = _
  rw [ofBits_neg_inf]
  unfold rowMax
  exact congrArg (fun f => (Finset.univ : Finset (Fin 47)).fold max ⊥ f) (funext fun k => congrArg x (lift_ix1 h p k))

/-- The host's sum along the rows of an `[a, 47]` array, from the scalar zero, at row `p`: the row's sum. -/
theorem hostReduceAdd_row {a : ℕ} (x : FVec Ideal ⟨2, ![a, 47]⟩ .f32)
    (h' : Shape.ReducesTo ⟨2, ![a, 47]⟩ [1] ⟨1, ![a]⟩) (h : Shape.Reduces ⟨2, ![a, 47]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ k : Fin 47, x (ix2 p k) := by
  refine (hostReduceAdd_apply x _ h' hu (ix1 p)).trans ?_
  refine (Ideal.hostReduceAdd_single h' h x _ (ix1 p)).trans ?_
  show Ideal.ofBits .f32 0x00000000#32 + ∑ k : Fin 47, x (h.lift (ix1 p) k) = _
  rw [Ideal.ofBits_zero_f32, zero_add]
  exact Finset.sum_congr rfl fun k _ => congrArg x (lift_ix1 h p k)

end Cert.Val

end
-- ==== Proof.Val.LsmKernel.lean ====
/-
  The log-softmax block's stored value at `(p, j)` is the closed-form log-softmax of the block's row `p` at
  column `j`: the row maximum from −∞, cast to a column and broadcast along the row; the shifted entries; the
  row sum of their exponentials, cast to a column, its logarithm broadcast along the row and subtracted.
-/
import proofs.«114710_j78030965834312_1_alg».proof.Proof.Gen.KernelIdeal.Skeleton
import proofs.«114710_j78030965834312_1_alg».proof.Proof.Val.LsmRow
import proofs.«114710_j78030965834312_1_alg».proof.Proof.Val.LibKeepdims

noncomputable section

namespace Cert.Val

open Cert.KernelIdeal Idealize.ShloMosaic Idealize.ShloMosaic.ValueIdx

/-- The block less its row maximum (the maximum cast to a column and broadcast along the row), at `(p, k)`. -/
theorem kshift_ix2 (zb : FVec Ideal S5000x47 .f32) (h : S5000x47.Reduces [1] S5000) (hφ : FKind.Formats .f32)
    (hacc : (0xFF800000#32 : BitVec 32) = FKind.maximumf.neutral .f32 hφ) (hc : S5000.ShapeCasts S5000x1)
    (hb : S5000x1.Broadcasts S5000x47) (p : Fin 5000) (k : Fin 47) :
    subf zb (broadcastTo S5000x47 (shapeCast S5000x1 (multiReduction .maximumf [1] S5000 zb 0xFF800000#32 h hφ hacc) hc) hb)
        (ix2 p k)
      = zb (ix2 p k) - rowMax fun k => zb (ix2 p k) := by
  refine (subf_apply _ _ _).trans ?_
  refine congrArg (fun m => zb (ix2 p k) - m) ?_
  refine (Cert.LibKeepdims.broadcastTo_a1_ab_apply _ _ p k).trans ?_
  refine (Cert.LibKeepdims.shapeCast_a_a1_apply _ _ p 0).trans ?_
  exact multiReduction_max_row zb h hφ hacc p

set_option maxHeartbeats 400000 in
/-- The stored value of the log-softmax block at `(p, j)`. -/
theorem k11_pay1_ix2 (zb : Vec Ideal S5000x47 .f32) (p : Fin 5000) (j : Fin 47) :
    Cert.KernelIdeal.Gen.k11_pay1 (F := Ideal) zb (ix2 p j) = lsmRow (fun k => zb (ix2 p k)) j := by
  unfold Cert.KernelIdeal.Gen.k11_pay1
  simp only [shapeCast_self]
  refine (subf_apply _ _ _).trans ?_
  unfold lsmRow
  refine congrArg₂ (fun a b : EReal => a - b) (kshift_ix2 zb _ _ _ _ _ p j) ?_
  refine (Cert.LibKeepdims.broadcastTo_a1_ab_apply _ _ p j).trans ?_
  refine congrArg Ideal.log ?_
  refine (Cert.LibKeepdims.shapeCast_a_a1_apply _ _ p 0).trans ?_
  refine (multiReduction_add_row _ _ _ _ p).trans ?_
  refine Finset.sum_congr rfl fun k _ => ?_
  exact congrArg Ideal.exp (kshift_ix2 zb _ _ _ _ _ p k)

end Cert.Val

end
-- ==== Proof.Val.LsmSpec.lean ====
/-
  The specification's log-softmax at `(i, j)` is the closed-form log-softmax of the array's row `i` at column
  `j`. The row maximum is the host's fold of `max` from −∞, then `max` once more against −∞, which changes
  nothing (−∞ is the least extended real); a vector is read as a column, a column along each row.
-/
import proofs.«114710_j78030965834312_1_alg».proof.Proof.Spec
import proofs.«114710_j78030965834312_1_alg».proof.Proof.Val.LsmRow
import Idealize.ShloMosaic.Lib.Pipeline.Value

noncomputable section

namespace Cert.Val

open Idealize.ShloMosaic Idealize.ShloMosaic.ValueIdx

variable {α : Type}

/-- A vector `[a]` broadcast to the column `[a, 1]` reads, at `(i, u)`, the vector's entry `i`. -/
theorem broadcastInDim_a_a1_apply {a : ℕ} (dims : Fin 1 → Fin 2) (hd : dims 0 = 0)
    (h : (⟨1, ![a]⟩ : Shape).BroadcastsInDim ⟨2, ![a, 1]⟩ dims) (v : (⟨1, ![a]⟩ : Shape).Idx → α) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else (ix2 i u (dims 0)).val
    rw [hd]
    split
    · have := i.isLt; omega
    · rfl

/-- A column `[a, 1]` broadcast to `[a, b]` reads, at `(i, j)`, the column's entry `i`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (c : (⟨2, ![a, 1]⟩ : Shape).Idx → α) (i : Fin a) (j : Fin b) :
    broadcastInDim ⟨2, ![a, b]⟩ dims h c (ix2 i j) = c (ix2 i (0 : Fin 1)) := by
  refine broadcastInDim_apply dims h c (ix2 i j) (ix2 i (0 : Fin 1)) fun ax => ?_
  match ax with
  | ⟨0, _⟩ =>
    show i.val = if a = 1 then 0 else (ix2 i j (dims 0)).val
    rw [hd0]
    split
    · have := i.isLt; omega
    · rfl
  | ⟨1, _⟩ => rfl

open Cert.ReferenceIdeal Cert.ReferenceIdeal.Gen

/-- Dropping the column axis of `[100000, 47]` leaves `[100000]`. -/
theorem reduces_rows : S100000x47.Reduces [1] S100000 := ⟨rfl, Nat.one_pos, fun b => by
  match b with
  | ⟨0, _⟩ => rfl⟩

/-- The array less its row maximum, at `(i, k)`. -/
theorem shifted_ix2 (z : Cert.Sp.Arr Ideal S100000x47 .f32) (i : Fin 100000) (k : Fin 47) :
    Cert.Sp.shifted (F := Ideal) z (ix2 i k) = z (ix2 i k) - rowMax fun k => z (ix2 i k) := by
  unfold Cert.Sp.shifted
  refine (subf_apply _ _ _).trans ?_
  refine congrArg (fun m => z (ix2 i k) - m) ?_
  refine (broadcastInDim_a1_ab_apply _ rfl rfl _ _ i k).trans ?_
  refine (broadcastInDim_a_a1_apply _ rfl _ _ i 0).trans ?_
  refine (maximumf_apply _ _ _).trans ?_
  have hmax := hostReduce_max_row (a := 100000) z reducesTo_S100000x47_S100000_d1 reduces_rows h_S_ i
  have hbot : broadcastInDim S100000 ![] bcast_S_S100000 (constant (F := Ideal) S_ .f32 0xFF800000#32) (ix1 i) = (⊥ : EReal) :=
    (broadcastInDim_scalar_apply _ _ _).trans ofBits_neg_inf
  refine (congrArg₂ max hbot hmax).trans ?_
  exact max_eq_right bot_le

/-- The specification's log-softmax at `(i, j)`. -/
theorem lsm_ix2 (z : Cert.Sp.Arr Ideal S100000x47 .f32) (i : Fin 100000) (j : Fin 47) :
    Cert.Sp.lsm (F := Ideal) z (ix2 i j) = lsmRow (fun k => z (ix2 i k)) j := by
  unfold Cert.Sp.lsm lsmRow
  refine (subf_apply _ _ _).trans ?_
  refine congrArg₂ (fun a b : EReal => a - b) (shifted_ix2 z i j) ?_
  refine (broadcastInDim_a1_ab_apply _ rfl rfl _ _ i j).trans ?_
  refine (Ideal.hostUnary_log_def (φ := .f32) _).trans ?_
  refine congrArg Ideal.log ?_
  refine (broadcastInDim_a_a1_apply _ rfl _ _ i 0).trans ?_
  refine (hostReduceAdd_row _ _ reduces_rows _ i).trans ?_
  refine Finset.sum_congr rfl fun k _ => ?_
  refine (Ideal.hostUnary_exp_def (φ := .f32) _).trans ?_
  exact congrArg Ideal.exp (shifted_ix2 z i k)

end Cert.Val

end
-- ==== Proof.Val.Lsm.lean ====
/-
  The log-softmax block against the specification: when row `p` of the block is row `i` of the array, the
  block's stored value at `(p, j)` is the specification's log-softmax at `(i, j)` — both are the closed-form
  log-softmax of that one row.
-/
import proofs.«114710_j78030965834312_1_alg».proof.Proof.Val.LsmKernel
import proofs.«114710_j78030965834312_1_alg».proof.Proof.Val.LsmSpec

noncomputable section

namespace Cert.Val

open Cert.KernelIdeal Idealize.ShloMosaic Idealize.ShloMosaic.ValueIdx

/-- Row `p` of the block through the kernel's log-softmax is row `i` of the array through the specification's. -/
theorem lsm_pay_eq
    (zb : Vec Ideal S5000x47 .f32) (z : Cert.Sp.Arr Ideal Cert.ReferenceIdeal.S100000x47 .f32)
    (p : Fin 5000) (i : Fin 100000) (hrow : ∀ k : Fin 47, zb (ix2 p k) = z (ix2 i k)) (j : Fin 47) :
    Cert.KernelIdeal.Gen.k11_pay1 (F := Ideal) zb (ix2 p j) = Cert.Sp.lsm (F := Ideal) z (ix2 i j) := by
  refine (k11_pay1_ix2 zb p j).trans ?_
  refine Eq.trans ?_ (lsm_ix2 z i j).symm
  exact congrArg (fun row => lsmRow row j) (funext hrow)

end Cert.Val

end
-- ==== Proof.Val.Arr11.lean ====
/-
  Region 11's output array after the region, as one function of the array the region finds: the row-wise
  log-softmax of the last iterate.  Point `t` of the grid holds rows `5000 t … 5000 t + 4999` (both windows'
  block index at `t` is `(t, 0)`); a row's result depends on that row alone, so a block's row `p` is the array's
  row `5000 t + p` through the same function; the twenty output blocks tile the array.
-/
import proofs.«114710_j78030965834312_1_alg».proof.Proof.KI.Dat11
import proofs.«114710_j78030965834312_1_alg».proof.Proof.Val.Lsm
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz11 : (![0, 0] : Fin 2 → Nat) = fun _ => 0 := funext fun a => by fin_cases a <;> rfl

/-- Both windows' block at point `t` is block `(t, 0)` of its array. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0 :=
  (by decide +kernel : ∀ t : Fin grid11.N, _)

/-- The array the region ends with: the log-softmax of the array it finds. -/
abbrev G11 (c : Dev nD) : Cert.Sp.Arr Ideal Cert.ReferenceIdeal.S100000x47 .f32 :=
  Cert.Sp.lsm (F := Ideal) (V c main_v170)

theorem row_lt11 (t : Fin cfg11.N) (p : Fin 5000) : t.val * 5000 + p.val < 100000 := by
  have hN : grid11.N = 20 := N_11
  have ht : t.val < grid11.N := t.isLt
  have hp := p.isLt
  omega

/-- What point `t` writes back is block `t` of the log-softmax of the array the region finds. -/
theorem flushed11_eq (c : Dev nD) (t : Fin cfg11.N) :
    (dat11 V c).flushed 1 t = ((cfg11.win 1).blk t).view.read (Elt Ideal) (G11 V c) := by
  show (cfg11.win 1).cut (grid11.coords t) ((dat11 V c).after 1 t) = _
  rw [after11_1]
  unfold out11
  rw [View.canon_unit_zero hz11]
  simp only [View.ld_unit_zero (S := S5000x47) hz11]
  obtain ⟨e00, e01, e10, e11⟩ := idx_facts11 t
  funext y
  obtain ⟨p, j, rfl⟩ : ∃ (p : Fin 5000) (j : Fin 47), y = ix2 p j := ⟨y 0, y 1, eq_ix2 y⟩
  have hI : ((cfg11.win 1).blk t).view.emb (ix2 p j) = ix2 (⟨t.val * 5000 + p.val, row_lt11 t p⟩ : Fin 100000) j := by
    funext a; apply Fin.ext
    match a with
    | ⟨0, _⟩ => show win11_1.index t (0 : Fin 2) * 5000 + 1 * p.val = t.val * 5000 + p.val; omega
    | ⟨1, _⟩ => show win11_1.index t (1 : Fin 2) * 47 + 1 * j.val = j.val; omega
  show Cert.KernelIdeal.Gen.k11_pay1 (F := Ideal) (iblk11 V c 0 t) (ix2 p j)
      = G11 V c (((cfg11.win 1).blk t).view.emb (ix2 p j))
  rw [hI]
  refine Cert.Val.lsm_pay_eq _ _ p ⟨t.val * 5000 + p.val, row_lt11 t p⟩ (fun k => ?_) j
  show V c main_v170 (((cfg11.win 0).blk t).view.emb (ix2 p k)) = V c main_v170 (ix2 (⟨t.val * 5000 + p.val, row_lt11 t p⟩ : Fin 100000) k)
  refine congrArg (V c main_v170) (funext fun a => Fin.ext ?_)
  match a with
  | ⟨0, _⟩ => show win11_0.index t (0 : Fin 2) * 5000 + 1 * p.val = t.val * 5000 + p.val; omega
  | ⟨1, _⟩ => show win11_0.index t (1 : Fin 2) * 47 + 1 * k.val = k.val; omega

theorem mem_blk11 (t : Fin cfg11.N) (i : S100000x47.Idx) :
    i ∈ ((cfg11.win 1).blk t).view.set ↔ ∀ a : Fin 2, win11_1.index t a * S5000x47.size a ≤ (i a).val ∧ (i a).val < win11_1.index t a * S5000x47.size a + S5000x47.size a := by
  show i ∈ ((View.whole main_v171).slice (win11_1.rect t)).set ↔ _
  rw [View.set_slice_whole, Rect.mem_set_unit]
  exact Iff.rfl

/-- Every row of the output array lies in the block of point `row / 5000`. -/
theorem cover11 (i : S100000x47.Idx) : ∃ t : Fin cfg11.N, (cfg11.win 1).flush t = true ∧ i ∈ ((cfg11.win 1).blk t).view.set := by
  have hi0 : (i 0).val < 100000 := (i 0).isLt
  have hi1 : (i 1).val < 47 := (i 1).isLt
  have hN : grid11.N = 20 := N_11
  have hlt : (i 0).val / 5000 < grid11.N := by rw [hN]; omega
  refine ⟨⟨(i 0).val / 5000, hlt⟩, flush11_1 _, ?_⟩
  rw [mem_blk11]
  obtain ⟨-, -, e10, e11⟩ := idx_facts11 ⟨(i 0).val / 5000, hlt⟩
  have e10' : win11_1.index ⟨(i 0).val / 5000, hlt⟩ (0 : Fin 2) = (i 0).val / 5000 := e10
  intro a
  match a with
  | ⟨0, _⟩ => show win11_1.index ⟨(i 0).val / 5000, hlt⟩ (0 : Fin 2) * 5000 ≤ (i 0).val ∧ (i 0).val < win11_1.index ⟨(i 0).val / 5000, hlt⟩ (0 : Fin 2) * 5000 + 5000; omega
  | ⟨1, _⟩ => show win11_1.index ⟨(i 0).val / 5000, hlt⟩ (1 : Fin 2) * 47 ≤ (i 1).val ∧ (i 1).val < win11_1.index ⟨(i 0).val / 5000, hlt⟩ (1 : Fin 2) * 47 + 47; omega

/-- The output array after the region: the log-softmax of the array the region finds, everywhere. -/
theorem final11 (c : Dev nD) : (dat11 V c).arrAt 1 cfg11.N = G11 V c :=
  (dat11 V c).arrAt_eq_of_cover 1 (G11 V c) (fun t _ => flushed11_eq V c t) cover11

end Cert.KernelIdeal.Val

end
-- ==== Proof.Val.Compose.lean ====
/-
  The kernel program's result buffer as the specification's function of the six arguments.  @main is 23 items —
  a host stretch, the dense layers, then ten times a host stretch (the neighbour sum) and a blend, then the
  log-softmax —, and between two items the buffers hold the contents the frame names `V0 … V23`.  Walking them in
  order: the stretches write the bias rows, the graph's constants and each neighbour sum as the specification's
  pieces of what they read; each region leaves in its output buffer the dense layers, the blend, or the
  log-softmax of what it finds; and an item leaves every buffer it does not write as it was, so the dense layers'
  output, the endpoints, the edge weights and the self-loop column reach every later item unchanged.  After the
  K-th blend the iterate's buffer holds `step^K h`, and the last region's output the log-softmax of `step^10 h`.
-/
import proofs.«114710_j78030965834312_1_alg».proof.Proof.KI.Chain
import proofs.«114710_j78030965834312_1_alg».proof.Proof.Val.Stretch
import proofs.«114710_j78030965834312_1_alg».proof.Proof.Val.Arr0
import proofs.«114710_j78030965834312_1_alg».proof.Proof.Val.Arr1
import proofs.«114710_j78030965834312_1_alg».proof.Proof.Val.Arr2
import proofs.«114710_j78030965834312_1_alg».proof.Proof.Val.Arr3
import proofs.«114710_j78030965834312_1_alg».proof.Proof.Val.Arr4
import proofs.«114710_j78030965834312_1_alg».proof.Proof.Val.Arr5
import proofs.«114710_j78030965834312_1_alg».proof.Proof.Val.Arr6
import proofs.«114710_j78030965834312_1_alg».proof.Proof.Val.Arr7
import proofs.«114710_j78030965834312_1_alg».proof.Proof.Val.Arr8
import proofs.«114710_j78030965834312_1_alg».proof.Proof.Val.Arr9
import proofs.«114710_j78030965834312_1_alg».proof.Proof.Val.Arr10
import proofs.«114710_j78030965834312_1_alg».proof.Proof.Val.Arr11

set_option maxRecDepth 16384

noncomputable section

namespace Cert.KernelIdeal.Val

open Cert.KernelIdeal Cert.KernelIdeal.Gen Cert.KernelIdeal.Fr
open Idealize.ShloMosaic Idealize.ShloMosaic.TcCoe
open Idealize.SL.Sem

variable (m : (ℓ : Loc nD τ sig) → Buf (Elt Ideal) ℓ) (c : Dev nD)

/-! ## The specification's pieces of the launch memory -/

/-- The edge list's sources and targets, the edge weights, the self-loop column, the dense layers' output. -/
def src : Cert.Sp.Arr Ideal Cert.ReferenceIdeal.S1600000 .i32 := Cert.Sp.srcOf (m ((c : Thread nD τ).loc main_arg1))
def dst : Cert.Sp.Arr Ideal Cert.ReferenceIdeal.S1600000 .i32 := Cert.Sp.dstOf (m ((c : Thread nD τ).loc main_arg1))
def ew : Cert.Sp.Arr Ideal Cert.ReferenceIdeal.S1600000 .f32 := Cert.Sp.ewOf (src m c) (dst m c)
def sw : Cert.Sp.Arr Ideal Cert.ReferenceIdeal.S100000x1 .f32 := Cert.Sp.swOf (dst m c)
def hh : Cert.Sp.Arr Ideal Cert.ReferenceIdeal.S100000x47 .f32 :=
  Cert.Sp.hid (m ((c : Thread nD τ).loc main_arg0)) (m ((c : Thread nD τ).loc main_arg2)) (m ((c : Thread nD τ).loc main_arg3))
    (m ((c : Thread nD τ).loc main_arg4)) (m ((c : Thread nD τ).loc main_arg5))
/-- The iterate after `k` propagation steps. -/
def zz (k : ℕ) : Cert.Sp.Arr Ideal Cert.ReferenceIdeal.S100000x47 .f32 :=
  (Cert.Sp.step (src m c) (dst m c) (ew m c) (sw m c) (hh m c))^[k] (hh m c)

theorem zz_zero : zz m c 0 = hh m c := rfl
theorem zz_succ (k : ℕ) : zz m c (k + 1)
    = Cert.Sp.blend (Cert.Sp.agg (src m c) (dst m c) (ew m c) (zz m c k)) (sw m c) (zz m c k) (hh m c) :=
  Function.iterate_succ_apply' _ _ _
theorem final_eq : Cert.Sp.final (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    = Cert.Sp.lsm (zz m c 10) := rfl

/-! ## After the first stretch: the bias rows; the arguments untouched -/

theorem s1_b1 : Gen.V1 m c main_v0 = shapeCast _ (m ((c : Thread nD τ).loc main_arg3)) shapeCasts_S256_S1x256 :=
  stretch0_b1 (Gen.V0 m c)
theorem s1_b2 : Gen.V1 m c main_v1 = shapeCast _ (m ((c : Thread nD τ).loc main_arg5)) shapeCasts_S47_S1x47 :=
  stretch0_b2 (Gen.V0 m c)
theorem s1_arg0 : Gen.V1 m c main_arg0 = m ((c : Thread nD τ).loc main_arg0) := Gen.V1_of m c main_arg0 (by decide)
theorem s1_arg1 : Gen.V1 m c main_arg1 = m ((c : Thread nD τ).loc main_arg1) := Gen.V1_of m c main_arg1 (by decide)
theorem s1_arg2 : Gen.V1 m c main_arg2 = m ((c : Thread nD τ).loc main_arg2) := Gen.V1_of m c main_arg2 (by decide)
theorem s1_arg4 : Gen.V1 m c main_arg4 = m ((c : Thread nD τ).loc main_arg4) := Gen.V1_of m c main_arg4 (by decide)

/-! ## After the dense layers -/

theorem s2_h : Gen.V2 m (outs m) c main_v2 = hh m c := by
  rw [V_out0, final0 (fun c b => Gen.V1 m c b) c _ _ (s1_b1 m c) (s1_b2 m c)]
  show Cert.Sp.hid (Gen.V1 m c main_arg0) (Gen.V1 m c main_arg2) _ (Gen.V1 m c main_arg4) _ = _
  rw [s1_arg0, s1_arg2, s1_arg4]
  rfl
theorem s2_arg1 : Gen.V2 m (outs m) c main_arg1 = m ((c : Thread nD τ).loc main_arg1) :=
  (Gen.V2_of m (outs m) c main_arg1 (by decide)).trans (s1_arg1 m c)

/-! ## After the second stretch: the graph's constants and the first neighbour sum -/

theorem s3_src : Gen.V3 m (outs m) c main_v4 = src m c := by
  rw [show Gen.V3 m (outs m) c main_v4 = _ from stretch1_src (Gen.V2 m (outs m) c), s2_arg1]; rfl
theorem s3_dst : Gen.V3 m (outs m) c main_v6 = dst m c := by
  rw [show Gen.V3 m (outs m) c main_v6 = _ from stretch1_dst (Gen.V2 m (outs m) c), s2_arg1]; rfl
theorem s3_ew : Gen.V3 m (outs m) c main_v28 = ew m c := by
  rw [show Gen.V3 m (outs m) c main_v28 = _ from stretch1_ew (Gen.V2 m (outs m) c), s2_arg1]; rfl
theorem s3_sw : Gen.V3 m (outs m) c main_v30 = sw m c := by
  rw [show Gen.V3 m (outs m) c main_v30 = _ from stretch1_sw (Gen.V2 m (outs m) c), s2_arg1]; rfl
theorem s3_h : Gen.V3 m (outs m) c main_v2 = hh m c := (Gen.V3_of m (outs m) c main_v2 (by decide)).trans (s2_h m c)
theorem s3_agg : Gen.V3 m (outs m) c main_v43 = Cert.Sp.agg (src m c) (dst m c) (ew m c) (zz m c 0) := by
  rw [show Gen.V3 m (outs m) c main_v43 = _ from stretch1_agg (Gen.V2 m (outs m) c), s2_arg1, s2_h]; rfl

/-! ## After blend 1 -/

theorem s4_z : Gen.V4 m (outs m) c main_v44 = zz m c 1 := by
  rw [V_out1, final1 (fun c b => Gen.V3 m (outs m) c b) c]
  show Cert.Sp.blend (Gen.V3 m (outs m) c main_v43) (Gen.V3 m (outs m) c main_v30) (Gen.V3 m (outs m) c main_v2) (Gen.V3 m (outs m) c main_v2) = _
  rw [s3_agg, s3_sw, s3_h]
  exact (zz_succ m c 0).symm
theorem s4_h : Gen.V4 m (outs m) c main_v2 = hh m c := (Gen.V4_of m (outs m) c main_v2 (by decide)).trans (s3_h m c)
theorem s4_src : Gen.V4 m (outs m) c main_v4 = src m c := (Gen.V4_of m (outs m) c main_v4 (by decide)).trans (s3_src m c)
theorem s4_dst : Gen.V4 m (outs m) c main_v6 = dst m c := (Gen.V4_of m (outs m) c main_v6 (by decide)).trans (s3_dst m c)
theorem s4_ew : Gen.V4 m (outs m) c main_v28 = ew m c := (Gen.V4_of m (outs m) c main_v28 (by decide)).trans (s3_ew m c)
theorem s4_sw : Gen.V4 m (outs m) c main_v30 = sw m c := (Gen.V4_of m (outs m) c main_v30 (by decide)).trans (s3_sw m c)

/-! ## After the stretch before blend 2: the next neighbour sum -/

theorem s5_agg : Gen.V5 m (outs m) c main_v57 = Cert.Sp.agg (src m c) (dst m c) (ew m c) (zz m c 1) := by
  rw [show Gen.V5 m (outs m) c main_v57 = _ from stretch2_agg (Gen.V4 m (outs m) c), s4_src, s4_dst, s4_ew, s4_z]
theorem s5_h : Gen.V5 m (outs m) c main_v2 = hh m c := (Gen.V5_of m (outs m) c main_v2 (by decide)).trans (s4_h m c)
theorem s5_src : Gen.V5 m (outs m) c main_v4 = src m c := (Gen.V5_of m (outs m) c main_v4 (by decide)).trans (s4_src m c)
theorem s5_dst : Gen.V5 m (outs m) c main_v6 = dst m c := (Gen.V5_of m (outs m) c main_v6 (by decide)).trans (s4_dst m c)
theorem s5_ew : Gen.V5 m (outs m) c main_v28 = ew m c := (Gen.V5_of m (outs m) c main_v28 (by decide)).trans (s4_ew m c)
theorem s5_sw : Gen.V5 m (outs m) c main_v30 = sw m c := (Gen.V5_of m (outs m) c main_v30 (by decide)).trans (s4_sw m c)
theorem s5_z : Gen.V5 m (outs m) c main_v44 = zz m c 1 := (Gen.V5_of m (outs m) c main_v44 (by decide)).trans (s4_z m c)

/-! ## After blend 2 -/

theorem s6_z : Gen.V6 m (outs m) c main_v58 = zz m c 2 := by
  rw [V_out2, final2 (fun c b => Gen.V5 m (outs m) c b) c]
  show Cert.Sp.blend (Gen.V5 m (outs m) c main_v57) (Gen.V5 m (outs m) c main_v30) (Gen.V5 m (outs m) c main_v44) (Gen.V5 m (outs m) c main_v2) = _
  rw [s5_agg, s5_sw, s5_z, s5_h]
  exact (zz_succ m c 1).symm
theorem s6_h : Gen.V6 m (outs m) c main_v2 = hh m c := (Gen.V6_of m (outs m) c main_v2 (by decide)).trans (s5_h m c)
theorem s6_src : Gen.V6 m (outs m) c main_v4 = src m c := (Gen.V6_of m (outs m) c main_v4 (by decide)).trans (s5_src m c)
theorem s6_dst : Gen.V6 m (outs m) c main_v6 = dst m c := (Gen.V6_of m (outs m) c main_v6 (by decide)).trans (s5_dst m c)
theorem s6_ew : Gen.V6 m (outs m) c main_v28 = ew m c := (Gen.V6_of m (outs m) c main_v28 (by decide)).trans (s5_ew m c)
theorem s6_sw : Gen.V6 m (outs m) c main_v30 = sw m c := (Gen.V6_of m (outs m) c main_v30 (by decide)).trans (s5_sw m c)

/-! ## After the stretch before blend 3: the next neighbour sum -/

theorem s7_agg : Gen.V7 m (outs m) c main_v71 = Cert.Sp.agg (src m c) (dst m c) (ew m c) (zz m c 2) := by
  rw [show Gen.V7 m (outs m) c main_v71 = _ from stretch3_agg (Gen.V6 m (outs m) c), s6_src, s6_dst, s6_ew, s6_z]
theorem s7_h : Gen.V7 m (outs m) c main_v2 = hh m c := (Gen.V7_of m (outs m) c main_v2 (by decide)).trans (s6_h m c)
theorem s7_src : Gen.V7 m (outs m) c main_v4 = src m c := (Gen.V7_of m (outs m) c main_v4 (by decide)).trans (s6_src m c)
theorem s7_dst : Gen.V7 m (outs m) c main_v6 = dst m c := (Gen.V7_of m (outs m) c main_v6 (by decide)).trans (s6_dst m c)
theorem s7_ew : Gen.V7 m (outs m) c main_v28 = ew m c := (Gen.V7_of m (outs m) c main_v28 (by decide)).trans (s6_ew m c)
theorem s7_sw : Gen.V7 m (outs m) c main_v30 = sw m c := (Gen.V7_of m (outs m) c main_v30 (by decide)).trans (s6_sw m c)
theorem s7_z : Gen.V7 m (outs m) c main_v58 = zz m c 2 := (Gen.V7_of m (outs m) c main_v58 (by decide)).trans (s6_z m c)

/-! ## After blend 3 -/

theorem s8_z : Gen.V8 m (outs m) c main_v72 = zz m c 3 := by
  rw [V_out3, final3 (fun c b => Gen.V7 m (outs m) c b) c]
  show Cert.Sp.blend (Gen.V7 m (outs m) c main_v71) (Gen.V7 m (outs m) c main_v30) (Gen.V7 m (outs m) c main_v58) (Gen.V7 m (outs m) c main_v2) = _
  rw [s7_agg, s7_sw, s7_z, s7_h]
  exact (zz_succ m c 2).symm
theorem s8_h : Gen.V8 m (outs m) c main_v2 = hh m c := (Gen.V8_of m (outs m) c main_v2 (by decide)).trans (s7_h m c)
theorem s8_src : Gen.V8 m (outs m) c main_v4 = src m c := (Gen.V8_of m (outs m) c main_v4 (by decide)).trans (s7_src m c)
theorem s8_dst : Gen.V8 m (outs m) c main_v6 = dst m c := (Gen.V8_of m (outs m) c main_v6 (by decide)).trans (s7_dst m c)
theorem s8_ew : Gen.V8 m (outs m) c main_v28 = ew m c := (Gen.V8_of m (outs m) c main_v28 (by decide)).trans (s7_ew m c)
theorem s8_sw : Gen.V8 m (outs m) c main_v30 = sw m c := (Gen.V8_of m (outs m) c main_v30 (by decide)).trans (s7_sw m c)

/-! ## After the stretch before blend 4: the next neighbour sum -/

theorem s9_agg : Gen.V9 m (outs m) c main_v85 = Cert.Sp.agg (src m c) (dst m c) (ew m c) (zz m c 3) := by
  rw [show Gen.V9 m (outs m) c main_v85 = _ from stretch4_agg (Gen.V8 m (outs m) c), s8_src, s8_dst, s8_ew, s8_z]
theorem s9_h : Gen.V9 m (outs m) c main_v2 = hh m c := (Gen.V9_of m (outs m) c main_v2 (by decide)).trans (s8_h m c)
theorem s9_src : Gen.V9 m (outs m) c main_v4 = src m c := (Gen.V9_of m (outs m) c main_v4 (by decide)).trans (s8_src m c)
theorem s9_dst : Gen.V9 m (outs m) c main_v6 = dst m c := (Gen.V9_of m (outs m) c main_v6 (by decide)).trans (s8_dst m c)
theorem s9_ew : Gen.V9 m (outs m) c main_v28 = ew m c := (Gen.V9_of m (outs m) c main_v28 (by decide)).trans (s8_ew m c)
theorem s9_sw : Gen.V9 m (outs m) c main_v30 = sw m c := (Gen.V9_of m (outs m) c main_v30 (by decide)).trans (s8_sw m c)
theorem s9_z : Gen.V9 m (outs m) c main_v72 = zz m c 3 := (Gen.V9_of m (outs m) c main_v72 (by decide)).trans (s8_z m c)

/-! ## After blend 4 -/

theorem s10_z : Gen.V10 m (outs m) c main_v86 = zz m c 4 := by
  rw [V_out4, final4 (fun c b => Gen.V9 m (outs m) c b) c]
  show Cert.Sp.blend (Gen.V9 m (outs m) c main_v85) (Gen.V9 m (outs m) c main_v30) (Gen.V9 m (outs m) c main_v72) (Gen.V9 m (outs m) c main_v2) = _
  rw [s9_agg, s9_sw, s9_z, s9_h]
  exact (zz_succ m c 3).symm
theorem s10_h : Gen.V10 m (outs m) c main_v2 = hh m c := (Gen.V10_of m (outs m) c main_v2 (by decide)).trans (s9_h m c)
theorem s10_src : Gen.V10 m (outs m) c main_v4 = src m c := (Gen.V10_of m (outs m) c main_v4 (by decide)).trans (s9_src m c)
theorem s10_dst : Gen.V10 m (outs m) c main_v6 = dst m c := (Gen.V10_of m (outs m) c main_v6 (by decide)).trans (s9_dst m c)
theorem s10_ew : Gen.V10 m (outs m) c main_v28 = ew m c := (Gen.V10_of m (outs m) c main_v28 (by decide)).trans (s9_ew m c)
theorem s10_sw : Gen.V10 m (outs m) c main_v30 = sw m c := (Gen.V10_of m (outs m) c main_v30 (by decide)).trans (s9_sw m c)

/-! ## After the stretch before blend 5: the next neighbour sum -/

theorem s11_agg : Gen.V11 m (outs m) c main_v99 = Cert.Sp.agg (src m c) (dst m c) (ew m c) (zz m c 4) := by
  rw [show Gen.V11 m (outs m) c main_v99 = _ from stretch5_agg (Gen.V10 m (outs m) c), s10_src, s10_dst, s10_ew, s10_z]
theorem s11_h : Gen.V11 m (outs m) c main_v2 = hh m c := (Gen.V11_of m (outs m) c main_v2 (by decide)).trans (s10_h m c)
theorem s11_src : Gen.V11 m (outs m) c main_v4 = src m c := (Gen.V11_of m (outs m) c main_v4 (by decide)).trans (s10_src m c)
theorem s11_dst : Gen.V11 m (outs m) c main_v6 = dst m c := (Gen.V11_of m (outs m) c main_v6 (by decide)).trans (s10_dst m c)
theorem s11_ew : Gen.V11 m (outs m) c main_v28 = ew m c := (Gen.V11_of m (outs m) c main_v28 (by decide)).trans (s10_ew m c)
theorem s11_sw : Gen.V11 m (outs m) c main_v30 = sw m c := (Gen.V11_of m (outs m) c main_v30 (by decide)).trans (s10_sw m c)
theorem s11_z : Gen.V11 m (outs m) c main_v86 = zz m c 4 := (Gen.V11_of m (outs m) c main_v86 (by decide)).trans (s10_z m c)

/-! ## After blend 5 -/

theorem s12_z : Gen.V12 m (outs m) c main_v100 = zz m c 5 := by
  rw [V_out5, final5 (fun c b => Gen.V11 m (outs m) c b) c]
  show Cert.Sp.blend (Gen.V11 m (outs m) c main_v99) (Gen.V11 m (outs m) c main_v30) (Gen.V11 m (outs m) c main_v86) (Gen.V11 m (outs m) c main_v2) = _
  rw [s11_agg, s11_sw, s11_z, s11_h]
  exact (zz_succ m c 4).symm
theorem s12_h : Gen.V12 m (outs m) c main_v2 = hh m c := (Gen.V12_of m (outs m) c main_v2 (by decide)).trans (s11_h m c)
theorem s12_src : Gen.V12 m (outs m) c main_v4 = src m c := (Gen.V12_of m (outs m) c main_v4 (by decide)).trans (s11_src m c)
theorem s12_dst : Gen.V12 m (outs m) c main_v6 = dst m c := (Gen.V12_of m (outs m) c main_v6 (by decide)).trans (s11_dst m c)
theorem s12_ew : Gen.V12 m (outs m) c main_v28 = ew m c := (Gen.V12_of m (outs m) c main_v28 (by decide)).trans (s11_ew m c)
theorem s12_sw : Gen.V12 m (outs m) c main_v30 = sw m c := (Gen.V12_of m (outs m) c main_v30 (by decide)).trans (s11_sw m c)

/-! ## After the stretch before blend 6: the next neighbour sum -/

theorem s13_agg : Gen.V13 m (outs m) c main_v113 = Cert.Sp.agg (src m c) (dst m c) (ew m c) (zz m c 5) := by
  rw [show Gen.V13 m (outs m) c main_v113 = _ from stretch6_agg (Gen.V12 m (outs m) c), s12_src, s12_dst, s12_ew, s12_z]
theorem s13_h : Gen.V13 m (outs m) c main_v2 = hh m c := (Gen.V13_of m (outs m) c main_v2 (by decide)).trans (s12_h m c)
theorem s13_src : Gen.V13 m (outs m) c main_v4 = src m c := (Gen.V13_of m (outs m) c main_v4 (by decide)).trans (s12_src m c)
theorem s13_dst : Gen.V13 m (outs m) c main_v6 = dst m c := (Gen.V13_of m (outs m) c main_v6 (by decide)).trans (s12_dst m c)
theorem s13_ew : Gen.V13 m (outs m) c main_v28 = ew m c := (Gen.V13_of m (outs m) c main_v28 (by decide)).trans (s12_ew m c)
theorem s13_sw : Gen.V13 m (outs m) c main_v30 = sw m c := (Gen.V13_of m (outs m) c main_v30 (by decide)).trans (s12_sw m c)
theorem s13_z : Gen.V13 m (outs m) c main_v100 = zz m c 5 := (Gen.V13_of m (outs m) c main_v100 (by decide)).trans (s12_z m c)

/-! ## After blend 6 -/

theorem s14_z : Gen.V14 m (outs m) c main_v114 = zz m c 6 := by
  rw [V_out6, final6 (fun c b => Gen.V13 m (outs m) c b) c]
  show Cert.Sp.blend (Gen.V13 m (outs m) c main_v113) (Gen.V13 m (outs m) c main_v30) (Gen.V13 m (outs m) c main_v100) (Gen.V13 m (outs m) c main_v2) = _
  rw [s13_agg, s13_sw, s13_z, s13_h]
  exact (zz_succ m c 5).symm
theorem s14_h : Gen.V14 m (outs m) c main_v2 = hh m c := (Gen.V14_of m (outs m) c main_v2 (by decide)).trans (s13_h m c)
theorem s14_src : Gen.V14 m (outs m) c main_v4 = src m c := (Gen.V14_of m (outs m) c main_v4 (by decide)).trans (s13_src m c)
theorem s14_dst : Gen.V14 m (outs m) c main_v6 = dst m c := (Gen.V14_of m (outs m) c main_v6 (by decide)).trans (s13_dst m c)
theorem s14_ew : Gen.V14 m (outs m) c main_v28 = ew m c := (Gen.V14_of m (outs m) c main_v28 (by decide)).trans (s13_ew m c)
theorem s14_sw : Gen.V14 m (outs m) c main_v30 = sw m c := (Gen.V14_of m (outs m) c main_v30 (by decide)).trans (s13_sw m c)

/-! ## After the stretch before blend 7: the next neighbour sum -/

theorem s15_agg : Gen.V15 m (outs m) c main_v127 = Cert.Sp.agg (src m c) (dst m c) (ew m c) (zz m c 6) := by
  rw [show Gen.V15 m (outs m) c main_v127 = _ from stretch7_agg (Gen.V14 m (outs m) c), s14_src, s14_dst, s14_ew, s14_z]
theorem s15_h : Gen.V15 m (outs m) c main_v2 = hh m c := (Gen.V15_of m (outs m) c main_v2 (by decide)).trans (s14_h m c)
theorem s15_src : Gen.V15 m (outs m) c main_v4 = src m c := (Gen.V15_of m (outs m) c main_v4 (by decide)).trans (s14_src m c)
theorem s15_dst : Gen.V15 m (outs m) c main_v6 = dst m c := (Gen.V15_of m (outs m) c main_v6 (by decide)).trans (s14_dst m c)
theorem s15_ew : Gen.V15 m (outs m) c main_v28 = ew m c := (Gen.V15_of m (outs m) c main_v28 (by decide)).trans (s14_ew m c)
theorem s15_sw : Gen.V15 m (outs m) c main_v30 = sw m c := (Gen.V15_of m (outs m) c main_v30 (by decide)).trans (s14_sw m c)
theorem s15_z : Gen.V15 m (outs m) c main_v114 = zz m c 6 := (Gen.V15_of m (outs m) c main_v114 (by decide)).trans (s14_z m c)

/-! ## After blend 7 -/

theorem s16_z : Gen.V16 m (outs m) c main_v128 = zz m c 7 := by
  rw [V_out7, final7 (fun c b => Gen.V15 m (outs m) c b) c]
  show Cert.Sp.blend (Gen.V15 m (outs m) c main_v127) (Gen.V15 m (outs m) c main_v30) (Gen.V15 m (outs m) c main_v114) (Gen.V15 m (outs m) c main_v2) = _
  rw [s15_agg, s15_sw, s15_z, s15_h]
  exact (zz_succ m c 6).symm
theorem s16_h : Gen.V16 m (outs m) c main_v2 = hh m c := (Gen.V16_of m (outs m) c main_v2 (by decide)).trans (s15_h m c)
theorem s16_src : Gen.V16 m (outs m) c main_v4 = src m c := (Gen.V16_of m (outs m) c main_v4 (by decide)).trans (s15_src m c)
theorem s16_dst : Gen.V16 m (outs m) c main_v6 = dst m c := (Gen.V16_of m (outs m) c main_v6 (by decide)).trans (s15_dst m c)
theorem s16_ew : Gen.V16 m (outs m) c main_v28 = ew m c := (Gen.V16_of m (outs m) c main_v28 (by decide)).trans (s15_ew m c)
theorem s16_sw : Gen.V16 m (outs m) c main_v30 = sw m c := (Gen.V16_of m (outs m) c main_v30 (by decide)).trans (s15_sw m c)

/-! ## After the stretch before blend 8: the next neighbour sum -/

theorem s17_agg : Gen.V17 m (outs m) c main_v141 = Cert.Sp.agg (src m c) (dst m c) (ew m c) (zz m c 7) := by
  rw [show Gen.V17 m (outs m) c main_v141 = _ from stretch8_agg (Gen.V16 m (outs m) c), s16_src, s16_dst, s16_ew, s16_z]
theorem s17_h : Gen.V17 m (outs m) c main_v2 = hh m c := (Gen.V17_of m (outs m) c main_v2 (by decide)).trans (s16_h m c)
theorem s17_src : Gen.V17 m (outs m) c main_v4 = src m c := (Gen.V17_of m (outs m) c main_v4 (by decide)).trans (s16_src m c)
theorem s17_dst : Gen.V17 m (outs m) c main_v6 = dst m c := (Gen.V17_of m (outs m) c main_v6 (by decide)).trans (s16_dst m c)
theorem s17_ew : Gen.V17 m (outs m) c main_v28 = ew m c := (Gen.V17_of m (outs m) c main_v28 (by decide)).trans (s16_ew m c)
theorem s17_sw : Gen.V17 m (outs m) c main_v30 = sw m c := (Gen.V17_of m (outs m) c main_v30 (by decide)).trans (s16_sw m c)
theorem s17_z : Gen.V17 m (outs m) c main_v128 = zz m c 7 := (Gen.V17_of m (outs m) c main_v128 (by decide)).trans (s16_z m c)

/-! ## After blend 8 -/

theorem s18_z : Gen.V18 m (outs m) c main_v142 = zz m c 8 := by
  rw [V_out8, final8 (fun c b => Gen.V17 m (outs m) c b) c]
  show Cert.Sp.blend (Gen.V17 m (outs m) c main_v141) (Gen.V17 m (outs m) c main_v30) (Gen.V17 m (outs m) c main_v128) (Gen.V17 m (outs m) c main_v2) = _
  rw [s17_agg, s17_sw, s17_z, s17_h]
  exact (zz_succ m c 7).symm
theorem s18_h : Gen.V18 m (outs m) c main_v2 = hh m c := (Gen.V18_of m (outs m) c main_v2 (by decide)).trans (s17_h m c)
theorem s18_src : Gen.V18 m (outs m) c main_v4 = src m c := (Gen.V18_of m (outs m) c main_v4 (by decide)).trans (s17_src m c)
theorem s18_dst : Gen.V18 m (outs m) c main_v6 = dst m c := (Gen.V18_of m (outs m) c main_v6 (by decide)).trans (s17_dst m c)
theorem s18_ew : Gen.V18 m (outs m) c main_v28 = ew m c := (Gen.V18_of m (outs m) c main_v28 (by decide)).trans (s17_ew m c)
theorem s18_sw : Gen.V18 m (outs m) c main_v30 = sw m c := (Gen.V18_of m (outs m) c main_v30 (by decide)).trans (s17_sw m c)

/-! ## After the stretch before blend 9: the next neighbour sum -/

theorem s19_agg : Gen.V19 m (outs m) c main_v155 = Cert.Sp.agg (src m c) (dst m c) (ew m c) (zz m c 8) := by
  rw [show Gen.V19 m (outs m) c main_v155 = _ from stretch9_agg (Gen.V18 m (outs m) c), s18_src, s18_dst, s18_ew, s18_z]
theorem s19_h : Gen.V19 m (outs m) c main_v2 = hh m c := (Gen.V19_of m (outs m) c main_v2 (by decide)).trans (s18_h m c)
theorem s19_src : Gen.V19 m (outs m) c main_v4 = src m c := (Gen.V19_of m (outs m) c main_v4 (by decide)).trans (s18_src m c)
theorem s19_dst : Gen.V19 m (outs m) c main_v6 = dst m c := (Gen.V19_of m (outs m) c main_v6 (by decide)).trans (s18_dst m c)
theorem s19_ew : Gen.V19 m (outs m) c main_v28 = ew m c := (Gen.V19_of m (outs m) c main_v28 (by decide)).trans (s18_ew m c)
theorem s19_sw : Gen.V19 m (outs m) c main_v30 = sw m c := (Gen.V19_of m (outs m) c main_v30 (by decide)).trans (s18_sw m c)
theorem s19_z : Gen.V19 m (outs m) c main_v142 = zz m c 8 := (Gen.V19_of m (outs m) c main_v142 (by decide)).trans (s18_z m c)

/-! ## After blend 9 -/

theorem s20_z : Gen.V20 m (outs m) c main_v156 = zz m c 9 := by
  rw [V_out9, final9 (fun c b => Gen.V19 m (outs m) c b) c]
  show Cert.Sp.blend (Gen.V19 m (outs m) c main_v155) (Gen.V19 m (outs m) c main_v30) (Gen.V19 m (outs m) c main_v142) (Gen.V19 m (outs m) c main_v2) = _
  rw [s19_agg, s19_sw, s19_z, s19_h]
  exact (zz_succ m c 8).symm
theorem s20_h : Gen.V20 m (outs m) c main_v2 = hh m c := (Gen.V20_of m (outs m) c main_v2 (by decide)).trans (s19_h m c)
theorem s20_src : Gen.V20 m (outs m) c main_v4 = src m c := (Gen.V20_of m (outs m) c main_v4 (by decide)).trans (s19_src m c)
theorem s20_dst : Gen.V20 m (outs m) c main_v6 = dst m c := (Gen.V20_of m (outs m) c main_v6 (by decide)).trans (s19_dst m c)
theorem s20_ew : Gen.V20 m (outs m) c main_v28 = ew m c := (Gen.V20_of m (outs m) c main_v28 (by decide)).trans (s19_ew m c)
theorem s20_sw : Gen.V20 m (outs m) c main_v30 = sw m c := (Gen.V20_of m (outs m) c main_v30 (by decide)).trans (s19_sw m c)

/-! ## After the stretch before blend 10: the next neighbour sum -/

theorem s21_agg : Gen.V21 m (outs m) c main_v169 = Cert.Sp.agg (src m c) (dst m c) (ew m c) (zz m c 9) := by
  rw [show Gen.V21 m (outs m) c main_v169 = _ from stretch10_agg (Gen.V20 m (outs m) c), s20_src, s20_dst, s20_ew, s20_z]
theorem s21_h : Gen.V21 m (outs m) c main_v2 = hh m c := (Gen.V21_of m (outs m) c main_v2 (by decide)).trans (s20_h m c)
theorem s21_src : Gen.V21 m (outs m) c main_v4 = src m c := (Gen.V21_of m (outs m) c main_v4 (by decide)).trans (s20_src m c)
theorem s21_dst : Gen.V21 m (outs m) c main_v6 = dst m c := (Gen.V21_of m (outs m) c main_v6 (by decide)).trans (s20_dst m c)
theorem s21_ew : Gen.V21 m (outs m) c main_v28 = ew m c := (Gen.V21_of m (outs m) c main_v28 (by decide)).trans (s20_ew m c)
theorem s21_sw : Gen.V21 m (outs m) c main_v30 = sw m c := (Gen.V21_of m (outs m) c main_v30 (by decide)).trans (s20_sw m c)
theorem s21_z : Gen.V21 m (outs m) c main_v156 = zz m c 9 := (Gen.V21_of m (outs m) c main_v156 (by decide)).trans (s20_z m c)

/-! ## After blend 10 -/

theorem s22_z : Gen.V22 m (outs m) c main_v170 = zz m c 10 := by
  rw [V_out10, final10 (fun c b => Gen.V21 m (outs m) c b) c]
  show Cert.Sp.blend (Gen.V21 m (outs m) c main_v169) (Gen.V21 m (outs m) c main_v30) (Gen.V21 m (outs m) c main_v156) (Gen.V21 m (outs m) c main_v2) = _
  rw [s21_agg, s21_sw, s21_z, s21_h]
  exact (zz_succ m c 9).symm
theorem s22_h : Gen.V22 m (outs m) c main_v2 = hh m c := (Gen.V22_of m (outs m) c main_v2 (by decide)).trans (s21_h m c)
theorem s22_src : Gen.V22 m (outs m) c main_v4 = src m c := (Gen.V22_of m (outs m) c main_v4 (by decide)).trans (s21_src m c)
theorem s22_dst : Gen.V22 m (outs m) c main_v6 = dst m c := (Gen.V22_of m (outs m) c main_v6 (by decide)).trans (s21_dst m c)
theorem s22_ew : Gen.V22 m (outs m) c main_v28 = ew m c := (Gen.V22_of m (outs m) c main_v28 (by decide)).trans (s21_ew m c)
theorem s22_sw : Gen.V22 m (outs m) c main_v30 = sw m c := (Gen.V22_of m (outs m) c main_v30 (by decide)).trans (s21_sw m c)

/-! ## After the log-softmax: the result -/

/-- The result buffer after @main's last item holds the specification's function of the six arguments. -/
theorem result_eq : Gen.V23 m (outs m) c main_v171
    = Cert.Sp.final (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [V_out11, final11 (fun c b => Gen.V22 m (outs m) c b) c, final_eq]
  show Cert.Sp.lsm (Gen.V22 m (outs m) c main_v170) = _
  rw [s22_z]

end Cert.KernelIdeal.Val

end
-- ==== Proof.lean ====
/-
  The claim: the kernel program (twelve kernel regions among host stretches) and the plain reference compute the
  same APPNP forward pass on the extended reals, and all three programs run to the end without a fault and leave
  their arguments as launched.

  Frames.  The kernel program's frame is written once for any float instance — per region the body's triple and
  the region's record, then the run over the frame's conditional theorem — and read at the words for the
  program as printed and at the extended reals for its idealization.  The reference has no kernel: its run is the
  fold of its host operations over the launch memory.

  Idealization.  The ideal pass rewrote nothing, so there is nothing to preserve.

  Values.  Both programs end with the specification's one function of the six arguments (`Cert.Sp.final`): the two
  dense layers, ten propagation steps `z ↦ 0.9 · (agg z + w · z) + 0.1 · h` whose neighbour sum is the same host
  gather / scatter-add on both sides, and a row-wise log-softmax.  On the kernel side each region's output array
  is that piece of the arrays the region finds, block by block (a block's row is an array's row through the same
  function) and the blocks tile the array; on the reference side the pieces are its host operations themselves.
  The only law used beyond reading operations at an index is `max (−∞) x = x`, for the reference's extra maximum
  against −∞ in its log-softmax; no finiteness of the inputs is needed.
-/
import proofs.«114710_j78030965834312_1_alg».proof.Defs
import proofs.«114710_j78030965834312_1_alg».proof.Proof.Gen.Kernel
import proofs.«114710_j78030965834312_1_alg».proof.Proof.Gen.KernelIdeal
import proofs.«114710_j78030965834312_1_alg».proof.Proof.Gen.ReferenceIdeal
import proofs.«114710_j78030965834312_1_alg».proof.Proof.Gen.Pre_finite_inputs
import proofs.«114710_j78030965834312_1_alg».proof.Proof.K.Run
import proofs.«114710_j78030965834312_1_alg».proof.Proof.KI.Run
import proofs.«114710_j78030965834312_1_alg».proof.Proof.Ref.Run
import proofs.«114710_j78030965834312_1_alg».proof.Proof.Val.Compose
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the specification's function of arguments that agree. -/
theorem algebraic : Cert.algebraic_KernelIdeal_ReferenceIdeal := by
  intro m ρ m' ρ' _ hagree
  refine ⟨fun c => Cert.Sp.final (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.result_eq m c), (h c).2⟩)
      (Cert.KernelIdeal.Fr.run_all (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
